-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v2_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v141) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x64 : Shape := ⟨2, ![4096, 64]⟩
abbrev S4096x1024 : Shape := ⟨2, ![4096, 1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S512x1024 : Shape := ⟨2, ![512, 1024]⟩
abbrev S1024 : Shape := ⟨1, ![1024]⟩
abbrev S4x64x128 : Shape := ⟨3, ![4, 64, 128]⟩
abbrev S4x128x128 : Shape := ⟨3, ![4, 128, 128]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S4x64x128 : S_.BroadcastsInDim S4x64x128 (![] : Fin 0 → Fin S4x64x128.rank)
  reducesTo_S4x64x128_S_d0_1_2 : S4x64x128.ReducesTo [0, 1, 2] S_
  bcast_S_S4x128x128 : S_.BroadcastsInDim S4x128x128 (![] : Fin 0 → Fin S4x128x128.rank)
  reducesTo_S4x128x128_S_d0_1_2 : S4x128x128.ReducesTo [0, 1, 2] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024 .f32) (main_arg12 : FVec F S4x64x128 .f32) (main_arg13 : FVec F S4x128x128 .f32) (main_v48 : IVec S_ 1) (main_v49 : FVec F S512x1024 .f32) (main_v50 : FVec F S512x1024 .f32) : IVec S_ 1 :=
  let main_v51 : IVec S512x1024 1 := cmpf .olt main_v49 main_v50
  let main_c_19 : IVec S_ 1 := constantI S_ 1 1#1
  let main_v52 : IVec S_ 1 := (fun x v => Host.reduce IntOp.andi x v reducesTo_S512x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S4x64x128 .f32 := Host.absf main_arg12
  let main_cst_22 : FVec F S_ .f32 := constant S_ .f32 0x7F800000#32
  let main_v60 : FVec F S4x64x128 .f32 := broadcastInDim S4x64x128 ![] bcast_S_S4x64x128 main_cst_22
  let main_v61 : IVec S4x64x128 1 := cmpf .olt main_v59 main_v60
  let main_c_23 : IVec S_ 1 := constantI S_ 1 1#1
  let main_v62 : IVec S_ 1 := (fun x v => Host.reduce IntOp.andi x v reducesTo_S4x64x128_S_d0_1_2 h_S_) main_v61 main_c_23
  let main_v63 : IVec S_ 1 := andi main_v58 main_v62
  let main_v64 : FVec F S4x128x128 .f32 := Host.absf main_arg13
  let main_cst_24 : FVec F S_ .f32 := constant S_ .f32 0x7F800000#32
  let main_v65 : FVec F S4x128x128 .f32 := broadcastInDim S4x128x128 ![] bcast_S_S4x128x128 main_cst_24
  let main_v66 : IVec S4x128x128 1 := cmpf .olt main_v64 main_v65
  let main_c_25 : IVec S_ 1 := constantI S_ 1 1#1
  let main_v67 : IVec S_ 1 := (fun x v => Host.reduce IntOp.andi x v reducesTo_S4x128x128_S_d0_1_2 h_S_) main_v66 main_c_25
  fn_part4 (F := F) main_v63 main_v67

def fn_part2 {F : FTy → Type} [FloatOps F] (main_arg7 : FVec F S256 .f32) (main_arg8 : FVec F S256x512 .f32) (main_arg9 : FVec F S512 .f32) (main_arg10 : FVec F S512x1024 .f32) (main_arg11 : FVec F S1024 .f32) (main_arg12 : FVec F S4x64x128 .f32) (main_arg13 : FVec F S4x128x128 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x512 .f32 := Host.absf main_arg8
  let main_cst_14 : FVec F S_ .f32 := constant S_ .f32 0x7F800000#32
  let main_v40 : FVec F S256x512 .f32 := broadcastInDim S256x512 ![] bcast_S_S256x512 main_cst_14
  let main_v41 : IVec S256x512 1 := cmpf .olt main_v39 main_v40
  let main_c_15 : IVec S_ 1 := constantI S_ 1 1#1
  let main_v42 : IVec S_ 1 := (fun x v => Host.reduce IntOp.andi x v reducesTo_S256x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x1024 .f32 := Host.absf main_arg10
  let main_cst_18 : FVec F S_ .f32 := constant S_ .f32 0x7F800000#32
  let main_v50 : FVec F S512x1024 .f32 := broadcastInDim S512x1024 ![] bcast_S_S512x1024 main_cst_18
  fn_part3 (F := F) main_arg11 main_arg12 main_arg13 main_v48 main_v49 main_v50

def fn_part1 {F : FTy → Type} [FloatOps F] (main_arg4 : FVec F S1024x512 .f32) (main_arg5 : FVec F S512 .f32) (main_arg6 : FVec F S512x256 .f32) (main_arg7 : FVec F S256 .f32) (main_arg8 : FVec F S256x512 .f32) (main_arg9 : FVec F S512 .f32) (main_arg10 : FVec F S512x1024 .f32) (main_arg11 : FVec F S1024 .f32) (main_arg12 : FVec F S4x64x128 .f32) (main_arg13 : FVec F S4x128x128 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4096x4096 .f32) (main_arg1 : FVec F S4096x64 .f32) (main_arg2 : FVec F S4096x64 .f32) (main_arg3 : FVec F S4096x1024 .f32) (main_arg4 : FVec F S1024x512 .f32) (main_arg5 : FVec F S512 .f32) (main_arg6 : FVec F S512x256 .f32) (main_arg7 : FVec F S256 .f32) (main_arg8 : FVec F S256x512 .f32) (main_arg9 : FVec F S512 .f32) (main_arg10 : FVec F S512x1024 .f32) (main_arg11 : FVec F S1024 .f32) (main_arg12 : FVec F S4x64x128 .f32) (main_arg13 : FVec F S4x128x128 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S4096x4096 : Shape := ⟨2, ![4096, 4096]⟩
abbrev S4096x64 : Shape := ⟨2, ![4096, 64]⟩
abbrev S4096x1024 : Shape := ⟨2, ![4096, 1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S512x1024 : Shape := ⟨2, ![512, 1024]⟩
abbrev S1024 : Shape := ⟨1, ![1024]⟩
abbrev S4x64x128 : Shape := ⟨3, ![4, 64, 128]⟩
abbrev S4x128x128 : Shape := ⟨3, ![4, 128, 128]⟩
abbrev S1x512 : Shape := ⟨2, ![1, 512]⟩
abbrev S1x256 : Shape := ⟨2, ![1, 256]⟩
abbrev S4096x256 : Shape := ⟨2, ![4096, 256]⟩
abbrev S4x4096x128 : Shape := ⟨3, ![4, 4096, 128]⟩
abbrev S4x128x4096 : Shape := ⟨3, ![4, 128, 4096]⟩
abbrev S1024x1024 : Shape := ⟨2, ![1024, 1024]⟩
abbrev S1024x256 : Shape := ⟨2, ![1024, 256]⟩
abbrev S1x64x128 : Shape := ⟨3, ![1, 64, 128]⟩
abbrev S64x128 : Shape := ⟨2, ![64, 128]⟩
abbrev S4096x128 : Shape := ⟨2, ![4096, 128]⟩
abbrev S1x128x128 : Shape := ⟨3, ![1, 128, 128]⟩
abbrev S128x128 : Shape := ⟨2, ![128, 128]⟩
abbrev S1x4096x128 : Shape := ⟨3, ![1, 4096, 128]⟩
abbrev S128x4096 : Shape := ⟨2, ![128, 4096]⟩
abbrev S1x128x4096 : Shape := ⟨3, ![1, 128, 4096]⟩
abbrev S1x1024 : Shape := ⟨2, ![1, 1024]⟩
abbrev S4x256x128 : Shape := ⟨3, ![4, 256, 128]⟩
abbrev S256x4096 : Shape := ⟨2, ![256, 4096]⟩
abbrev S256x256 : Shape := ⟨2, ![256, 256]⟩
abbrev S256x1024 : Shape := ⟨2, ![256, 1024]⟩
abbrev S1x256x128 : Shape := ⟨3, ![1, 256, 128]⟩
abbrev S256x128 : Shape := ⟨2, ![256, 128]⟩
abbrev S256x1 : Shape := ⟨2, ![256, 1]⟩

abbrev nBuf : Space → Nat
  | .hbm => 23
  | .vmem => 28
  | .smem => 0
  | _ => 0

abbrev bufTy : (tb : Table) → Fin (tcTables nBuf tb) → BufTy
  | .hbm, ⟨0, _⟩ => ⟨S4096x4096, .f32⟩
  | .hbm, ⟨1, _⟩ => ⟨S4096x64, .f32⟩
  | .hbm, ⟨2, _⟩ => ⟨S4096x64, .f32⟩
  | .hbm, ⟨3, _⟩ => ⟨S4096x1024, .f32⟩
  | .hbm, ⟨4, _⟩ => ⟨S1024x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S256x512, .f32⟩
  | .hbm, ⟨9, _⟩ => ⟨S512, .f32⟩
  | .hbm, ⟨10, _⟩ => ⟨S512x1024, .f32⟩
  | .hbm, ⟨11, _⟩ => ⟨S1024, .f32⟩
  | .hbm, ⟨12, _⟩ => ⟨S4x64x128, .f32⟩
  | .hbm, ⟨13, _⟩ => ⟨S4x128x128, .f32⟩
  | .hbm, ⟨14, _⟩ => ⟨S1x512, .f32⟩
  | .hbm, ⟨15, _⟩ => ⟨S1x256, .f32⟩
  | .hbm, ⟨16, _⟩ => ⟨S4096x256, .f32⟩
  | .hbm, ⟨17, _⟩ => ⟨S4x4096x128, .f32⟩
  | .hbm, ⟨18, _⟩ => ⟨S4x128x4096, .f32⟩
  | .hbm, ⟨19, _⟩ => ⟨S1x512, .f32⟩
  | .hbm, ⟨20, _⟩ => ⟨S1x1024, .f32⟩
  | .hbm, ⟨21, _⟩ => ⟨S4096x256, .f32⟩
  | .hbm, ⟨22, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1x512, .f32⟩
  | .local _ .vmem, ⟨4, _⟩ => ⟨S512x256, .f32⟩
  | .local _ .vmem, ⟨5, _⟩ => ⟨S1x256, .f32⟩
  | .local _ .vmem, ⟨6, _⟩ => ⟨S4096x64, .f32⟩
  | .local _ .vmem, ⟨7, _⟩ => ⟨S4096x64, .f32⟩
  | .local _ .vmem, ⟨8, _⟩ => ⟨S4x64x128, .f32⟩
  | .local _ .vmem, ⟨9, _⟩ => ⟨S4x128x128, .f32⟩
  | .local _ .vmem, ⟨10, _⟩ => ⟨S1024x256, .f32⟩
  | .local _ .vmem, ⟨11, _⟩ => ⟨S1024x256, .f32⟩
  | .local _ .vmem, ⟨12, _⟩ => ⟨S4x4096x128, .f32⟩
  | .local _ .vmem, ⟨13, _⟩ => ⟨S4x128x4096, .f32⟩
  | .local _ .vmem, ⟨14, _⟩ => ⟨S4x256x128, .f32⟩
  | .local _ .vmem, ⟨15, _⟩ => ⟨S4x256x128, .f32⟩
  | .local _ .vmem, ⟨16, _⟩ => ⟨S4x128x4096, .f32⟩
  | .local _ .vmem, ⟨17, _⟩ => ⟨S256x4096, .f32⟩
  | .local _ .vmem, ⟨18, _⟩ => ⟨S256x4096, .f32⟩
  | .local _ .vmem, ⟨19, _⟩ => ⟨S4096x256, .f32⟩
  | .local _ .vmem, ⟨20, _⟩ => ⟨S256x512, .f32⟩
  | .local _ .vmem, ⟨21, _⟩ => ⟨S1x512, .f32⟩
  | .local _ .vmem, ⟨22, _⟩ => ⟨S512x1024, .f32⟩
  | .local _ .vmem, ⟨23, _⟩ => ⟨S1x1024, .f32⟩
  | .local _ .vmem, ⟨24, _⟩ => ⟨S256x256, .f32⟩
  | .local _ .vmem, ⟨25, _⟩ => ⟨S256x256, .f32⟩
  | .local _ .vmem, ⟨26, _⟩ => ⟨S256x1024, .f32⟩
  | .local _ .vmem, ⟨27, _⟩ => ⟨S256x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2_0 : Ref sig .tc := ⟨.hbm, 16, rfl⟩
abbrev main_v2_1 : Ref sig .tc := ⟨.hbm, 17, rfl⟩
abbrev main_v2_2 : Ref sig .tc := ⟨.hbm, 18, rfl⟩
abbrev main_v3 : Ref sig .tc := ⟨.hbm, 19, rfl⟩
abbrev main_v4 : Ref sig .tc := ⟨.hbm, 20, rfl⟩
abbrev main_v5_0 : Ref sig .tc := ⟨.hbm, 21, rfl⟩
abbrev main_v5_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem11_0 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25
abbrev cc1_sem9_0 : DmaSem sig := 26
abbrev cc1_sem9_1 : DmaSem sig := 27

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x4096x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨1, ![16], ![false]⟩

def k1_mult1 (i : grid1.Coords) : BitVec 32 :=
  let arg0 : BitVec 32 := BitVec.ofNat 32 (i 0).val
  let c256_i32 : BitVec 32 := 256#32
  let v141 : BitVec 32 := Scalar.muli arg0 c256_i32
  v141
def k1_off1 (i : grid1.Coords) : Fin 2 → Nat :=
  let arg0 : BitVec 32 := BitVec.ofNat 32 (i 0).val
  let c256_i32 : BitVec 32 := 256#32
  let v141 : BitVec 32 := Scalar.muli arg0 c256_i32
  let v142 : BitVec 32 := v141
  let v143 : Index := Scalar.indexCast v142
  let c0_64 : Index := 0#32
  ![v143.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x128x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4096x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  shapeCasts_S512_S1x512 : S512.ShapeCasts S1x512
  shapeCasts_S256_S1x256 : S256.ShapeCasts S1x256
  inb_S4096x64_S4096x64_0_0 : ∀ a, (![0, 0] : Fin 2 → Nat) a + S4096x64.size a ≤ S4096x64.size a
  h_S4096x64 : 0 < S4096x64.numel
  inb_S4x64x128_S1x64x128_0_0_0 : ∀ a, (![0, 0, 0] : Fin 3 → Nat) a + S1x64x128.size a ≤ S4x64x128.size a
  h_S1x64x128 : 0 < S1x64x128.numel
  shapeCasts_S1x64x128_S64x128 : S1x64x128.ShapeCasts S64x128
  bitsLt_bf16_f32 : FTy.bits .bf16 < FTy.bits .f32
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  inb_S4x4096x128_S1x4096x128_0_0_0 : ∀ a, (![0, 0, 0] : Fin 3 → Nat) a + S1x4096x128.size a ≤ S4x4096x128.size a
  h_S1x4096x128 : 0 < S1x4096x128.numel
  shapeCasts_S1x4096x128_S4096x128 : S1x4096x128.ShapeCasts S4096x128
  shapeCasts_S4096x128_S1x4096x128 : S4096x128.ShapeCasts S1x4096x128
  inb_S4x128x4096_S1x128x4096_0_0_0 : ∀ a, (![0, 0, 0] : Fin 3 → Nat) a + S1x128x4096.size a ≤ S4x128x4096.size a
  h_S1x128x4096 : 0 < S1x128x4096.numel
  shapeCasts_S1x128x4096_S128x4096 : S1x128x4096.ShapeCasts S128x4096
  shapeCasts_S128x4096_S1x128x4096 : S128x4096.ShapeCasts S1x128x4096
  inb_S4x64x128_S1x64x128_1_0_0 : ∀ a, (![1, 0, 0] : Fin 3 → Nat) a + S1x64x128.size a ≤ S4x64x128.size a
  inb_S4x128x128_S1x128x128_1_0_0 : ∀ a, (![1, 0, 0] : Fin 3 → Nat) a + S1x128x128.size a ≤ S4x128x128.size a
  inb_S4x4096x128_S1x4096x128_1_0_0 : ∀ a, (![1, 0, 0] : Fin 3 → Nat) a + S1x4096x128.size a ≤ S4x4096x128.size a
  inb_S4x128x4096_S1x128x4096_1_0_0 : ∀ a, (![1, 0, 0] : Fin 3 → Nat) a + S1x128x4096.size a ≤ S4x128x4096.size a
  inb_S4x64x128_S1x64x128_2_0_0 : ∀ a, (![2, 0, 0] : Fin 3 → Nat) a + S1x64x128.size a ≤ S4x64x128.size a
  inb_S4x128x128_S1x128x128_2_0_0 : ∀ a, (![2, 0, 0] : Fin 3 → Nat) a + S1x128x128.size a ≤ S4x128x128.size a
  inb_S4x4096x128_S1x4096x128_2_0_0 : ∀ a, (![2, 0, 0] : Fin 3 → Nat) a + S1x4096x128.size a ≤ S4x4096x128.size a
  inb_S4x128x4096_S1x128x4096_2_0_0 : ∀ a, (![2, 0, 0] : Fin 3 → Nat) a + S1x128x4096.size a ≤ S4x128x4096.size a
  inb_S4x64x128_S1x64x128_3_0_0 : ∀ a, (![3, 0, 0] : Fin 3 → Nat) a + S1x64x128.size a ≤ S4x64x128.size a
  inb_S4x128x128_S1x128x128_3_0_0 : ∀ a, (![3, 0, 0] : Fin 3 → Nat) a + S1x128x128.size a ≤ S4x128x128.size a
  inb_S4x4096x128_S1x4096x128_3_0_0 : ∀ a, (![3, 0, 0] : Fin 3 → Nat) a + S1x4096x128.size a ≤ S4x4096x128.size a
  inb_S4x128x4096_S1x128x4096_3_0_0 : ∀ a, (![3, 0, 0] : Fin 3 → Nat) a + S1x128x4096.size a ≤ S4x128x4096.size a
  inb_S1024x1024_S1024x1024_0_0 : ∀ a, (![0, 0] : Fin 2 → Nat) a + S1024x1024.size a ≤ S1024x1024.size a
  h_S1024x1024 : 0 < S1024x1024.numel
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S1024_S1x1024 : S1024.ShapeCasts S1x1024
  inb_S256x4096_S256x4096_0_0 : ∀ a, (![0, 0] : Fin 2 → Nat) a + S256x4096.size a ≤ S256x4096.size a
  h_S256x4096 : 0 < S256x4096.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S4x256x128_S1x256x128_0_0_0 : ∀ a, (![0, 0, 0] : Fin 3 → Nat) a + S1x256x128.size a ≤ S4x256x128.size a
  h_S1x256x128 : 0 < S1x256x128.numel
  shapeCasts_S1x256x128_S256x128 : S1x256x128.ShapeCasts S256x128
  reduces_S256x4096_S256 : S256x4096.Reduces [1] S256
  shapeCasts_S256_S256x1 : S256.ShapeCasts S256x1
  broadcasts_S256x1_S256x4096 : S256x1.Broadcasts S256x4096
  broadcasts_S256x1_S256x256 : S256x1.Broadcasts S256x256
  inb_S4x256x128_S1x256x128_1_0_0 : ∀ a, (![1, 0, 0] : Fin 3 → Nat) a + S1x256x128.size a ≤ S4x256x128.size a
  inb_S4x256x128_S1x256x128_2_0_0 : ∀ a, (![2, 0, 0] : Fin 3 → Nat) a + S1x256x128.size a ≤ S4x256x128.size a
  inb_S4x256x128_S1x256x128_3_0_0 : ∀ a, (![3, 0, 0] : Fin 3 → Nat) a + S1x256x128.size a ≤ S4x256x128.size a
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x512_S256x512_0_0 : ∀ a, (![0, 0] : Fin 2 → Nat) a + S256x512.size a ≤ S256x512.size a
  h_S256x512 : 0 < S256x512.numel
  broadcasts_S1x512_S256x512 : S1x512.Broadcasts S256x512
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  dot_S4096x64_S64x128_S4096x128_1_0_0_1_n_n_wf : DotDims.WF S4096x64 S64x128 S4096x128 [1] [0] [0] [1] [] []
  dot_S4096x128_S128x128_S4096x128_1_0_0_1_n_n_wf : DotDims.WF S4096x128 S128x128 S4096x128 [1] [0] [0] [1] [] []
  dot_S64x128_S4096x64_S128x4096_0_1_1_0_n_n_wf : DotDims.WF S64x128 S4096x64 S128x4096 [0] [1] [1] [0] [] []
  dot_S1024x1024_S1024x512_S1024x512_1_0_0_1_n_n_wf : DotDims.WF S1024x1024 S1024x512 S1024x512 [1] [0] [0] [1] [] []
  dot_S1024x512_S512x256_S1024x256_1_0_0_1_n_n_wf : DotDims.WF S1024x512 S512x256 S1024x256 [1] [0] [0] [1] [] []
  dot_S256x128_S128x4096_S256x4096_1_0_0_1_n_n_wf : DotDims.WF S256x128 S128x4096 S256x4096 [1] [0] [0] [1] [] []
  dot_S256x4096_S4096x256_S256x256_1_0_0_1_n_n_wf : DotDims.WF S256x4096 S4096x256 S256x256 [1] [0] [0] [1] [] []
  dot_S256x256_S256x512_S256x512_1_0_0_1_n_n_wf : DotDims.WF S256x256 S256x512 S256x512 [1] [0] [0] [1] [] []
  dot_S256x512_S512x1024_S256x1024_1_0_0_1_n_n_wf : DotDims.WF S256x512 S512x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x64.size a ≤ S4096x64.size a
  hwx0_5 : ∀ i : grid0.Coords, EltTy.bits .f32 = 32 ∨ (Rect.block (s := S4096x64) S4096x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4096x64.size a ≤ S4096x64.size a
  hwx0_6 : ∀ i : grid0.Coords, EltTy.bits .f32 = 32 ∨ (Rect.block (s := S4096x64) S4096x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x64x128.size a ≤ S4x64x128.size a
  hwx0_7 : ∀ i : grid0.Coords, EltTy.bits .f32 = 32 ∨ (Rect.block (s := S4x64x128) S4x64x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x128x128.size a ≤ S4x128x128.size a
  hwx0_8 : ∀ i : grid0.Coords, EltTy.bits .f32 = 32 ∨ (Rect.block (s := S4x128x128) S4x128x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S4096x256.size a
  hwx0_9 : ∀ i : grid0.Coords, EltTy.bits .f32 = 32 ∨ (Rect.block (s := S4096x256) S1024x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S4x4096x128.size a ≤ S4x4096x128.size a
  hwx0_10 : ∀ i : grid0.Coords, EltTy.bits .f32 = 32 ∨ (Rect.block (s := S4x4096x128) S4x4096x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S4x128x4096.size a ≤ S4x128x4096.size a
  hwx0_11 : ∀ i : grid0.Coords, EltTy.bits .f32 = 32 ∨ (Rect.block (s := S4x128x4096) S4x128x4096.size (cc0_transform_11 i) (hinb0_11 i)).WholeWords (EltTy.packing .f32)
  hrank1 : 0 < grid1.rank
  k1_mult1_dvd : ∀ i : grid1.Coords, 256 ∣ (k1_mult1 i).toNat
  k1_off1_inb : ∀ i : grid1.Coords, ∀ a, (k1_off1 i) a + S256x256.size a ≤ S4096x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x256x128.size a ≤ S4x4096x128.size a
  hwx1_0 : ∀ i : grid1.Coords, EltTy.bits .f32 = 32 ∨ (Rect.block (s := S4x4096x128) S4x256x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x128x4096.size a ≤ S4x128x4096.size a
  hwx1_1 : ∀ i : grid1.Coords, EltTy.bits .f32 = 32 ∨ (Rect.block (s := S4x128x4096) S4x128x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S4096x4096.size a
  hwx1_2 : ∀ i : grid1.Coords, EltTy.bits .f32 = 32 ∨ (Rect.block (s := S4096x4096) S256x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x256.size a ≤ S4096x256.size a
  hwx1_3 : ∀ i : grid1.Coords, EltTy.bits .f32 = 32 ∨ (Rect.block (s := S4096x256) S4096x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x512.size a ≤ S256x512.size a
  hwx1_4 : ∀ i : grid1.Coords, EltTy.bits .f32 = 32 ∨ (Rect.block (s := S256x512) S256x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x1024.size a ≤ S512x1024.size a
  hwx1_6 : ∀ i : grid1.Coords, EltTy.bits .f32 = 32 ∨ (Rect.block (s := S512x1024) S512x1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1024.size a ≤ S1x1024.size a
  hwx1_7 : ∀ i : grid1.Coords, EltTy.bits .f32 = 32 ∨ (Rect.block (s := S1x1024) S1x1024.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x256.size a ≤ S4096x256.size a
  hwx1_8 : ∀ i : grid1.Coords, EltTy.bits .f32 = 32 ∨ (Rect.block (s := S4096x256) S256x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S256x1024.size a ≤ S4096x1024.size a
  hwx1_9 : ∀ i : grid1.Coords, EltTy.bits .f32 = 32 ∨ (Rect.block (s := S4096x1024) S256x1024.size (cc1_transform_9 i) (hinb1_9 i)).WholeWords (EltTy.packing .f32)

variable [Facts₀]

def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S64x128_S4096x64_S128x4096_0_1_1_0_n_n : DotDims S64x128 S4096x64 S128x4096 where
  lhsContracting := [0]
  rhsContracting := [1]
  lhsNonContracting := [1]
  rhsNonContracting := [0]
  lhsBatch := []
  rhsBatch := []
  wf := dot_S64x128_S4096x64_S128x4096_0_1_1_0_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf

abbrev win0_0 : Pipeline.Window sig grid0 :=
  Pipeline.Window.ofSpec (Memref.whole main_arg3) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S4096x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S4096x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S4x64x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg13) S4x128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2_0) S1024x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2_1) S4x4096x128.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2_2) S4x128x4096.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond1 i == 1#1) | 11 => fun i => !(k0_cond1 i == 1#1) | ⟨_ + 12, h⟩ => absurd h (Nat.not_lt.2 (Nat.le_add_left _ _))

abbrev win1_0 : Pipeline.Window sig grid1 :=
  Pipeline.Window.ofSpec (Memref.whole main_v2_1) S4x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_2) S4x128x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S256x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S4096x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S512x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v4) S1x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v5_0) S256x256.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v5_1) S256x1024.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S4096x64 : Shape := ⟨2, ![4096, 64]⟩
abbrev S4096x1024 : Shape := ⟨2, ![4096, 1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S512x1024 : Shape := ⟨2, ![512, 1024]⟩
abbrev S1024 : Shape := ⟨1, ![1024]⟩
abbrev S4x64x128 : Shape := ⟨3, ![4, 64, 128]⟩
abbrev S4x128x128 : Shape := ⟨3, ![4, 128, 128]⟩
abbrev S4096x512 : Shape := ⟨2, ![4096, 512]⟩
abbrev S1x512 : Shape := ⟨2, ![1, 512]⟩
abbrev S_ : Shape := ⟨0, ![]⟩
abbrev S4096x256 : Shape := ⟨2, ![4096, 256]⟩
abbrev S1x256 : Shape := ⟨2, ![1, 256]⟩
abbrev S1x64x128 : Shape := ⟨3, ![1, 64, 128]⟩
abbrev S64x128 : Shape := ⟨2, ![64, 128]⟩
abbrev S4096x128 : Shape := ⟨2, ![4096, 128]⟩
abbrev S1x128x128 : Shape := ⟨3, ![1, 128, 128]⟩
abbrev S128x128 : Shape := ⟨2, ![128, 128]⟩
abbrev S128x4096 : Shape := ⟨2, ![128, 4096]⟩
abbrev S4096 : Shape := ⟨1, ![4096]⟩
abbrev S4096x1 : Shape := ⟨2, ![4096, 1]⟩
abbrev S1x4096x256 : Shape := ⟨3, ![1, 4096, 256]⟩
abbrev S4x4096x256 : Shape := ⟨3, ![4, 4096, 256]⟩
abbrev S1x1024 : Shape := ⟨2, ![1, 1024]⟩

abbrev nBuf : Space → Nat
  | .hbm => 266
  | .vmem => 0
  | .smem => 0
  | _ => 0

abbrev hbmTy0_0 (i : Nat) : BufTy := match i % 128 with
  | 0 => ⟨S4096x4096, .f32⟩
  | 1 => ⟨S4096x64, .f32⟩
  | 2 => ⟨S4096x64, .f32⟩
  | 3 => ⟨S4096x1024, .f32⟩
  | 4 => ⟨S1024x512, .f32⟩
  | 5 => ⟨S512, .f32⟩
  | 6 => ⟨S512x256, .f32⟩
  | 7 => ⟨S256, .f32⟩
  | 8 => ⟨S256x512, .f32⟩
  | 9 => ⟨S512, .f32⟩
  | 10 => ⟨S512x1024, .f32⟩
  | 11 => ⟨S1024, .f32⟩
  | 12 => ⟨S4x64x128, .f32⟩
  | 13 => ⟨S4x128x128, .f32⟩
  | 14 => ⟨S4096x512, .f32⟩
  | 15 => ⟨S1x512, .f32⟩
  | 16 => ⟨S4096x512, .f32⟩
  | 17 => ⟨S4096x512, .f32⟩
  | 18 => ⟨S_, .f32⟩
  | 19 => ⟨S4096x512, .f32⟩
  | 20 => ⟨S4096x512, .f32⟩
  | 21 => ⟨S4096x256, .f32⟩
  | 22 => ⟨S1x256, .f32⟩
  | 23 => ⟨S4096x256, .f32⟩
  | 24 => ⟨S4096x256, .f32⟩
  | 25 => ⟨S1x64x128, .f32⟩
  | 26 => ⟨S64x128, .f32⟩
  | 27 => ⟨S4096x128, .f32⟩
  | 28 => ⟨S1x64x128, .f32⟩
  | 29 => ⟨S64x128, .f32⟩
  | 30 => ⟨S4096x128, .f32⟩
  | 31 => ⟨S1x128x128, .f32⟩
  | 32 => ⟨S128x128, .f32⟩
  | 33 => ⟨S4096x128, .f32⟩
  | 34 => ⟨S128x4096, .f32⟩
  | 35 => ⟨S4096x4096, .f32⟩
  | 36 => ⟨S_, .f32⟩
  | 37 => ⟨S_, .f32⟩
  | 38 => ⟨S4096x4096, .f32⟩
  | 39 => ⟨S4096x4096, .i1⟩
  | 40 => ⟨S_, .f32⟩
  | 41 => ⟨S4096x4096, .f32⟩
  | 42 => ⟨S4096x4096, .f32⟩
  | 43 => ⟨S4096x4096, .f32⟩
  | 44 => ⟨S_, .f32⟩
  | 45 => ⟨S4096x4096, .f32⟩
  | 46 => ⟨S4096x4096, .i1⟩
  | 47 => ⟨S_, .f32⟩
  | 48 => ⟨S4096x4096, .f32⟩
  | 49 => ⟨S4096x4096, .f32⟩
  | 50 => ⟨S_, .f32⟩
  | 51 => ⟨S4096, .f32⟩
  | 52 => ⟨S_, .f32⟩
  | 53 => ⟨S4096, .f32⟩
  | 54 => ⟨S4096, .f32⟩
  | 55 => ⟨S4096x1, .f32⟩
  | 56 => ⟨S4096x4096, .f32⟩
  | 57 => ⟨S4096x4096, .f32⟩
  | 58 => ⟨S4096x4096, .f32⟩
  | 59 => ⟨S_, .f32⟩
  | 60 => ⟨S4096, .f32⟩
  | 61 => ⟨S4096x1, .f32⟩
  | 62 => ⟨S4096x4096, .f32⟩
  | 63 => ⟨S4096x4096, .f32⟩
  | 64 => ⟨S4096x256, .f32⟩
  | 65 => ⟨S_, .f32⟩
  | 66 => ⟨S4096x256, .f32⟩
  | 67 => ⟨S4096x256, .i1⟩
  | 68 => ⟨S_, .f32⟩
  | 69 => ⟨S4096x256, .f32⟩
  | 70 => ⟨S4096x256, .i1⟩
  | 71 => ⟨S_, .f32⟩
  | 72 => ⟨S_, .f32⟩
  | 73 => ⟨S4096x256, .f32⟩
  | 74 => ⟨S4096x256, .f32⟩
  | 75 => ⟨S4096x256, .f32⟩
  | 76 => ⟨S_, .f32⟩
  | 77 => ⟨S4096x256, .f32⟩
  | 78 => ⟨S4096x256, .f32⟩
  | 79 => ⟨S4096x256, .f32⟩
  | 80 => ⟨S1x64x128, .f32⟩
  | 81 => ⟨S64x128, .f32⟩
  | 82 => ⟨S4096x128, .f32⟩
  | 83 => ⟨S1x64x128, .f32⟩
  | 84 => ⟨S64x128, .f32⟩
  | 85 => ⟨S4096x128, .f32⟩
  | 86 => ⟨S1x128x128, .f32⟩
  | 87 => ⟨S128x128, .f32⟩
  | 88 => ⟨S4096x128, .f32⟩
  | 89 => ⟨S128x4096, .f32⟩
  | 90 => ⟨S4096x4096, .f32⟩
  | 91 => ⟨S_, .f32⟩
  | 92 => ⟨S_, .f32⟩
  | 93 => ⟨S4096x4096, .f32⟩
  | 94 => ⟨S4096x4096, .i1⟩
  | 95 => ⟨S_, .f32⟩
  | 96 => ⟨S4096x4096, .f32⟩
  | 97 => ⟨S4096x4096, .f32⟩
  | 98 => ⟨S4096x4096, .f32⟩
  | 99 => ⟨S_, .f32⟩
  | 100 => ⟨S4096x4096, .f32⟩
  | 101 => ⟨S4096x4096, .i1⟩
  | 102 => ⟨S_, .f32⟩
  | 103 => ⟨S4096x4096, .f32⟩
  | 104 => ⟨S4096x4096, .f32⟩
  | 105 => ⟨S_, .f32⟩
  | 106 => ⟨S4096, .f32⟩
  | 107 => ⟨S_, .f32⟩
  | 108 => ⟨S4096, .f32⟩
  | 109 => ⟨S4096, .f32⟩
  | 110 => ⟨S4096x1, .f32⟩
  | 111 => ⟨S4096x4096, .f32⟩
  | 112 => ⟨S4096x4096, .f32⟩
  | 113 => ⟨S4096x4096, .f32⟩
  | 114 => ⟨S_, .f32⟩
  | 115 => ⟨S4096, .f32⟩
  | 116 => ⟨S4096x1, .f32⟩
  | 117 => ⟨S4096x4096, .f32⟩
  | 118 => ⟨S4096x4096, .f32⟩
  | 119 => ⟨S4096x256, .f32⟩
  | 120 => ⟨S_, .f32⟩
  | 121 => ⟨S4096x256, .f32⟩
  | 122 => ⟨S4096x256, .i1⟩
  | 123 => ⟨S_, .f32⟩
  | 124 => ⟨S4096x256, .f32⟩
  | 125 => ⟨S4096x256, .i1⟩
  | 126 => ⟨S_, .f32⟩
  | 127 => ⟨S_, .f32⟩
  | _ => ⟨S4096x4096, .f32⟩

abbrev hbmTy0_1 (i : Nat) : BufTy := match i % 128 with
  | 0 => ⟨S4096x256, .f32⟩
  | 1 => ⟨S4096x256, .f32⟩
  | 2 => ⟨S4096x256, .f32⟩
  | 3 => ⟨S_, .f32⟩
  | 4 => ⟨S4096x256, .f32⟩
  | 5 => ⟨S4096x256, .f32⟩
  | 6 => ⟨S4096x256, .f32⟩
  | 7 => ⟨S1x64x128, .f32⟩
  | 8 => ⟨S64x128, .f32⟩
  | 9 => ⟨S4096x128, .f32⟩
  | 10 => ⟨S1x64x128, .f32⟩
  | 11 => ⟨S64x128, .f32⟩
  | 12 => ⟨S4096x128, .f32⟩
  | 13 => ⟨S1x128x128, .f32⟩
  | 14 => ⟨S128x128, .f32⟩
  | 15 => ⟨S4096x128, .f32⟩
  | 16 => ⟨S128x4096, .f32⟩
  | 17 => ⟨S4096x4096, .f32⟩
  | 18 => ⟨S_, .f32⟩
  | 19 => ⟨S_, .f32⟩
  | 20 => ⟨S4096x4096, .f32⟩
  | 21 => ⟨S4096x4096, .i1⟩
  | 22 => ⟨S_, .f32⟩
  | 23 => ⟨S4096x4096, .f32⟩
  | 24 => ⟨S4096x4096, .f32⟩
  | 25 => ⟨S4096x4096, .f32⟩
  | 26 => ⟨S_, .f32⟩
  | 27 => ⟨S4096x4096, .f32⟩
  | 28 => ⟨S4096x4096, .i1⟩
  | 29 => ⟨S_, .f32⟩
  | 30 => ⟨S4096x4096, .f32⟩
  | 31 => ⟨S4096x4096, .f32⟩
  | 32 => ⟨S_, .f32⟩
  | 33 => ⟨S4096, .f32⟩
  | 34 => ⟨S_, .f32⟩
  | 35 => ⟨S4096, .f32⟩
  | 36 => ⟨S4096, .f32⟩
  | 37 => ⟨S4096x1, .f32⟩
  | 38 => ⟨S4096x4096, .f32⟩
  | 39 => ⟨S4096x4096, .f32⟩
  | 40 => ⟨S4096x4096, .f32⟩
  | 41 => ⟨S_, .f32⟩
  | 42 => ⟨S4096, .f32⟩
  | 43 => ⟨S4096x1, .f32⟩
  | 44 => ⟨S4096x4096, .f32⟩
  | 45 => ⟨S4096x4096, .f32⟩
  | 46 => ⟨S4096x256, .f32⟩
  | 47 => ⟨S_, .f32⟩
  | 48 => ⟨S4096x256, .f32⟩
  | 49 => ⟨S4096x256, .i1⟩
  | 50 => ⟨S_, .f32⟩
  | 51 => ⟨S4096x256, .f32⟩
  | 52 => ⟨S4096x256, .i1⟩
  | 53 => ⟨S_, .f32⟩
  | 54 => ⟨S_, .f32⟩
  | 55 => ⟨S4096x256, .f32⟩
  | 56 => ⟨S4096x256, .f32⟩
  | 57 => ⟨S4096x256, .f32⟩
  | 58 => ⟨S_, .f32⟩
  | 59 => ⟨S4096x256, .f32⟩
  | 60 => ⟨S4096x256, .f32⟩
  | 61 => ⟨S4096x256, .f32⟩
  | 62 => ⟨S1x64x128, .f32⟩
  | 63 => ⟨S64x128, .f32⟩
  | 64 => ⟨S4096x128, .f32⟩
  | 65 => ⟨S1x64x128, .f32⟩
  | 66 => ⟨S64x128, .f32⟩
  | 67 => ⟨S4096x128, .f32⟩
  | 68 => ⟨S1x128x128, .f32⟩
  | 69 => ⟨S128x128, .f32⟩
  | 70 => ⟨S4096x128, .f32⟩
  | 71 => ⟨S128x4096, .f32⟩
  | 72 => ⟨S4096x4096, .f32⟩
  | 73 => ⟨S_, .f32⟩
  | 74 => ⟨S_, .f32⟩
  | 75 => ⟨S4096x4096, .f32⟩
  | 76 => ⟨S4096x4096, .i1⟩
  | 77 => ⟨S_, .f32⟩
  | 78 => ⟨S4096x4096, .f32⟩
  | 79 => ⟨S4096x4096, .f32⟩
  | 80 => ⟨S4096x4096, .f32⟩
  | 81 => ⟨S_, .f32⟩
  | 82 => ⟨S4096x4096, .f32⟩
  | 83 => ⟨S4096x4096, .i1⟩
  | 84 => ⟨S_, .f32⟩
  | 85 => ⟨S4096x4096, .f32⟩
  | 86 => ⟨S4096x4096, .f32⟩
  | 87 => ⟨S_, .f32⟩
  | 88 => ⟨S4096, .f32⟩
  | 89 => ⟨S_, .f32⟩
  | 90 => ⟨S4096, .f32⟩
  | 91 => ⟨S4096, .f32⟩
  | 92 => ⟨S4096x1, .f32⟩
  | 93 => ⟨S4096x4096, .f32⟩
  | 94 => ⟨S4096x4096, .f32⟩
  | 95 => ⟨S4096x4096, .f32⟩
  | 96 => ⟨S_, .f32⟩
  | 97 => ⟨S4096, .f32⟩
  | 98 => ⟨S4096x1, .f32⟩
  | 99 => ⟨S4096x4096, .f32⟩
  | 100 => ⟨S4096x4096, .f32⟩
  | 101 => ⟨S4096x256, .f32⟩
  | 102 => ⟨S_, .f32⟩
  | 103 => ⟨S4096x256, .f32⟩
  | 104 => ⟨S4096x256, .i1⟩
  | 105 => ⟨S_, .f32⟩
  | 106 => ⟨S4096x256, .f32⟩
  | 107 => ⟨S4096x256, .i1⟩
  | 108 => ⟨S_, .f32⟩
  | 109 => ⟨S_, .f32⟩
  | 110 => ⟨S4096x256, .f32⟩
  | 111 => ⟨S4096x256, .f32⟩
  | 112 => ⟨S4096x256, .f32⟩
  | 113 => ⟨S_, .f32⟩
  | 114 => ⟨S4096x256, .f32⟩
  | 115 => ⟨S4096x256, .f32⟩
  | 116 => ⟨S4096x256, .f32⟩
  | 117 => ⟨S1x4096x256, .f32⟩
  | 118 => ⟨S1x4096x256, .f32⟩
  | 119 => ⟨S1x4096x256, .f32⟩
  | 120 => ⟨S1x4096x256, .f32⟩
  | 121 => ⟨S4x4096x256, .f32⟩
  | 122 => ⟨S_, .f32⟩
  | 123 => ⟨S4096x256, .f32⟩
  | 124 => ⟨S_, .f32⟩
  | 125 => ⟨S4096x256, .f32⟩
  | 126 => ⟨S4096x256, .f32⟩
  | 127 => ⟨S4096x512, .f32⟩
  | _ => ⟨S4096x4096, .f32⟩

abbrev hbmTy0_2 (i : Nat) : BufTy := match i % 128 with
  | 0 => ⟨S1x512, .f32⟩
  | 1 => ⟨S4096x512, .f32⟩
  | 2 => ⟨S4096x512, .f32⟩
  | 3 => ⟨S_, .f32⟩
  | 4 => ⟨S4096x512, .f32⟩
  | 5 => ⟨S4096x512, .f32⟩
  | 6 => ⟨S4096x1024, .f32⟩
  | 7 => ⟨S1x1024, .f32⟩
  | 8 => ⟨S4096x1024, .f32⟩
  | 9 => ⟨S4096x1024, .f32⟩
  | _ => ⟨S4096x4096, .f32⟩

abbrev hbmTy (i : Nat) : BufTy := match i / 128 with
  | 0 => hbmTy0_0 i
  | 1 => hbmTy0_1 i
  | 2 => hbmTy0_2 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v20 : Ref sig .tc := ⟨.hbm, 43, rfl⟩
abbrev main_cst_0 : Ref sig .tc := ⟨.hbm, 44, rfl⟩
abbrev main_v21 : Ref sig .tc := ⟨.hbm, 45, rfl⟩
abbrev main_v22 : Ref sig .tc := ⟨.hbm, 46, rfl⟩
abbrev main_cst_1 : Ref sig .tc := ⟨.hbm, 47, rfl⟩
abbrev main_v23 : Ref sig .tc := ⟨.hbm, 48, rfl⟩
abbrev main_v24 : Ref sig .tc := ⟨.hbm, 49, rfl⟩
abbrev main_cst_2 : Ref sig .tc := ⟨.hbm, 50, rfl⟩
abbrev main_v25 : Ref sig .tc := ⟨.hbm, 51, rfl⟩
abbrev main_cst_3 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_4 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_call3_cst : Ref sig .tc := ⟨.hbm, 65, rfl⟩
abbrev main_call3_v0 : Ref sig .tc := ⟨.hbm, 66, rfl⟩
abbrev main_call3_v1 : Ref sig .tc := ⟨.hbm, 67, rfl⟩
abbrev main_call3_cst_0 : Ref sig .tc := ⟨.hbm, 68, rfl⟩
abbrev main_call3_v2 : Ref sig .tc := ⟨.hbm, 69, rfl⟩
abbrev main_call3_v3 : Ref sig .tc := ⟨.hbm, 70, rfl⟩
abbrev main_call3_cst_1 : Ref sig .tc := ⟨.hbm, 71, rfl⟩
abbrev main_call3_call0_v0 : Ref sig .tc := ⟨.hbm, 72, rfl⟩
abbrev main_call3_call0_v1 : Ref sig .tc := ⟨.hbm, 73, rfl⟩
abbrev main_call3_v4 : Ref sig .tc := ⟨.hbm, 74, rfl⟩
abbrev main_call3_v5 : Ref sig .tc := ⟨.hbm, 75, rfl⟩
abbrev main_call3_cst_2 : Ref sig .tc := ⟨.hbm, 76, rfl⟩
abbrev main_call3_v6 : Ref sig .tc := ⟨.hbm, 77, rfl⟩
abbrev main_call3_v7 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_cst_5 : Ref sig .tc := ⟨.hbm, 91, rfl⟩
abbrev main_call4_cst : Ref sig .tc := ⟨.hbm, 92, rfl⟩
abbrev main_call4_v0 : Ref sig .tc := ⟨.hbm, 93, rfl⟩
abbrev main_call4_v1 : Ref sig .tc := ⟨.hbm, 94, rfl⟩
abbrev main_call4_v2 : Ref sig .tc := ⟨.hbm, 95, rfl⟩
abbrev main_call4_v3 : Ref sig .tc := ⟨.hbm, 96, rfl⟩
abbrev main_call4_v4 : Ref sig .tc := ⟨.hbm, 97, rfl⟩
abbrev main_v49 : Ref sig .tc := ⟨.hbm, 98, rfl⟩
abbrev main_cst_6 : Ref sig .tc := ⟨.hbm, 99, rfl⟩
abbrev main_v50 : Ref sig .tc := ⟨.hbm, 100, rfl⟩
abbrev main_v51 : Ref sig .tc := ⟨.hbm, 101, rfl⟩
abbrev main_cst_7 : Ref sig .tc := ⟨.hbm, 102, rfl⟩
abbrev main_v52 : Ref sig .tc := ⟨.hbm, 103, rfl⟩
abbrev main_v53 : Ref sig .tc := ⟨.hbm, 104, rfl⟩
abbrev main_cst_8 : Ref sig .tc := ⟨.hbm, 105, rfl⟩
abbrev main_v54 : Ref sig .tc := ⟨.hbm, 106, rfl⟩
abbrev main_cst_9 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_cst_10 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_call6_cst : Ref sig .tc := ⟨.hbm, 120, rfl⟩
abbrev main_call6_v0 : Ref sig .tc := ⟨.hbm, 121, rfl⟩
abbrev main_call6_v1 : Ref sig .tc := ⟨.hbm, 122, rfl⟩
abbrev main_call6_cst_0 : Ref sig .tc := ⟨.hbm, 123, rfl⟩
abbrev main_call6_v2 : Ref sig .tc := ⟨.hbm, 124, rfl⟩
abbrev main_call6_v3 : Ref sig .tc := ⟨.hbm, 125, rfl⟩
abbrev main_call6_cst_1 : Ref sig .tc := ⟨.hbm, 126, rfl⟩
abbrev main_call6_call0_v0 : Ref sig .tc := ⟨.hbm, 127, rfl⟩
abbrev main_call6_call0_v1 : Ref sig .tc := ⟨.hbm, 128, rfl⟩
abbrev main_call6_v4 : Ref sig .tc := ⟨.hbm, 129, rfl⟩
abbrev main_call6_v5 : Ref sig .tc := ⟨.hbm, 130, rfl⟩
abbrev main_call6_cst_2 : Ref sig .tc := ⟨.hbm, 131, rfl⟩
abbrev main_call6_v6 : Ref sig .tc := ⟨.hbm, 132, rfl⟩
abbrev main_call6_v7 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_cst_11 : Ref sig .tc := ⟨.hbm, 146, rfl⟩
abbrev main_call7_cst : Ref sig .tc := ⟨.hbm, 147, rfl⟩
abbrev main_call7_v0 : Ref sig .tc := ⟨.hbm, 148, rfl⟩
abbrev main_call7_v1 : Ref sig .tc := ⟨.hbm, 149, rfl⟩
abbrev main_call7_v2 : Ref sig .tc := ⟨.hbm, 150, rfl⟩
abbrev main_call7_v3 : Ref sig .tc := ⟨.hbm, 151, rfl⟩
abbrev main_call7_v4 : Ref sig .tc := ⟨.hbm, 152, rfl⟩
abbrev main_v78 : Ref sig .tc := ⟨.hbm, 153, rfl⟩
abbrev main_cst_12 : Ref sig .tc := ⟨.hbm, 154, rfl⟩
abbrev main_v79 : Ref sig .tc := ⟨.hbm, 155, rfl⟩
abbrev main_v80 : Ref sig .tc := ⟨.hbm, 156, rfl⟩
abbrev main_cst_13 : Ref sig .tc := ⟨.hbm, 157, rfl⟩
abbrev main_v81 : Ref sig .tc := ⟨.hbm, 158, rfl⟩
abbrev main_v82 : Ref sig .tc := ⟨.hbm, 159, rfl⟩
abbrev main_cst_14 : Ref sig .tc := ⟨.hbm, 160, rfl⟩
abbrev main_v83 : Ref sig .tc := ⟨.hbm, 161, rfl⟩
abbrev main_cst_15 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_cst_16 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_call9_cst : Ref sig .tc := ⟨.hbm, 175, rfl⟩
abbrev main_call9_v0 : Ref sig .tc := ⟨.hbm, 176, rfl⟩
abbrev main_call9_v1 : Ref sig .tc := ⟨.hbm, 177, rfl⟩
abbrev main_call9_cst_0 : Ref sig .tc := ⟨.hbm, 178, rfl⟩
abbrev main_call9_v2 : Ref sig .tc := ⟨.hbm, 179, rfl⟩
abbrev main_call9_v3 : Ref sig .tc := ⟨.hbm, 180, rfl⟩
abbrev main_call9_cst_1 : Ref sig .tc := ⟨.hbm, 181, rfl⟩
abbrev main_call9_call0_v0 : Ref sig .tc := ⟨.hbm, 182, rfl⟩
abbrev main_call9_call0_v1 : Ref sig .tc := ⟨.hbm, 183, rfl⟩
abbrev main_call9_v4 : Ref sig .tc := ⟨.hbm, 184, rfl⟩
abbrev main_call9_v5 : Ref sig .tc := ⟨.hbm, 185, rfl⟩
abbrev main_call9_cst_2 : Ref sig .tc := ⟨.hbm, 186, rfl⟩
abbrev main_call9_v6 : Ref sig .tc := ⟨.hbm, 187, rfl⟩
abbrev main_call9_v7 : Ref sig .tc := ⟨.hbm, 188, rfl⟩
abbrev main_v95 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_v99 : Ref sig .tc := ⟨.hbm, 193, rfl⟩
abbrev main_v100 : Ref sig .tc := ⟨.hbm, 194, rfl⟩
abbrev main_v101 : Ref sig .tc := ⟨.hbm, 195, rfl⟩
abbrev main_v102 : Ref sig .tc := ⟨.hbm, 196, rfl⟩
abbrev main_v103 : Ref sig .tc := ⟨.hbm, 197, rfl⟩
abbrev main_v104 : Ref sig .tc := ⟨.hbm, 198, rfl⟩
abbrev main_v105 : Ref sig .tc := ⟨.hbm, 199, rfl⟩
abbrev main_v106 : Ref sig .tc := ⟨.hbm, 200, rfl⟩
abbrev main_cst_17 : Ref sig .tc := ⟨.hbm, 201, rfl⟩
abbrev main_call10_cst : Ref sig .tc := ⟨.hbm, 202, rfl⟩
abbrev main_call10_v0 : Ref sig .tc := ⟨.hbm, 203, rfl⟩
abbrev main_call10_v1 : Ref sig .tc := ⟨.hbm, 204, rfl⟩
abbrev main_call10_v2 : Ref sig .tc := ⟨.hbm, 205, rfl⟩
abbrev main_call10_v3 : Ref sig .tc := ⟨.hbm, 206, rfl⟩
abbrev main_call10_v4 : Ref sig .tc := ⟨.hbm, 207, rfl⟩
abbrev main_v107 : Ref sig .tc := ⟨.hbm, 208, rfl⟩
abbrev main_cst_18 : Ref sig .tc := ⟨.hbm, 209, rfl⟩
abbrev main_v108 : Ref sig .tc := ⟨.hbm, 210, rfl⟩
abbrev main_v109 : Ref sig .tc := ⟨.hbm, 211, rfl⟩
abbrev main_cst_19 : Ref sig .tc := ⟨.hbm, 212, rfl⟩
abbrev main_v110 : Ref sig .tc := ⟨.hbm, 213, rfl⟩
abbrev main_v111 : Ref sig .tc := ⟨.hbm, 214, rfl⟩
abbrev main_cst_20 : Ref sig .tc := ⟨.hbm, 215, rfl⟩
abbrev main_v112 : Ref sig .tc := ⟨.hbm, 216, rfl⟩
abbrev main_cst_21 : Ref sig .tc := ⟨.hbm, 217, rfl⟩
abbrev main_v113 : Ref sig .tc := ⟨.hbm, 218, rfl⟩
abbrev main_v114 : Ref sig .tc := ⟨.hbm, 219, rfl⟩
abbrev main_v115 : Ref sig .tc := ⟨.hbm, 220, rfl⟩
abbrev main_v116 : Ref sig .tc := ⟨.hbm, 221, rfl⟩
abbrev main_v117 : Ref sig .tc := ⟨.hbm, 222, rfl⟩
abbrev main_v118 : Ref sig .tc := ⟨.hbm, 223, rfl⟩
abbrev main_cst_22 : Ref sig .tc := ⟨.hbm, 224, rfl⟩
abbrev main_v119 : Ref sig .tc := ⟨.hbm, 225, rfl⟩
abbrev main_v120 : Ref sig .tc := ⟨.hbm, 226, rfl⟩
abbrev main_v121 : Ref sig .tc := ⟨.hbm, 227, rfl⟩
abbrev main_v122 : Ref sig .tc := ⟨.hbm, 228, rfl⟩
abbrev main_v123 : Ref sig .tc := ⟨.hbm, 229, rfl⟩
abbrev main_call12_cst : Ref sig .tc := ⟨.hbm, 230, rfl⟩
abbrev main_call12_v0 : Ref sig .tc := ⟨.hbm, 231, rfl⟩
abbrev main_call12_v1 : Ref sig .tc := ⟨.hbm, 232, rfl⟩
abbrev main_call12_cst_0 : Ref sig .tc := ⟨.hbm, 233, rfl⟩
abbrev main_call12_v2 : Ref sig .tc := ⟨.hbm, 234, rfl⟩
abbrev main_call12_v3 : Ref sig .tc := ⟨.hbm, 235, rfl⟩
abbrev main_call12_cst_1 : Ref sig .tc := ⟨.hbm, 236, rfl⟩
abbrev main_call12_call0_v0 : Ref sig .tc := ⟨.hbm, 237, rfl⟩
abbrev main_call12_call0_v1 : Ref sig .tc := ⟨.hbm, 238, rfl⟩
abbrev main_call12_v4 : Ref sig .tc := ⟨.hbm, 239, rfl⟩
abbrev main_call12_v5 : Ref sig .tc := ⟨.hbm, 240, rfl⟩
abbrev main_call12_cst_2 : Ref sig .tc := ⟨.hbm, 241, rfl⟩
abbrev main_call12_v6 : Ref sig .tc := ⟨.hbm, 242, rfl⟩
abbrev main_call12_v7 : Ref sig .tc := ⟨.hbm, 243, rfl⟩
abbrev main_v124 : Ref sig .tc := ⟨.hbm, 244, rfl⟩
abbrev main_v125 : Ref sig .tc := ⟨.hbm, 245, rfl⟩
abbrev main_v126 : Ref sig .tc := ⟨.hbm, 246, rfl⟩
abbrev main_v127 : Ref sig .tc := ⟨.hbm, 247, rfl⟩
abbrev main_v128 : Ref sig .tc := ⟨.hbm, 248, rfl⟩
abbrev main_v129 : Ref sig .tc := ⟨.hbm, 249, rfl⟩
abbrev main_cst_23 : Ref sig .tc := ⟨.hbm, 250, rfl⟩
abbrev main_v130 : Ref sig .tc := ⟨.hbm, 251, rfl⟩
abbrev main_cst_24 : Ref sig .tc := ⟨.hbm, 252, rfl⟩
abbrev main_v131 : Ref sig .tc := ⟨.hbm, 253, rfl⟩
abbrev main_v132 : Ref sig .tc := ⟨.hbm, 254, rfl⟩
abbrev main_v133 : Ref sig .tc := ⟨.hbm, 255, rfl⟩
abbrev main_v134 : Ref sig .tc := ⟨.hbm, 256, rfl⟩
abbrev main_v135 : Ref sig .tc := ⟨.hbm, 257, rfl⟩
abbrev main_v136 : Ref sig .tc := ⟨.hbm, 258, rfl⟩
abbrev main_call13_cst : Ref sig .tc := ⟨.hbm, 259, rfl⟩
abbrev main_call13_v0 : Ref sig .tc := ⟨.hbm, 260, rfl⟩
abbrev main_v137 : Ref sig .tc := ⟨.hbm, 261, rfl⟩
abbrev main_v138 : Ref sig .tc := ⟨.hbm, 262, rfl⟩
abbrev main_v139 : Ref sig .tc := ⟨.hbm, 263, rfl⟩
abbrev main_v140 : Ref sig .tc := ⟨.hbm, 264, rfl⟩
abbrev main_v141 : Ref sig .tc := ⟨.hbm, 265, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  slices_S4x64x128_S1x64x128_0_0_0 : S4x64x128.Slices ![0, 0, 0] S1x64x128
  shapeCasts_S1x64x128_S64x128 : S1x64x128.ShapeCasts S64x128
  slices_S4x128x128_S1x128x128_0_0_0 : S4x128x128.Slices ![0, 0, 0] S1x128x128
  shapeCasts_S1x128x128_S128x128 : S1x128x128.ShapeCasts S128x128
  transposes_S4096x128_S128x4096_1_0 : S4096x128.Transposes [1, 0] S128x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096x256 : S_.BroadcastsInDim S4096x256 (![] : Fin 0 → Fin S4096x256.rank)
  slices_S4x64x128_S1x64x128_1_0_0 : S4x64x128.Slices ![1, 0, 0] S1x64x128
  slices_S4x128x128_S1x128x128_1_0_0 : S4x128x128.Slices ![1, 0, 0] S1x128x128
  slices_S4x64x128_S1x64x128_2_0_0 : S4x64x128.Slices ![2, 0, 0] S1x64x128
  slices_S4x128x128_S1x128x128_2_0_0 : S4x128x128.Slices ![2, 0, 0] S1x128x128
  slices_S4x64x128_S1x64x128_3_0_0 : S4x64x128.Slices ![3, 0, 0] S1x64x128
  slices_S4x128x128_S1x128x128_3_0_0 : S4x128x128.Slices ![3, 0, 0] S1x128x128
  bcast_S4096x256_S1x4096x256_1_2 : S4096x256.BroadcastsInDim S1x4096x256 (![1, 2] : Fin 2 → Fin S1x4096x256.rank)
  concatenates_S1x4096x256_S1x4096x256_S1x4096x256_S1x4096x256_S4x4096x256_d0 : Shape.Concatenates [S1x4096x256, S1x4096x256, S1x4096x256, S1x4096x256] S4x4096x256 0
  reducesTo_S4x4096x256_S4096x256_d0 : S4x4096x256.ReducesTo [0] S4096x256
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x1024_S1024x512_S4096x512_1_0_0_1_n_n_wf : DotDims.WF S4096x1024 S1024x512 S4096x512 [1] [0] [0] [1] [] []
  dot_S4096x512_S512x256_S4096x256_1_0_0_1_n_n_wf : DotDims.WF S4096x512 S512x256 S4096x256 [1] [0] [0] [1] [] []
  dot_S4096x64_S64x128_S4096x128_1_0_0_1_n_n_wf : DotDims.WF S4096x64 S64x128 S4096x128 [1] [0] [0] [1] [] []
  dot_S4096x128_S128x128_S4096x128_1_0_0_1_n_n_wf : DotDims.WF S4096x128 S128x128 S4096x128 [1] [0] [0] [1] [] []
  dot_S4096x128_S128x4096_S4096x4096_1_0_0_1_n_n_wf : DotDims.WF S4096x128 S128x4096 S4096x4096 [1] [0] [0] [1] [] []
  dot_S4096x4096_S4096x256_S4096x256_1_0_0_1_n_n_wf : DotDims.WF S4096x4096 S4096x256 S4096x256 [1] [0] [0] [1] [] []
  dot_S4096x256_S256x512_S4096x512_1_0_0_1_n_n_wf : DotDims.WF S4096x256 S256x512 S4096x512 [1] [0] [0] [1] [] []
  dot_S4096x512_S512x1024_S4096x1024_1_0_0_1_n_n_wf : DotDims.WF S4096x512 S512x1024 S4096x1024 [1] [0] [0] [1] [] []

variable [Facts₀]

def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def dot_S4096x512_S512x1024_S4096x1024_1_0_0_1_n_n : DotDims S4096x512 S512x1024 S4096x1024 where
  lhsContracting := [1]
  rhsContracting := [0]
  lhsNonContracting := [0]
  rhsNonContracting := [1]
  lhsBatch := []
  rhsBatch := []
  wf := dot_S4096x512_S512x1024_S4096x1024_1_0_0_1_n_n_wf

class Facts : Prop extends Facts₀ where

variable [Facts]
-- ==== Proof.R0Run.lean ====
import proofs.«114942_g22505628631095_cont_8to1_462_6_alg».proof.Proof.Gen.KernelIdeal.Launch
import proofs.«114942_g22505628631095_cont_8to1_462_6_alg».proof.Proof.Gen.KernelIdeal.Skeleton
import proofs.«114942_g22505628631095_cont_8to1_462_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's body, run once per control case on arbitrary staging buffers

At the first grid point the body fills the two projection buffers (four slabs each) before the
encoder block; at every other point it only writes the encoder block and leaves the two projection
buffers as it found them. The stores are found by running the body, and kept as the witness of a subtype. -/

set_option maxHeartbeats 4000000 in
/-- The first point: the pieces stored into the three output buffers, with the body's triple. -/
noncomputable def bodyRun0_A (c : Dev nD) (i : grid0.Coords) (arg1 : Memref sig .tc .vmem S1024x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S4x64x128 .f32) (harg8 : arg8.IsWhole) (arg9 : Memref sig .tc .vmem S4x128x128 .f32) (harg9 : arg9.IsWhole) (arg10 : Memref sig .tc .vmem S1024x256 .f32) (harg10 : arg10.IsWhole) (arg11 : Memref sig .tc .vmem S4x4096x128 .f32) (harg11 : arg11.IsWhole) (arg12 : Memref sig .tc .vmem S4x128x4096 .f32) (harg12 : arg12.IsWhole)
    (hc : k0_cond1 i = 1#1) (x0 : Vec F S1024x1024 .f32) (x1 : Vec F S1024x512 .f32) (x2 : Vec F S1x512 .f32) (x3 : Vec F S512x256 .f32) (x4 : Vec F S1x256 .f32) (x5 : Vec F S4096x64 .f32) (x6 : Vec F S4096x64 .f32) (x7 : Vec F S4x64x128 .f32) (x8 : Vec F S4x128x128 .f32) :
    { L : List (View.Piece (Elt F) S1024x256 .f32) × List (View.Piece (Elt F) S4x4096x128 .f32) × List (View.Piece (Elt F) S4x128x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
                ∗ (∃ f, arg10.view.loc (c : Thread nD τ) ↦[arg10.view.set]{fullShare} arg10.view.writes (Elt F) f L.1)
                ∗ (∃ f, arg11.view.loc (c : Thread nD τ) ↦[arg11.view.set]{fullShare} arg11.view.writes (Elt F) f L.2.1)
                ∗ (∃ f, arg12.view.loc (c : Thread nD τ) ↦[arg12.view.set]{fullShare} arg12.view.writes (Elt F) f L.2.2)) -∗ K ⟨⟩))
          ⊢ wp frame (wpE (defs₀ (F := F)) Variants.none c none) E (cc0__enc_qk_kernel i arg1 harg1 arg2 harg2 arg3 harg3 arg4 harg4 arg5 harg5 arg6 harg6 arg7 harg7 arg8 harg8 arg9 harg9 arg10 harg10 arg11 harg11 arg12 harg12) K } := by
  refine ⟨⟨?_, ?_, ?_⟩, fun E K => ?run⟩
  case run =>
    simp only [cc0__enc_qk_kernel_eq_skeleton]; unfold cc0__enc_qk_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; iexact H9
    isplitl [H10]
    · iexists _; iexact H10
    iexists _; iexact H11

set_option maxHeartbeats 4000000 in
/-- Every later point: the pieces stored into the encoder's output buffer, with the body's triple; the two
    projection buffers are handed back at the contents they were found at. -/
noncomputable def bodyRun0_B (c : Dev nD) (i : grid0.Coords) (arg1 : Memref sig .tc .vmem S1024x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S4x64x128 .f32) (harg8 : arg8.IsWhole) (arg9 : Memref sig .tc .vmem S4x128x128 .f32) (harg9 : arg9.IsWhole) (arg10 : Memref sig .tc .vmem S1024x256 .f32) (harg10 : arg10.IsWhole) (arg11 : Memref sig .tc .vmem S4x4096x128 .f32) (harg11 : arg11.IsWhole) (arg12 : Memref sig .tc .vmem S4x128x4096 .f32) (harg12 : arg12.IsWhole)
    (hc : ¬ k0_cond1 i = 1#1) (x0 : Vec F S1024x1024 .f32) (x1 : Vec F S1024x512 .f32) (x2 : Vec F S1x512 .f32) (x3 : Vec F S512x256 .f32) (x4 : Vec F S1x256 .f32) (x5 : Vec F S4096x64 .f32) (x6 : Vec F S4096x64 .f32) (x7 : Vec F S4x64x128 .f32) (x8 : Vec F S4x128x128 .f32) (xo10 : Vec F S4x4096x128 .f32) (xo11 : Vec F S4x128x4096 .f32) :
    { L : List (View.Piece (Elt F) S1024x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ (∃ d, owns (c : Thread nD τ) arg10 fullShare d) ∗ owns (c : Thread nD τ) arg11 fullShare xo10 ∗ owns (c : Thread nD τ) arg12 fullShare xo11
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
                ∗ (∃ f, arg10.view.loc (c : Thread nD τ) ↦[arg10.view.set]{fullShare} arg10.view.writes (Elt F) f L)
                ∗ owns (c : Thread nD τ) arg11 fullShare xo10 ∗ owns (c : Thread nD τ) arg12 fullShare xo11) -∗ K ⟨⟩))
          ⊢ wp frame (wpE (defs₀ (F := F)) Variants.none c none) E (cc0__enc_qk_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__enc_qk_kernel_eq_skeleton]; unfold cc0__enc_qk_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; iexact H9
    isplitl [H10]
    · iexists f10; isplitr; · ipureintro; exact hf10
      iexact H10
    iexists f11; isplitr; · ipureintro; exact hf11
    iexact H11

end Cert.KernelIdeal.Hand

end
-- ==== Proof.LibIdleKept.lean ====
import Idealize.ShloMosaic.Lib.Pipeline.Frame

/-!
# An output window filled once and then left alone

A pipelined kernel may store a whole output block at the first grid point only and leave the block's
staging buffer untouched at every later point (the block's index never moves, so nothing is written
back before the last point). The configuration then states the window idle at those later points, and
what the body finds in the buffer at any later point, before any write-back, is what the first point
left there.
-/

noncomputable section

namespace Idealize.ShloMosaic.Pipeline

open Idealize.SL
open Idealize.SL.RA
open TcCoe

variable {nD : Nat} {τ : Topo} {sig : RefSig} {Val : EltTy → Type}
variable {Ix : Type} [DecidableEq Ix] {Name : Type} [DecidableEq Name] {U : Type} [URA U] {Lvl : Type}
variable {Λ₀ : SL.Sem.Labels} {cfg : Cfg sig Λ₀} {c : Dev nD} (dat : Dat τ Val Ix Name U Lvl cfg c)

/-- An uncut OUTPUT window that is live at the first point and idle at the points `1 … n`, with no
    write-back at the points `0 … n`, holds at point `n + 1` what the body left at the first point. -/
theorem Dat.before_out_through_idle (w : Fin cfg.W) (hw : (cfg.win w).isOut = true)
    (hclip : ∀ (i : cfg.grid.Coords) a, (cfg.win w).clip i a = none) (h0 : 0 < cfg.N)
    (hlive0 : cfg.idle w (cfg.grid.coords ⟨0, h0⟩) = false)
    (n : ℕ) (hn : n + 1 < cfg.N)
    (hfl : ∀ s : Fin cfg.N, s.val ≤ n → (cfg.win w).flush s = false)
    (hid : ∀ s : Fin cfg.N, 0 < s.val → s.val ≤ n → cfg.idle w (cfg.grid.coords s) = true)
    (d : (cfg.win w).block.Idx → Val (cfg.win w).elt) :
    dat.before w ⟨n + 1, hn⟩ d = dat.after w ⟨0, h0⟩ := by
  induction n with
  | zero =>
    rw [dat.before_of_pos w ⟨0 + 1, hn⟩ (Nat.succ_ne_zero _) ((cfg.win w).fetch_out hw _) d]
    have key : ∀ s : Fin cfg.N, s.val = 0 →
        (if (cfg.win w).flush s then d else dat.left w s d) = dat.after w ⟨0, h0⟩ := by
      intro s hs
      have e : s = ⟨0, h0⟩ := Fin.ext hs
      subst e
      rw [hfl ⟨0, h0⟩ (Nat.le_refl 0), if_neg Bool.false_ne_true]
      unfold Dat.left
      rw [hlive0]
      dsimp only
      unfold Dat.kept
      rw [fill_of_clip_none w _ (hclip _) d (dat.after w _), Window.fill_cut]
    exact key _ rfl
  | succ n ih =>
    rw [dat.before_of_pos w ⟨n + 1 + 1, hn⟩ (Nat.succ_ne_zero _) ((cfg.win w).fetch_out hw _) d]
    have key : ∀ s : Fin cfg.N, s.val = n + 1 →
        (if (cfg.win w).flush s then d else dat.left w s d) = dat.after w ⟨0, h0⟩ := by
      intro s hs
      have e : s = ⟨n + 1, Nat.lt_of_succ_lt hn⟩ := Fin.ext hs
      subst e
      rw [hfl ⟨n + 1, Nat.lt_of_succ_lt hn⟩ (Nat.le_refl _), if_neg Bool.false_ne_true]
      unfold Dat.left
      rw [hid ⟨n + 1, Nat.lt_of_succ_lt hn⟩ (Nat.succ_pos n) (Nat.le_refl _)]
      dsimp only
      exact ih (Nat.lt_of_succ_lt hn) (fun s hs => hfl s (Nat.le_succ_of_le hs))
        (fun s hpos hs => hid s hpos (Nat.le_succ_of_le hs))
    exact key _ rfl

end Idealize.ShloMosaic.Pipeline

end
-- ==== Proof.R0Frame.lean ====
import proofs.«114942_g22505628631095_cont_8to1_462_6_alg».proof.Proof.Gen.KernelIdeal.Launch
import proofs.«114942_g22505628631095_cont_8to1_462_6_alg».proof.Proof.Gen.KernelIdeal.Skeleton
import proofs.«114942_g22505628631095_cont_8to1_462_6_alg».proof.Proof.Gen.KernelIdeal.Points
import proofs.«114942_g22505628631095_cont_8to1_462_6_alg».proof.Proof.R0Run
import proofs.«114942_g22505628631095_cont_8to1_462_6_alg».proof.Proof.LibIdleKept
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel as a pipeline: proof data and body obligation

Stated at a parameter `V`, the buffer contents when the region is entered. The encoder's output block is
written at every point. The two projection outputs have one block each (their index never moves): the body
fills them at the first point, leaves them untouched afterwards, and the pipeline writes them back after
the last point — so at every point their staging buffers hold what the first point stored. -/

/-- The body's branch is taken at the first point only — decided over the grid. -/
theorem hcond0 : ∀ t : Fin cfg0.N, k0_cond1 (grid0.coords t) = 1#1 ↔ t.val % 4 = 0 :=
  (by decide +kernel : ∀ t : Fin grid0.N, k0_cond1 (grid0.coords t) = 1#1 ↔ t.val % 4 = 0)
/-- The projection windows are live at the first point and idle at the others — decided over the grid. -/
theorem idle0_10_first : ∀ t : Fin cfg0.N, t.val % 4 = 0 → cfg0.idle (10 : Fin 12) (cfg0.grid.coords t) = false :=
  (by decide +kernel : ∀ t : Fin grid0.N, t.val % 4 = 0 → idle0 10 (grid0.coords t) = false)
theorem idle0_10_later : ∀ t : Fin cfg0.N, ¬ t.val % 4 = 0 → cfg0.idle (10 : Fin 12) (cfg0.grid.coords t) = true :=
  (by decide +kernel : ∀ t : Fin grid0.N, ¬ t.val % 4 = 0 → idle0 10 (grid0.coords t) = true)
theorem idle0_11_first : ∀ t : Fin cfg0.N, t.val % 4 = 0 → cfg0.idle (11 : Fin 12) (cfg0.grid.coords t) = false :=
  (by decide +kernel : ∀ t : Fin grid0.N, t.val % 4 = 0 → idle0 11 (grid0.coords t) = false)
theorem idle0_11_later : ∀ t : Fin cfg0.N, ¬ t.val % 4 = 0 → cfg0.idle (11 : Fin 12) (cfg0.grid.coords t) = true :=
  (by decide +kernel : ∀ t : Fin grid0.N, ¬ t.val % 4 = 0 → idle0 11 (grid0.coords t) = true)

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

end

/-- One staging buffer of each output window, through which its contents are stated. -/
abbrev VO0_9 : View sig .tc .vmem S1024x256 .f32 := (Memref.whole cc0_stg9_0 : Memref sig .tc .vmem S1024x256 .f32).view
abbrev VO0_10 : View sig .tc .vmem S4x4096x128 .f32 := (Memref.whole cc0_stg10_0 : Memref sig .tc .vmem S4x4096x128 .f32).view
abbrev VO0_11 : View sig .tc .vmem S4x128x4096 .f32 := (Memref.whole cc0_stg11_0 : Memref sig .tc .vmem S4x128x4096 .f32).view

/-- Each window's current staging memref at point `t`, as the pipeline passes it, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4096x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x64x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x128x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x4096x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S4x128x4096 .f32 := win0_11.stage (cfg0.slots t 11)
abbrev hs0_11 (t : Fin cfg0.N) : (ms0_11 t).IsWhole := hstage0_11 ((cfg0.slots t 11).cast nbuf0_11)

/-! ## The stores cover the buffers they go to -/

theorem cover0_A_9 (c : Dev nD) (i : grid0.Coords) (arg1 : Memref sig .tc .vmem S1024x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S4x64x128 .f32) (harg8 : arg8.IsWhole) (arg9 : Memref sig .tc .vmem S4x128x128 .f32) (harg9 : arg9.IsWhole) (arg10 : Memref sig .tc .vmem S1024x256 .f32) (harg10 : arg10.IsWhole) (arg11 : Memref sig .tc .vmem S4x4096x128 .f32) (harg11 : arg11.IsWhole) (arg12 : Memref sig .tc .vmem S4x128x4096 .f32) (harg12 : arg12.IsWhole) (hc : k0_cond1 i = 1#1)
    (x0 : Vec F S1024x1024 .f32) (x1 : Vec F S1024x512 .f32) (x2 : Vec F S1x512 .f32) (x3 : Vec F S512x256 .f32) (x4 : Vec F S1x256 .f32) (x5 : Vec F S4096x64 .f32) (x6 : Vec F S4096x64 .f32) (x7 : Vec F S4x64x128 .f32) (x8 : Vec F S4x128x128 .f32) (y : S1024x256.Idx) :
    ∃ pc ∈ (bodyRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8).1.1, y ∈ pc.1.set :=
  View.cover_of_tiledL (bodyRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8).1.1 S1024x256.size (by sl_kernel_rfl) y
theorem cover0_A_10 (c : Dev nD) (i : grid0.Coords) (arg1 : Memref sig .tc .vmem S1024x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S4x64x128 .f32) (harg8 : arg8.IsWhole) (arg9 : Memref sig .tc .vmem S4x128x128 .f32) (harg9 : arg9.IsWhole) (arg10 : Memref sig .tc .vmem S1024x256 .f32) (harg10 : arg10.IsWhole) (arg11 : Memref sig .tc .vmem S4x4096x128 .f32) (harg11 : arg11.IsWhole) (arg12 : Memref sig .tc .vmem S4x128x4096 .f32) (harg12 : arg12.IsWhole) (hc : k0_cond1 i = 1#1)
    (x0 : Vec F S1024x1024 .f32) (x1 : Vec F S1024x512 .f32) (x2 : Vec F S1x512 .f32) (x3 : Vec F S512x256 .f32) (x4 : Vec F S1x256 .f32) (x5 : Vec F S4096x64 .f32) (x6 : Vec F S4096x64 .f32) (x7 : Vec F S4x64x128 .f32) (x8 : Vec F S4x128x128 .f32) (y : S4x4096x128.Idx) :
    ∃ pc ∈ (bodyRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8).1.2.1, y ∈ pc.1.set :=
  View.cover_of_tiledL (bodyRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8).1.2.1 S1x4096x128.size (by sl_kernel_rfl) y
theorem cover0_A_11 (c : Dev nD) (i : grid0.Coords) (arg1 : Memref sig .tc .vmem S1024x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S4x64x128 .f32) (harg8 : arg8.IsWhole) (arg9 : Memref sig .tc .vmem S4x128x128 .f32) (harg9 : arg9.IsWhole) (arg10 : Memref sig .tc .vmem S1024x256 .f32) (harg10 : arg10.IsWhole) (arg11 : Memref sig .tc .vmem S4x4096x128 .f32) (harg11 : arg11.IsWhole) (arg12 : Memref sig .tc .vmem S4x128x4096 .f32) (harg12 : arg12.IsWhole) (hc : k0_cond1 i = 1#1)
    (x0 : Vec F S1024x1024 .f32) (x1 : Vec F S1024x512 .f32) (x2 : Vec F S1x512 .f32) (x3 : Vec F S512x256 .f32) (x4 : Vec F S1x256 .f32) (x5 : Vec F S4096x64 .f32) (x6 : Vec F S4096x64 .f32) (x7 : Vec F S4x64x128 .f32) (x8 : Vec F S4x128x128 .f32) (y : S4x128x4096.Idx) :
    ∃ pc ∈ (bodyRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8).1.2.2, y ∈ pc.1.set :=
  View.cover_of_tiledL (bodyRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8).1.2.2 S1x128x4096.size (by sl_kernel_rfl) y
theorem cover0_B_9 (c : Dev nD) (i : grid0.Coords) (arg1 : Memref sig .tc .vmem S1024x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S4x64x128 .f32) (harg8 : arg8.IsWhole) (arg9 : Memref sig .tc .vmem S4x128x128 .f32) (harg9 : arg9.IsWhole) (arg10 : Memref sig .tc .vmem S1024x256 .f32) (harg10 : arg10.IsWhole) (arg11 : Memref sig .tc .vmem S4x4096x128 .f32) (harg11 : arg11.IsWhole) (arg12 : Memref sig .tc .vmem S4x128x4096 .f32) (harg12 : arg12.IsWhole) (hc : ¬ k0_cond1 i = 1#1)
    (x0 : Vec F S1024x1024 .f32) (x1 : Vec F S1024x512 .f32) (x2 : Vec F S1x512 .f32) (x3 : Vec F S512x256 .f32) (x4 : Vec F S1x256 .f32) (x5 : Vec F S4096x64 .f32) (x6 : Vec F S4096x64 .f32) (x7 : Vec F S4x64x128 .f32) (x8 : Vec F S4x128x128 .f32) (xo10 : Vec F S4x4096x128 .f32) (xo11 : Vec F S4x128x4096 .f32) (y : S1024x256.Idx) :
    ∃ pc ∈ (bodyRun0_B c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 xo10 xo11).1, y ∈ pc.1.set :=
  View.cover_of_tiledL (bodyRun0_B c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 xo10 xo11).1 S1024x256.size (by sl_kernel_rfl) y

/-! ## What the body leaves in each output buffer: its stores read back -/

def outA_9 (c : Dev nD) (i : grid0.Coords) (arg1 : Memref sig .tc .vmem S1024x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S4x64x128 .f32) (harg8 : arg8.IsWhole) (arg9 : Memref sig .tc .vmem S4x128x128 .f32) (harg9 : arg9.IsWhole) (arg10 : Memref sig .tc .vmem S1024x256 .f32) (harg10 : arg10.IsWhole) (arg11 : Memref sig .tc .vmem S4x4096x128 .f32) (harg11 : arg11.IsWhole) (arg12 : Memref sig .tc .vmem S4x128x4096 .f32) (harg12 : arg12.IsWhole) (hc : k0_cond1 i = 1#1)
    (x0 : Vec F S1024x1024 .f32) (x1 : Vec F S1024x512 .f32) (x2 : Vec F S1x512 .f32) (x3 : Vec F S512x256 .f32) (x4 : Vec F S1x256 .f32) (x5 : Vec F S4096x64 .f32) (x6 : Vec F S4096x64 .f32) (x7 : Vec F S4x64x128 .f32) (x8 : Vec F S4x128x128 .f32) : Vec F S1024x256 .f32 :=
  VO0_9.read (Elt F) (VO0_9.writes (Elt F) VO0_9.junk (bodyRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8).1.1)
def outA_10 (c : Dev nD) (i : grid0.Coords) (arg1 : Memref sig .tc .vmem S1024x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S4x64x128 .f32) (harg8 : arg8.IsWhole) (arg9 : Memref sig .tc .vmem S4x128x128 .f32) (harg9 : arg9.IsWhole) (arg10 : Memref sig .tc .vmem S1024x256 .f32) (harg10 : arg10.IsWhole) (arg11 : Memref sig .tc .vmem S4x4096x128 .f32) (harg11 : arg11.IsWhole) (arg12 : Memref sig .tc .vmem S4x128x4096 .f32) (harg12 : arg12.IsWhole) (hc : k0_cond1 i = 1#1)
    (x0 : Vec F S1024x1024 .f32) (x1 : Vec F S1024x512 .f32) (x2 : Vec F S1x512 .f32) (x3 : Vec F S512x256 .f32) (x4 : Vec F S1x256 .f32) (x5 : Vec F S4096x64 .f32) (x6 : Vec F S4096x64 .f32) (x7 : Vec F S4x64x128 .f32) (x8 : Vec F S4x128x128 .f32) : Vec F S4x4096x128 .f32 :=
  VO0_10.read (Elt F) (VO0_10.writes (Elt F) VO0_10.junk (bodyRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8).1.2.1)
def outA_11 (c : Dev nD) (i : grid0.Coords) (arg1 : Memref sig .tc .vmem S1024x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S4x64x128 .f32) (harg8 : arg8.IsWhole) (arg9 : Memref sig .tc .vmem S4x128x128 .f32) (harg9 : arg9.IsWhole) (arg10 : Memref sig .tc .vmem S1024x256 .f32) (harg10 : arg10.IsWhole) (arg11 : Memref sig .tc .vmem S4x4096x128 .f32) (harg11 : arg11.IsWhole) (arg12 : Memref sig .tc .vmem S4x128x4096 .f32) (harg12 : arg12.IsWhole) (hc : k0_cond1 i = 1#1)
    (x0 : Vec F S1024x1024 .f32) (x1 : Vec F S1024x512 .f32) (x2 : Vec F S1x512 .f32) (x3 : Vec F S512x256 .f32) (x4 : Vec F S1x256 .f32) (x5 : Vec F S4096x64 .f32) (x6 : Vec F S4096x64 .f32) (x7 : Vec F S4x64x128 .f32) (x8 : Vec F S4x128x128 .f32) : Vec F S4x128x4096 .f32 :=
  VO0_11.read (Elt F) (VO0_11.writes (Elt F) VO0_11.junk (bodyRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8).1.2.2)
def outB_9 (c : Dev nD) (i : grid0.Coords) (arg1 : Memref sig .tc .vmem S1024x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S4x64x128 .f32) (harg8 : arg8.IsWhole) (arg9 : Memref sig .tc .vmem S4x128x128 .f32) (harg9 : arg9.IsWhole) (arg10 : Memref sig .tc .vmem S1024x256 .f32) (harg10 : arg10.IsWhole) (arg11 : Memref sig .tc .vmem S4x4096x128 .f32) (harg11 : arg11.IsWhole) (arg12 : Memref sig .tc .vmem S4x128x4096 .f32) (harg12 : arg12.IsWhole) (hc : ¬ k0_cond1 i = 1#1)
    (x0 : Vec F S1024x1024 .f32) (x1 : Vec F S1024x512 .f32) (x2 : Vec F S1x512 .f32) (x3 : Vec F S512x256 .f32) (x4 : Vec F S1x256 .f32) (x5 : Vec F S4096x64 .f32) (x6 : Vec F S4096x64 .f32) (x7 : Vec F S4x64x128 .f32) (x8 : Vec F S4x128x128 .f32) (xo10 : Vec F S4x4096x128 .f32) (xo11 : Vec F S4x128x4096 .f32) : Vec F S1024x256 .f32 :=
  VO0_9.read (Elt F) (VO0_9.writes (Elt F) VO0_9.junk (bodyRun0_B c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 xo10 xo11).1)

section
variable (V : (c : Dev nD) → (b : Ref sig .tc) → Buf (Elt F) ((c : Thread nD τ).loc b))

/-- What the first point stores into the two projection buffers: what they hold from then on. -/
def Q10 (c : Dev nD) : Vec F S4x4096x128 .f32 :=
  outA_10 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) ((hcond0 t0_0).mpr (Nat.zero_mod 4)) (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0) (iblk0 V c 8 t0_0)
def Q11 (c : Dev nD) : Vec F S4x128x4096 .f32 :=
  outA_11 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) ((hcond0 t0_0).mpr (Nat.zero_mod 4)) (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0) (iblk0 V c 8 t0_0)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ =>
      if h : t.val % 4 = 0 then outA_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0 t).mpr h) (iblk0 V c 0 t) (iblk0 V c 1 t) (iblk0 V c 2 t) (iblk0 V c 3 t) (iblk0 V c 4 t) (iblk0 V c 5 t) (iblk0 V c 6 t) (iblk0 V c 7 t) (iblk0 V c 8 t)
      else outB_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun hc => h ((hcond0 t).mp hc)) (iblk0 V c 0 t) (iblk0 V c 1 t) (iblk0 V c 2 t) (iblk0 V c 3 t) (iblk0 V c 4 t) (iblk0 V c 5 t) (iblk0 V c 6 t) (iblk0 V c 7 t) (iblk0 V c 8 t) (Q10 V c) (Q11 V c)
    | ⟨10, _⟩ => Q10 V c
    | ⟨11, _⟩ => Q11 V c
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9_A (c : Dev nD) (t : Fin cfg0.N) (h : t.val % 4 = 0) :
    (dat0 V c).after 9 t = outA_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0 t).mpr h) (iblk0 V c 0 t) (iblk0 V c 1 t) (iblk0 V c 2 t) (iblk0 V c 3 t) (iblk0 V c 4 t) (iblk0 V c 5 t) (iblk0 V c 6 t) (iblk0 V c 7 t) (iblk0 V c 8 t) := by
  dsimp only [dat0]; exact dif_pos h
theorem after0_9_B (c : Dev nD) (t : Fin cfg0.N) (h : ¬ t.val % 4 = 0) :
    (dat0 V c).after 9 t = outB_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun hc => h ((hcond0 t).mp hc)) (iblk0 V c 0 t) (iblk0 V c 1 t) (iblk0 V c 2 t) (iblk0 V c 3 t) (iblk0 V c 4 t) (iblk0 V c 5 t) (iblk0 V c 6 t) (iblk0 V c 7 t) (iblk0 V c 8 t) (Q10 V c) (Q11 V c) := by
  dsimp only [dat0]; exact dif_neg h
theorem after0_10 (c : Dev nD) (t : Fin cfg0.N) : (dat0 V c).after 10 t = Q10 V c := by dsimp only [dat0]
theorem after0_11 (c : Dev nD) (t : Fin cfg0.N) : (dat0 V c).after 11 t = Q11 V c := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- After the first point a projection buffer holds what the first point stored: nothing is written back
    before the last point and the window is idle in between. -/
theorem before0_10_later (c : Dev nD) (t : Fin cfg0.N) (h0 : ¬ t.val % 4 = 0) (d) : (dat0 V c).before 10 t d = Q10 V c := by
  have hN : t.val < 4 := lt_of_lt_of_eq t.isLt (show cfg0.N = 4 from N_0)
  obtain ⟨n, hn⟩ := t
  cases n with
  | zero => exact absurd (Nat.zero_mod 4) h0
  | succ n =>
    have hpos : 0 < cfg0.N := by rw [show cfg0.N = 4 from N_0]; decide
    rw [Pipeline.Dat.before_out_through_idle (dat0 V c) 10 rfl (fun _ _ => rfl) hpos (idle0_10_first ⟨0, hpos⟩ (Nat.zero_mod 4)) n hn
      (fun s hs => Bool.eq_false_iff.mpr fun h => by have := (flush0_10 s).mp h; dsimp only at hN; omega)
      (fun s hpos' hs => idle0_10_later s (by dsimp only at hN; omega)) d]
    dsimp only [dat0]
theorem before0_11_later (c : Dev nD) (t : Fin cfg0.N) (h0 : ¬ t.val % 4 = 0) (d) : (dat0 V c).before 11 t d = Q11 V c := by
  have hN : t.val < 4 := lt_of_lt_of_eq t.isLt (show cfg0.N = 4 from N_0)
  obtain ⟨n, hn⟩ := t
  cases n with
  | zero => exact absurd (Nat.zero_mod 4) h0
  | succ n =>
    have hpos : 0 < cfg0.N := by rw [show cfg0.N = 4 from N_0]; decide
    rw [Pipeline.Dat.before_out_through_idle (dat0 V c) 11 rfl (fun _ _ => rfl) hpos (idle0_11_first ⟨0, hpos⟩ (Nat.zero_mod 4)) n hn
      (fun s hs => Bool.eq_false_iff.mpr fun h => by have := (flush0_11 s).mp h; dsimp only at hN; omega)
      (fun s hpos' hs => idle0_11_later s (by dsimp only at hN; omega)) d]
    dsimp only [dat0]

/-- What the body is called with at point `t`, the windows one by one. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d)))

/-- What it returns at the first point: every buffer at the stated contents. -/
def bodyPost0_live (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t))

/-- What it returns at a middle point: the projection buffers as found. -/
def bodyPost0_idle (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ (∃ d, owns (c : Thread nD τ) (ms0_10 t) fullShare ((dat0 V c).before 10 t d))
    ∗ (∃ d, owns (c : Thread nD τ) (ms0_11 t) fullShare ((dat0 V c).before 11 t d)))

set_option maxHeartbeats 1600000 in
/-- The first point: the branch is taken and all three output buffers are covered by the body's stores. -/
theorem sound_body0_first (c : Dev nD) (t : Fin cfg0.N) (h0 : t.val % 4 = 0) :
    bodyPre0 V c t ⊢ wp frame (wpE (defs₀ (F := F)) Variants.none c none) Set.univ (bodyAt0 t) (fun _ => bodyPost0_live V c t) := by
  have hN : t.val < 4 := lt_of_lt_of_eq t.isLt (show cfg0.N = 4 from N_0)
  obtain rfl : t = t0_0 := Fin.ext (by unfold t0_0; dsimp only; omega)
  unfold bodyPre0 bodyPost0_live bodyAt0
  simp only [before0_0, before0_1, before0_2, before0_3, before0_4, before0_5, before0_6, before0_7, before0_8]
  rw [show (dat0 V c).Φ t0_0.succ = (dat0 V c).Φ t0_0.castSucc from rfl,
    show (dat0 V c).owesAt () t0_0.succ = (dat0 V c).owesAt () t0_0.castSucc from rfl,
    after0_0, after0_1, after0_2, after0_3, after0_4, after0_5, after0_6, after0_7, after0_8, after0_9_A V c t0_0 h0, after0_10, after0_11]
  unfold Q10 Q11 outA_9 outA_10 outA_11
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((bodyRun0_A c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) ((hcond0 t0_0).mpr h0) (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0) (iblk0 V c 8 t0_0)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, ⟨%e9, H9⟩, ⟨%e10, H10⟩, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (cover0_A_9 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) ((hcond0 t0_0).mpr h0) (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0) (iblk0 V c 8 t0_0))
  isplitl [H10]
  · unfold owns; iexists _; isplitr
    swap; · iexact H10
    ipureintro; exact View.read_writes_of_cover _ _ _ _ _ (cover0_A_10 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) ((hcond0 t0_0).mpr h0) (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0) (iblk0 V c 8 t0_0))
  unfold owns; iexists _; isplitr
  swap; · iexact H11
  ipureintro; exact View.read_writes_of_cover _ _ _ _ _ (cover0_A_11 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) ((hcond0 t0_0).mpr h0) (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0) (iblk0 V c 8 t0_0))

set_option maxHeartbeats 1600000 in
/-- A later point, the projection buffers handed back at the stated contents (the last point's form). -/
theorem sound_body0_last (c : Dev nD) (t : Fin cfg0.N) (h0 : ¬ t.val % 4 = 0) :
    bodyPre0 V c t ⊢ wp frame (wpE (defs₀ (F := F)) Variants.none c none) Set.univ (bodyAt0 t) (fun _ => bodyPost0_live V c t) := by
  unfold bodyPre0 bodyPost0_live bodyAt0
  simp only [before0_0, before0_1, before0_2, before0_3, before0_4, before0_5, before0_6, before0_7, before0_8, before0_10_later V c t h0, before0_11_later V c t h0]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9_B V c t h0, after0_10, after0_11]
  unfold outB_9
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((bodyRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun hc => h0 ((hcond0 t).mp hc)) (iblk0 V c 0 t) (iblk0 V c 1 t) (iblk0 V c 2 t) (iblk0 V c 3 t) (iblk0 V c 4 t) (iblk0 V c 5 t) (iblk0 V c 6 t) (iblk0 V c 7 t) (iblk0 V c 8 t) (Q10 V c) (Q11 V c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  iintro ⟨H0, H1, H2, H3, H4, H5, H6, H7, H8, ⟨%e9, H9⟩, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (cover0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun hc => h0 ((hcond0 t).mp hc)) (iblk0 V c 0 t) (iblk0 V c 1 t) (iblk0 V c 2 t) (iblk0 V c 3 t) (iblk0 V c 4 t) (iblk0 V c 5 t) (iblk0 V c 6 t) (iblk0 V c 7 t) (iblk0 V c 8 t) (Q10 V c) (Q11 V c))
  isplitl [H10]; · iexact H10
  iexact H11

set_option maxHeartbeats 1600000 in
/-- A later point, the projection buffers handed back as found (a middle point's form). -/
theorem sound_body0_middle (c : Dev nD) (t : Fin cfg0.N) (h0 : ¬ t.val % 4 = 0) :
    bodyPre0 V c t ⊢ wp frame (wpE (defs₀ (F := F)) Variants.none c none) Set.univ (bodyAt0 t) (fun _ => bodyPost0_idle V c t) := by
  unfold bodyPre0 bodyPost0_idle bodyAt0
  simp only [before0_0, before0_1, before0_2, before0_3, before0_4, before0_5, before0_6, before0_7, before0_8, before0_10_later V c t h0, before0_11_later V c t h0]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9_B V c t h0]
  unfold outB_9
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((bodyRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun hc => h0 ((hcond0 t).mp hc)) (iblk0 V c 0 t) (iblk0 V c 1 t) (iblk0 V c 2 t) (iblk0 V c 3 t) (iblk0 V c 4 t) (iblk0 V c 5 t) (iblk0 V c 6 t) (iblk0 V c 7 t) (iblk0 V c 8 t) (Q10 V c) (Q11 V c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  iintro ⟨H0, H1, H2, H3, H4, H5, H6, H7, H8, ⟨%e9, H9⟩, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (cover0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun hc => h0 ((hcond0 t).mp hc)) (iblk0 V c 0 t) (iblk0 V c 1 t) (iblk0 V c 2 t) (iblk0 V c 3 t) (iblk0 V c 4 t) (iblk0 V c 5 t) (iblk0 V c 6 t) (iblk0 V c 7 t) (iblk0 V c 8 t) (Q10 V c) (Q11 V c))
  isplitl [H10]; · iexists d10; iexact H10
  iexists d11; iexact H11

/-- The library's body obligation, at every point. -/
theorem body_obligation0 (c : Dev nD) : BodyObligation (dat0 (F := F) V c) (defs₀ (F := F)) Variants.none () Set.univ := fun t => by
  have hN : t.val < 4 := lt_of_lt_of_eq t.isLt (show cfg0.N = 4 from N_0)
  rw [bigSep_W0, bigSep_W0]
  by_cases h0 : t.val % 4 = 0
  · rw [idle0_10_first t h0]; try rw [idle0_11_first t h0]
    exact sound_body0_first V c t h0
  · by_cases h3 : t.val % 4 = 3
    · have hf10 : (cfg0.win (10 : Fin 12)).flush t = true := (flush0_10 t).mpr h3
      have hf11 : (cfg0.win (11 : Fin 12)).flush t = true := (flush0_11 t).mpr h3
      rw [idle0_10_later t h0]; (try rw [idle0_11_later t h0]); rw [hf10]; try rw [hf11]
      exact sound_body0_last V c t h0
    · have hf10 : (cfg0.win (10 : Fin 12)).flush t = false := Bool.eq_false_iff.mpr (fun h => h3 ((flush0_10 t).mp h))
      have hf11 : (cfg0.win (11 : Fin 12)).flush t = false := Bool.eq_false_iff.mpr (fun h => h3 ((flush0_11 t).mp h))
      rw [idle0_10_later t h0]; (try rw [idle0_11_later t h0]); rw [hf10]; try rw [hf11]
      exact sound_body0_middle V c t h0

end

end Cert.KernelIdeal.Hand

end
-- ==== Proof.R1Run.lean ====
import proofs.«114942_g22505628631095_cont_8to1_462_6_alg».proof.Proof.Gen.KernelIdeal.Launch
import proofs.«114942_g22505628631095_cont_8to1_462_6_alg».proof.Proof.Gen.KernelIdeal.Skeleton
import proofs.«114942_g22505628631095_cont_8to1_462_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's body, run once on arbitrary staging buffers

The body reads its eight input buffers and overwrites both output buffers whole; the stores it makes
are found by running it, and kept as the witness of a subtype. -/

set_option maxHeartbeats 4000000 in
/-- The pieces the body stores into the two output buffers (last store first), with the proof that from the
    input buffers at contents `x0 … x7` and the output buffers at anything the body runs to a state with the
    inputs unchanged and each output buffer overwritten by its pieces. -/
noncomputable def bodyRun1 (c : Dev nD) (i : grid1.Coords) (arg1 : Memref sig .tc .vmem S4x256x128 .f32) (harg1 : arg1.IsWhole) (arg2 : Memref sig .tc .vmem S4x128x4096 .f32) (harg2 : arg2.IsWhole) (arg3 : Memref sig .tc .vmem S256x4096 .f32) (harg3 : arg3.IsWhole) (arg4 : Memref sig .tc .vmem S4096x256 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S256x256 .f32) (harg9 : arg9.IsWhole) (arg10 : Memref sig .tc .vmem S256x1024 .f32) (harg10 : arg10.IsWhole)
    (x0 : Vec F S4x256x128 .f32) (x1 : Vec F S4x128x4096 .f32) (x2 : Vec F S256x4096 .f32) (x3 : Vec F S4096x256 .f32) (x4 : Vec F S256x512 .f32) (x5 : Vec F S1x512 .f32) (x6 : Vec F S512x1024 .f32) (x7 : Vec F S1x1024 .f32) :
    { L : List (View.Piece (Elt F) S256x256 .f32) × List (View.Piece (Elt F) S256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg9.view.loc (c : Thread nD τ) ↦[arg9.view.set]{fullShare} arg9.view.writes (Elt F) f L.1)
                ∗ (∃ f, arg10.view.loc (c : Thread nD τ) ↦[arg10.view.set]{fullShare} arg10.view.writes (Elt F) f L.2)) -∗ K ⟨⟩))
          ⊢ wp frame (wpE (defs₀ (F := F)) Variants.none c none) E (cc1__attn_dec_kernel i arg1 harg1 arg2 harg2 arg3 harg3 arg4 harg4 arg5 harg5 arg6 harg6 arg7 harg7 arg8 harg8 arg9 harg9 arg10 harg10) K } := by
  refine ⟨⟨?_, ?_⟩, fun E K => ?run⟩
  case run =>
    simp only [cc1__attn_dec_kernel_eq_skeleton]; unfold cc1__attn_dec_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    iexists _; iexact H9

end Cert.KernelIdeal.Hand

end
-- ==== Proof.R1Frame.lean ====
import proofs.«114942_g22505628631095_cont_8to1_462_6_alg».proof.Proof.Gen.KernelIdeal.Launch
import proofs.«114942_g22505628631095_cont_8to1_462_6_alg».proof.Proof.Gen.KernelIdeal.Skeleton
import proofs.«114942_g22505628631095_cont_8to1_462_6_alg».proof.Proof.Gen.KernelIdeal.Points
import proofs.«114942_g22505628631095_cont_8to1_462_6_alg».proof.Proof.R1Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel as a pipeline: proof data and body obligation

Stated at a parameter `V`, the buffer contents when the region is entered. Every input window's current
staging buffer holds the window's block of its array at every point; each output buffer ends the body
holding the read-back of the body's stores, which tile it. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

end

/-- One staging buffer of each output window, through which its contents are stated. -/
abbrev VO1_8 : View sig .tc .vmem S256x256 .f32 := (Memref.whole cc1_stg8_0 : Memref sig .tc .vmem S256x256 .f32).view
abbrev VO1_9 : View sig .tc .vmem S256x1024 .f32 := (Memref.whole cc1_stg9_0 : Memref sig .tc .vmem S256x1024 .f32).view

/-- Each window's current staging memref at point `t`, as the pipeline passes it, and its wholeness. -/
abbrev ms1_0 (t : Fin cfg1.N) : Memref sig .tc .vmem S4x256x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x128x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1024 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S256x256 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S256x1024 .f32 := win1_9.stage (cfg1.slots t 9)
abbrev hs1_9 (t : Fin cfg1.N) : (ms1_9 t).IsWhole := hstage1_9 ((cfg1.slots t 9).cast nbuf1_9)

/-- The stores into the attention output's buffer tile it, so they cover it. -/
theorem cover1_8 (c : Dev nD) (i : grid1.Coords) (arg1 : Memref sig .tc .vmem S4x256x128 .f32) (harg1 : arg1.IsWhole) (arg2 : Memref sig .tc .vmem S4x128x4096 .f32) (harg2 : arg2.IsWhole) (arg3 : Memref sig .tc .vmem S256x4096 .f32) (harg3 : arg3.IsWhole) (arg4 : Memref sig .tc .vmem S4096x256 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S256x256 .f32) (harg9 : arg9.IsWhole) (arg10 : Memref sig .tc .vmem S256x1024 .f32) (harg10 : arg10.IsWhole)
    (x0 : Vec F S4x256x128 .f32) (x1 : Vec F S4x128x4096 .f32) (x2 : Vec F S256x4096 .f32) (x3 : Vec F S4096x256 .f32) (x4 : Vec F S256x512 .f32) (x5 : Vec F S1x512 .f32) (x6 : Vec F S512x1024 .f32) (x7 : Vec F S1x1024 .f32) (y : S256x256.Idx) :
    ∃ pc ∈ (bodyRun1 c i arg1 harg1 arg2 harg2 arg3 harg3 arg4 harg4 arg5 harg5 arg6 harg6 arg7 harg7 arg8 harg8 arg9 harg9 arg10 harg10 x0 x1 x2 x3 x4 x5 x6 x7).1.1, y ∈ pc.1.set :=
  View.cover_of_tiledL (bodyRun1 c i arg1 harg1 arg2 harg2 arg3 harg3 arg4 harg4 arg5 harg5 arg6 harg6 arg7 harg7 arg8 harg8 arg9 harg9 arg10 harg10 x0 x1 x2 x3 x4 x5 x6 x7).1.1 S256x256.size (by sl_kernel_rfl) y

/-- The stores into the decoder output's buffer tile it, so they cover it. -/
theorem cover1_9 (c : Dev nD) (i : grid1.Coords) (arg1 : Memref sig .tc .vmem S4x256x128 .f32) (harg1 : arg1.IsWhole) (arg2 : Memref sig .tc .vmem S4x128x4096 .f32) (harg2 : arg2.IsWhole) (arg3 : Memref sig .tc .vmem S256x4096 .f32) (harg3 : arg3.IsWhole) (arg4 : Memref sig .tc .vmem S4096x256 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S256x256 .f32) (harg9 : arg9.IsWhole) (arg10 : Memref sig .tc .vmem S256x1024 .f32) (harg10 : arg10.IsWhole)
    (x0 : Vec F S4x256x128 .f32) (x1 : Vec F S4x128x4096 .f32) (x2 : Vec F S256x4096 .f32) (x3 : Vec F S4096x256 .f32) (x4 : Vec F S256x512 .f32) (x5 : Vec F S1x512 .f32) (x6 : Vec F S512x1024 .f32) (x7 : Vec F S1x1024 .f32) (y : S256x1024.Idx) :
    ∃ pc ∈ (bodyRun1 c i arg1 harg1 arg2 harg2 arg3 harg3 arg4 harg4 arg5 harg5 arg6 harg6 arg7 harg7 arg8 harg8 arg9 harg9 arg10 harg10 x0 x1 x2 x3 x4 x5 x6 x7).1.2, y ∈ pc.1.set :=
  View.cover_of_tiledL (bodyRun1 c i arg1 harg1 arg2 harg2 arg3 harg3 arg4 harg4 arg5 harg5 arg6 harg6 arg7 harg7 arg8 harg8 arg9 harg9 arg10 harg10 x0 x1 x2 x3 x4 x5 x6 x7).1.2 S256x1024.size (by sl_kernel_rfl) y

/-- What the body leaves in the attention output's staging buffer: its stores read back. -/
def out1_8 (c : Dev nD) (i : grid1.Coords) (arg1 : Memref sig .tc .vmem S4x256x128 .f32) (harg1 : arg1.IsWhole) (arg2 : Memref sig .tc .vmem S4x128x4096 .f32) (harg2 : arg2.IsWhole) (arg3 : Memref sig .tc .vmem S256x4096 .f32) (harg3 : arg3.IsWhole) (arg4 : Memref sig .tc .vmem S4096x256 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S256x256 .f32) (harg9 : arg9.IsWhole) (arg10 : Memref sig .tc .vmem S256x1024 .f32) (harg10 : arg10.IsWhole)
    (x0 : Vec F S4x256x128 .f32) (x1 : Vec F S4x128x4096 .f32) (x2 : Vec F S256x4096 .f32) (x3 : Vec F S4096x256 .f32) (x4 : Vec F S256x512 .f32) (x5 : Vec F S1x512 .f32) (x6 : Vec F S512x1024 .f32) (x7 : Vec F S1x1024 .f32) : Vec F S256x256 .f32 :=
  VO1_8.read (Elt F) (VO1_8.writes (Elt F) VO1_8.junk (bodyRun1 c i arg1 harg1 arg2 harg2 arg3 harg3 arg4 harg4 arg5 harg5 arg6 harg6 arg7 harg7 arg8 harg8 arg9 harg9 arg10 harg10 x0 x1 x2 x3 x4 x5 x6 x7).1.1)

/-- What the body leaves in the decoder output's staging buffer: its stores read back. -/
def out1_9 (c : Dev nD) (i : grid1.Coords) (arg1 : Memref sig .tc .vmem S4x256x128 .f32) (harg1 : arg1.IsWhole) (arg2 : Memref sig .tc .vmem S4x128x4096 .f32) (harg2 : arg2.IsWhole) (arg3 : Memref sig .tc .vmem S256x4096 .f32) (harg3 : arg3.IsWhole) (arg4 : Memref sig .tc .vmem S4096x256 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S256x256 .f32) (harg9 : arg9.IsWhole) (arg10 : Memref sig .tc .vmem S256x1024 .f32) (harg10 : arg10.IsWhole)
    (x0 : Vec F S4x256x128 .f32) (x1 : Vec F S4x128x4096 .f32) (x2 : Vec F S256x4096 .f32) (x3 : Vec F S4096x256 .f32) (x4 : Vec F S256x512 .f32) (x5 : Vec F S1x512 .f32) (x6 : Vec F S512x1024 .f32) (x7 : Vec F S1x1024 .f32) : Vec F S256x1024 .f32 :=
  VO1_9.read (Elt F) (VO1_9.writes (Elt F) VO1_9.junk (bodyRun1 c i arg1 harg1 arg2 harg2 arg3 harg3 arg4 harg4 arg5 harg5 arg6 harg6 arg7 harg7 arg8 harg8 arg9 harg9 arg10 harg10 x0 x1 x2 x3 x4 x5 x6 x7).1.2)

section
variable (V : (c : Dev nD) → (b : Ref sig .tc) → Buf (Elt F) ((c : Thread nD τ).loc b))

/-- The proof data of the second pipeline on core `c`: the arrays as the region finds them; after the body at
    point `t` each input's buffer at its block and each output's at the read-back of the body's stores;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t)
    | ⟨9, _⟩ => out1_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V c).after 9 t = out1_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t))

set_option maxHeartbeats 1600000 in
/-- The body at any point: the inputs' buffers hold their blocks, so the run applies; the invariant and the
    core's dues pass through unread; each output buffer's stores cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  unfold out1_8 out1_9
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((bodyRun1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover1_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t))
  unfold owns; iexists _; isplitr
  swap; · iexact H9
  ipureintro; exact View.read_writes_of_cover _ _ _ _ _ (cover1_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t))

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.Run.lean ====
import proofs.«114942_g22505628631095_cont_8to1_462_6_alg».proof.Proof.Gen.KernelIdeal.Launch
import proofs.«114942_g22505628631095_cont_8to1_462_6_alg».proof.Proof.Gen.KernelIdeal.Skeleton
import proofs.«114942_g22505628631095_cont_8to1_462_6_alg».proof.Proof.Gen.KernelIdeal.Points
import proofs.«114942_g22505628631095_cont_8to1_462_6_alg».proof.Proof.Gen.KernelIdeal.Regions
import proofs.«114942_g22505628631095_cont_8to1_462_6_alg».proof.Proof.R0Frame
import proofs.«114942_g22505628631095_cont_8to1_462_6_alg».proof.Proof.R1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole program's run: host stretch, first kernel, host stretch, second kernel

The buffer contents at each boundary are a fold from the launch memory: a host stretch applies its
operations; a kernel region replaces each of its arrays by what the pipeline's write-backs leave and keeps every
other buffer. The run ends with every unscoped buffer at the last boundary's contents. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the first kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first kernel's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second kernel's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second kernel's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What each step keeps -/

theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h
theorem W2_keep (c : Dev nD) (b : Ref sig .tc) (hb : ∀ w, Pipeline.arrRef spec0 w ≠ b) :
    W2 m ρ c (Proc.devRef .tc b) = W1 m ρ c (Proc.devRef .tc b) := W2_of_ne m ρ c b hb
theorem W4_keep (c : Dev nD) (b : Ref sig .tc) (hb : ∀ w, Pipeline.arrRef spec1 w ≠ b) :
    W4 m ρ c (Proc.devRef .tc b) = W3 m ρ c (Proc.devRef .tc b) := W4_of_ne m ρ c b hb
/-- An array a region only reads through an input window is left as entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-! ## The arguments end as launched -/

theorem W4_main_arg0 (c : Dev nD) : W4 m ρ c (Proc.devRef .tc main_arg0) = m ((c : Thread nD τ).loc main_arg0) :=
  (W4_in m ρ c 2 rfl).trans <| (W3_keep m ρ c main_arg0 (by decide)).trans <| (W2_keep m ρ c main_arg0 (by decide)).trans <| (W1_keep m ρ c main_arg0 (by decide)).trans rfl
theorem W4_main_arg1 (c : Dev nD) : W4 m ρ c (Proc.devRef .tc main_arg1) = m ((c : Thread nD τ).loc main_arg1) :=
  (W4_keep m ρ c main_arg1 (by decide)).trans <| (W3_keep m ρ c main_arg1 (by decide)).trans <| (W2_in m ρ c 5 rfl).trans <| (W1_keep m ρ c main_arg1 (by decide)).trans rfl
theorem W4_main_arg2 (c : Dev nD) : W4 m ρ c (Proc.devRef .tc main_arg2) = m ((c : Thread nD τ).loc main_arg2) :=
  (W4_keep m ρ c main_arg2 (by decide)).trans <| (W3_keep m ρ c main_arg2 (by decide)).trans <| (W2_in m ρ c 6 rfl).trans <| (W1_keep m ρ c main_arg2 (by decide)).trans rfl
theorem W4_main_arg3 (c : Dev nD) : W4 m ρ c (Proc.devRef .tc main_arg3) = m ((c : Thread nD τ).loc main_arg3) :=
  (W4_keep m ρ c main_arg3 (by decide)).trans <| (W3_keep m ρ c main_arg3 (by decide)).trans <| (W2_in m ρ c 0 rfl).trans <| (W1_keep m ρ c main_arg3 (by decide)).trans rfl
theorem W4_main_arg4 (c : Dev nD) : W4 m ρ c (Proc.devRef .tc main_arg4) = m ((c : Thread nD τ).loc main_arg4) :=
  (W4_keep m ρ c main_arg4 (by decide)).trans <| (W3_keep m ρ c main_arg4 (by decide)).trans <| (W2_in m ρ c 1 rfl).trans <| (W1_keep m ρ c main_arg4 (by decide)).trans rfl
theorem W4_main_arg5 (c : Dev nD) : W4 m ρ c (Proc.devRef .tc main_arg5) = m ((c : Thread nD τ).loc main_arg5) :=
  (W4_keep m ρ c main_arg5 (by decide)).trans <| (W3_keep m ρ c main_arg5 (by decide)).trans <| (W2_keep m ρ c main_arg5 (by decide)).trans <| (W1_keep m ρ c main_arg5 (by decide)).trans rfl
theorem W4_main_arg6 (c : Dev nD) : W4 m ρ c (Proc.devRef .tc main_arg6) = m ((c : Thread nD τ).loc main_arg6) :=
  (W4_keep m ρ c main_arg6 (by decide)).trans <| (W3_keep m ρ c main_arg6 (by decide)).trans <| (W2_in m ρ c 3 rfl).trans <| (W1_keep m ρ c main_arg6 (by decide)).trans rfl
theorem W4_main_arg7 (c : Dev nD) : W4 m ρ c (Proc.devRef .tc main_arg7) = m ((c : Thread nD τ).loc main_arg7) :=
  (W4_keep m ρ c main_arg7 (by decide)).trans <| (W3_keep m ρ c main_arg7 (by decide)).trans <| (W2_keep m ρ c main_arg7 (by decide)).trans <| (W1_keep m ρ c main_arg7 (by decide)).trans rfl
theorem W4_main_arg8 (c : Dev nD) : W4 m ρ c (Proc.devRef .tc main_arg8) = m ((c : Thread nD τ).loc main_arg8) :=
  (W4_in m ρ c 4 rfl).trans <| (W3_keep m ρ c main_arg8 (by decide)).trans <| (W2_keep m ρ c main_arg8 (by decide)).trans <| (W1_keep m ρ c main_arg8 (by decide)).trans rfl
theorem W4_main_arg9 (c : Dev nD) : W4 m ρ c (Proc.devRef .tc main_arg9) = m ((c : Thread nD τ).loc main_arg9) :=
  (W4_keep m ρ c main_arg9 (by decide)).trans <| (W3_keep m ρ c main_arg9 (by decide)).trans <| (W2_keep m ρ c main_arg9 (by decide)).trans <| (W1_keep m ρ c main_arg9 (by decide)).trans rfl
theorem W4_main_arg10 (c : Dev nD) : W4 m ρ c (Proc.devRef .tc main_arg10) = m ((c : Thread nD τ).loc main_arg10) :=
  (W4_in m ρ c 6 rfl).trans <| (W3_keep m ρ c main_arg10 (by decide)).trans <| (W2_keep m ρ c main_arg10 (by decide)).trans <| (W1_keep m ρ c main_arg10 (by decide)).trans rfl
theorem W4_main_arg11 (c : Dev nD) : W4 m ρ c (Proc.devRef .tc main_arg11) = m ((c : Thread nD τ).loc main_arg11) :=
  (W4_keep m ρ c main_arg11 (by decide)).trans <| (W3_keep m ρ c main_arg11 (by decide)).trans <| (W2_keep m ρ c main_arg11 (by decide)).trans <| (W1_keep m ρ c main_arg11 (by decide)).trans rfl
theorem W4_main_arg12 (c : Dev nD) : W4 m ρ c (Proc.devRef .tc main_arg12) = m ((c : Thread nD τ).loc main_arg12) :=
  (W4_keep m ρ c main_arg12 (by decide)).trans <| (W3_keep m ρ c main_arg12 (by decide)).trans <| (W2_in m ρ c 7 rfl).trans <| (W1_keep m ρ c main_arg12 (by decide)).trans rfl
theorem W4_main_arg13 (c : Dev nD) : W4 m ρ c (Proc.devRef .tc main_arg13) = m ((c : Thread nD τ).loc main_arg13) :=
  (W4_keep m ρ c main_arg13 (by decide)).trans <| (W3_keep m ρ c main_arg13 (by decide)).trans <| (W2_in m ρ c 8 rfl).trans <| (W1_keep m ρ c main_arg13 (by decide)).trans rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 as a segment over the thread state: entered with every unscoped buffer at the contents before it,
    left with them at the contents after it. Its arrays are split out of the unscoped buffers on entry and put
    back on exit; the generator register rides through the invariant; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment over the thread state: entered with every unscoped buffer at the contents before it,
    left with them at the contents after it. Its arrays are split out of the unscoped buffers on entry and put
    back on exit; the generator register rides through the invariant; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing
    faulting, with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c)⟩) (run_all m ρ)

end Cert.KernelIdeal.Hand

end
-- ==== Proof.KR0Run.lean ====
import proofs.«114942_g22505628631095_cont_8to1_462_6_alg».proof.Proof.Gen.Kernel.Launch
import proofs.«114942_g22505628631095_cont_8to1_462_6_alg».proof.Proof.Gen.Kernel.Skeleton
import proofs.«114942_g22505628631095_cont_8to1_462_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's body, run once per control case on arbitrary staging buffers

At the first grid point the body fills the two projection buffers (four slabs each) before the
encoder block; at every other point it only writes the encoder block and leaves the two projection
buffers as it found them. The stores are found by running the body, and kept as the witness of a subtype. -/

set_option maxHeartbeats 4000000 in
/-- The first point: the pieces stored into the three output buffers, with the body's triple. -/
noncomputable def bodyRun0_A (c : Dev nD) (i : grid0.Coords) (arg1 : Memref sig .tc .vmem S1024x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S4x64x128 .f32) (harg8 : arg8.IsWhole) (arg9 : Memref sig .tc .vmem S4x128x128 .f32) (harg9 : arg9.IsWhole) (arg10 : Memref sig .tc .vmem S1024x256 .f32) (harg10 : arg10.IsWhole) (arg11 : Memref sig .tc .vmem S4x4096x128 .f32) (harg11 : arg11.IsWhole) (arg12 : Memref sig .tc .vmem S4x128x4096 .f32) (harg12 : arg12.IsWhole)
    (hc : k0_cond1 i = 1#1) (x0 : Vec F S1024x1024 .f32) (x1 : Vec F S1024x512 .f32) (x2 : Vec F S1x512 .f32) (x3 : Vec F S512x256 .f32) (x4 : Vec F S1x256 .f32) (x5 : Vec F S4096x64 .f32) (x6 : Vec F S4096x64 .f32) (x7 : Vec F S4x64x128 .f32) (x8 : Vec F S4x128x128 .f32) :
    { L : List (View.Piece (Elt F) S1024x256 .f32) × List (View.Piece (Elt F) S4x4096x128 .f32) × List (View.Piece (Elt F) S4x128x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
                ∗ (∃ f, arg10.view.loc (c : Thread nD τ) ↦[arg10.view.set]{fullShare} arg10.view.writes (Elt F) f L.1)
                ∗ (∃ f, arg11.view.loc (c : Thread nD τ) ↦[arg11.view.set]{fullShare} arg11.view.writes (Elt F) f L.2.1)
                ∗ (∃ f, arg12.view.loc (c : Thread nD τ) ↦[arg12.view.set]{fullShare} arg12.view.writes (Elt F) f L.2.2)) -∗ K ⟨⟩))
          ⊢ wp frame (wpE (defs₀ (F := F)) Variants.none c none) E (cc0__enc_qk_kernel i arg1 harg1 arg2 harg2 arg3 harg3 arg4 harg4 arg5 harg5 arg6 harg6 arg7 harg7 arg8 harg8 arg9 harg9 arg10 harg10 arg11 harg11 arg12 harg12) K } := by
  refine ⟨⟨?_, ?_, ?_⟩, fun E K => ?run⟩
  case run =>
    simp only [cc0__enc_qk_kernel_eq_skeleton]; unfold cc0__enc_qk_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; iexact H9
    isplitl [H10]
    · iexists _; iexact H10
    iexists _; iexact H11

set_option maxHeartbeats 4000000 in
/-- Every later point: the pieces stored into the encoder's output buffer, with the body's triple; the two
    projection buffers are handed back at the contents they were found at. -/
noncomputable def bodyRun0_B (c : Dev nD) (i : grid0.Coords) (arg1 : Memref sig .tc .vmem S1024x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S4x64x128 .f32) (harg8 : arg8.IsWhole) (arg9 : Memref sig .tc .vmem S4x128x128 .f32) (harg9 : arg9.IsWhole) (arg10 : Memref sig .tc .vmem S1024x256 .f32) (harg10 : arg10.IsWhole) (arg11 : Memref sig .tc .vmem S4x4096x128 .f32) (harg11 : arg11.IsWhole) (arg12 : Memref sig .tc .vmem S4x128x4096 .f32) (harg12 : arg12.IsWhole)
    (hc : ¬ k0_cond1 i = 1#1) (x0 : Vec F S1024x1024 .f32) (x1 : Vec F S1024x512 .f32) (x2 : Vec F S1x512 .f32) (x3 : Vec F S512x256 .f32) (x4 : Vec F S1x256 .f32) (x5 : Vec F S4096x64 .f32) (x6 : Vec F S4096x64 .f32) (x7 : Vec F S4x64x128 .f32) (x8 : Vec F S4x128x128 .f32) (xo10 : Vec F S4x4096x128 .f32) (xo11 : Vec F S4x128x4096 .f32) :
    { L : List (View.Piece (Elt F) S1024x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ (∃ d, owns (c : Thread nD τ) arg10 fullShare d) ∗ owns (c : Thread nD τ) arg11 fullShare xo10 ∗ owns (c : Thread nD τ) arg12 fullShare xo11
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
                ∗ (∃ f, arg10.view.loc (c : Thread nD τ) ↦[arg10.view.set]{fullShare} arg10.view.writes (Elt F) f L)
                ∗ owns (c : Thread nD τ) arg11 fullShare xo10 ∗ owns (c : Thread nD τ) arg12 fullShare xo11) -∗ K ⟨⟩))
          ⊢ wp frame (wpE (defs₀ (F := F)) Variants.none c none) E (cc0__enc_qk_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__enc_qk_kernel_eq_skeleton]; unfold cc0__enc_qk_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; iexact H9
    isplitl [H10]
    · iexists f10; isplitr; · ipureintro; exact hf10
      iexact H10
    iexists f11; isplitr; · ipureintro; exact hf11
    iexact H11

end Cert.Kernel.Hand

end
-- ==== Proof.KR0Frame.lean ====
import proofs.«114942_g22505628631095_cont_8to1_462_6_alg».proof.Proof.Gen.Kernel.Launch
import proofs.«114942_g22505628631095_cont_8to1_462_6_alg».proof.Proof.Gen.Kernel.Skeleton
import proofs.«114942_g22505628631095_cont_8to1_462_6_alg».proof.Proof.Gen.Kernel.Points
import proofs.«114942_g22505628631095_cont_8to1_462_6_alg».proof.Proof.KR0Run
import proofs.«114942_g22505628631095_cont_8to1_462_6_alg».proof.Proof.LibIdleKept
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel as a pipeline: proof data and body obligation

Stated at a parameter `V`, the buffer contents when the region is entered. The encoder's output block is
written at every point. The two projection outputs have one block each (their index never moves): the body
fills them at the first point, leaves them untouched afterwards, and the pipeline writes them back after
the last point — so at every point their staging buffers hold what the first point stored. -/

/-- The body's branch is taken at the first point only — decided over the grid. -/
theorem hcond0 : ∀ t : Fin cfg0.N, k0_cond1 (grid0.coords t) = 1#1 ↔ t.val % 4 = 0 :=
  (by decide +kernel : ∀ t : Fin grid0.N, k0_cond1 (grid0.coords t) = 1#1 ↔ t.val % 4 = 0)
/-- The projection windows are live at the first point and idle at the others — decided over the grid. -/
theorem idle0_10_first : ∀ t : Fin cfg0.N, t.val % 4 = 0 → cfg0.idle (10 : Fin 12) (cfg0.grid.coords t) = false :=
  (by decide +kernel : ∀ t : Fin grid0.N, t.val % 4 = 0 → idle0 10 (grid0.coords t) = false)
theorem idle0_10_later : ∀ t : Fin cfg0.N, ¬ t.val % 4 = 0 → cfg0.idle (10 : Fin 12) (cfg0.grid.coords t) = true :=
  (by decide +kernel : ∀ t : Fin grid0.N, ¬ t.val % 4 = 0 → idle0 10 (grid0.coords t) = true)
theorem idle0_11_first : ∀ t : Fin cfg0.N, t.val % 4 = 0 → cfg0.idle (11 : Fin 12) (cfg0.grid.coords t) = false :=
  (by decide +kernel : ∀ t : Fin grid0.N, t.val % 4 = 0 → idle0 11 (grid0.coords t) = false)
theorem idle0_11_later : ∀ t : Fin cfg0.N, ¬ t.val % 4 = 0 → cfg0.idle (11 : Fin 12) (cfg0.grid.coords t) = true :=
  (by decide +kernel : ∀ t : Fin grid0.N, ¬ t.val % 4 = 0 → idle0 11 (grid0.coords t) = true)

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

end

/-- One staging buffer of each output window, through which its contents are stated. -/
abbrev VO0_9 : View sig .tc .vmem S1024x256 .f32 := (Memref.whole cc0_stg9_0 : Memref sig .tc .vmem S1024x256 .f32).view
abbrev VO0_10 : View sig .tc .vmem S4x4096x128 .f32 := (Memref.whole cc0_stg10_0 : Memref sig .tc .vmem S4x4096x128 .f32).view
abbrev VO0_11 : View sig .tc .vmem S4x128x4096 .f32 := (Memref.whole cc0_stg11_0 : Memref sig .tc .vmem S4x128x4096 .f32).view

/-- Each window's current staging memref at point `t`, as the pipeline passes it, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4096x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x64x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x128x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x4096x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S4x128x4096 .f32 := win0_11.stage (cfg0.slots t 11)
abbrev hs0_11 (t : Fin cfg0.N) : (ms0_11 t).IsWhole := hstage0_11 ((cfg0.slots t 11).cast nbuf0_11)

/-! ## The stores cover the buffers they go to -/

theorem cover0_A_9 (c : Dev nD) (i : grid0.Coords) (arg1 : Memref sig .tc .vmem S1024x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S4x64x128 .f32) (harg8 : arg8.IsWhole) (arg9 : Memref sig .tc .vmem S4x128x128 .f32) (harg9 : arg9.IsWhole) (arg10 : Memref sig .tc .vmem S1024x256 .f32) (harg10 : arg10.IsWhole) (arg11 : Memref sig .tc .vmem S4x4096x128 .f32) (harg11 : arg11.IsWhole) (arg12 : Memref sig .tc .vmem S4x128x4096 .f32) (harg12 : arg12.IsWhole) (hc : k0_cond1 i = 1#1)
    (x0 : Vec F S1024x1024 .f32) (x1 : Vec F S1024x512 .f32) (x2 : Vec F S1x512 .f32) (x3 : Vec F S512x256 .f32) (x4 : Vec F S1x256 .f32) (x5 : Vec F S4096x64 .f32) (x6 : Vec F S4096x64 .f32) (x7 : Vec F S4x64x128 .f32) (x8 : Vec F S4x128x128 .f32) (y : S1024x256.Idx) :
    ∃ pc ∈ (bodyRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8).1.1, y ∈ pc.1.set :=
  View.cover_of_tiledL (bodyRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8).1.1 S1024x256.size (by sl_kernel_rfl) y
theorem cover0_A_10 (c : Dev nD) (i : grid0.Coords) (arg1 : Memref sig .tc .vmem S1024x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S4x64x128 .f32) (harg8 : arg8.IsWhole) (arg9 : Memref sig .tc .vmem S4x128x128 .f32) (harg9 : arg9.IsWhole) (arg10 : Memref sig .tc .vmem S1024x256 .f32) (harg10 : arg10.IsWhole) (arg11 : Memref sig .tc .vmem S4x4096x128 .f32) (harg11 : arg11.IsWhole) (arg12 : Memref sig .tc .vmem S4x128x4096 .f32) (harg12 : arg12.IsWhole) (hc : k0_cond1 i = 1#1)
    (x0 : Vec F S1024x1024 .f32) (x1 : Vec F S1024x512 .f32) (x2 : Vec F S1x512 .f32) (x3 : Vec F S512x256 .f32) (x4 : Vec F S1x256 .f32) (x5 : Vec F S4096x64 .f32) (x6 : Vec F S4096x64 .f32) (x7 : Vec F S4x64x128 .f32) (x8 : Vec F S4x128x128 .f32) (y : S4x4096x128.Idx) :
    ∃ pc ∈ (bodyRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8).1.2.1, y ∈ pc.1.set :=
  View.cover_of_tiledL (bodyRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8).1.2.1 S1x4096x128.size (by sl_kernel_rfl) y
theorem cover0_A_11 (c : Dev nD) (i : grid0.Coords) (arg1 : Memref sig .tc .vmem S1024x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S4x64x128 .f32) (harg8 : arg8.IsWhole) (arg9 : Memref sig .tc .vmem S4x128x128 .f32) (harg9 : arg9.IsWhole) (arg10 : Memref sig .tc .vmem S1024x256 .f32) (harg10 : arg10.IsWhole) (arg11 : Memref sig .tc .vmem S4x4096x128 .f32) (harg11 : arg11.IsWhole) (arg12 : Memref sig .tc .vmem S4x128x4096 .f32) (harg12 : arg12.IsWhole) (hc : k0_cond1 i = 1#1)
    (x0 : Vec F S1024x1024 .f32) (x1 : Vec F S1024x512 .f32) (x2 : Vec F S1x512 .f32) (x3 : Vec F S512x256 .f32) (x4 : Vec F S1x256 .f32) (x5 : Vec F S4096x64 .f32) (x6 : Vec F S4096x64 .f32) (x7 : Vec F S4x64x128 .f32) (x8 : Vec F S4x128x128 .f32) (y : S4x128x4096.Idx) :
    ∃ pc ∈ (bodyRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8).1.2.2, y ∈ pc.1.set :=
  View.cover_of_tiledL (bodyRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8).1.2.2 S1x128x4096.size (by sl_kernel_rfl) y
theorem cover0_B_9 (c : Dev nD) (i : grid0.Coords) (arg1 : Memref sig .tc .vmem S1024x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S4x64x128 .f32) (harg8 : arg8.IsWhole) (arg9 : Memref sig .tc .vmem S4x128x128 .f32) (harg9 : arg9.IsWhole) (arg10 : Memref sig .tc .vmem S1024x256 .f32) (harg10 : arg10.IsWhole) (arg11 : Memref sig .tc .vmem S4x4096x128 .f32) (harg11 : arg11.IsWhole) (arg12 : Memref sig .tc .vmem S4x128x4096 .f32) (harg12 : arg12.IsWhole) (hc : ¬ k0_cond1 i = 1#1)
    (x0 : Vec F S1024x1024 .f32) (x1 : Vec F S1024x512 .f32) (x2 : Vec F S1x512 .f32) (x3 : Vec F S512x256 .f32) (x4 : Vec F S1x256 .f32) (x5 : Vec F S4096x64 .f32) (x6 : Vec F S4096x64 .f32) (x7 : Vec F S4x64x128 .f32) (x8 : Vec F S4x128x128 .f32) (xo10 : Vec F S4x4096x128 .f32) (xo11 : Vec F S4x128x4096 .f32) (y : S1024x256.Idx) :
    ∃ pc ∈ (bodyRun0_B c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 xo10 xo11).1, y ∈ pc.1.set :=
  View.cover_of_tiledL (bodyRun0_B c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 xo10 xo11).1 S1024x256.size (by sl_kernel_rfl) y

/-! ## What the body leaves in each output buffer: its stores read back -/

def outA_9 (c : Dev nD) (i : grid0.Coords) (arg1 : Memref sig .tc .vmem S1024x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S4x64x128 .f32) (harg8 : arg8.IsWhole) (arg9 : Memref sig .tc .vmem S4x128x128 .f32) (harg9 : arg9.IsWhole) (arg10 : Memref sig .tc .vmem S1024x256 .f32) (harg10 : arg10.IsWhole) (arg11 : Memref sig .tc .vmem S4x4096x128 .f32) (harg11 : arg11.IsWhole) (arg12 : Memref sig .tc .vmem S4x128x4096 .f32) (harg12 : arg12.IsWhole) (hc : k0_cond1 i = 1#1)
    (x0 : Vec F S1024x1024 .f32) (x1 : Vec F S1024x512 .f32) (x2 : Vec F S1x512 .f32) (x3 : Vec F S512x256 .f32) (x4 : Vec F S1x256 .f32) (x5 : Vec F S4096x64 .f32) (x6 : Vec F S4096x64 .f32) (x7 : Vec F S4x64x128 .f32) (x8 : Vec F S4x128x128 .f32) : Vec F S1024x256 .f32 :=
  VO0_9.read (Elt F) (VO0_9.writes (Elt F) VO0_9.junk (bodyRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8).1.1)
def outA_10 (c : Dev nD) (i : grid0.Coords) (arg1 : Memref sig .tc .vmem S1024x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S4x64x128 .f32) (harg8 : arg8.IsWhole) (arg9 : Memref sig .tc .vmem S4x128x128 .f32) (harg9 : arg9.IsWhole) (arg10 : Memref sig .tc .vmem S1024x256 .f32) (harg10 : arg10.IsWhole) (arg11 : Memref sig .tc .vmem S4x4096x128 .f32) (harg11 : arg11.IsWhole) (arg12 : Memref sig .tc .vmem S4x128x4096 .f32) (harg12 : arg12.IsWhole) (hc : k0_cond1 i = 1#1)
    (x0 : Vec F S1024x1024 .f32) (x1 : Vec F S1024x512 .f32) (x2 : Vec F S1x512 .f32) (x3 : Vec F S512x256 .f32) (x4 : Vec F S1x256 .f32) (x5 : Vec F S4096x64 .f32) (x6 : Vec F S4096x64 .f32) (x7 : Vec F S4x64x128 .f32) (x8 : Vec F S4x128x128 .f32) : Vec F S4x4096x128 .f32 :=
  VO0_10.read (Elt F) (VO0_10.writes (Elt F) VO0_10.junk (bodyRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8).1.2.1)
def outA_11 (c : Dev nD) (i : grid0.Coords) (arg1 : Memref sig .tc .vmem S1024x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S4x64x128 .f32) (harg8 : arg8.IsWhole) (arg9 : Memref sig .tc .vmem S4x128x128 .f32) (harg9 : arg9.IsWhole) (arg10 : Memref sig .tc .vmem S1024x256 .f32) (harg10 : arg10.IsWhole) (arg11 : Memref sig .tc .vmem S4x4096x128 .f32) (harg11 : arg11.IsWhole) (arg12 : Memref sig .tc .vmem S4x128x4096 .f32) (harg12 : arg12.IsWhole) (hc : k0_cond1 i = 1#1)
    (x0 : Vec F S1024x1024 .f32) (x1 : Vec F S1024x512 .f32) (x2 : Vec F S1x512 .f32) (x3 : Vec F S512x256 .f32) (x4 : Vec F S1x256 .f32) (x5 : Vec F S4096x64 .f32) (x6 : Vec F S4096x64 .f32) (x7 : Vec F S4x64x128 .f32) (x8 : Vec F S4x128x128 .f32) : Vec F S4x128x4096 .f32 :=
  VO0_11.read (Elt F) (VO0_11.writes (Elt F) VO0_11.junk (bodyRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8).1.2.2)
def outB_9 (c : Dev nD) (i : grid0.Coords) (arg1 : Memref sig .tc .vmem S1024x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S4x64x128 .f32) (harg8 : arg8.IsWhole) (arg9 : Memref sig .tc .vmem S4x128x128 .f32) (harg9 : arg9.IsWhole) (arg10 : Memref sig .tc .vmem S1024x256 .f32) (harg10 : arg10.IsWhole) (arg11 : Memref sig .tc .vmem S4x4096x128 .f32) (harg11 : arg11.IsWhole) (arg12 : Memref sig .tc .vmem S4x128x4096 .f32) (harg12 : arg12.IsWhole) (hc : ¬ k0_cond1 i = 1#1)
    (x0 : Vec F S1024x1024 .f32) (x1 : Vec F S1024x512 .f32) (x2 : Vec F S1x512 .f32) (x3 : Vec F S512x256 .f32) (x4 : Vec F S1x256 .f32) (x5 : Vec F S4096x64 .f32) (x6 : Vec F S4096x64 .f32) (x7 : Vec F S4x64x128 .f32) (x8 : Vec F S4x128x128 .f32) (xo10 : Vec F S4x4096x128 .f32) (xo11 : Vec F S4x128x4096 .f32) : Vec F S1024x256 .f32 :=
  VO0_9.read (Elt F) (VO0_9.writes (Elt F) VO0_9.junk (bodyRun0_B c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 xo10 xo11).1)

section
variable (V : (c : Dev nD) → (b : Ref sig .tc) → Buf (Elt F) ((c : Thread nD τ).loc b))

/-- What the first point stores into the two projection buffers: what they hold from then on. -/
def Q10 (c : Dev nD) : Vec F S4x4096x128 .f32 :=
  outA_10 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) ((hcond0 t0_0).mpr (Nat.zero_mod 4)) (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0) (iblk0 V c 8 t0_0)
def Q11 (c : Dev nD) : Vec F S4x128x4096 .f32 :=
  outA_11 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) ((hcond0 t0_0).mpr (Nat.zero_mod 4)) (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0) (iblk0 V c 8 t0_0)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ =>
      if h : t.val % 4 = 0 then outA_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0 t).mpr h) (iblk0 V c 0 t) (iblk0 V c 1 t) (iblk0 V c 2 t) (iblk0 V c 3 t) (iblk0 V c 4 t) (iblk0 V c 5 t) (iblk0 V c 6 t) (iblk0 V c 7 t) (iblk0 V c 8 t)
      else outB_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun hc => h ((hcond0 t).mp hc)) (iblk0 V c 0 t) (iblk0 V c 1 t) (iblk0 V c 2 t) (iblk0 V c 3 t) (iblk0 V c 4 t) (iblk0 V c 5 t) (iblk0 V c 6 t) (iblk0 V c 7 t) (iblk0 V c 8 t) (Q10 V c) (Q11 V c)
    | ⟨10, _⟩ => Q10 V c
    | ⟨11, _⟩ => Q11 V c
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9_A (c : Dev nD) (t : Fin cfg0.N) (h : t.val % 4 = 0) :
    (dat0 V c).after 9 t = outA_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0 t).mpr h) (iblk0 V c 0 t) (iblk0 V c 1 t) (iblk0 V c 2 t) (iblk0 V c 3 t) (iblk0 V c 4 t) (iblk0 V c 5 t) (iblk0 V c 6 t) (iblk0 V c 7 t) (iblk0 V c 8 t) := by
  dsimp only [dat0]; exact dif_pos h
theorem after0_9_B (c : Dev nD) (t : Fin cfg0.N) (h : ¬ t.val % 4 = 0) :
    (dat0 V c).after 9 t = outB_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun hc => h ((hcond0 t).mp hc)) (iblk0 V c 0 t) (iblk0 V c 1 t) (iblk0 V c 2 t) (iblk0 V c 3 t) (iblk0 V c 4 t) (iblk0 V c 5 t) (iblk0 V c 6 t) (iblk0 V c 7 t) (iblk0 V c 8 t) (Q10 V c) (Q11 V c) := by
  dsimp only [dat0]; exact dif_neg h
theorem after0_10 (c : Dev nD) (t : Fin cfg0.N) : (dat0 V c).after 10 t = Q10 V c := by dsimp only [dat0]
theorem after0_11 (c : Dev nD) (t : Fin cfg0.N) : (dat0 V c).after 11 t = Q11 V c := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- After the first point a projection buffer holds what the first point stored: nothing is written back
    before the last point and the window is idle in between. -/
theorem before0_10_later (c : Dev nD) (t : Fin cfg0.N) (h0 : ¬ t.val % 4 = 0) (d) : (dat0 V c).before 10 t d = Q10 V c := by
  have hN : t.val < 4 := lt_of_lt_of_eq t.isLt (show cfg0.N = 4 from N_0)
  obtain ⟨n, hn⟩ := t
  cases n with
  | zero => exact absurd (Nat.zero_mod 4) h0
  | succ n =>
    have hpos : 0 < cfg0.N := by rw [show cfg0.N = 4 from N_0]; decide
    rw [Pipeline.Dat.before_out_through_idle (dat0 V c) 10 rfl (fun _ _ => rfl) hpos (idle0_10_first ⟨0, hpos⟩ (Nat.zero_mod 4)) n hn
      (fun s hs => Bool.eq_false_iff.mpr fun h => by have := (flush0_10 s).mp h; dsimp only at hN; omega)
      (fun s hpos' hs => idle0_10_later s (by dsimp only at hN; omega)) d]
    dsimp only [dat0]
theorem before0_11_later (c : Dev nD) (t : Fin cfg0.N) (h0 : ¬ t.val % 4 = 0) (d) : (dat0 V c).before 11 t d = Q11 V c := by
  have hN : t.val < 4 := lt_of_lt_of_eq t.isLt (show cfg0.N = 4 from N_0)
  obtain ⟨n, hn⟩ := t
  cases n with
  | zero => exact absurd (Nat.zero_mod 4) h0
  | succ n =>
    have hpos : 0 < cfg0.N := by rw [show cfg0.N = 4 from N_0]; decide
    rw [Pipeline.Dat.before_out_through_idle (dat0 V c) 11 rfl (fun _ _ => rfl) hpos (idle0_11_first ⟨0, hpos⟩ (Nat.zero_mod 4)) n hn
      (fun s hs => Bool.eq_false_iff.mpr fun h => by have := (flush0_11 s).mp h; dsimp only at hN; omega)
      (fun s hpos' hs => idle0_11_later s (by dsimp only at hN; omega)) d]
    dsimp only [dat0]

/-- What the body is called with at point `t`, the windows one by one. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d)))

/-- What it returns at the first point: every buffer at the stated contents. -/
def bodyPost0_live (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t))

/-- What it returns at a middle point: the projection buffers as found. -/
def bodyPost0_idle (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ (∃ d, owns (c : Thread nD τ) (ms0_10 t) fullShare ((dat0 V c).before 10 t d))
    ∗ (∃ d, owns (c : Thread nD τ) (ms0_11 t) fullShare ((dat0 V c).before 11 t d)))

set_option maxHeartbeats 1600000 in
/-- The first point: the branch is taken and all three output buffers are covered by the body's stores. -/
theorem sound_body0_first (c : Dev nD) (t : Fin cfg0.N) (h0 : t.val % 4 = 0) :
    bodyPre0 V c t ⊢ wp frame (wpE (defs₀ (F := F)) Variants.none c none) Set.univ (bodyAt0 t) (fun _ => bodyPost0_live V c t) := by
  have hN : t.val < 4 := lt_of_lt_of_eq t.isLt (show cfg0.N = 4 from N_0)
  obtain rfl : t = t0_0 := Fin.ext (by unfold t0_0; dsimp only; omega)
  unfold bodyPre0 bodyPost0_live bodyAt0
  simp only [before0_0, before0_1, before0_2, before0_3, before0_4, before0_5, before0_6, before0_7, before0_8]
  rw [show (dat0 V c).Φ t0_0.succ = (dat0 V c).Φ t0_0.castSucc from rfl,
    show (dat0 V c).owesAt () t0_0.succ = (dat0 V c).owesAt () t0_0.castSucc from rfl,
    after0_0, after0_1, after0_2, after0_3, after0_4, after0_5, after0_6, after0_7, after0_8, after0_9_A V c t0_0 h0, after0_10, after0_11]
  unfold Q10 Q11 outA_9 outA_10 outA_11
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((bodyRun0_A c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) ((hcond0 t0_0).mpr h0) (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0) (iblk0 V c 8 t0_0)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, ⟨%e9, H9⟩, ⟨%e10, H10⟩, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (cover0_A_9 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) ((hcond0 t0_0).mpr h0) (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0) (iblk0 V c 8 t0_0))
  isplitl [H10]
  · unfold owns; iexists _; isplitr
    swap; · iexact H10
    ipureintro; exact View.read_writes_of_cover _ _ _ _ _ (cover0_A_10 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) ((hcond0 t0_0).mpr h0) (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0) (iblk0 V c 8 t0_0))
  unfold owns; iexists _; isplitr
  swap; · iexact H11
  ipureintro; exact View.read_writes_of_cover _ _ _ _ _ (cover0_A_11 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) ((hcond0 t0_0).mpr h0) (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0) (iblk0 V c 8 t0_0))

set_option maxHeartbeats 1600000 in
/-- A later point, the projection buffers handed back at the stated contents (the last point's form). -/
theorem sound_body0_last (c : Dev nD) (t : Fin cfg0.N) (h0 : ¬ t.val % 4 = 0) :
    bodyPre0 V c t ⊢ wp frame (wpE (defs₀ (F := F)) Variants.none c none) Set.univ (bodyAt0 t) (fun _ => bodyPost0_live V c t) := by
  unfold bodyPre0 bodyPost0_live bodyAt0
  simp only [before0_0, before0_1, before0_2, before0_3, before0_4, before0_5, before0_6, before0_7, before0_8, before0_10_later V c t h0, before0_11_later V c t h0]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9_B V c t h0, after0_10, after0_11]
  unfold outB_9
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((bodyRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun hc => h0 ((hcond0 t).mp hc)) (iblk0 V c 0 t) (iblk0 V c 1 t) (iblk0 V c 2 t) (iblk0 V c 3 t) (iblk0 V c 4 t) (iblk0 V c 5 t) (iblk0 V c 6 t) (iblk0 V c 7 t) (iblk0 V c 8 t) (Q10 V c) (Q11 V c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  iintro ⟨H0, H1, H2, H3, H4, H5, H6, H7, H8, ⟨%e9, H9⟩, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (cover0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun hc => h0 ((hcond0 t).mp hc)) (iblk0 V c 0 t) (iblk0 V c 1 t) (iblk0 V c 2 t) (iblk0 V c 3 t) (iblk0 V c 4 t) (iblk0 V c 5 t) (iblk0 V c 6 t) (iblk0 V c 7 t) (iblk0 V c 8 t) (Q10 V c) (Q11 V c))
  isplitl [H10]; · iexact H10
  iexact H11

set_option maxHeartbeats 1600000 in
/-- A later point, the projection buffers handed back as found (a middle point's form). -/
theorem sound_body0_middle (c : Dev nD) (t : Fin cfg0.N) (h0 : ¬ t.val % 4 = 0) :
    bodyPre0 V c t ⊢ wp frame (wpE (defs₀ (F := F)) Variants.none c none) Set.univ (bodyAt0 t) (fun _ => bodyPost0_idle V c t) := by
  unfold bodyPre0 bodyPost0_idle bodyAt0
  simp only [before0_0, before0_1, before0_2, before0_3, before0_4, before0_5, before0_6, before0_7, before0_8, before0_10_later V c t h0, before0_11_later V c t h0]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9_B V c t h0]
  unfold outB_9
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((bodyRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun hc => h0 ((hcond0 t).mp hc)) (iblk0 V c 0 t) (iblk0 V c 1 t) (iblk0 V c 2 t) (iblk0 V c 3 t) (iblk0 V c 4 t) (iblk0 V c 5 t) (iblk0 V c 6 t) (iblk0 V c 7 t) (iblk0 V c 8 t) (Q10 V c) (Q11 V c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  iintro ⟨H0, H1, H2, H3, H4, H5, H6, H7, H8, ⟨%e9, H9⟩, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (cover0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun hc => h0 ((hcond0 t).mp hc)) (iblk0 V c 0 t) (iblk0 V c 1 t) (iblk0 V c 2 t) (iblk0 V c 3 t) (iblk0 V c 4 t) (iblk0 V c 5 t) (iblk0 V c 6 t) (iblk0 V c 7 t) (iblk0 V c 8 t) (Q10 V c) (Q11 V c))
  isplitl [H10]; · iexists d10; iexact H10
  iexists d11; iexact H11

/-- The library's body obligation, at every point. -/
theorem body_obligation0 (c : Dev nD) : BodyObligation (dat0 (F := F) V c) (defs₀ (F := F)) Variants.none () Set.univ := fun t => by
  have hN : t.val < 4 := lt_of_lt_of_eq t.isLt (show cfg0.N = 4 from N_0)
  rw [bigSep_W0, bigSep_W0]
  by_cases h0 : t.val % 4 = 0
  · rw [idle0_10_first t h0]; try rw [idle0_11_first t h0]
    exact sound_body0_first V c t h0
  · by_cases h3 : t.val % 4 = 3
    · have hf10 : (cfg0.win (10 : Fin 12)).flush t = true := (flush0_10 t).mpr h3
      have hf11 : (cfg0.win (11 : Fin 12)).flush t = true := (flush0_11 t).mpr h3
      rw [idle0_10_later t h0]; (try rw [idle0_11_later t h0]); rw [hf10]; try rw [hf11]
      exact sound_body0_last V c t h0
    · have hf10 : (cfg0.win (10 : Fin 12)).flush t = false := Bool.eq_false_iff.mpr (fun h => h3 ((flush0_10 t).mp h))
      have hf11 : (cfg0.win (11 : Fin 12)).flush t = false := Bool.eq_false_iff.mpr (fun h => h3 ((flush0_11 t).mp h))
      rw [idle0_10_later t h0]; (try rw [idle0_11_later t h0]); rw [hf10]; try rw [hf11]
      exact sound_body0_middle V c t h0

end

end Cert.Kernel.Hand

end
-- ==== Proof.KR1Run.lean ====
import proofs.«114942_g22505628631095_cont_8to1_462_6_alg».proof.Proof.Gen.Kernel.Launch
import proofs.«114942_g22505628631095_cont_8to1_462_6_alg».proof.Proof.Gen.Kernel.Skeleton
import proofs.«114942_g22505628631095_cont_8to1_462_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's body, run once on arbitrary staging buffers

The body reads its eight input buffers and overwrites both output buffers whole; the stores it makes
are found by running it, and kept as the witness of a subtype. -/

set_option maxHeartbeats 4000000 in
/-- The pieces the body stores into the two output buffers (last store first), with the proof that from the
    input buffers at contents `x0 … x7` and the output buffers at anything the body runs to a state with the
    inputs unchanged and each output buffer overwritten by its pieces. -/
noncomputable def bodyRun1 (c : Dev nD) (i : grid1.Coords) (arg1 : Memref sig .tc .vmem S4x256x128 .f32) (harg1 : arg1.IsWhole) (arg2 : Memref sig .tc .vmem S4x128x4096 .f32) (harg2 : arg2.IsWhole) (arg3 : Memref sig .tc .vmem S256x4096 .f32) (harg3 : arg3.IsWhole) (arg4 : Memref sig .tc .vmem S4096x256 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S256x256 .f32) (harg9 : arg9.IsWhole) (arg10 : Memref sig .tc .vmem S256x1024 .f32) (harg10 : arg10.IsWhole)
    (x0 : Vec F S4x256x128 .f32) (x1 : Vec F S4x128x4096 .f32) (x2 : Vec F S256x4096 .f32) (x3 : Vec F S4096x256 .f32) (x4 : Vec F S256x512 .f32) (x5 : Vec F S1x512 .f32) (x6 : Vec F S512x1024 .f32) (x7 : Vec F S1x1024 .f32) :
    { L : List (View.Piece (Elt F) S256x256 .f32) × List (View.Piece (Elt F) S256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg9.view.loc (c : Thread nD τ) ↦[arg9.view.set]{fullShare} arg9.view.writes (Elt F) f L.1)
                ∗ (∃ f, arg10.view.loc (c : Thread nD τ) ↦[arg10.view.set]{fullShare} arg10.view.writes (Elt F) f L.2)) -∗ K ⟨⟩))
          ⊢ wp frame (wpE (defs₀ (F := F)) Variants.none c none) E (cc1__attn_dec_kernel i arg1 harg1 arg2 harg2 arg3 harg3 arg4 harg4 arg5 harg5 arg6 harg6 arg7 harg7 arg8 harg8 arg9 harg9 arg10 harg10) K } := by
  refine ⟨⟨?_, ?_⟩, fun E K => ?run⟩
  case run =>
    simp only [cc1__attn_dec_kernel_eq_skeleton]; unfold cc1__attn_dec_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    iexists _; iexact H9

end Cert.Kernel.Hand

end
-- ==== Proof.KR1Frame.lean ====
import proofs.«114942_g22505628631095_cont_8to1_462_6_alg».proof.Proof.Gen.Kernel.Launch
import proofs.«114942_g22505628631095_cont_8to1_462_6_alg».proof.Proof.Gen.Kernel.Skeleton
import proofs.«114942_g22505628631095_cont_8to1_462_6_alg».proof.Proof.Gen.Kernel.Points
import proofs.«114942_g22505628631095_cont_8to1_462_6_alg».proof.Proof.KR1Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel as a pipeline: proof data and body obligation

Stated at a parameter `V`, the buffer contents when the region is entered. Every input window's current
staging buffer holds the window's block of its array at every point; each output buffer ends the body
holding the read-back of the body's stores, which tile it. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

end

/-- One staging buffer of each output window, through which its contents are stated. -/
abbrev VO1_8 : View sig .tc .vmem S256x256 .f32 := (Memref.whole cc1_stg8_0 : Memref sig .tc .vmem S256x256 .f32).view
abbrev VO1_9 : View sig .tc .vmem S256x1024 .f32 := (Memref.whole cc1_stg9_0 : Memref sig .tc .vmem S256x1024 .f32).view

/-- Each window's current staging memref at point `t`, as the pipeline passes it, and its wholeness. -/
abbrev ms1_0 (t : Fin cfg1.N) : Memref sig .tc .vmem S4x256x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x128x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1024 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S256x256 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S256x1024 .f32 := win1_9.stage (cfg1.slots t 9)
abbrev hs1_9 (t : Fin cfg1.N) : (ms1_9 t).IsWhole := hstage1_9 ((cfg1.slots t 9).cast nbuf1_9)

/-- The stores into the attention output's buffer tile it, so they cover it. -/
theorem cover1_8 (c : Dev nD) (i : grid1.Coords) (arg1 : Memref sig .tc .vmem S4x256x128 .f32) (harg1 : arg1.IsWhole) (arg2 : Memref sig .tc .vmem S4x128x4096 .f32) (harg2 : arg2.IsWhole) (arg3 : Memref sig .tc .vmem S256x4096 .f32) (harg3 : arg3.IsWhole) (arg4 : Memref sig .tc .vmem S4096x256 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S256x256 .f32) (harg9 : arg9.IsWhole) (arg10 : Memref sig .tc .vmem S256x1024 .f32) (harg10 : arg10.IsWhole)
    (x0 : Vec F S4x256x128 .f32) (x1 : Vec F S4x128x4096 .f32) (x2 : Vec F S256x4096 .f32) (x3 : Vec F S4096x256 .f32) (x4 : Vec F S256x512 .f32) (x5 : Vec F S1x512 .f32) (x6 : Vec F S512x1024 .f32) (x7 : Vec F S1x1024 .f32) (y : S256x256.Idx) :
    ∃ pc ∈ (bodyRun1 c i arg1 harg1 arg2 harg2 arg3 harg3 arg4 harg4 arg5 harg5 arg6 harg6 arg7 harg7 arg8 harg8 arg9 harg9 arg10 harg10 x0 x1 x2 x3 x4 x5 x6 x7).1.1, y ∈ pc.1.set :=
  View.cover_of_tiledL (bodyRun1 c i arg1 harg1 arg2 harg2 arg3 harg3 arg4 harg4 arg5 harg5 arg6 harg6 arg7 harg7 arg8 harg8 arg9 harg9 arg10 harg10 x0 x1 x2 x3 x4 x5 x6 x7).1.1 S256x256.size (by sl_kernel_rfl) y

/-- The stores into the decoder output's buffer tile it, so they cover it. -/
theorem cover1_9 (c : Dev nD) (i : grid1.Coords) (arg1 : Memref sig .tc .vmem S4x256x128 .f32) (harg1 : arg1.IsWhole) (arg2 : Memref sig .tc .vmem S4x128x4096 .f32) (harg2 : arg2.IsWhole) (arg3 : Memref sig .tc .vmem S256x4096 .f32) (harg3 : arg3.IsWhole) (arg4 : Memref sig .tc .vmem S4096x256 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S256x256 .f32) (harg9 : arg9.IsWhole) (arg10 : Memref sig .tc .vmem S256x1024 .f32) (harg10 : arg10.IsWhole)
    (x0 : Vec F S4x256x128 .f32) (x1 : Vec F S4x128x4096 .f32) (x2 : Vec F S256x4096 .f32) (x3 : Vec F S4096x256 .f32) (x4 : Vec F S256x512 .f32) (x5 : Vec F S1x512 .f32) (x6 : Vec F S512x1024 .f32) (x7 : Vec F S1x1024 .f32) (y : S256x1024.Idx) :
    ∃ pc ∈ (bodyRun1 c i arg1 harg1 arg2 harg2 arg3 harg3 arg4 harg4 arg5 harg5 arg6 harg6 arg7 harg7 arg8 harg8 arg9 harg9 arg10 harg10 x0 x1 x2 x3 x4 x5 x6 x7).1.2, y ∈ pc.1.set :=
  View.cover_of_tiledL (bodyRun1 c i arg1 harg1 arg2 harg2 arg3 harg3 arg4 harg4 arg5 harg5 arg6 harg6 arg7 harg7 arg8 harg8 arg9 harg9 arg10 harg10 x0 x1 x2 x3 x4 x5 x6 x7).1.2 S256x1024.size (by sl_kernel_rfl) y

/-- What the body leaves in the attention output's staging buffer: its stores read back. -/
def out1_8 (c : Dev nD) (i : grid1.Coords) (arg1 : Memref sig .tc .vmem S4x256x128 .f32) (harg1 : arg1.IsWhole) (arg2 : Memref sig .tc .vmem S4x128x4096 .f32) (harg2 : arg2.IsWhole) (arg3 : Memref sig .tc .vmem S256x4096 .f32) (harg3 : arg3.IsWhole) (arg4 : Memref sig .tc .vmem S4096x256 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S256x256 .f32) (harg9 : arg9.IsWhole) (arg10 : Memref sig .tc .vmem S256x1024 .f32) (harg10 : arg10.IsWhole)
    (x0 : Vec F S4x256x128 .f32) (x1 : Vec F S4x128x4096 .f32) (x2 : Vec F S256x4096 .f32) (x3 : Vec F S4096x256 .f32) (x4 : Vec F S256x512 .f32) (x5 : Vec F S1x512 .f32) (x6 : Vec F S512x1024 .f32) (x7 : Vec F S1x1024 .f32) : Vec F S256x256 .f32 :=
  VO1_8.read (Elt F) (VO1_8.writes (Elt F) VO1_8.junk (bodyRun1 c i arg1 harg1 arg2 harg2 arg3 harg3 arg4 harg4 arg5 harg5 arg6 harg6 arg7 harg7 arg8 harg8 arg9 harg9 arg10 harg10 x0 x1 x2 x3 x4 x5 x6 x7).1.1)

/-- What the body leaves in the decoder output's staging buffer: its stores read back. -/
def out1_9 (c : Dev nD) (i : grid1.Coords) (arg1 : Memref sig .tc .vmem S4x256x128 .f32) (harg1 : arg1.IsWhole) (arg2 : Memref sig .tc .vmem S4x128x4096 .f32) (harg2 : arg2.IsWhole) (arg3 : Memref sig .tc .vmem S256x4096 .f32) (harg3 : arg3.IsWhole) (arg4 : Memref sig .tc .vmem S4096x256 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S256x256 .f32) (harg9 : arg9.IsWhole) (arg10 : Memref sig .tc .vmem S256x1024 .f32) (harg10 : arg10.IsWhole)
    (x0 : Vec F S4x256x128 .f32) (x1 : Vec F S4x128x4096 .f32) (x2 : Vec F S256x4096 .f32) (x3 : Vec F S4096x256 .f32) (x4 : Vec F S256x512 .f32) (x5 : Vec F S1x512 .f32) (x6 : Vec F S512x1024 .f32) (x7 : Vec F S1x1024 .f32) : Vec F S256x1024 .f32 :=
  VO1_9.read (Elt F) (VO1_9.writes (Elt F) VO1_9.junk (bodyRun1 c i arg1 harg1 arg2 harg2 arg3 harg3 arg4 harg4 arg5 harg5 arg6 harg6 arg7 harg7 arg8 harg8 arg9 harg9 arg10 harg10 x0 x1 x2 x3 x4 x5 x6 x7).1.2)

section
variable (V : (c : Dev nD) → (b : Ref sig .tc) → Buf (Elt F) ((c : Thread nD τ).loc b))

/-- The proof data of the second pipeline on core `c`: the arrays as the region finds them; after the body at
    point `t` each input's buffer at its block and each output's at the read-back of the body's stores;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t)
    | ⟨9, _⟩ => out1_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V c).after 9 t = out1_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t))

set_option maxHeartbeats 1600000 in
/-- The body at any point: the inputs' buffers hold their blocks, so the run applies; the invariant and the
    core's dues pass through unread; each output buffer's stores cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  unfold out1_8 out1_9
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((bodyRun1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover1_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t))
  unfold owns; iexists _; isplitr
  swap; · iexact H9
  ipureintro; exact View.read_writes_of_cover _ _ _ _ _ (cover1_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t))

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.KRun.lean ====
import proofs.«114942_g22505628631095_cont_8to1_462_6_alg».proof.Proof.Gen.Kernel.Launch
import proofs.«114942_g22505628631095_cont_8to1_462_6_alg».proof.Proof.Gen.Kernel.Skeleton
import proofs.«114942_g22505628631095_cont_8to1_462_6_alg».proof.Proof.Gen.Kernel.Points
import proofs.«114942_g22505628631095_cont_8to1_462_6_alg».proof.Proof.Gen.Kernel.Regions
import proofs.«114942_g22505628631095_cont_8to1_462_6_alg».proof.Proof.KR0Frame
import proofs.«114942_g22505628631095_cont_8to1_462_6_alg».proof.Proof.KR1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole program's run: host stretch, first kernel, host stretch, second kernel

The buffer contents at each boundary are a fold from the launch memory: a host stretch applies its
operations; a kernel region replaces each of its arrays by what the pipeline's write-backs leave and keeps every
other buffer. The run ends with every unscoped buffer at the last boundary's contents. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the first kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first kernel's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second kernel's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second kernel's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What each step keeps -/

theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h
theorem W2_keep (c : Dev nD) (b : Ref sig .tc) (hb : ∀ w, Pipeline.arrRef spec0 w ≠ b) :
    W2 m ρ c (Proc.devRef .tc b) = W1 m ρ c (Proc.devRef .tc b) := W2_of_ne m ρ c b hb
theorem W4_keep (c : Dev nD) (b : Ref sig .tc) (hb : ∀ w, Pipeline.arrRef spec1 w ≠ b) :
    W4 m ρ c (Proc.devRef .tc b) = W3 m ρ c (Proc.devRef .tc b) := W4_of_ne m ρ c b hb
/-- An array a region only reads through an input window is left as entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-! ## The arguments end as launched -/

theorem W4_main_arg0 (c : Dev nD) : W4 m ρ c (Proc.devRef .tc main_arg0) = m ((c : Thread nD τ).loc main_arg0) :=
  (W4_in m ρ c 2 rfl).trans <| (W3_keep m ρ c main_arg0 (by decide)).trans <| (W2_keep m ρ c main_arg0 (by decide)).trans <| (W1_keep m ρ c main_arg0 (by decide)).trans rfl
theorem W4_main_arg1 (c : Dev nD) : W4 m ρ c (Proc.devRef .tc main_arg1) = m ((c : Thread nD τ).loc main_arg1) :=
  (W4_keep m ρ c main_arg1 (by decide)).trans <| (W3_keep m ρ c main_arg1 (by decide)).trans <| (W2_in m ρ c 5 rfl).trans <| (W1_keep m ρ c main_arg1 (by decide)).trans rfl
theorem W4_main_arg2 (c : Dev nD) : W4 m ρ c (Proc.devRef .tc main_arg2) = m ((c : Thread nD τ).loc main_arg2) :=
  (W4_keep m ρ c main_arg2 (by decide)).trans <| (W3_keep m ρ c main_arg2 (by decide)).trans <| (W2_in m ρ c 6 rfl).trans <| (W1_keep m ρ c main_arg2 (by decide)).trans rfl
theorem W4_main_arg3 (c : Dev nD) : W4 m ρ c (Proc.devRef .tc main_arg3) = m ((c : Thread nD τ).loc main_arg3) :=
  (W4_keep m ρ c main_arg3 (by decide)).trans <| (W3_keep m ρ c main_arg3 (by decide)).trans <| (W2_in m ρ c 0 rfl).trans <| (W1_keep m ρ c main_arg3 (by decide)).trans rfl
theorem W4_main_arg4 (c : Dev nD) : W4 m ρ c (Proc.devRef .tc main_arg4) = m ((c : Thread nD τ).loc main_arg4) :=
  (W4_keep m ρ c main_arg4 (by decide)).trans <| (W3_keep m ρ c main_arg4 (by decide)).trans <| (W2_in m ρ c 1 rfl).trans <| (W1_keep m ρ c main_arg4 (by decide)).trans rfl
theorem W4_main_arg5 (c : Dev nD) : W4 m ρ c (Proc.devRef .tc main_arg5) = m ((c : Thread nD τ).loc main_arg5) :=
  (W4_keep m ρ c main_arg5 (by decide)).trans <| (W3_keep m ρ c main_arg5 (by decide)).trans <| (W2_keep m ρ c main_arg5 (by decide)).trans <| (W1_keep m ρ c main_arg5 (by decide)).trans rfl
theorem W4_main_arg6 (c : Dev nD) : W4 m ρ c (Proc.devRef .tc main_arg6) = m ((c : Thread nD τ).loc main_arg6) :=
  (W4_keep m ρ c main_arg6 (by decide)).trans <| (W3_keep m ρ c main_arg6 (by decide)).trans <| (W2_in m ρ c 3 rfl).trans <| (W1_keep m ρ c main_arg6 (by decide)).trans rfl
theorem W4_main_arg7 (c : Dev nD) : W4 m ρ c (Proc.devRef .tc main_arg7) = m ((c : Thread nD τ).loc main_arg7) :=
  (W4_keep m ρ c main_arg7 (by decide)).trans <| (W3_keep m ρ c main_arg7 (by decide)).trans <| (W2_keep m ρ c main_arg7 (by decide)).trans <| (W1_keep m ρ c main_arg7 (by decide)).trans rfl
theorem W4_main_arg8 (c : Dev nD) : W4 m ρ c (Proc.devRef .tc main_arg8) = m ((c : Thread nD τ).loc main_arg8) :=
  (W4_in m ρ c 4 rfl).trans <| (W3_keep m ρ c main_arg8 (by decide)).trans <| (W2_keep m ρ c main_arg8 (by decide)).trans <| (W1_keep m ρ c main_arg8 (by decide)).trans rfl
theorem W4_main_arg9 (c : Dev nD) : W4 m ρ c (Proc.devRef .tc main_arg9) = m ((c : Thread nD τ).loc main_arg9) :=
  (W4_keep m ρ c main_arg9 (by decide)).trans <| (W3_keep m ρ c main_arg9 (by decide)).trans <| (W2_keep m ρ c main_arg9 (by decide)).trans <| (W1_keep m ρ c main_arg9 (by decide)).trans rfl
theorem W4_main_arg10 (c : Dev nD) : W4 m ρ c (Proc.devRef .tc main_arg10) = m ((c : Thread nD τ).loc main_arg10) :=
  (W4_in m ρ c 6 rfl).trans <| (W3_keep m ρ c main_arg10 (by decide)).trans <| (W2_keep m ρ c main_arg10 (by decide)).trans <| (W1_keep m ρ c main_arg10 (by decide)).trans rfl
theorem W4_main_arg11 (c : Dev nD) : W4 m ρ c (Proc.devRef .tc main_arg11) = m ((c : Thread nD τ).loc main_arg11) :=
  (W4_keep m ρ c main_arg11 (by decide)).trans <| (W3_keep m ρ c main_arg11 (by decide)).trans <| (W2_keep m ρ c main_arg11 (by decide)).trans <| (W1_keep m ρ c main_arg11 (by decide)).trans rfl
theorem W4_main_arg12 (c : Dev nD) : W4 m ρ c (Proc.devRef .tc main_arg12) = m ((c : Thread nD τ).loc main_arg12) :=
  (W4_keep m ρ c main_arg12 (by decide)).trans <| (W3_keep m ρ c main_arg12 (by decide)).trans <| (W2_in m ρ c 7 rfl).trans <| (W1_keep m ρ c main_arg12 (by decide)).trans rfl
theorem W4_main_arg13 (c : Dev nD) : W4 m ρ c (Proc.devRef .tc main_arg13) = m ((c : Thread nD τ).loc main_arg13) :=
  (W4_keep m ρ c main_arg13 (by decide)).trans <| (W3_keep m ρ c main_arg13 (by decide)).trans <| (W2_in m ρ c 8 rfl).trans <| (W1_keep m ρ c main_arg13 (by decide)).trans rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 as a segment over the thread state: entered with every unscoped buffer at the contents before it,
    left with them at the contents after it. Its arrays are split out of the unscoped buffers on entry and put
    back on exit; the generator register rides through the invariant; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment over the thread state: entered with every unscoped buffer at the contents before it,
    left with them at the contents after it. Its arrays are split out of the unscoped buffers on entry and put
    back on exit; the generator register rides through the invariant; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing
    faulting, with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c)⟩) (run_all m ρ)

end Cert.Kernel.Hand

end
-- ==== Proof.RefRunOps.lean ====
import proofs.«114942_g22505628631095_cont_8to1_462_6_alg».proof.Proof.Gen.ReferenceIdeal
import Idealize.ShloMosaic.Lib.StableHlo.Run

/-!
# The reference's operations, listed

The reference program's @main is a straight line of host operations; the functions it calls (the rectifier, the bent
rectifier, the two-way choice, the exponential linear unit) are run on the call's own buffers, so each call is the
callee's operations written over those buffers. The line is cut into stretches that each compute one thing: the
encoder; for each of the four heads its two projections and its logits, the logits bent and masked, the rows normalised
and used as weights, the exponential linear unit; the mean of the heads; the decoder. For every stretch: its
operations, the buffers they write, that every buffer they touch is a device buffer, and that a buffer not written
keeps its contents through the stretch.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stretch E: 11 operations, the last writing main_v8. -/
abbrev ops_E : List (HloOp τ sig (Elt F)) :=
  [ binary main_arg3 main_arg4 main_v0 ((fun l r => Host.dotGeneral dot_S4096x1024_S1024x512_S4096x512_1_0_0_1_n_n none l r) : (⟨S4096x1024, .f32⟩ : BufTy).Contents (Elt F) → (⟨S1024x512, .f32⟩ : BufTy).Contents (Elt F) → (⟨S4096x512, .f32⟩ : BufTy).Contents (Elt F)),
    unary main_arg5 main_v1 (broadcastInDim S1x512 ![1] bcast_S512_S1x512_1 : (⟨S512, .f32⟩ : BufTy).Contents (Elt F) → (⟨S1x512, .f32⟩ : BufTy).Contents (Elt F)),
    unary main_v1 main_v2 (broadcastInDim S4096x512 ![0, 1] bcast_S1x512_S4096x512_0_1 : (⟨S1x512, .f32⟩ : BufTy).Contents (Elt F) → (⟨S4096x512, .f32⟩ : BufTy).Contents (Elt F)),
    binary main_v0 main_v2 main_v3 (addf : (⟨S4096x512, .f32⟩ : BufTy).Contents (Elt F) → (⟨S4096x512, .f32⟩ : BufTy).Contents (Elt F) → (⟨S4096x512, .f32⟩ : BufTy).Contents (Elt F)),
    nullary main_call0_cst (constant S_ .f32 0x00000000#32),
    unary main_call0_cst main_call0_v0 (broadcastInDim S4096x512 ![] bcast_S_S4096x512 : (⟨S_, .f32⟩ : BufTy).Contents (Elt F) → (⟨S4096x512, .f32⟩ : BufTy).Contents (Elt F)),
    binary main_v3 main_call0_v0 main_v4 (maximumf : (⟨S4096x512, .f32⟩ : BufTy).Contents (Elt F) → (⟨S4096x512, .f32⟩ : BufTy).Contents (Elt F) → (⟨S4096x512, .f32⟩ : BufTy).Contents (Elt F)),
    binary main_v4 main_arg6 main_v5 ((fun l r => Host.dotGeneral dot_S4096x512_S512x256_S4096x256_1_0_0_1_n_n none l r) : (⟨S4096x512, .f32⟩ : BufTy).Contents (Elt F) → (⟨S512x256, .f32⟩ : BufTy).Contents (Elt F) → (⟨S4096x256, .f32⟩ : BufTy).Contents (Elt F)),
    unary main_arg7 main_v6 (broadcastInDim S1x256 ![1] bcast_S256_S1x256_1 : (⟨S256, .f32⟩ : BufTy).Contents (Elt F) → (⟨S1x256, .f32⟩ : BufTy).Contents (Elt F)),
    unary main_v6 main_v7 (broadcastInDim S4096x256 ![0, 1] bcast_S1x256_S4096x256_0_1 : (⟨S1x256, .f32⟩ : BufTy).Contents (Elt F) → (⟨S4096x256, .f32⟩ : BufTy).Contents (Elt F)),
    binary main_v5 main_v7 main_v8 (addf : (⟨S4096x256, .f32⟩ : BufTy).Contents (Elt F) → (⟨S4096x256, .f32⟩ : BufTy).Contents (Elt F) → (⟨S4096x256, .f32⟩ : BufTy).Contents (Elt F)) ]
/-- The buffers stretch E writes. -/
abbrev W_E : List (Ref sig .tc) := [main_v0, main_v1, main_v2, main_v3, main_call0_cst, main_call0_v0, main_v4, main_v5, main_v6, main_v7, main_v8]
theorem sub_E : (ops_E : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem fresh_E : (ops_E : List (HloOp τ sig (Elt F))).Forall fun op => op.fresh = ∅ :=
  ⟨rfl, rfl, rfl, rfl, rfl, rfl, rfl, rfl, rfl, rfl, rfl⟩
set_option maxRecDepth 8192 in
theorem writes_E : (ops_E : List (HloOp τ sig (Elt F))).Forall fun op => op.writes ⊆ (W_E.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch E does not write keeps its contents through it. -/
theorem keep_E (V : Valuation τ sig (Elt F)) (r : Ref sig .tc) (h : r ∉ W_E) :
    after ops_E V (no_index (Proc.devRef .tc r)) = V (Proc.devRef .tc r) :=
  after_of_writes_sub ops_E V writes_E h

/-- Stretch H0a: 11 operations, the last writing main_v19. -/
abbrev ops_H0a : List (HloOp τ sig (Elt F)) :=
  [ unary main_arg12 main_v9 ((extractStridedSlice S1x64x128 ![0, 0, 0] · slices_S4x64x128_S1x64x128_0_0_0) : (⟨S4x64x128, .f32⟩ : BufTy).Contents (Elt F) → (⟨S1x64x128, .f32⟩ : BufTy).Contents (Elt F)),
    reshape main_v9 main_v10 rfl shapeCasts_S1x64x128_S64x128,
    binary main_arg2 main_v10 main_v11 ((fun l r => Host.dotGeneral dot_S4096x64_S64x128_S4096x128_1_0_0_1_n_n none l r) : (⟨S4096x64, .f32⟩ : BufTy).Contents (Elt F) → (⟨S64x128, .f32⟩ : BufTy).Contents (Elt F) → (⟨S4096x128, .f32⟩ : BufTy).Contents (Elt F)),
    unary main_arg12 main_v12 ((extractStridedSlice S1x64x128 ![0, 0, 0] · slices_S4x64x128_S1x64x128_0_0_0) : (⟨S4x64x128, .f32⟩ : BufTy).Contents (Elt F) → (⟨S1x64x128, .f32⟩ : BufTy).Contents (Elt F)),
    reshape main_v12 main_v13 rfl shapeCasts_S1x64x128_S64x128,
    binary main_arg1 main_v13 main_v14 ((fun l r => Host.dotGeneral dot_S4096x64_S64x128_S4096x128_1_0_0_1_n_n none l r) : (⟨S4096x64, .f32⟩ : BufTy).Contents (Elt F) → (⟨S64x128, .f32⟩ : BufTy).Contents (Elt F) → (⟨S4096x128, .f32⟩ : BufTy).Contents (Elt F)),
    unary main_arg13 main_v15 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v15 main_v16 rfl shapeCasts_S1x128x128_S128x128,
    binary main_v14 main_v16 main_v17 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    unary main_v11 main_v18 ((transpose S128x4096 [1, 0] · transposes_S4096x128_S128x4096_1_0) : (⟨S4096x128, .f32⟩ : BufTy).Contents (Elt F) → (⟨S128x4096, .f32⟩ : BufTy).Contents (Elt F)),
    binary main_v17 main_v18 main_v19 ((fun l r => Host.dotGeneral dot_S4096x128_S128x4096_S4096x4096_1_0_0_1_n_n none l r) : (⟨S4096x128, .f32⟩ : BufTy).Contents (Elt F) → (⟨S128x4096, .f32⟩ : BufTy).Contents (Elt F) → (⟨S4096x4096, .f32⟩ : BufTy).Contents (Elt F)) ]
/-- The buffers stretch H0a writes. -/
abbrev W_H0a : List (Ref sig .tc) := [main_v9, main_v10, main_v11, main_v12, main_v13, main_v14, main_v15, main_v16, main_v17, main_v18, main_v19]
theorem sub_H0a : (ops_H0a : List (HloOp τ sig (Elt F))).Forall fun op => op.bufs ⊆ tcRefs τ sig :=
  ⟨unary_bufs_sub .., reshape_bufs_sub .., binary_bufs_sub .., unary_bufs_sub .., reshape_bufs_sub .., binary_bufs_sub .., unary_bufs_sub .., reshape_bufs_sub .., binary_bufs_sub .., unary_bufs_sub .., binary_bufs_sub ..⟩
theorem fresh_H0a : (ops_H0a : List (HloOp τ sig (Elt F))).Forall fun op => op.fresh = ∅ :=
  ⟨rfl, rfl, rfl, rfl, rfl, rfl, rfl, rfl, rfl, rfl, rfl⟩
set_option maxRecDepth 8192 in
theorem writes_H0a : (ops_H0a : List (HloOp τ sig (Elt F))).Forall fun op => op.writes ⊆ (W_H0a.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch H0a does not write keeps its contents through it. -/
theorem keep_H0a (V : Valuation τ sig (Elt F)) (r : Ref sig .tc) (h : r ∉ W_H0a) :
    after ops_H0a V (no_index (Proc.devRef .tc r)) = V (Proc.devRef .tc r) :=
  after_of_writes_sub ops_H0a V writes_H0a h

/-- Stretch H0b: 14 operations, the last writing main_v24. -/
abbrev ops_H0b : List (HloOp τ sig (Elt F)) :=
  [ nullary main_cst (constant S_ .f32 0x3E4CCCCD#32),
    nullary main_call1_cst (constant S_ .f32 0x00000000#32),
    unary main_call1_cst main_call1_v0 (broadcastInDim S4096x4096 ![] bcast_S_S4096x4096 : (⟨S_, .f32⟩ : BufTy).Contents (Elt F) → (⟨S4096x4096, .f32⟩ : BufTy).Contents (Elt F)),
    binary main_v19 main_call1_v0 main_call1_v1 (cmpf .oge : (⟨S4096x4096, .f32⟩ : BufTy).Contents (Elt F) → (⟨S4096x4096, .f32⟩ : BufTy).Contents (Elt F) → (⟨S4096x4096, .i1⟩ : BufTy).Contents (Elt F)),
    unary main_cst main_call1_v2 (id : (⟨S_, .f32⟩ : BufTy).Contents (Elt F) → (⟨S_, .f32⟩ : BufTy).Contents (Elt F)),
    unary main_call1_v2 main_call1_v3 (broadcastInDim S4096x4096 ![] bcast_S_S4096x4096 : (⟨S_, .f32⟩ : BufTy).Contents (Elt F) → (⟨S4096x4096, .f32⟩ : BufTy).Contents (Elt F)),
    binary main_call1_v3 main_v19 main_call1_v4 (mulf : (⟨S4096x4096, .f32⟩ : BufTy).Contents (Elt F) → (⟨S4096x4096, .f32⟩ : BufTy).Contents (Elt F) → (⟨S4096x4096, .f32⟩ : BufTy).Contents (Elt F)),
    ternary main_call1_v1 main_v19 main_call1_v4 main_v20 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    nullary main_cst_0 (constant S_ .f32 0x00000000#32),
    unary main_cst_0 main_v21 (broadcastInDim S4096x4096 ![] bcast_S_S4096x4096 : (⟨S_, .f32⟩ : BufTy).Contents (Elt F) → (⟨S4096x4096, .f32⟩ : BufTy).Contents (Elt F)),
    binary main_arg0 main_v21 main_v22 (cmpf .ogt : (⟨S4096x4096, .f32⟩ : BufTy).Contents (Elt F) → (⟨S4096x4096, .f32⟩ : BufTy).Contents (Elt F) → (⟨S4096x4096, .i1⟩ : BufTy).Contents (Elt F)),
    nullary main_cst_1 (constant S_ .f32 0xD9FFCB9E#32),
    unary main_cst_1 main_v23 (broadcastInDim S4096x4096 ![] bcast_S_S4096x4096 : (⟨S_, .f32⟩ : BufTy).Contents (Elt F) → (⟨S4096x4096, .f32⟩ : BufTy).Contents (Elt F)),
    ternary main_v22 main_v20 main_v23 main_v24 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)) ]
/-- The buffers stretch H0b writes. -/
abbrev W_H0b : List (Ref sig .tc) := [main_cst, main_call1_cst, main_call1_v0, main_call1_v1, main_call1_v2, main_call1_v3, main_call1_v4, main_v20, main_cst_0, main_v21, main_v22, main_cst_1, main_v23, main_v24]
theorem sub_H0b : (ops_H0b : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., ternary_bufs_sub ..⟩
theorem fresh_H0b : (ops_H0b : List (HloOp τ sig (Elt F))).Forall fun op => op.fresh = ∅ :=
  ⟨rfl, rfl, rfl, rfl, rfl, rfl, rfl, rfl, rfl, rfl, rfl, rfl, rfl, rfl⟩
set_option maxRecDepth 8192 in
theorem writes_H0b : (ops_H0b : List (HloOp τ sig (Elt F))).Forall fun op => op.writes ⊆ (W_H0b.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch H0b does not write keeps its contents through it. -/
theorem keep_H0b (V : Valuation τ sig (Elt F)) (r : Ref sig .tc) (h : r ∉ W_H0b) :
    after ops_H0b V (no_index (Proc.devRef .tc r)) = V (Proc.devRef .tc r) :=
  after_of_writes_sub ops_H0b V writes_H0b h

/-- Stretch H0c: 15 operations, the last writing main_v36. -/
abbrev ops_H0c : List (HloOp τ sig (Elt F)) :=
  [ nullary main_cst_2 (constant S_ .f32 0xFF800000#32),
    binary main_v24 main_cst_2 main_v25 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_3 (constant S_ .f32 0xFF800000#32),
    unary main_cst_3 main_v26 (broadcastInDim S4096 ![] bcast_S_S4096 : (⟨S_, .f32⟩ : BufTy).Contents (Elt F) → (⟨S4096, .f32⟩ : BufTy).Contents (Elt F)),
    binary main_v26 main_v25 main_v27 (maximumf : (⟨S4096, .f32⟩ : BufTy).Contents (Elt F) → (⟨S4096, .f32⟩ : BufTy).Contents (Elt F) → (⟨S4096, .f32⟩ : BufTy).Contents (Elt F)),
    unary main_v27 main_v28 (broadcastInDim S4096x1 ![0] bcast_S4096_S4096x1_0 : (⟨S4096, .f32⟩ : BufTy).Contents (Elt F) → (⟨S4096x1, .f32⟩ : BufTy).Contents (Elt F)),
    unary main_v28 main_v29 (broadcastInDim S4096x4096 ![0, 1] bcast_S4096x1_S4096x4096_0_1 : (⟨S4096x1, .f32⟩ : BufTy).Contents (Elt F) → (⟨S4096x4096, .f32⟩ : BufTy).Contents (Elt F)),
    binary main_v24 main_v29 main_v30 (subf : (⟨S4096x4096, .f32⟩ : BufTy).Contents (Elt F) → (⟨S4096x4096, .f32⟩ : BufTy).Contents (Elt F) → (⟨S4096x4096, .f32⟩ : BufTy).Contents (Elt F)),
    unary main_v30 main_v31 (Host.exp : (⟨S4096x4096, .f32⟩ : BufTy).Contents (Elt F) → (⟨S4096x4096, .f32⟩ : BufTy).Contents (Elt F)),
    nullary main_cst_4 (constant S_ .f32 0x00000000#32),
    binary main_v31 main_cst_4 main_v32 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v32 main_v33 (broadcastInDim S4096x1 ![0] bcast_S4096_S4096x1_0 : (⟨S4096, .f32⟩ : BufTy).Contents (Elt F) → (⟨S4096x1, .f32⟩ : BufTy).Contents (Elt F)),
    unary main_v33 main_v34 (broadcastInDim S4096x4096 ![0, 1] bcast_S4096x1_S4096x4096_0_1 : (⟨S4096x1, .f32⟩ : BufTy).Contents (Elt F) → (⟨S4096x4096, .f32⟩ : BufTy).Contents (Elt F)),
    binary main_v31 main_v34 main_v35 (Host.divf : (⟨S4096x4096, .f32⟩ : BufTy).Contents (Elt F) → (⟨S4096x4096, .f32⟩ : BufTy).Contents (Elt F) → (⟨S4096x4096, .f32⟩ : BufTy).Contents (Elt F)),
    binary main_v35 main_v8 main_v36 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)) ]
/-- The buffers stretch H0c writes. -/
abbrev W_H0c : List (Ref sig .tc) := [main_cst_2, main_v25, main_cst_3, main_v26, main_v27, main_v28, main_v29, main_v30, main_v31, main_cst_4, main_v32, main_v33, main_v34, main_v35, main_v36]
theorem sub_H0c : (ops_H0c : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩
theorem fresh_H0c : (ops_H0c : List (HloOp τ sig (Elt F))).Forall fun op => op.fresh = ∅ :=
  ⟨rfl, rfl, rfl, rfl, rfl, rfl, rfl, rfl, rfl, rfl, rfl, rfl, rfl, rfl, rfl⟩
set_option maxRecDepth 8192 in
theorem writes_H0c : (ops_H0c : List (HloOp τ sig (Elt F))).Forall fun op => op.writes ⊆ (W_H0c.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch H0c does not write keeps its contents through it. -/
theorem keep_H0c (V : Valuation τ sig (Elt F)) (r : Ref sig .tc) (h : r ∉ W_H0c) :
    after ops_H0c V (no_index (Proc.devRef .tc r)) = V (Proc.devRef .tc r) :=
  after_of_writes_sub ops_H0c V writes_H0c h

/-- Stretch H0d: 15 operations, the last writing main_v37. -/
abbrev ops_H0d : List (HloOp τ sig (Elt F)) :=
  [ nullary main_call3_cst (constant S_ .f32 0x00000000#32),
    unary main_call3_cst main_call3_v0 (broadcastInDim S4096x256 ![] bcast_S_S4096x256 : (⟨S_, .f32⟩ : BufTy).Contents (Elt F) → (⟨S4096x256, .f32⟩ : BufTy).Contents (Elt F)),
    binary main_v36 main_call3_v0 main_call3_v1 (cmpf .ogt : (⟨S4096x256, .f32⟩ : BufTy).Contents (Elt F) → (⟨S4096x256, .f32⟩ : BufTy).Contents (Elt F) → (⟨S4096x256, .i1⟩ : BufTy).Contents (Elt F)),
    nullary main_call3_cst_0 (constant S_ .f32 0x00000000#32),
    unary main_call3_cst_0 main_call3_v2 (broadcastInDim S4096x256 ![] bcast_S_S4096x256 : (⟨S_, .f32⟩ : BufTy).Contents (Elt F) → (⟨S4096x256, .f32⟩ : BufTy).Contents (Elt F)),
    binary main_v36 main_call3_v2 main_call3_v3 (cmpf .ogt : (⟨S4096x256, .f32⟩ : BufTy).Contents (Elt F) → (⟨S4096x256, .f32⟩ : BufTy).Contents (Elt F) → (⟨S4096x256, .i1⟩ : BufTy).Contents (Elt F)),
    nullary main_call3_cst_1 (constant S_ .f32 0x00000000#32),
    unary main_call3_cst_1 main_call3_call0_v0 (id : (⟨S_, .f32⟩ : BufTy).Contents (Elt F) → (⟨S_, .f32⟩ : BufTy).Contents (Elt F)),
    unary main_call3_call0_v0 main_call3_call0_v1 (broadcastInDim S4096x256 ![] bcast_S_S4096x256 : (⟨S_, .f32⟩ : BufTy).Contents (Elt F) → (⟨S4096x256, .f32⟩ : BufTy).Contents (Elt F)),
    ternary main_call3_v3 main_call3_call0_v1 main_v36 main_call3_v4 (select : (⟨S4096x256, .i1⟩ : BufTy).Contents (Elt F) → (⟨S4096x256, .f32⟩ : BufTy).Contents (Elt F) → (⟨S4096x256, .f32⟩ : BufTy).Contents (Elt F) → (⟨S4096x256, .f32⟩ : BufTy).Contents (Elt F)),
    unary main_call3_v4 main_call3_v5 (Host.expm1 : (⟨S4096x256, .f32⟩ : BufTy).Contents (Elt F) → (⟨S4096x256, .f32⟩ : BufTy).Contents (Elt F)),
    nullary main_call3_cst_2 (constant S_ .f32 0x3F800000#32),
    unary main_call3_cst_2 main_call3_v6 (broadcastInDim S4096x256 ![] bcast_S_S4096x256 : (⟨S_, .f32⟩ : BufTy).Contents (Elt F) → (⟨S4096x256, .f32⟩ : BufTy).Contents (Elt F)),
    binary main_call3_v6 main_call3_v5 main_call3_v7 (mulf : (⟨S4096x256, .f32⟩ : BufTy).Contents (Elt F) → (⟨S4096x256, .f32⟩ : BufTy).Contents (Elt F) → (⟨S4096x256, .f32⟩ : BufTy).Contents (Elt F)),
    ternary main_call3_v1 main_v36 main_call3_v7 main_v37 (select : (⟨S4096x256, .i1⟩ : BufTy).Contents (Elt F) → (⟨S4096x256, .f32⟩ : BufTy).Contents (Elt F) → (⟨S4096x256, .f32⟩ : BufTy).Contents (Elt F) → (⟨S4096x256, .f32⟩ : BufTy).Contents (Elt F)) ]
/-- The buffers stretch H0d writes. -/
abbrev W_H0d : List (Ref sig .tc) := [main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v37]
theorem sub_H0d : (ops_H0d : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem fresh_H0d : (ops_H0d : List (HloOp τ sig (Elt F))).Forall fun op => op.fresh = ∅ :=
  ⟨rfl, rfl, rfl, rfl, rfl, rfl, rfl, rfl, rfl, rfl, rfl, rfl, rfl, rfl, rfl⟩
set_option maxRecDepth 8192 in
theorem writes_H0d : (ops_H0d : List (HloOp τ sig (Elt F))).Forall fun op => op.writes ⊆ (W_H0d.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch H0d does not write keeps its contents through it. -/
theorem keep_H0d (V : Valuation τ sig (Elt F)) (r : Ref sig .tc) (h : r ∉ W_H0d) :
    after ops_H0d V (no_index (Proc.devRef .tc r)) = V (Proc.devRef .tc r) :=
  after_of_writes_sub ops_H0d V writes_H0d h

/-- Stretch H1a: 11 operations, the last writing main_v48. -/
abbrev ops_H1a : List (HloOp τ sig (Elt F)) :=
  [ unary main_arg12 main_v38 ((extractStridedSlice S1x64x128 ![1, 0, 0] · slices_S4x64x128_S1x64x128_1_0_0) : (⟨S4x64x128, .f32⟩ : BufTy).Contents (Elt F) → (⟨S1x64x128, .f32⟩ : BufTy).Contents (Elt F)),
    reshape main_v38 main_v39 rfl shapeCasts_S1x64x128_S64x128,
    binary main_arg2 main_v39 main_v40 ((fun l r => Host.dotGeneral dot_S4096x64_S64x128_S4096x128_1_0_0_1_n_n none l r) : (⟨S4096x64, .f32⟩ : BufTy).Contents (Elt F) → (⟨S64x128, .f32⟩ : BufTy).Contents (Elt F) → (⟨S4096x128, .f32⟩ : BufTy).Contents (Elt F)),
    unary main_arg12 main_v41 ((extractStridedSlice S1x64x128 ![1, 0, 0] · slices_S4x64x128_S1x64x128_1_0_0) : (⟨S4x64x128, .f32⟩ : BufTy).Contents (Elt F) → (⟨S1x64x128, .f32⟩ : BufTy).Contents (Elt F)),
    reshape main_v41 main_v42 rfl shapeCasts_S1x64x128_S64x128,
    binary main_arg1 main_v42 main_v43 ((fun l r => Host.dotGeneral dot_S4096x64_S64x128_S4096x128_1_0_0_1_n_n none l r) : (⟨S4096x64, .f32⟩ : BufTy).Contents (Elt F) → (⟨S64x128, .f32⟩ : BufTy).Contents (Elt F) → (⟨S4096x128, .f32⟩ : BufTy).Contents (Elt F)),
    unary main_arg13 main_v44 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v44 main_v45 rfl shapeCasts_S1x128x128_S128x128,
    binary main_v43 main_v45 main_v46 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    unary main_v40 main_v47 ((transpose S128x4096 [1, 0] · transposes_S4096x128_S128x4096_1_0) : (⟨S4096x128, .f32⟩ : BufTy).Contents (Elt F) → (⟨S128x4096, .f32⟩ : BufTy).Contents (Elt F)),
    binary main_v46 main_v47 main_v48 ((fun l r => Host.dotGeneral dot_S4096x128_S128x4096_S4096x4096_1_0_0_1_n_n none l r) : (⟨S4096x128, .f32⟩ : BufTy).Contents (Elt F) → (⟨S128x4096, .f32⟩ : BufTy).Contents (Elt F) → (⟨S4096x4096, .f32⟩ : BufTy).Contents (Elt F)) ]
/-- The buffers stretch H1a writes. -/
abbrev W_H1a : List (Ref sig .tc) := [main_v38, main_v39, main_v40, main_v41, main_v42, main_v43, main_v44, main_v45, main_v46, main_v47, main_v48]
theorem sub_H1a : (ops_H1a : List (HloOp τ sig (Elt F))).Forall fun op => op.bufs ⊆ tcRefs τ sig :=
  ⟨unary_bufs_sub .., reshape_bufs_sub .., binary_bufs_sub .., unary_bufs_sub .., reshape_bufs_sub .., binary_bufs_sub .., unary_bufs_sub .., reshape_bufs_sub .., binary_bufs_sub .., unary_bufs_sub .., binary_bufs_sub ..⟩
theorem fresh_H1a : (ops_H1a : List (HloOp τ sig (Elt F))).Forall fun op => op.fresh = ∅ :=
  ⟨rfl, rfl, rfl, rfl, rfl, rfl, rfl, rfl, rfl, rfl, rfl⟩
set_option maxRecDepth 8192 in
theorem writes_H1a : (ops_H1a : List (HloOp τ sig (Elt F))).Forall fun op => op.writes ⊆ (W_H1a.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch H1a does not write keeps its contents through it. -/
theorem keep_H1a (V : Valuation τ sig (Elt F)) (r : Ref sig .tc) (h : r ∉ W_H1a) :
    after ops_H1a V (no_index (Proc.devRef .tc r)) = V (Proc.devRef .tc r) :=
  after_of_writes_sub ops_H1a V writes_H1a h

/-- Stretch H1b1: 11 operations, the last writing main_v51. -/
abbrev ops_H1b1 : List (HloOp τ sig (Elt F)) :=
  [ nullary main_cst_5 (constant S_ .f32 0x3E4CCCCD#32),
    nullary main_call4_cst (constant S_ .f32 0x00000000#32),
    unary main_call4_cst main_call4_v0 (broadcastInDim S4096x4096 ![] bcast_S_S4096x4096 : (⟨S_, .f32⟩ : BufTy).Contents (Elt F) → (⟨S4096x4096, .f32⟩ : BufTy).Contents (Elt F)),
    binary main_v48 main_call4_v0 main_call4_v1 (cmpf .oge : (⟨S4096x4096, .f32⟩ : BufTy).Contents (Elt F) → (⟨S4096x4096, .f32⟩ : BufTy).Contents (Elt F) → (⟨S4096x4096, .i1⟩ : BufTy).Contents (Elt F)),
    unary main_cst_5 main_call4_v2 (id : (⟨S_, .f32⟩ : BufTy).Contents (Elt F) → (⟨S_, .f32⟩ : BufTy).Contents (Elt F)),
    unary main_call4_v2 main_call4_v3 (broadcastInDim S4096x4096 ![] bcast_S_S4096x4096 : (⟨S_, .f32⟩ : BufTy).Contents (Elt F) → (⟨S4096x4096, .f32⟩ : BufTy).Contents (Elt F)),
    binary main_call4_v3 main_v48 main_call4_v4 (mulf : (⟨S4096x4096, .f32⟩ : BufTy).Contents (Elt F) → (⟨S4096x4096, .f32⟩ : BufTy).Contents (Elt F) → (⟨S4096x4096, .f32⟩ : BufTy).Contents (Elt F)),
    ternary main_call4_v1 main_v48 main_call4_v4 main_v49 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    nullary main_cst_6 (constant S_ .f32 0x00000000#32),
    unary main_cst_6 main_v50 (broadcastInDim S4096x4096 ![] bcast_S_S4096x4096 : (⟨S_, .f32⟩ : BufTy).Contents (Elt F) → (⟨S4096x4096, .f32⟩ : BufTy).Contents (Elt F)),
    binary main_arg0 main_v50 main_v51 (cmpf .ogt : (⟨S4096x4096, .f32⟩ : BufTy).Contents (Elt F) → (⟨S4096x4096, .f32⟩ : BufTy).Contents (Elt F) → (⟨S4096x4096, .i1⟩ : BufTy).Contents (Elt F)) ]
/-- The buffers stretch H1b1 writes. -/
abbrev W_H1b1 : List (Ref sig .tc) := [main_cst_5, main_call4_cst, main_call4_v0, main_call4_v1, main_call4_v2, main_call4_v3, main_call4_v4, main_v49, main_cst_6, main_v50, main_v51]
theorem sub_H1b1 : (ops_H1b1 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub .., nullary_bufs_sub .., unary_bufs_sub .., binary_bufs_sub ..⟩
theorem fresh_H1b1 : (ops_H1b1 : List (HloOp τ sig (Elt F))).Forall fun op => op.fresh = ∅ :=
  ⟨rfl, rfl, rfl, rfl, rfl, rfl, rfl, rfl, rfl, rfl, rfl⟩
set_option maxRecDepth 8192 in
theorem writes_H1b1 : (ops_H1b1 : List (HloOp τ sig (Elt F))).Forall fun op => op.writes ⊆ (W_H1b1.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch H1b1 does not write keeps its contents through it. -/
theorem keep_H1b1 (V : Valuation τ sig (Elt F)) (r : Ref sig .tc) (h : r ∉ W_H1b1) :
    after ops_H1b1 V (no_index (Proc.devRef .tc r)) = V (Proc.devRef .tc r) :=
  after_of_writes_sub ops_H1b1 V writes_H1b1 h

/-- Stretch H1b2: 3 operations, the last writing main_v53. -/
abbrev ops_H1b2 : List (HloOp τ sig (Elt F)) :=
  [ nullary main_cst_7 (constant S_ .f32 0xD9FFCB9E#32),
    unary main_cst_7 main_v52 (broadcastInDim S4096x4096 ![] bcast_S_S4096x4096 : (⟨S_, .f32⟩ : BufTy).Contents (Elt F) → (⟨S4096x4096, .f32⟩ : BufTy).Contents (Elt F)),
    ternary main_v51 main_v49 main_v52 main_v53 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)) ]
/-- The buffers stretch H1b2 writes. -/
abbrev W_H1b2 : List (Ref sig .tc) := [main_cst_7, main_v52, main_v53]
theorem sub_H1b2 : (ops_H1b2 : List (HloOp τ sig (Elt F))).Forall fun op => op.bufs ⊆ tcRefs τ sig :=
  ⟨nullary_bufs_sub .., unary_bufs_sub .., ternary_bufs_sub ..⟩
theorem fresh_H1b2 : (ops_H1b2 : List (HloOp τ sig (Elt F))).Forall fun op => op.fresh = ∅ :=
  ⟨rfl, rfl, rfl⟩
set_option maxRecDepth 8192 in
theorem writes_H1b2 : (ops_H1b2 : List (HloOp τ sig (Elt F))).Forall fun op => op.writes ⊆ (W_H1b2.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch H1b2 does not write keeps its contents through it. -/
theorem keep_H1b2 (V : Valuation τ sig (Elt F)) (r : Ref sig .tc) (h : r ∉ W_H1b2) :
    after ops_H1b2 V (no_index (Proc.devRef .tc r)) = V (Proc.devRef .tc r) :=
  after_of_writes_sub ops_H1b2 V writes_H1b2 h

/-- Stretch H1c: 15 operations, the last writing main_v65. -/
abbrev ops_H1c : List (HloOp τ sig (Elt F)) :=
  [ nullary main_cst_8 (constant S_ .f32 0xFF800000#32),
    binary main_v53 main_cst_8 main_v54 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_9 (constant S_ .f32 0xFF800000#32),
    unary main_cst_9 main_v55 (broadcastInDim S4096 ![] bcast_S_S4096 : (⟨S_, .f32⟩ : BufTy).Contents (Elt F) → (⟨S4096, .f32⟩ : BufTy).Contents (Elt F)),
    binary main_v55 main_v54 main_v56 (maximumf : (⟨S4096, .f32⟩ : BufTy).Contents (Elt F) → (⟨S4096, .f32⟩ : BufTy).Contents (Elt F) → (⟨S4096, .f32⟩ : BufTy).Contents (Elt F)),
    unary main_v56 main_v57 (broadcastInDim S4096x1 ![0] bcast_S4096_S4096x1_0 : (⟨S4096, .f32⟩ : BufTy).Contents (Elt F) → (⟨S4096x1, .f32⟩ : BufTy).Contents (Elt F)),
    unary main_v57 main_v58 (broadcastInDim S4096x4096 ![0, 1] bcast_S4096x1_S4096x4096_0_1 : (⟨S4096x1, .f32⟩ : BufTy).Contents (Elt F) → (⟨S4096x4096, .f32⟩ : BufTy).Contents (Elt F)),
    binary main_v53 main_v58 main_v59 (subf : (⟨S4096x4096, .f32⟩ : BufTy).Contents (Elt F) → (⟨S4096x4096, .f32⟩ : BufTy).Contents (Elt F) → (⟨S4096x4096, .f32⟩ : BufTy).Contents (Elt F)),
    unary main_v59 main_v60 (Host.exp : (⟨S4096x4096, .f32⟩ : BufTy).Contents (Elt F) → (⟨S4096x4096, .f32⟩ : BufTy).Contents (Elt F)),
    nullary main_cst_10 (constant S_ .f32 0x00000000#32),
    binary main_v60 main_cst_10 main_v61 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v61 main_v62 (broadcastInDim S4096x1 ![0] bcast_S4096_S4096x1_0 : (⟨S4096, .f32⟩ : BufTy).Contents (Elt F) → (⟨S4096x1, .f32⟩ : BufTy).Contents (Elt F)),
    unary main_v62 main_v63 (broadcastInDim S4096x4096 ![0, 1] bcast_S4096x1_S4096x4096_0_1 : (⟨S4096x1, .f32⟩ : BufTy).Contents (Elt F) → (⟨S4096x4096, .f32⟩ : BufTy).Contents (Elt F)),
    binary main_v60 main_v63 main_v64 (Host.divf : (⟨S4096x4096, .f32⟩ : BufTy).Contents (Elt F) → (⟨S4096x4096, .f32⟩ : BufTy).Contents (Elt F) → (⟨S4096x4096, .f32⟩ : BufTy).Contents (Elt F)),
    binary main_v64 main_v8 main_v65 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)) ]
/-- The buffers stretch H1c writes. -/
abbrev W_H1c : List (Ref sig .tc) := [main_cst_8, main_v54, main_cst_9, main_v55, main_v56, main_v57, main_v58, main_v59, main_v60, main_cst_10, main_v61, main_v62, main_v63, main_v64, main_v65]
theorem sub_H1c : (ops_H1c : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩
theorem fresh_H1c : (ops_H1c : List (HloOp τ sig (Elt F))).Forall fun op => op.fresh = ∅ :=
  ⟨rfl, rfl, rfl, rfl, rfl, rfl, rfl, rfl, rfl, rfl, rfl, rfl, rfl, rfl, rfl⟩
set_option maxRecDepth 8192 in
theorem writes_H1c : (ops_H1c : List (HloOp τ sig (Elt F))).Forall fun op => op.writes ⊆ (W_H1c.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch H1c does not write keeps its contents through it. -/
theorem keep_H1c (V : Valuation τ sig (Elt F)) (r : Ref sig .tc) (h : r ∉ W_H1c) :
    after ops_H1c V (no_index (Proc.devRef .tc r)) = V (Proc.devRef .tc r) :=
  after_of_writes_sub ops_H1c V writes_H1c h

/-- Stretch H1d: 15 operations, the last writing main_v66. -/
abbrev ops_H1d : List (HloOp τ sig (Elt F)) :=
  [ nullary main_call6_cst (constant S_ .f32 0x00000000#32),
    unary main_call6_cst main_call6_v0 (broadcastInDim S4096x256 ![] bcast_S_S4096x256 : (⟨S_, .f32⟩ : BufTy).Contents (Elt F) → (⟨S4096x256, .f32⟩ : BufTy).Contents (Elt F)),
    binary main_v65 main_call6_v0 main_call6_v1 (cmpf .ogt : (⟨S4096x256, .f32⟩ : BufTy).Contents (Elt F) → (⟨S4096x256, .f32⟩ : BufTy).Contents (Elt F) → (⟨S4096x256, .i1⟩ : BufTy).Contents (Elt F)),
    nullary main_call6_cst_0 (constant S_ .f32 0x00000000#32),
    unary main_call6_cst_0 main_call6_v2 (broadcastInDim S4096x256 ![] bcast_S_S4096x256 : (⟨S_, .f32⟩ : BufTy).Contents (Elt F) → (⟨S4096x256, .f32⟩ : BufTy).Contents (Elt F)),
    binary main_v65 main_call6_v2 main_call6_v3 (cmpf .ogt : (⟨S4096x256, .f32⟩ : BufTy).Contents (Elt F) → (⟨S4096x256, .f32⟩ : BufTy).Contents (Elt F) → (⟨S4096x256, .i1⟩ : BufTy).Contents (Elt F)),
    nullary main_call6_cst_1 (constant S_ .f32 0x00000000#32),
    unary main_call6_cst_1 main_call6_call0_v0 (id : (⟨S_, .f32⟩ : BufTy).Contents (Elt F) → (⟨S_, .f32⟩ : BufTy).Contents (Elt F)),
    unary main_call6_call0_v0 main_call6_call0_v1 (broadcastInDim S4096x256 ![] bcast_S_S4096x256 : (⟨S_, .f32⟩ : BufTy).Contents (Elt F) → (⟨S4096x256, .f32⟩ : BufTy).Contents (Elt F)),
    ternary main_call6_v3 main_call6_call0_v1 main_v65 main_call6_v4 (select : (⟨S4096x256, .i1⟩ : BufTy).Contents (Elt F) → (⟨S4096x256, .f32⟩ : BufTy).Contents (Elt F) → (⟨S4096x256, .f32⟩ : BufTy).Contents (Elt F) → (⟨S4096x256, .f32⟩ : BufTy).Contents (Elt F)),
    unary main_call6_v4 main_call6_v5 (Host.expm1 : (⟨S4096x256, .f32⟩ : BufTy).Contents (Elt F) → (⟨S4096x256, .f32⟩ : BufTy).Contents (Elt F)),
    nullary main_call6_cst_2 (constant S_ .f32 0x3F800000#32),
    unary main_call6_cst_2 main_call6_v6 (broadcastInDim S4096x256 ![] bcast_S_S4096x256 : (⟨S_, .f32⟩ : BufTy).Contents (Elt F) → (⟨S4096x256, .f32⟩ : BufTy).Contents (Elt F)),
    binary main_call6_v6 main_call6_v5 main_call6_v7 (mulf : (⟨S4096x256, .f32⟩ : BufTy).Contents (Elt F) → (⟨S4096x256, .f32⟩ : BufTy).Contents (Elt F) → (⟨S4096x256, .f32⟩ : BufTy).Contents (Elt F)),
    ternary main_call6_v1 main_v65 main_call6_v7 main_v66 (select : (⟨S4096x256, .i1⟩ : BufTy).Contents (Elt F) → (⟨S4096x256, .f32⟩ : BufTy).Contents (Elt F) → (⟨S4096x256, .f32⟩ : BufTy).Contents (Elt F) → (⟨S4096x256, .f32⟩ : BufTy).Contents (Elt F)) ]
/-- The buffers stretch H1d writes. -/
abbrev W_H1d : List (Ref sig .tc) := [main_call6_cst, main_call6_v0, main_call6_v1, main_call6_cst_0, main_call6_v2, main_call6_v3, main_call6_cst_1, main_call6_call0_v0, main_call6_call0_v1, main_call6_v4, main_call6_v5, main_call6_cst_2, main_call6_v6, main_call6_v7, main_v66]
theorem sub_H1d : (ops_H1d : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem fresh_H1d : (ops_H1d : List (HloOp τ sig (Elt F))).Forall fun op => op.fresh = ∅ :=
  ⟨rfl, rfl, rfl, rfl, rfl, rfl, rfl, rfl, rfl, rfl, rfl, rfl, rfl, rfl, rfl⟩
set_option maxRecDepth 8192 in
theorem writes_H1d : (ops_H1d : List (HloOp τ sig (Elt F))).Forall fun op => op.writes ⊆ (W_H1d.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch H1d does not write keeps its contents through it. -/
theorem keep_H1d (V : Valuation τ sig (Elt F)) (r : Ref sig .tc) (h : r ∉ W_H1d) :
    after ops_H1d V (no_index (Proc.devRef .tc r)) = V (Proc.devRef .tc r) :=
  after_of_writes_sub ops_H1d V writes_H1d h

/-- Stretch H2a: 11 operations, the last writing main_v77. -/
abbrev ops_H2a : List (HloOp τ sig (Elt F)) :=
  [ unary main_arg12 main_v67 ((extractStridedSlice S1x64x128 ![2, 0, 0] · slices_S4x64x128_S1x64x128_2_0_0) : (⟨S4x64x128, .f32⟩ : BufTy).Contents (Elt F) → (⟨S1x64x128, .f32⟩ : BufTy).Contents (Elt F)),
    reshape main_v67 main_v68 rfl shapeCasts_S1x64x128_S64x128,
    binary main_arg2 main_v68 main_v69 ((fun l r => Host.dotGeneral dot_S4096x64_S64x128_S4096x128_1_0_0_1_n_n none l r) : (⟨S4096x64, .f32⟩ : BufTy).Contents (Elt F) → (⟨S64x128, .f32⟩ : BufTy).Contents (Elt F) → (⟨S4096x128, .f32⟩ : BufTy).Contents (Elt F)),
    unary main_arg12 main_v70 ((extractStridedSlice S1x64x128 ![2, 0, 0] · slices_S4x64x128_S1x64x128_2_0_0) : (⟨S4x64x128, .f32⟩ : BufTy).Contents (Elt F) → (⟨S1x64x128, .f32⟩ : BufTy).Contents (Elt F)),
    reshape main_v70 main_v71 rfl shapeCasts_S1x64x128_S64x128,
    binary main_arg1 main_v71 main_v72 ((fun l r => Host.dotGeneral dot_S4096x64_S64x128_S4096x128_1_0_0_1_n_n none l r) : (⟨S4096x64, .f32⟩ : BufTy).Contents (Elt F) → (⟨S64x128, .f32⟩ : BufTy).Contents (Elt F) → (⟨S4096x128, .f32⟩ : BufTy).Contents (Elt F)),
    unary main_arg13 main_v73 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v73 main_v74 rfl shapeCasts_S1x128x128_S128x128,
    binary main_v72 main_v74 main_v75 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    unary main_v69 main_v76 ((transpose S128x4096 [1, 0] · transposes_S4096x128_S128x4096_1_0) : (⟨S4096x128, .f32⟩ : BufTy).Contents (Elt F) → (⟨S128x4096, .f32⟩ : BufTy).Contents (Elt F)),
    binary main_v75 main_v76 main_v77 ((fun l r => Host.dotGeneral dot_S4096x128_S128x4096_S4096x4096_1_0_0_1_n_n none l r) : (⟨S4096x128, .f32⟩ : BufTy).Contents (Elt F) → (⟨S128x4096, .f32⟩ : BufTy).Contents (Elt F) → (⟨S4096x4096, .f32⟩ : BufTy).Contents (Elt F)) ]
/-- The buffers stretch H2a writes. -/
abbrev W_H2a : List (Ref sig .tc) := [main_v67, main_v68, main_v69, main_v70, main_v71, main_v72, main_v73, main_v74, main_v75, main_v76, main_v77]
theorem sub_H2a : (ops_H2a : List (HloOp τ sig (Elt F))).Forall fun op => op.bufs ⊆ tcRefs τ sig :=
  ⟨unary_bufs_sub .., reshape_bufs_sub .., binary_bufs_sub .., unary_bufs_sub .., reshape_bufs_sub .., binary_bufs_sub .., unary_bufs_sub .., reshape_bufs_sub .., binary_bufs_sub .., unary_bufs_sub .., binary_bufs_sub ..⟩
theorem fresh_H2a : (ops_H2a : List (HloOp τ sig (Elt F))).Forall fun op => op.fresh = ∅ :=
  ⟨rfl, rfl, rfl, rfl, rfl, rfl, rfl, rfl, rfl, rfl, rfl⟩
set_option maxRecDepth 8192 in
theorem writes_H2a : (ops_H2a : List (HloOp τ sig (Elt F))).Forall fun op => op.writes ⊆ (W_H2a.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch H2a does not write keeps its contents through it. -/
theorem keep_H2a (V : Valuation τ sig (Elt F)) (r : Ref sig .tc) (h : r ∉ W_H2a) :
    after ops_H2a V (no_index (Proc.devRef .tc r)) = V (Proc.devRef .tc r) :=
  after_of_writes_sub ops_H2a V writes_H2a h

/-- Stretch H2b: 14 operations, the last writing main_v82. -/
abbrev ops_H2b : List (HloOp τ sig (Elt F)) :=
  [ nullary main_cst_11 (constant S_ .f32 0x3E4CCCCD#32),
    nullary main_call7_cst (constant S_ .f32 0x00000000#32),
    unary main_call7_cst main_call7_v0 (broadcastInDim S4096x4096 ![] bcast_S_S4096x4096 : (⟨S_, .f32⟩ : BufTy).Contents (Elt F) → (⟨S4096x4096, .f32⟩ : BufTy).Contents (Elt F)),
    binary main_v77 main_call7_v0 main_call7_v1 (cmpf .oge : (⟨S4096x4096, .f32⟩ : BufTy).Contents (Elt F) → (⟨S4096x4096, .f32⟩ : BufTy).Contents (Elt F) → (⟨S4096x4096, .i1⟩ : BufTy).Contents (Elt F)),
    unary main_cst_11 main_call7_v2 (id : (⟨S_, .f32⟩ : BufTy).Contents (Elt F) → (⟨S_, .f32⟩ : BufTy).Contents (Elt F)),
    unary main_call7_v2 main_call7_v3 (broadcastInDim S4096x4096 ![] bcast_S_S4096x4096 : (⟨S_, .f32⟩ : BufTy).Contents (Elt F) → (⟨S4096x4096, .f32⟩ : BufTy).Contents (Elt F)),
    binary main_call7_v3 main_v77 main_call7_v4 (mulf : (⟨S4096x4096, .f32⟩ : BufTy).Contents (Elt F) → (⟨S4096x4096, .f32⟩ : BufTy).Contents (Elt F) → (⟨S4096x4096, .f32⟩ : BufTy).Contents (Elt F)),
    ternary main_call7_v1 main_v77 main_call7_v4 main_v78 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    nullary main_cst_12 (constant S_ .f32 0x00000000#32),
    unary main_cst_12 main_v79 (broadcastInDim S4096x4096 ![] bcast_S_S4096x4096 : (⟨S_, .f32⟩ : BufTy).Contents (Elt F) → (⟨S4096x4096, .f32⟩ : BufTy).Contents (Elt F)),
    binary main_arg0 main_v79 main_v80 (cmpf .ogt : (⟨S4096x4096, .f32⟩ : BufTy).Contents (Elt F) → (⟨S4096x4096, .f32⟩ : BufTy).Contents (Elt F) → (⟨S4096x4096, .i1⟩ : BufTy).Contents (Elt F)),
    nullary main_cst_13 (constant S_ .f32 0xD9FFCB9E#32),
    unary main_cst_13 main_v81 (broadcastInDim S4096x4096 ![] bcast_S_S4096x4096 : (⟨S_, .f32⟩ : BufTy).Contents (Elt F) → (⟨S4096x4096, .f32⟩ : BufTy).Contents (Elt F)),
    ternary main_v80 main_v78 main_v81 main_v82 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)) ]
/-- The buffers stretch H2b writes. -/
abbrev W_H2b : List (Ref sig .tc) := [main_cst_11, main_call7_cst, main_call7_v0, main_call7_v1, main_call7_v2, main_call7_v3, main_call7_v4, main_v78, main_cst_12, main_v79, main_v80, main_cst_13, main_v81, main_v82]
theorem sub_H2b : (ops_H2b : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., ternary_bufs_sub ..⟩
theorem fresh_H2b : (ops_H2b : List (HloOp τ sig (Elt F))).Forall fun op => op.fresh = ∅ :=
  ⟨rfl, rfl, rfl, rfl, rfl, rfl, rfl, rfl, rfl, rfl, rfl, rfl, rfl, rfl⟩
set_option maxRecDepth 8192 in
theorem writes_H2b : (ops_H2b : List (HloOp τ sig (Elt F))).Forall fun op => op.writes ⊆ (W_H2b.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch H2b does not write keeps its contents through it. -/
theorem keep_H2b (V : Valuation τ sig (Elt F)) (r : Ref sig .tc) (h : r ∉ W_H2b) :
    after ops_H2b V (no_index (Proc.devRef .tc r)) = V (Proc.devRef .tc r) :=
  after_of_writes_sub ops_H2b V writes_H2b h

/-- Stretch H2c: 15 operations, the last writing main_v94. -/
abbrev ops_H2c : List (HloOp τ sig (Elt F)) :=
  [ nullary main_cst_14 (constant S_ .f32 0xFF800000#32),
    binary main_v82 main_cst_14 main_v83 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_15 (constant S_ .f32 0xFF800000#32),
    unary main_cst_15 main_v84 (broadcastInDim S4096 ![] bcast_S_S4096 : (⟨S_, .f32⟩ : BufTy).Contents (Elt F) → (⟨S4096, .f32⟩ : BufTy).Contents (Elt F)),
    binary main_v84 main_v83 main_v85 (maximumf : (⟨S4096, .f32⟩ : BufTy).Contents (Elt F) → (⟨S4096, .f32⟩ : BufTy).Contents (Elt F) → (⟨S4096, .f32⟩ : BufTy).Contents (Elt F)),
    unary main_v85 main_v86 (broadcastInDim S4096x1 ![0] bcast_S4096_S4096x1_0 : (⟨S4096, .f32⟩ : BufTy).Contents (Elt F) → (⟨S4096x1, .f32⟩ : BufTy).Contents (Elt F)),
    unary main_v86 main_v87 (broadcastInDim S4096x4096 ![0, 1] bcast_S4096x1_S4096x4096_0_1 : (⟨S4096x1, .f32⟩ : BufTy).Contents (Elt F) → (⟨S4096x4096, .f32⟩ : BufTy).Contents (Elt F)),
    binary main_v82 main_v87 main_v88 (subf : (⟨S4096x4096, .f32⟩ : BufTy).Contents (Elt F) → (⟨S4096x4096, .f32⟩ : BufTy).Contents (Elt F) → (⟨S4096x4096, .f32⟩ : BufTy).Contents (Elt F)),
    unary main_v88 main_v89 (Host.exp : (⟨S4096x4096, .f32⟩ : BufTy).Contents (Elt F) → (⟨S4096x4096, .f32⟩ : BufTy).Contents (Elt F)),
    nullary main_cst_16 (constant S_ .f32 0x00000000#32),
    binary main_v89 main_cst_16 main_v90 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v90 main_v91 (broadcastInDim S4096x1 ![0] bcast_S4096_S4096x1_0 : (⟨S4096, .f32⟩ : BufTy).Contents (Elt F) → (⟨S4096x1, .f32⟩ : BufTy).Contents (Elt F)),
    unary main_v91 main_v92 (broadcastInDim S4096x4096 ![0, 1] bcast_S4096x1_S4096x4096_0_1 : (⟨S4096x1, .f32⟩ : BufTy).Contents (Elt F) → (⟨S4096x4096, .f32⟩ : BufTy).Contents (Elt F)),
    binary main_v89 main_v92 main_v93 (Host.divf : (⟨S4096x4096, .f32⟩ : BufTy).Contents (Elt F) → (⟨S4096x4096, .f32⟩ : BufTy).Contents (Elt F) → (⟨S4096x4096, .f32⟩ : BufTy).Contents (Elt F)),
    binary main_v93 main_v8 main_v94 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)) ]
/-- The buffers stretch H2c writes. -/
abbrev W_H2c : List (Ref sig .tc) := [main_cst_14, main_v83, main_cst_15, main_v84, main_v85, main_v86, main_v87, main_v88, main_v89, main_cst_16, main_v90, main_v91, main_v92, main_v93, main_v94]
theorem sub_H2c : (ops_H2c : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩
theorem fresh_H2c : (ops_H2c : List (HloOp τ sig (Elt F))).Forall fun op => op.fresh = ∅ :=
  ⟨rfl, rfl, rfl, rfl, rfl, rfl, rfl, rfl, rfl, rfl, rfl, rfl, rfl, rfl, rfl⟩
set_option maxRecDepth 8192 in
theorem writes_H2c : (ops_H2c : List (HloOp τ sig (Elt F))).Forall fun op => op.writes ⊆ (W_H2c.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch H2c does not write keeps its contents through it. -/
theorem keep_H2c (V : Valuation τ sig (Elt F)) (r : Ref sig .tc) (h : r ∉ W_H2c) :
    after ops_H2c V (no_index (Proc.devRef .tc r)) = V (Proc.devRef .tc r) :=
  after_of_writes_sub ops_H2c V writes_H2c h

/-- Stretch H2d: 15 operations, the last writing main_v95. -/
abbrev ops_H2d : List (HloOp τ sig (Elt F)) :=
  [ nullary main_call9_cst (constant S_ .f32 0x00000000#32),
    unary main_call9_cst main_call9_v0 (broadcastInDim S4096x256 ![] bcast_S_S4096x256 : (⟨S_, .f32⟩ : BufTy).Contents (Elt F) → (⟨S4096x256, .f32⟩ : BufTy).Contents (Elt F)),
    binary main_v94 main_call9_v0 main_call9_v1 (cmpf .ogt : (⟨S4096x256, .f32⟩ : BufTy).Contents (Elt F) → (⟨S4096x256, .f32⟩ : BufTy).Contents (Elt F) → (⟨S4096x256, .i1⟩ : BufTy).Contents (Elt F)),
    nullary main_call9_cst_0 (constant S_ .f32 0x00000000#32),
    unary main_call9_cst_0 main_call9_v2 (broadcastInDim S4096x256 ![] bcast_S_S4096x256 : (⟨S_, .f32⟩ : BufTy).Contents (Elt F) → (⟨S4096x256, .f32⟩ : BufTy).Contents (Elt F)),
    binary main_v94 main_call9_v2 main_call9_v3 (cmpf .ogt : (⟨S4096x256, .f32⟩ : BufTy).Contents (Elt F) → (⟨S4096x256, .f32⟩ : BufTy).Contents (Elt F) → (⟨S4096x256, .i1⟩ : BufTy).Contents (Elt F)),
    nullary main_call9_cst_1 (constant S_ .f32 0x00000000#32),
    unary main_call9_cst_1 main_call9_call0_v0 (id : (⟨S_, .f32⟩ : BufTy).Contents (Elt F) → (⟨S_, .f32⟩ : BufTy).Contents (Elt F)),
    unary main_call9_call0_v0 main_call9_call0_v1 (broadcastInDim S4096x256 ![] bcast_S_S4096x256 : (⟨S_, .f32⟩ : BufTy).Contents (Elt F) → (⟨S4096x256, .f32⟩ : BufTy).Contents (Elt F)),
    ternary main_call9_v3 main_call9_call0_v1 main_v94 main_call9_v4 (select : (⟨S4096x256, .i1⟩ : BufTy).Contents (Elt F) → (⟨S4096x256, .f32⟩ : BufTy).Contents (Elt F) → (⟨S4096x256, .f32⟩ : BufTy).Contents (Elt F) → (⟨S4096x256, .f32⟩ : BufTy).Contents (Elt F)),
    unary main_call9_v4 main_call9_v5 (Host.expm1 : (⟨S4096x256, .f32⟩ : BufTy).Contents (Elt F) → (⟨S4096x256, .f32⟩ : BufTy).Contents (Elt F)),
    nullary main_call9_cst_2 (constant S_ .f32 0x3F800000#32),
    unary main_call9_cst_2 main_call9_v6 (broadcastInDim S4096x256 ![] bcast_S_S4096x256 : (⟨S_, .f32⟩ : BufTy).Contents (Elt F) → (⟨S4096x256, .f32⟩ : BufTy).Contents (Elt F)),
    binary main_call9_v6 main_call9_v5 main_call9_v7 (mulf : (⟨S4096x256, .f32⟩ : BufTy).Contents (Elt F) → (⟨S4096x256, .f32⟩ : BufTy).Contents (Elt F) → (⟨S4096x256, .f32⟩ : BufTy).Contents (Elt F)),
    ternary main_call9_v1 main_v94 main_call9_v7 main_v95 (select : (⟨S4096x256, .i1⟩ : BufTy).Contents (Elt F) → (⟨S4096x256, .f32⟩ : BufTy).Contents (Elt F) → (⟨S4096x256, .f32⟩ : BufTy).Contents (Elt F) → (⟨S4096x256, .f32⟩ : BufTy).Contents (Elt F)) ]
/-- The buffers stretch H2d writes. -/
abbrev W_H2d : List (Ref sig .tc) := [main_call9_cst, main_call9_v0, main_call9_v1, main_call9_cst_0, main_call9_v2, main_call9_v3, main_call9_cst_1, main_call9_call0_v0, main_call9_call0_v1, main_call9_v4, main_call9_v5, main_call9_cst_2, main_call9_v6, main_call9_v7, main_v95]
theorem sub_H2d : (ops_H2d : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem fresh_H2d : (ops_H2d : List (HloOp τ sig (Elt F))).Forall fun op => op.fresh = ∅ :=
  ⟨rfl, rfl, rfl, rfl, rfl, rfl, rfl, rfl, rfl, rfl, rfl, rfl, rfl, rfl, rfl⟩
set_option maxRecDepth 8192 in
theorem writes_H2d : (ops_H2d : List (HloOp τ sig (Elt F))).Forall fun op => op.writes ⊆ (W_H2d.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch H2d does not write keeps its contents through it. -/
theorem keep_H2d (V : Valuation τ sig (Elt F)) (r : Ref sig .tc) (h : r ∉ W_H2d) :
    after ops_H2d V (no_index (Proc.devRef .tc r)) = V (Proc.devRef .tc r) :=
  after_of_writes_sub ops_H2d V writes_H2d h

/-- Stretch H3a1: 6 operations, the last writing main_v101. -/
abbrev ops_H3a1 : List (HloOp τ sig (Elt F)) :=
  [ unary main_arg12 main_v96 ((extractStridedSlice S1x64x128 ![3, 0, 0] · slices_S4x64x128_S1x64x128_3_0_0) : (⟨S4x64x128, .f32⟩ : BufTy).Contents (Elt F) → (⟨S1x64x128, .f32⟩ : BufTy).Contents (Elt F)),
    reshape main_v96 main_v97 rfl shapeCasts_S1x64x128_S64x128,
    binary main_arg2 main_v97 main_v98 ((fun l r => Host.dotGeneral dot_S4096x64_S64x128_S4096x128_1_0_0_1_n_n none l r) : (⟨S4096x64, .f32⟩ : BufTy).Contents (Elt F) → (⟨S64x128, .f32⟩ : BufTy).Contents (Elt F) → (⟨S4096x128, .f32⟩ : BufTy).Contents (Elt F)),
    unary main_arg12 main_v99 ((extractStridedSlice S1x64x128 ![3, 0, 0] · slices_S4x64x128_S1x64x128_3_0_0) : (⟨S4x64x128, .f32⟩ : BufTy).Contents (Elt F) → (⟨S1x64x128, .f32⟩ : BufTy).Contents (Elt F)),
    reshape main_v99 main_v100 rfl shapeCasts_S1x64x128_S64x128,
    binary main_arg1 main_v100 main_v101 ((fun l r => Host.dotGeneral dot_S4096x64_S64x128_S4096x128_1_0_0_1_n_n none l r) : (⟨S4096x64, .f32⟩ : BufTy).Contents (Elt F) → (⟨S64x128, .f32⟩ : BufTy).Contents (Elt F) → (⟨S4096x128, .f32⟩ : BufTy).Contents (Elt F)) ]
/-- The buffers stretch H3a1 writes. -/
abbrev W_H3a1 : List (Ref sig .tc) := [main_v96, main_v97, main_v98, main_v99, main_v100, main_v101]
theorem sub_H3a1 : (ops_H3a1 : List (HloOp τ sig (Elt F))).Forall fun op => op.bufs ⊆ tcRefs τ sig :=
  ⟨unary_bufs_sub .., reshape_bufs_sub .., binary_bufs_sub .., unary_bufs_sub .., reshape_bufs_sub .., binary_bufs_sub ..⟩
theorem fresh_H3a1 : (ops_H3a1 : List (HloOp τ sig (Elt F))).Forall fun op => op.fresh = ∅ :=
  ⟨rfl, rfl, rfl, rfl, rfl, rfl⟩
set_option maxRecDepth 8192 in
theorem writes_H3a1 : (ops_H3a1 : List (HloOp τ sig (Elt F))).Forall fun op => op.writes ⊆ (W_H3a1.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch H3a1 does not write keeps its contents through it. -/
theorem keep_H3a1 (V : Valuation τ sig (Elt F)) (r : Ref sig .tc) (h : r ∉ W_H3a1) :
    after ops_H3a1 V (no_index (Proc.devRef .tc r)) = V (Proc.devRef .tc r) :=
  after_of_writes_sub ops_H3a1 V writes_H3a1 h

/-- Stretch H3a2: 5 operations, the last writing main_v106. -/
abbrev ops_H3a2 : List (HloOp τ sig (Elt F)) :=
  [ unary main_arg13 main_v102 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v102 main_v103 rfl shapeCasts_S1x128x128_S128x128,
    binary main_v101 main_v103 main_v104 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    unary main_v98 main_v105 ((transpose S128x4096 [1, 0] · transposes_S4096x128_S128x4096_1_0) : (⟨S4096x128, .f32⟩ : BufTy).Contents (Elt F) → (⟨S128x4096, .f32⟩ : BufTy).Contents (Elt F)),
    binary main_v104 main_v105 main_v106 ((fun l r => Host.dotGeneral dot_S4096x128_S128x4096_S4096x4096_1_0_0_1_n_n none l r) : (⟨S4096x128, .f32⟩ : BufTy).Contents (Elt F) → (⟨S128x4096, .f32⟩ : BufTy).Contents (Elt F) → (⟨S4096x4096, .f32⟩ : BufTy).Contents (Elt F)) ]
/-- The buffers stretch H3a2 writes. -/
abbrev W_H3a2 : List (Ref sig .tc) := [main_v102, main_v103, main_v104, main_v105, main_v106]
theorem sub_H3a2 : (ops_H3a2 : List (HloOp τ sig (Elt F))).Forall fun op => op.bufs ⊆ tcRefs τ sig :=
  ⟨unary_bufs_sub .., reshape_bufs_sub .., binary_bufs_sub .., unary_bufs_sub .., binary_bufs_sub ..⟩
theorem fresh_H3a2 : (ops_H3a2 : List (HloOp τ sig (Elt F))).Forall fun op => op.fresh = ∅ :=
  ⟨rfl, rfl, rfl, rfl, rfl⟩
set_option maxRecDepth 8192 in
theorem writes_H3a2 : (ops_H3a2 : List (HloOp τ sig (Elt F))).Forall fun op => op.writes ⊆ (W_H3a2.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch H3a2 does not write keeps its contents through it. -/
theorem keep_H3a2 (V : Valuation τ sig (Elt F)) (r : Ref sig .tc) (h : r ∉ W_H3a2) :
    after ops_H3a2 V (no_index (Proc.devRef .tc r)) = V (Proc.devRef .tc r) :=
  after_of_writes_sub ops_H3a2 V writes_H3a2 h

/-- Stretch H3b: 14 operations, the last writing main_v111. -/
abbrev ops_H3b : List (HloOp τ sig (Elt F)) :=
  [ nullary main_cst_17 (constant S_ .f32 0x3E4CCCCD#32),
    nullary main_call10_cst (constant S_ .f32 0x00000000#32),
    unary main_call10_cst main_call10_v0 (broadcastInDim S4096x4096 ![] bcast_S_S4096x4096 : (⟨S_, .f32⟩ : BufTy).Contents (Elt F) → (⟨S4096x4096, .f32⟩ : BufTy).Contents (Elt F)),
    binary main_v106 main_call10_v0 main_call10_v1 (cmpf .oge : (⟨S4096x4096, .f32⟩ : BufTy).Contents (Elt F) → (⟨S4096x4096, .f32⟩ : BufTy).Contents (Elt F) → (⟨S4096x4096, .i1⟩ : BufTy).Contents (Elt F)),
    unary main_cst_17 main_call10_v2 (id : (⟨S_, .f32⟩ : BufTy).Contents (Elt F) → (⟨S_, .f32⟩ : BufTy).Contents (Elt F)),
    unary main_call10_v2 main_call10_v3 (broadcastInDim S4096x4096 ![] bcast_S_S4096x4096 : (⟨S_, .f32⟩ : BufTy).Contents (Elt F) → (⟨S4096x4096, .f32⟩ : BufTy).Contents (Elt F)),
    binary main_call10_v3 main_v106 main_call10_v4 (mulf : (⟨S4096x4096, .f32⟩ : BufTy).Contents (Elt F) → (⟨S4096x4096, .f32⟩ : BufTy).Contents (Elt F) → (⟨S4096x4096, .f32⟩ : BufTy).Contents (Elt F)),
    ternary main_call10_v1 main_v106 main_call10_v4 main_v107 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    nullary main_cst_18 (constant S_ .f32 0x00000000#32),
    unary main_cst_18 main_v108 (broadcastInDim S4096x4096 ![] bcast_S_S4096x4096 : (⟨S_, .f32⟩ : BufTy).Contents (Elt F) → (⟨S4096x4096, .f32⟩ : BufTy).Contents (Elt F)),
    binary main_arg0 main_v108 main_v109 (cmpf .ogt : (⟨S4096x4096, .f32⟩ : BufTy).Contents (Elt F) → (⟨S4096x4096, .f32⟩ : BufTy).Contents (Elt F) → (⟨S4096x4096, .i1⟩ : BufTy).Contents (Elt F)),
    nullary main_cst_19 (constant S_ .f32 0xD9FFCB9E#32),
    unary main_cst_19 main_v110 (broadcastInDim S4096x4096 ![] bcast_S_S4096x4096 : (⟨S_, .f32⟩ : BufTy).Contents (Elt F) → (⟨S4096x4096, .f32⟩ : BufTy).Contents (Elt F)),
    ternary main_v109 main_v107 main_v110 main_v111 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)) ]
/-- The buffers stretch H3b writes. -/
abbrev W_H3b : List (Ref sig .tc) := [main_cst_17, main_call10_cst, main_call10_v0, main_call10_v1, main_call10_v2, main_call10_v3, main_call10_v4, main_v107, main_cst_18, main_v108, main_v109, main_cst_19, main_v110, main_v111]
theorem sub_H3b : (ops_H3b : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., ternary_bufs_sub ..⟩
theorem fresh_H3b : (ops_H3b : List (HloOp τ sig (Elt F))).Forall fun op => op.fresh = ∅ :=
  ⟨rfl, rfl, rfl, rfl, rfl, rfl, rfl, rfl, rfl, rfl, rfl, rfl, rfl, rfl⟩
set_option maxRecDepth 8192 in
theorem writes_H3b : (ops_H3b : List (HloOp τ sig (Elt F))).Forall fun op => op.writes ⊆ (W_H3b.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch H3b does not write keeps its contents through it. -/
theorem keep_H3b (V : Valuation τ sig (Elt F)) (r : Ref sig .tc) (h : r ∉ W_H3b) :
    after ops_H3b V (no_index (Proc.devRef .tc r)) = V (Proc.devRef .tc r) :=
  after_of_writes_sub ops_H3b V writes_H3b h

/-- Stretch H3c: 15 operations, the last writing main_v123. -/
abbrev ops_H3c : List (HloOp τ sig (Elt F)) :=
  [ nullary main_cst_20 (constant S_ .f32 0xFF800000#32),
    binary main_v111 main_cst_20 main_v112 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_21 (constant S_ .f32 0xFF800000#32),
    unary main_cst_21 main_v113 (broadcastInDim S4096 ![] bcast_S_S4096 : (⟨S_, .f32⟩ : BufTy).Contents (Elt F) → (⟨S4096, .f32⟩ : BufTy).Contents (Elt F)),
    binary main_v113 main_v112 main_v114 (maximumf : (⟨S4096, .f32⟩ : BufTy).Contents (Elt F) → (⟨S4096, .f32⟩ : BufTy).Contents (Elt F) → (⟨S4096, .f32⟩ : BufTy).Contents (Elt F)),
    unary main_v114 main_v115 (broadcastInDim S4096x1 ![0] bcast_S4096_S4096x1_0 : (⟨S4096, .f32⟩ : BufTy).Contents (Elt F) → (⟨S4096x1, .f32⟩ : BufTy).Contents (Elt F)),
    unary main_v115 main_v116 (broadcastInDim S4096x4096 ![0, 1] bcast_S4096x1_S4096x4096_0_1 : (⟨S4096x1, .f32⟩ : BufTy).Contents (Elt F) → (⟨S4096x4096, .f32⟩ : BufTy).Contents (Elt F)),
    binary main_v111 main_v116 main_v117 (subf : (⟨S4096x4096, .f32⟩ : BufTy).Contents (Elt F) → (⟨S4096x4096, .f32⟩ : BufTy).Contents (Elt F) → (⟨S4096x4096, .f32⟩ : BufTy).Contents (Elt F)),
    unary main_v117 main_v118 (Host.exp : (⟨S4096x4096, .f32⟩ : BufTy).Contents (Elt F) → (⟨S4096x4096, .f32⟩ : BufTy).Contents (Elt F)),
    nullary main_cst_22 (constant S_ .f32 0x00000000#32),
    binary main_v118 main_cst_22 main_v119 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v119 main_v120 (broadcastInDim S4096x1 ![0] bcast_S4096_S4096x1_0 : (⟨S4096, .f32⟩ : BufTy).Contents (Elt F) → (⟨S4096x1, .f32⟩ : BufTy).Contents (Elt F)),
    unary main_v120 main_v121 (broadcastInDim S4096x4096 ![0, 1] bcast_S4096x1_S4096x4096_0_1 : (⟨S4096x1, .f32⟩ : BufTy).Contents (Elt F) → (⟨S4096x4096, .f32⟩ : BufTy).Contents (Elt F)),
    binary main_v118 main_v121 main_v122 (Host.divf : (⟨S4096x4096, .f32⟩ : BufTy).Contents (Elt F) → (⟨S4096x4096, .f32⟩ : BufTy).Contents (Elt F) → (⟨S4096x4096, .f32⟩ : BufTy).Contents (Elt F)),
    binary main_v122 main_v8 main_v123 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)) ]
/-- The buffers stretch H3c writes. -/
abbrev W_H3c : List (Ref sig .tc) := [main_cst_20, main_v112, main_cst_21, main_v113, main_v114, main_v115, main_v116, main_v117, main_v118, main_cst_22, main_v119, main_v120, main_v121, main_v122, main_v123]
theorem sub_H3c : (ops_H3c : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩
theorem fresh_H3c : (ops_H3c : List (HloOp τ sig (Elt F))).Forall fun op => op.fresh = ∅ :=
  ⟨rfl, rfl, rfl, rfl, rfl, rfl, rfl, rfl, rfl, rfl, rfl, rfl, rfl, rfl, rfl⟩
set_option maxRecDepth 8192 in
theorem writes_H3c : (ops_H3c : List (HloOp τ sig (Elt F))).Forall fun op => op.writes ⊆ (W_H3c.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch H3c does not write keeps its contents through it. -/
theorem keep_H3c (V : Valuation τ sig (Elt F)) (r : Ref sig .tc) (h : r ∉ W_H3c) :
    after ops_H3c V (no_index (Proc.devRef .tc r)) = V (Proc.devRef .tc r) :=
  after_of_writes_sub ops_H3c V writes_H3c h

/-- Stretch H3d: 15 operations, the last writing main_v124. -/
abbrev ops_H3d : List (HloOp τ sig (Elt F)) :=
  [ nullary main_call12_cst (constant S_ .f32 0x00000000#32),
    unary main_call12_cst main_call12_v0 (broadcastInDim S4096x256 ![] bcast_S_S4096x256 : (⟨S_, .f32⟩ : BufTy).Contents (Elt F) → (⟨S4096x256, .f32⟩ : BufTy).Contents (Elt F)),
    binary main_v123 main_call12_v0 main_call12_v1 (cmpf .ogt : (⟨S4096x256, .f32⟩ : BufTy).Contents (Elt F) → (⟨S4096x256, .f32⟩ : BufTy).Contents (Elt F) → (⟨S4096x256, .i1⟩ : BufTy).Contents (Elt F)),
    nullary main_call12_cst_0 (constant S_ .f32 0x00000000#32),
    unary main_call12_cst_0 main_call12_v2 (broadcastInDim S4096x256 ![] bcast_S_S4096x256 : (⟨S_, .f32⟩ : BufTy).Contents (Elt F) → (⟨S4096x256, .f32⟩ : BufTy).Contents (Elt F)),
    binary main_v123 main_call12_v2 main_call12_v3 (cmpf .ogt : (⟨S4096x256, .f32⟩ : BufTy).Contents (Elt F) → (⟨S4096x256, .f32⟩ : BufTy).Contents (Elt F) → (⟨S4096x256, .i1⟩ : BufTy).Contents (Elt F)),
    nullary main_call12_cst_1 (constant S_ .f32 0x00000000#32),
    unary main_call12_cst_1 main_call12_call0_v0 (id : (⟨S_, .f32⟩ : BufTy).Contents (Elt F) → (⟨S_, .f32⟩ : BufTy).Contents (Elt F)),
    unary main_call12_call0_v0 main_call12_call0_v1 (broadcastInDim S4096x256 ![] bcast_S_S4096x256 : (⟨S_, .f32⟩ : BufTy).Contents (Elt F) → (⟨S4096x256, .f32⟩ : BufTy).Contents (Elt F)),
    ternary main_call12_v3 main_call12_call0_v1 main_v123 main_call12_v4 (select : (⟨S4096x256, .i1⟩ : BufTy).Contents (Elt F) → (⟨S4096x256, .f32⟩ : BufTy).Contents (Elt F) → (⟨S4096x256, .f32⟩ : BufTy).Contents (Elt F) → (⟨S4096x256, .f32⟩ : BufTy).Contents (Elt F)),
    unary main_call12_v4 main_call12_v5 (Host.expm1 : (⟨S4096x256, .f32⟩ : BufTy).Contents (Elt F) → (⟨S4096x256, .f32⟩ : BufTy).Contents (Elt F)),
    nullary main_call12_cst_2 (constant S_ .f32 0x3F800000#32),
    unary main_call12_cst_2 main_call12_v6 (broadcastInDim S4096x256 ![] bcast_S_S4096x256 : (⟨S_, .f32⟩ : BufTy).Contents (Elt F) → (⟨S4096x256, .f32⟩ : BufTy).Contents (Elt F)),
    binary main_call12_v6 main_call12_v5 main_call12_v7 (mulf : (⟨S4096x256, .f32⟩ : BufTy).Contents (Elt F) → (⟨S4096x256, .f32⟩ : BufTy).Contents (Elt F) → (⟨S4096x256, .f32⟩ : BufTy).Contents (Elt F)),
    ternary main_call12_v1 main_v123 main_call12_v7 main_v124 (select : (⟨S4096x256, .i1⟩ : BufTy).Contents (Elt F) → (⟨S4096x256, .f32⟩ : BufTy).Contents (Elt F) → (⟨S4096x256, .f32⟩ : BufTy).Contents (Elt F) → (⟨S4096x256, .f32⟩ : BufTy).Contents (Elt F)) ]
/-- The buffers stretch H3d writes. -/
abbrev W_H3d : List (Ref sig .tc) := [main_call12_cst, main_call12_v0, main_call12_v1, main_call12_cst_0, main_call12_v2, main_call12_v3, main_call12_cst_1, main_call12_call0_v0, main_call12_call0_v1, main_call12_v4, main_call12_v5, main_call12_cst_2, main_call12_v6, main_call12_v7, main_v124]
theorem sub_H3d : (ops_H3d : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem fresh_H3d : (ops_H3d : List (HloOp τ sig (Elt F))).Forall fun op => op.fresh = ∅ :=
  ⟨rfl, rfl, rfl, rfl, rfl, rfl, rfl, rfl, rfl, rfl, rfl, rfl, rfl, rfl, rfl⟩
set_option maxRecDepth 8192 in
theorem writes_H3d : (ops_H3d : List (HloOp τ sig (Elt F))).Forall fun op => op.writes ⊆ (W_H3d.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch H3d does not write keeps its contents through it. -/
theorem keep_H3d (V : Valuation τ sig (Elt F)) (r : Ref sig .tc) (h : r ∉ W_H3d) :
    after ops_H3d V (no_index (Proc.devRef .tc r)) = V (Proc.devRef .tc r) :=
  after_of_writes_sub ops_H3d V writes_H3d h

/-- Stretch M: 10 operations, the last writing main_v132. -/
abbrev ops_M : List (HloOp τ sig (Elt F)) :=
  [ unary main_v37 main_v125 (broadcastInDim S1x4096x256 ![1, 2] bcast_S4096x256_S1x4096x256_1_2 : (⟨S4096x256, .f32⟩ : BufTy).Contents (Elt F) → (⟨S1x4096x256, .f32⟩ : BufTy).Contents (Elt F)),
    unary main_v66 main_v126 (broadcastInDim S1x4096x256 ![1, 2] bcast_S4096x256_S1x4096x256_1_2 : (⟨S4096x256, .f32⟩ : BufTy).Contents (Elt F) → (⟨S1x4096x256, .f32⟩ : BufTy).Contents (Elt F)),
    unary main_v95 main_v127 (broadcastInDim S1x4096x256 ![1, 2] bcast_S4096x256_S1x4096x256_1_2 : (⟨S4096x256, .f32⟩ : BufTy).Contents (Elt F) → (⟨S1x4096x256, .f32⟩ : BufTy).Contents (Elt F)),
    unary main_v124 main_v128 (broadcastInDim S1x4096x256 ![1, 2] bcast_S4096x256_S1x4096x256_1_2 : (⟨S4096x256, .f32⟩ : BufTy).Contents (Elt F) → (⟨S1x4096x256, .f32⟩ : BufTy).Contents (Elt F)),
    nary ![main_v125, main_v126, main_v127, main_v128] main_v129 (fun u => concatenate S4x4096x256 0 [⟨S1x4096x256, u 0⟩, ⟨S1x4096x256, u 1⟩, ⟨S1x4096x256, u 2⟩, ⟨S1x4096x256, u 3⟩] concatenates_S1x4096x256_S1x4096x256_S1x4096x256_S1x4096x256_S4x4096x256_d0),
    nullary main_cst_23 (constant S_ .f32 0x00000000#32),
    binary main_v129 main_cst_23 main_v130 ((fun x v => Host.reduceAdd x v reducesTo_S4x4096x256_S4096x256_d0 h_S_) : (⟨S4x4096x256, .f32⟩ : BufTy).Contents (Elt F) → (⟨S_, .f32⟩ : BufTy).Contents (Elt F) → (⟨S4096x256, .f32⟩ : BufTy).Contents (Elt F)),
    nullary main_cst_24 (constant S_ .f32 0x40800000#32),
    unary main_cst_24 main_v131 (broadcastInDim S4096x256 ![] bcast_S_S4096x256 : (⟨S_, .f32⟩ : BufTy).Contents (Elt F) → (⟨S4096x256, .f32⟩ : BufTy).Contents (Elt F)),
    binary main_v130 main_v131 main_v132 (Host.divf : (⟨S4096x256, .f32⟩ : BufTy).Contents (Elt F) → (⟨S4096x256, .f32⟩ : BufTy).Contents (Elt F) → (⟨S4096x256, .f32⟩ : BufTy).Contents (Elt F)) ]
/-- The buffers stretch M writes. -/
abbrev W_M : List (Ref sig .tc) := [main_v125, main_v126, main_v127, main_v128, main_v129, main_cst_23, main_v130, main_cst_24, main_v131, main_v132]
theorem sub_M : (ops_M : List (HloOp τ sig (Elt F))).Forall fun op => op.bufs ⊆ tcRefs τ sig :=
  ⟨unary_bufs_sub .., unary_bufs_sub .., unary_bufs_sub .., unary_bufs_sub .., nary_bufs_sub .., nullary_bufs_sub .., binary_bufs_sub .., nullary_bufs_sub .., unary_bufs_sub .., binary_bufs_sub ..⟩
theorem fresh_M : (ops_M : List (HloOp τ sig (Elt F))).Forall fun op => op.fresh = ∅ :=
  ⟨rfl, rfl, rfl, rfl, rfl, rfl, rfl, rfl, rfl, rfl⟩
set_option maxRecDepth 8192 in
theorem writes_M : (ops_M : List (HloOp τ sig (Elt F))).Forall fun op => op.writes ⊆ (W_M.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch M does not write keeps its contents through it. -/
theorem keep_M (V : Valuation τ sig (Elt F)) (r : Ref sig .tc) (h : r ∉ W_M) :
    after ops_M V (no_index (Proc.devRef .tc r)) = V (Proc.devRef .tc r) :=
  after_of_writes_sub ops_M V writes_M h

/-- Stretch D: 11 operations, the last writing main_v141. -/
abbrev ops_D : List (HloOp τ sig (Elt F)) :=
  [ binary main_v8 main_arg8 main_v133 ((fun l r => Host.dotGeneral dot_S4096x256_S256x512_S4096x512_1_0_0_1_n_n none l r) : (⟨S4096x256, .f32⟩ : BufTy).Contents (Elt F) → (⟨S256x512, .f32⟩ : BufTy).Contents (Elt F) → (⟨S4096x512, .f32⟩ : BufTy).Contents (Elt F)),
    unary main_arg9 main_v134 (broadcastInDim S1x512 ![1] bcast_S512_S1x512_1 : (⟨S512, .f32⟩ : BufTy).Contents (Elt F) → (⟨S1x512, .f32⟩ : BufTy).Contents (Elt F)),
    unary main_v134 main_v135 (broadcastInDim S4096x512 ![0, 1] bcast_S1x512_S4096x512_0_1 : (⟨S1x512, .f32⟩ : BufTy).Contents (Elt F) → (⟨S4096x512, .f32⟩ : BufTy).Contents (Elt F)),
    binary main_v133 main_v135 main_v136 (addf : (⟨S4096x512, .f32⟩ : BufTy).Contents (Elt F) → (⟨S4096x512, .f32⟩ : BufTy).Contents (Elt F) → (⟨S4096x512, .f32⟩ : BufTy).Contents (Elt F)),
    nullary main_call13_cst (constant S_ .f32 0x00000000#32),
    unary main_call13_cst main_call13_v0 (broadcastInDim S4096x512 ![] bcast_S_S4096x512 : (⟨S_, .f32⟩ : BufTy).Contents (Elt F) → (⟨S4096x512, .f32⟩ : BufTy).Contents (Elt F)),
    binary main_v136 main_call13_v0 main_v137 (maximumf : (⟨S4096x512, .f32⟩ : BufTy).Contents (Elt F) → (⟨S4096x512, .f32⟩ : BufTy).Contents (Elt F) → (⟨S4096x512, .f32⟩ : BufTy).Contents (Elt F)),
    binary main_v137 main_arg10 main_v138 ((fun l r => Host.dotGeneral dot_S4096x512_S512x1024_S4096x1024_1_0_0_1_n_n none l r) : (⟨S4096x512, .f32⟩ : BufTy).Contents (Elt F) → (⟨S512x1024, .f32⟩ : BufTy).Contents (Elt F) → (⟨S4096x1024, .f32⟩ : BufTy).Contents (Elt F)),
    unary main_arg11 main_v139 (broadcastInDim S1x1024 ![1] bcast_S1024_S1x1024_1 : (⟨S1024, .f32⟩ : BufTy).Contents (Elt F) → (⟨S1x1024, .f32⟩ : BufTy).Contents (Elt F)),
    unary main_v139 main_v140 (broadcastInDim S4096x1024 ![0, 1] bcast_S1x1024_S4096x1024_0_1 : (⟨S1x1024, .f32⟩ : BufTy).Contents (Elt F) → (⟨S4096x1024, .f32⟩ : BufTy).Contents (Elt F)),
    binary main_v138 main_v140 main_v141 (addf : (⟨S4096x1024, .f32⟩ : BufTy).Contents (Elt F) → (⟨S4096x1024, .f32⟩ : BufTy).Contents (Elt F) → (⟨S4096x1024, .f32⟩ : BufTy).Contents (Elt F)) ]
/-- The buffers stretch D writes. -/
abbrev W_D : List (Ref sig .tc) := [main_v133, main_v134, main_v135, main_v136, main_call13_cst, main_call13_v0, main_v137, main_v138, main_v139, main_v140, main_v141]
theorem sub_D : (ops_D : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem fresh_D : (ops_D : List (HloOp τ sig (Elt F))).Forall fun op => op.fresh = ∅ :=
  ⟨rfl, rfl, rfl, rfl, rfl, rfl, rfl, rfl, rfl, rfl, rfl⟩
set_option maxRecDepth 8192 in
theorem writes_D : (ops_D : List (HloOp τ sig (Elt F))).Forall fun op => op.writes ⊆ (W_D.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch D does not write keeps its contents through it. -/
theorem keep_D (V : Valuation τ sig (Elt F)) (r : Ref sig .tc) (h : r ∉ W_D) :
    after ops_D V (no_index (Proc.devRef .tc r)) = V (Proc.devRef .tc r) :=
  after_of_writes_sub ops_D V writes_D h

/-- The operations of the printed window 0 of @main. -/
abbrev ops_part0 : List (HloOp τ sig (Elt F)) := ops_E ++ ops_H0a ++ ops_H0b ++ ops_H0c ++ ops_H0d ++ ops_H1a ++ ops_H1b1
/-- The operations of the printed window 1 of @main. -/
abbrev ops_part1 : List (HloOp τ sig (Elt F)) := ops_H1b2 ++ ops_H1c ++ ops_H1d ++ ops_H2a ++ ops_H2b ++ ops_H2c ++ ops_H2d ++ ops_H3a1
/-- The operations of the printed window 2 of @main. -/
abbrev ops_part2 : List (HloOp τ sig (Elt F)) := ops_H3a2 ++ ops_H3b ++ ops_H3c ++ ops_H3d ++ ops_M ++ ops_D
/-- All of @main's operations. -/
abbrev ops : List (HloOp τ sig (Elt F)) := ops_part0 ++ ops_part1 ++ ops_part2

end Cert.ReferenceIdeal.Hand

end
-- ==== Proof.RefRunMain.lean ====
import proofs.«114942_g22505628631095_cont_8to1_462_6_alg».proof.Proof.RefRunOps

/-!
# The reference's @main is its list of operations, run in order

Each printed window of @main, with the called functions' bodies written out at their calls, is the straight line of
its stretches' operations; the three windows in order are the whole list. Running a straight line of host
operations from any memory ends, without fault, with every buffer of every core at the fold of the operations over
the launch contents.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- Window 0 with the calls written out: sequencing re-associated, the two sides are one chain of operations. -/
theorem main_part0_eq (c : Dev nD) : main_part0 (F := F) c = seq ops_part0 := by
  simp only [main_part0, fn_relu.body, fn_leaky_relu.body, fn_where.body, fn_elu.body, fn_where_0.body, fn_where_1.body,
    bind_assoc, pure_bind]
  rfl

set_option maxRecDepth 16384 in
set_option maxHeartbeats 4000000 in
theorem main_part1_eq (c : Dev nD) : main_part1 (F := F) c = seq ops_part1 := by
  simp only [main_part1, fn_relu.body, fn_leaky_relu.body, fn_where.body, fn_elu.body, fn_where_0.body, fn_where_1.body,
    bind_assoc, pure_bind]
  rfl

set_option maxRecDepth 16384 in
set_option maxHeartbeats 4000000 in
theorem main_part2_eq (c : Dev nD) : main_part2 (F := F) c = seq ops_part2 := by
  simp only [main_part2, fn_relu.body, fn_leaky_relu.body, fn_where.body, fn_elu.body, fn_where_0.body, fn_where_1.body,
    bind_assoc, pure_bind]
  rfl

/-- @main runs its windows in order: the whole list. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- A property of every operation of every stretch holds of every operation of the list. -/
theorem forall_ops {p : HloOp τ sig (Elt F) → Prop}
    (hE : (ops_E : List (HloOp τ sig (Elt F))).Forall p)
    (hH0a : (ops_H0a : List (HloOp τ sig (Elt F))).Forall p)
    (hH0b : (ops_H0b : List (HloOp τ sig (Elt F))).Forall p)
    (hH0c : (ops_H0c : List (HloOp τ sig (Elt F))).Forall p)
    (hH0d : (ops_H0d : List (HloOp τ sig (Elt F))).Forall p)
    (hH1a : (ops_H1a : List (HloOp τ sig (Elt F))).Forall p)
    (hH1b1 : (ops_H1b1 : List (HloOp τ sig (Elt F))).Forall p)
    (hH1b2 : (ops_H1b2 : List (HloOp τ sig (Elt F))).Forall p)
    (hH1c : (ops_H1c : List (HloOp τ sig (Elt F))).Forall p)
    (hH1d : (ops_H1d : List (HloOp τ sig (Elt F))).Forall p)
    (hH2a : (ops_H2a : List (HloOp τ sig (Elt F))).Forall p)
    (hH2b : (ops_H2b : List (HloOp τ sig (Elt F))).Forall p)
    (hH2c : (ops_H2c : List (HloOp τ sig (Elt F))).Forall p)
    (hH2d : (ops_H2d : List (HloOp τ sig (Elt F))).Forall p)
    (hH3a1 : (ops_H3a1 : List (HloOp τ sig (Elt F))).Forall p)
    (hH3a2 : (ops_H3a2 : List (HloOp τ sig (Elt F))).Forall p)
    (hH3b : (ops_H3b : List (HloOp τ sig (Elt F))).Forall p)
    (hH3c : (ops_H3c : List (HloOp τ sig (Elt F))).Forall p)
    (hH3d : (ops_H3d : List (HloOp τ sig (Elt F))).Forall p)
    (hM : (ops_M : List (HloOp τ sig (Elt F))).Forall p)
    (hD : (ops_D : List (HloOp τ sig (Elt F))).Forall p) :
    ∀ op ∈ (ops : List (HloOp τ sig (Elt F))), p op := by
  intro op h
  simp only [ops, ops_part0, ops_part1, ops_part2, List.mem_append, or_assoc] at h
  rcases h with h | h | h | h | h | h | h | h | h | h | h | h | h | h | h | h | h | h | h | h | h
  exacts [List.forall_iff_forall_mem.mp hE op h, List.forall_iff_forall_mem.mp hH0a op h, List.forall_iff_forall_mem.mp hH0b op h, List.forall_iff_forall_mem.mp hH0c op h, List.forall_iff_forall_mem.mp hH0d op h, List.forall_iff_forall_mem.mp hH1a op h, List.forall_iff_forall_mem.mp hH1b1 op h, List.forall_iff_forall_mem.mp hH1b2 op h, List.forall_iff_forall_mem.mp hH1c op h, List.forall_iff_forall_mem.mp hH1d op h, List.forall_iff_forall_mem.mp hH2a op h, List.forall_iff_forall_mem.mp hH2b op h, List.forall_iff_forall_mem.mp hH2c op h, List.forall_iff_forall_mem.mp hH2d op h, List.forall_iff_forall_mem.mp hH3a1 op h, List.forall_iff_forall_mem.mp hH3a2 op h, List.forall_iff_forall_mem.mp hH3b op h, List.forall_iff_forall_mem.mp hH3c op h, List.forall_iff_forall_mem.mp hH3d op h, List.forall_iff_forall_mem.mp hM op h, List.forall_iff_forall_mem.mp hD op h]

theorem ops_sub : (ops : List (HloOp τ sig (Elt F))).Forall fun op => op.bufs ⊆ tcRefs τ sig :=
  List.forall_iff_forall_mem.mpr (forall_ops sub_E sub_H0a sub_H0b sub_H0c sub_H0d sub_H1a sub_H1b1 sub_H1b2 sub_H1c sub_H1d sub_H2a sub_H2b sub_H2c sub_H2d sub_H3a1 sub_H3a2 sub_H3b sub_H3c sub_H3d sub_M sub_D)

theorem ops_fresh : ∀ op ∈ (ops : List (HloOp τ sig (Elt F))), op.fresh = ∅ :=
  forall_ops fresh_E fresh_H0a fresh_H0b fresh_H0c fresh_H0d fresh_H1a fresh_H1b1 fresh_H1b2 fresh_H1c fresh_H1d fresh_H2a fresh_H2b fresh_H2c fresh_H2d fresh_H3a1 fresh_H3a2 fresh_H3b fresh_H3c fresh_H3d fresh_M fresh_D

/-- On every device, for any float values, from any memory with zero counters: every weakly fair execution of @main
    ends without fault with every buffer at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Hand

end
-- ==== Proof.RefRunVals.lean ====
import proofs.«114942_g22505628631095_cont_8to1_462_6_alg».proof.Proof.Gen.ReferenceIdeal

/-!
# The reference's stages as functions of arrays

Each stretch of the reference program computes one array from a few others. Here those functions are written once,
over whole arrays and for any float values: the perceptron of the encoder and of the decoder; a head's projection of
an embedding through the head's slice of the first weights; the logits from the two projections and the head's slice
of the second weights; the logits bent; the mask's comparison and the choice it makes; the rows normalised (the
row's maximum, the exponentials of the differences, their row sums, the quotient); the normalised rows times the
encoder's result; the exponential linear unit; the mean of four arrays.
-/

noncomputable section

namespace Cert.ReferenceIdeal.Hand

open Cert.ReferenceIdeal Cert.ReferenceIdeal.Gen Idealize.ShloMosaic

variable {F : FTy → Type} [FloatOps F]

/-- The rectifier: the larger of each entry and zero. -/
def reluV (x : FVec F S4096x512 .f32) : FVec F S4096x512 .f32 :=
  maximumf x (broadcastInDim S4096x512 ![] bcast_S_S4096x512 (constant S_ .f32 0x00000000#32))

/-- The encoder: a linear layer with its bias, the rectifier, a second linear layer with its bias. -/
def encV (x : FVec F S4096x1024 .f32) (w1 : FVec F S1024x512 .f32) (b1 : FVec F S512 .f32) (w2 : FVec F S512x256 .f32)
    (b2 : FVec F S256 .f32) : FVec F S4096x256 .f32 :=
  addf (Host.dotGeneral dot_S4096x512_S512x256_S4096x256_1_0_0_1_n_n none
      (reluV (addf (Host.dotGeneral dot_S4096x1024_S1024x512_S4096x512_1_0_0_1_n_n none x w1)
        (broadcastInDim S4096x512 ![0, 1] bcast_S1x512_S4096x512_0_1 (broadcastInDim S1x512 ![1] bcast_S512_S1x512_1 b1)))) w2)
    (broadcastInDim S4096x256 ![0, 1] bcast_S1x256_S4096x256_0_1 (broadcastInDim S1x256 ![1] bcast_S256_S1x256_1 b2))

/-- The decoder: the same two layers at its own widths. -/
def decV (tf : FVec F S4096x256 .f32) (w1 : FVec F S256x512 .f32) (b1 : FVec F S512 .f32) (w2 : FVec F S512x1024 .f32)
    (b2 : FVec F S1024 .f32) : FVec F S4096x1024 .f32 :=
  addf (Host.dotGeneral dot_S4096x512_S512x1024_S4096x1024_1_0_0_1_n_n none
      (reluV (addf (Host.dotGeneral dot_S4096x256_S256x512_S4096x512_1_0_0_1_n_n none tf w1)
        (broadcastInDim S4096x512 ![0, 1] bcast_S1x512_S4096x512_0_1 (broadcastInDim S1x512 ![1] bcast_S512_S1x512_1 b1)))) w2)
    (broadcastInDim S4096x1024 ![0, 1] bcast_S1x1024_S4096x1024_0_1 (broadcastInDim S1x1024 ![1] bcast_S1024_S1x1024_1 b2))

/-- An embedding times the slice at `o` of the first weights. -/
def projV (o : Fin S4x64x128.rank → ℕ) (ho : S4x64x128.Slices o S1x64x128) (x : FVec F S4096x64 .f32)
    (w : FVec F S4x64x128 .f32) : FVec F S4096x128 .f32 :=
  Host.dotGeneral dot_S4096x64_S64x128_S4096x128_1_0_0_1_n_n none x
    (shapeCast S64x128 (extractStridedSlice S1x64x128 o w ho) shapeCasts_S1x64x128_S64x128)

/-- The logits: the destinations' projection times the slice at `o` of the second weights, times the transposed
    sources' projection. -/
def scoresOfV (o : Fin S4x128x128.rank → ℕ) (ho : S4x128x128.Slices o S1x128x128) (h1 h2 : FVec F S4096x128 .f32)
    (w2 : FVec F S4x128x128 .f32) : FVec F S4096x4096 .f32 :=
  Host.dotGeneral dot_S4096x128_S128x4096_S4096x4096_1_0_0_1_n_n none
    (Host.dotGeneral dot_S4096x128_S128x128_S4096x128_1_0_0_1_n_n none h2
      (shapeCast S128x128 (extractStridedSlice S1x128x128 o w2 ho) shapeCasts_S1x128x128_S128x128))
    (transpose S128x4096 [1, 0] h1 transposes_S4096x128_S128x4096_1_0)

/-- The logits bent: an entry at least zero is kept, another is scaled by the slope. -/
def leakyV (e : FVec F S4096x4096 .f32) : FVec F S4096x4096 .f32 :=
  select (cmpf .oge e (broadcastInDim S4096x4096 ![] bcast_S_S4096x4096 (constant S_ .f32 0x00000000#32))) e
    (mulf (broadcastInDim S4096x4096 ![] bcast_S_S4096x4096 (constant S_ .f32 0x3E4CCCCD#32)) e)

/-- Where the bias is above zero. -/
def maskCmpV (bias : FVec F S4096x4096 .f32) : IVec S4096x4096 1 :=
  cmpf .ogt bias (broadcastInDim S4096x4096 ![] bcast_S_S4096x4096 (constant S_ .f32 0x00000000#32))

/-- The mask's choice: the entry where the comparison holds, the large negative number elsewhere. -/
def maskSelV (c : IVec S4096x4096 1) (e : FVec F S4096x4096 .f32) : FVec F S4096x4096 .f32 :=
  select c e (broadcastInDim S4096x4096 ![] bcast_S_S4096x4096 (constant S_ .f32 0xD9FFCB9E#32))

/-- The rows' maxima, from minus infinity, and once more against minus infinity. -/
def rowMaxV (a : FVec F S4096x4096 .f32) : FVec F S4096 .f32 :=
  maximumf (broadcastInDim S4096 ![] bcast_S_S4096 (constant S_ .f32 0xFF800000#32))
    (Host.reduce FloatOps.maximumf a (constant S_ .f32 0xFF800000#32) reducesTo_S4096x4096_S4096_d1 h_S_)

/-- A vector as a column repeated across the rows' entries. -/
def colV (v : FVec F S4096 .f32) : FVec F S4096x4096 .f32 :=
  broadcastInDim S4096x4096 ![0, 1] bcast_S4096x1_S4096x4096_0_1 (broadcastInDim S4096x1 ![0] bcast_S4096_S4096x1_0 v)

/-- The exponentials of the entries less their row's maximum. -/
def expV (a : FVec F S4096x4096 .f32) : FVec F S4096x4096 .f32 := Host.exp (subf a (colV (rowMaxV a)))

/-- The rows normalised. -/
def softV (a : FVec F S4096x4096 .f32) : FVec F S4096x4096 .f32 :=
  Host.divf (expV a) (colV (Host.reduceAdd (expV a) (constant S_ .f32 0x00000000#32) reducesTo_S4096x4096_S4096_d1 h_S_))

/-- The normalised rows as weights of the rows of `tf`. -/
def weighV (a : FVec F S4096x4096 .f32) (tf : FVec F S4096x256 .f32) : FVec F S4096x256 .f32 :=
  Host.dotGeneral dot_S4096x4096_S4096x256_S4096x256_1_0_0_1_n_n none (softV a) tf

/-- The exponential linear unit. -/
def eluV (x : FVec F S4096x256 .f32) : FVec F S4096x256 .f32 :=
  select (cmpf .ogt x (broadcastInDim S4096x256 ![] bcast_S_S4096x256 (constant S_ .f32 0x00000000#32))) x
    (mulf (broadcastInDim S4096x256 ![] bcast_S_S4096x256 (constant S_ .f32 0x3F800000#32))
      (Host.expm1 (select (cmpf .ogt x (broadcastInDim S4096x256 ![] bcast_S_S4096x256 (constant S_ .f32 0x00000000#32)))
        (broadcastInDim S4096x256 ![] bcast_S_S4096x256 (constant S_ .f32 0x00000000#32)) x)))

/-- An array as the one slab of a stack. -/
def slabV (x : FVec F S4096x256 .f32) : FVec F S1x4096x256 .f32 :=
  broadcastInDim S1x4096x256 ![1, 2] bcast_S4096x256_S1x4096x256_1_2 x

/-- The mean of four arrays: stacked, summed along the stack from zero, divided by four. -/
def meanV (a b c d : FVec F S4096x256 .f32) : FVec F S4096x256 .f32 :=
  Host.divf (Host.reduceAdd (concatenate S4x4096x256 0 [⟨S1x4096x256, slabV a⟩, ⟨S1x4096x256, slabV b⟩, ⟨S1x4096x256, slabV c⟩, ⟨S1x4096x256, slabV d⟩]
      concatenates_S1x4096x256_S1x4096x256_S1x4096x256_S1x4096x256_S4x4096x256_d0) (constant S_ .f32 0x00000000#32)
      reducesTo_S4x4096x256_S4096x256_d0 h_S_)
    (broadcastInDim S4096x256 ![] bcast_S_S4096x256 (constant S_ .f32 0x40800000#32))

/-- One head, from the slices' offsets: projections, logits, bent, masked, normalised, weighted, the unit. -/
def headV (o : Fin S4x64x128.rank → ℕ) (ho : S4x64x128.Slices o S1x64x128) (o' : Fin S4x128x128.rank → ℕ)
    (ho' : S4x128x128.Slices o' S1x128x128) (bias : FVec F S4096x4096 .f32) (ed es : FVec F S4096x64 .f32)
    (w : FVec F S4x64x128 .f32) (w2 : FVec F S4x128x128 .f32) (tf : FVec F S4096x256 .f32) : FVec F S4096x256 .f32 :=
  eluV (weighV (maskSelV (maskCmpV bias) (leakyV (scoresOfV o' ho' (projV o ho es w) (projV o ho ed w) w2))) tf)

/-- The attention result: the mean of the four heads. -/
def attV (bias : FVec F S4096x4096 .f32) (ed es : FVec F S4096x64 .f32) (w : FVec F S4x64x128 .f32)
    (w2 : FVec F S4x128x128 .f32) (tf : FVec F S4096x256 .f32) : FVec F S4096x256 .f32 :=
  meanV (headV ![0, 0, 0] slices_S4x64x128_S1x64x128_0_0_0 ![0, 0, 0] slices_S4x128x128_S1x128x128_0_0_0 bias ed es w w2 tf)
    (headV ![1, 0, 0] slices_S4x64x128_S1x64x128_1_0_0 ![1, 0, 0] slices_S4x128x128_S1x128x128_1_0_0 bias ed es w w2 tf)
    (headV ![2, 0, 0] slices_S4x64x128_S1x64x128_2_0_0 ![2, 0, 0] slices_S4x128x128_S1x128x128_2_0_0 bias ed es w w2 tf)
    (headV ![3, 0, 0] slices_S4x64x128_S1x64x128_3_0_0 ![3, 0, 0] slices_S4x128x128_S1x128x128_3_0_0 bias ed es w w2 tf)

end Cert.ReferenceIdeal.Hand

end
-- ==== Proof.RefRunE.lean ====
import proofs.«114942_g22505628631095_cont_8to1_462_6_alg».proof.Proof.RefRunOps
import proofs.«114942_g22505628631095_cont_8to1_462_6_alg».proof.Proof.RefRunVals

/-!
# The encoder, the decoder and the mean: what their stretches leave
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The encoder's stretch leaves the encoder of the source features. -/
theorem res_E (V : Valuation τ sig (Elt F)) :
    after ops_E V (no_index (Proc.devRef .tc main_v8)) = encV (V (Proc.devRef .tc main_arg3)) (V (Proc.devRef .tc main_arg4)) (V (Proc.devRef .tc main_arg5)) (V (Proc.devRef .tc main_arg6)) (V (Proc.devRef .tc main_arg7)) := by
  simp only [ops_E]
  after_results_simp
  rfl

/-- The decoder's stretch leaves the decoder of the encoder's result. -/
theorem res_D (V : Valuation τ sig (Elt F)) :
    after ops_D V (no_index (Proc.devRef .tc main_v141)) = decV (V (Proc.devRef .tc main_v8)) (V (Proc.devRef .tc main_arg8)) (V (Proc.devRef .tc main_arg9)) (V (Proc.devRef .tc main_arg10)) (V (Proc.devRef .tc main_arg11)) := by
  simp only [ops_D]
  after_results_simp
  rfl

/-- The last stretch but one leaves the mean of the four heads. -/
theorem res_M (V : Valuation τ sig (Elt F)) :
    after ops_M V (no_index (Proc.devRef .tc main_v132)) = meanV (V (Proc.devRef .tc main_v37)) (V (Proc.devRef .tc main_v66)) (V (Proc.devRef .tc main_v95)) (V (Proc.devRef .tc main_v124)) := by
  simp only [ops_M]
  after_results_simp
  try dsimp only [Matrix.cons_val]
  try after_results_simp
  rfl

end Cert.ReferenceIdeal.Hand

end
-- ==== Proof.RefRunH0.lean ====
import proofs.«114942_g22505628631095_cont_8to1_462_6_alg».proof.Proof.RefRunOps
import proofs.«114942_g22505628631095_cont_8to1_462_6_alg».proof.Proof.RefRunVals

/-!
# Head 0: what each of its stretches leaves

Each stretch of head 0's operations, run from any contents, leaves in its last buffer one stage function of the
contents it read: the fold of the operations is unrolled and each operation's result read at its own buffer.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Head 0's first stretch leaves its logits: the two projections through the head's slice of the first weights, the destinations' carried through its slice of the second, times the transposed sources'. -/
theorem res_H0a (V : Valuation τ sig (Elt F)) :
    after ops_H0a V (no_index (Proc.devRef .tc main_v19)) = scoresOfV ![0, 0, 0] slices_S4x128x128_S1x128x128_0_0_0 (projV ![0, 0, 0] slices_S4x64x128_S1x64x128_0_0_0 (V (Proc.devRef .tc main_arg2)) (V (Proc.devRef .tc main_arg12))) (projV ![0, 0, 0] slices_S4x64x128_S1x64x128_0_0_0 (V (Proc.devRef .tc main_arg1)) (V (Proc.devRef .tc main_arg12))) (V (Proc.devRef .tc main_arg13)) := by
  simp only [ops_H0a]
  after_results_simp
  rfl

/-- Head 0's logits bent, then masked where the bias is not above zero. -/
theorem res_H0b (V : Valuation τ sig (Elt F)) :
    after ops_H0b V (no_index (Proc.devRef .tc main_v24)) = maskSelV (maskCmpV (V (Proc.devRef .tc main_arg0))) (leakyV (V (Proc.devRef .tc main_v19))) := by
  simp only [ops_H0b]
  after_results_simp
  rfl

/-- Head 0's masked logits normalised along the rows and used as weights of the encoder's result. -/
theorem res_H0c (V : Valuation τ sig (Elt F)) :
    after ops_H0c V (no_index (Proc.devRef .tc main_v36)) = weighV (V (Proc.devRef .tc main_v24)) (V (Proc.devRef .tc main_v8)) := by
  simp only [ops_H0c]
  after_results_simp
  rfl

/-- Head 0's weighted sums through the exponential linear unit. -/
theorem res_H0d (V : Valuation τ sig (Elt F)) :
    after ops_H0d V (no_index (Proc.devRef .tc main_v37)) = eluV (V (Proc.devRef .tc main_v36)) := by
  simp only [ops_H0d]
  after_results_simp
  rfl

end Cert.ReferenceIdeal.Hand

end
-- ==== Proof.RefRunH1.lean ====
import proofs.«114942_g22505628631095_cont_8to1_462_6_alg».proof.Proof.RefRunOps
import proofs.«114942_g22505628631095_cont_8to1_462_6_alg».proof.Proof.RefRunVals

/-!
# Head 1: what each of its stretches leaves

Each stretch of head 1's operations, run from any contents, leaves in its last buffer one stage function of the
contents it read: the fold of the operations is unrolled and each operation's result read at its own buffer.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Head 1's first stretch leaves its logits: the two projections through the head's slice of the first weights, the destinations' carried through its slice of the second, times the transposed sources'. -/
theorem res_H1a (V : Valuation τ sig (Elt F)) :
    after ops_H1a V (no_index (Proc.devRef .tc main_v48)) = scoresOfV ![1, 0, 0] slices_S4x128x128_S1x128x128_1_0_0 (projV ![1, 0, 0] slices_S4x64x128_S1x64x128_1_0_0 (V (Proc.devRef .tc main_arg2)) (V (Proc.devRef .tc main_arg12))) (projV ![1, 0, 0] slices_S4x64x128_S1x64x128_1_0_0 (V (Proc.devRef .tc main_arg1)) (V (Proc.devRef .tc main_arg12))) (V (Proc.devRef .tc main_arg13)) := by
  simp only [ops_H1a]
  after_results_simp
  rfl

/-- Head 1's logits bent. -/
theorem res_H1b1_bent (V : Valuation τ sig (Elt F)) :
    after ops_H1b1 V (no_index (Proc.devRef .tc main_v49)) = leakyV (V (Proc.devRef .tc main_v48)) := by
  simp only [ops_H1b1]
  after_results_simp
  rfl

/-- Where the bias is above zero. -/
theorem res_H1b1_cmp (V : Valuation τ sig (Elt F)) :
    after ops_H1b1 V (no_index (Proc.devRef .tc main_v51)) = maskCmpV (V (Proc.devRef .tc main_arg0)) := by
  simp only [ops_H1b1]
  after_results_simp
  rfl

/-- Head 1's bent logits masked. -/
theorem res_H1b2 (V : Valuation τ sig (Elt F)) :
    after ops_H1b2 V (no_index (Proc.devRef .tc main_v53)) = maskSelV (V (Proc.devRef .tc main_v51)) (V (Proc.devRef .tc main_v49)) := by
  simp only [ops_H1b2]
  after_results_simp
  rfl

/-- Head 1's masked logits normalised along the rows and used as weights of the encoder's result. -/
theorem res_H1c (V : Valuation τ sig (Elt F)) :
    after ops_H1c V (no_index (Proc.devRef .tc main_v65)) = weighV (V (Proc.devRef .tc main_v53)) (V (Proc.devRef .tc main_v8)) := by
  simp only [ops_H1c]
  after_results_simp
  rfl

/-- Head 1's weighted sums through the exponential linear unit. -/
theorem res_H1d (V : Valuation τ sig (Elt F)) :
    after ops_H1d V (no_index (Proc.devRef .tc main_v66)) = eluV (V (Proc.devRef .tc main_v65)) := by
  simp only [ops_H1d]
  after_results_simp
  rfl

end Cert.ReferenceIdeal.Hand

end
-- ==== Proof.RefRunH2.lean ====
import proofs.«114942_g22505628631095_cont_8to1_462_6_alg».proof.Proof.RefRunOps
import proofs.«114942_g22505628631095_cont_8to1_462_6_alg».proof.Proof.RefRunVals

/-!
# Head 2: what each of its stretches leaves

Each stretch of head 2's operations, run from any contents, leaves in its last buffer one stage function of the
contents it read: the fold of the operations is unrolled and each operation's result read at its own buffer.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Head 2's first stretch leaves its logits: the two projections through the head's slice of the first weights, the destinations' carried through its slice of the second, times the transposed sources'. -/
theorem res_H2a (V : Valuation τ sig (Elt F)) :
    after ops_H2a V (no_index (Proc.devRef .tc main_v77)) = scoresOfV ![2, 0, 0] slices_S4x128x128_S1x128x128_2_0_0 (projV ![2, 0, 0] slices_S4x64x128_S1x64x128_2_0_0 (V (Proc.devRef .tc main_arg2)) (V (Proc.devRef .tc main_arg12))) (projV ![2, 0, 0] slices_S4x64x128_S1x64x128_2_0_0 (V (Proc.devRef .tc main_arg1)) (V (Proc.devRef .tc main_arg12))) (V (Proc.devRef .tc main_arg13)) := by
  simp only [ops_H2a]
  after_results_simp
  rfl

/-- Head 2's logits bent, then masked where the bias is not above zero. -/
theorem res_H2b (V : Valuation τ sig (Elt F)) :
    after ops_H2b V (no_index (Proc.devRef .tc main_v82)) = maskSelV (maskCmpV (V (Proc.devRef .tc main_arg0))) (leakyV (V (Proc.devRef .tc main_v77))) := by
  simp only [ops_H2b]
  after_results_simp
  rfl

/-- Head 2's masked logits normalised along the rows and used as weights of the encoder's result. -/
theorem res_H2c (V : Valuation τ sig (Elt F)) :
    after ops_H2c V (no_index (Proc.devRef .tc main_v94)) = weighV (V (Proc.devRef .tc main_v82)) (V (Proc.devRef .tc main_v8)) := by
  simp only [ops_H2c]
  after_results_simp
  rfl

/-- Head 2's weighted sums through the exponential linear unit. -/
theorem res_H2d (V : Valuation τ sig (Elt F)) :
    after ops_H2d V (no_index (Proc.devRef .tc main_v95)) = eluV (V (Proc.devRef .tc main_v94)) := by
  simp only [ops_H2d]
  after_results_simp
  rfl

end Cert.ReferenceIdeal.Hand

end
-- ==== Proof.RefRunH3.lean ====
import proofs.«114942_g22505628631095_cont_8to1_462_6_alg».proof.Proof.RefRunOps
import proofs.«114942_g22505628631095_cont_8to1_462_6_alg».proof.Proof.RefRunVals

/-!
# Head 3: what each of its stretches leaves

Each stretch of head 3's operations, run from any contents, leaves in its last buffer one stage function of the
contents it read: the fold of the operations is unrolled and each operation's result read at its own buffer.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Head 3's projection of the sources' embedding. -/
theorem res_H3a1_src (V : Valuation τ sig (Elt F)) :
    after ops_H3a1 V (no_index (Proc.devRef .tc main_v98)) = projV ![3, 0, 0] slices_S4x64x128_S1x64x128_3_0_0 (V (Proc.devRef .tc main_arg2)) (V (Proc.devRef .tc main_arg12)) := by
  simp only [ops_H3a1]
  after_results_simp
  rfl

/-- Head 3's projection of the destinations' embedding. -/
theorem res_H3a1_dest (V : Valuation τ sig (Elt F)) :
    after ops_H3a1 V (no_index (Proc.devRef .tc main_v101)) = projV ![3, 0, 0] slices_S4x64x128_S1x64x128_3_0_0 (V (Proc.devRef .tc main_arg1)) (V (Proc.devRef .tc main_arg12)) := by
  simp only [ops_H3a1]
  after_results_simp
  rfl

/-- Head 3's logits from its two projections. -/
theorem res_H3a2 (V : Valuation τ sig (Elt F)) :
    after ops_H3a2 V (no_index (Proc.devRef .tc main_v106)) = scoresOfV ![3, 0, 0] slices_S4x128x128_S1x128x128_3_0_0 (V (Proc.devRef .tc main_v98)) (V (Proc.devRef .tc main_v101)) (V (Proc.devRef .tc main_arg13)) := by
  simp only [ops_H3a2]
  after_results_simp
  rfl

/-- Head 3's logits bent, then masked where the bias is not above zero. -/
theorem res_H3b (V : Valuation τ sig (Elt F)) :
    after ops_H3b V (no_index (Proc.devRef .tc main_v111)) = maskSelV (maskCmpV (V (Proc.devRef .tc main_arg0))) (leakyV (V (Proc.devRef .tc main_v106))) := by
  simp only [ops_H3b]
  after_results_simp
  rfl

/-- Head 3's masked logits normalised along the rows and used as weights of the encoder's result. -/
theorem res_H3c (V : Valuation τ sig (Elt F)) :
    after ops_H3c V (no_index (Proc.devRef .tc main_v123)) = weighV (V (Proc.devRef .tc main_v111)) (V (Proc.devRef .tc main_v8)) := by
  simp only [ops_H3c]
  after_results_simp
  rfl

/-- Head 3's weighted sums through the exponential linear unit. -/
theorem res_H3d (V : Valuation τ sig (Elt F)) :
    after ops_H3d V (no_index (Proc.devRef .tc main_v124)) = eluV (V (Proc.devRef .tc main_v123)) := by
  simp only [ops_H3d]
  after_results_simp
  rfl

end Cert.ReferenceIdeal.Hand

end
-- ==== Proof.RefRun.lean ====
import proofs.«114942_g22505628631095_cont_8to1_462_6_alg».proof.Proof.RefRunMain
import proofs.«114942_g22505628631095_cont_8to1_462_6_alg».proof.Proof.RefRunE
import proofs.«114942_g22505628631095_cont_8to1_462_6_alg».proof.Proof.RefRunH0
import proofs.«114942_g22505628631095_cont_8to1_462_6_alg».proof.Proof.RefRunH1
import proofs.«114942_g22505628631095_cont_8to1_462_6_alg».proof.Proof.RefRunH2
import proofs.«114942_g22505628631095_cont_8to1_462_6_alg».proof.Proof.RefRunH3
import Idealize.ShloMosaic.Lib.Pipeline.Frame

/-!
# The reference's run

The fold of the whole list is the stretches' folds one after another. A buffer is followed backwards through them:
a stretch that does not write it leaves it as it was, the stretch that writes it leaves a stage function of buffers
written earlier, and so on down to the argument arrays, which no stretch writes. So the three results are the encoder
of the arguments, the decoder of that, and the mean of the four heads over that; and the arguments end as launched.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The whole list's fold, stretch by stretch. -/
theorem after_ops (V : Valuation τ sig (Elt F)) :
    after ops V = after ops_D (after ops_M (after ops_H3d (after ops_H3c (after ops_H3b (after ops_H3a2 (after ops_H3a1 (after ops_H2d (after ops_H2c (after ops_H2b (after ops_H2a (after ops_H1d (after ops_H1c (after ops_H1b2 (after ops_H1b1 (after ops_H1a (after ops_H0d (after ops_H0c (after ops_H0b (after ops_H0a (after ops_E (V))))))))))))))))))))) := by
  simp only [ops, ops_part0, ops_part1, ops_part2, StableHlo.after_append]

set_option maxRecDepth 8192 in
/-- No stretch writes an argument array. -/
theorem after_arg (V : Valuation τ sig (Elt F)) (r : Ref sig .tc) (h : r ∈ [main_arg0, main_arg1, main_arg2, main_arg3, main_arg4, main_arg5, main_arg6, main_arg7, main_arg8, main_arg9, main_arg10, main_arg11, main_arg12, main_arg13]) :
    after ops V (Proc.devRef .tc r) = V (Proc.devRef .tc r) := by
  rw [after_ops]
  simp only [List.mem_cons, List.not_mem_nil, or_false] at h
  rcases h with rfl | rfl | rfl | rfl | rfl | rfl | rfl | rfl | rfl | rfl | rfl | rfl | rfl | rfl <;>
    simp (disch := decide) only [keep_E, keep_H0a, keep_H0b, keep_H0c, keep_H0d, keep_H1a, keep_H1b1, keep_H1b2, keep_H1c, keep_H1d, keep_H2a, keep_H2b, keep_H2c, keep_H2d, keep_H3a1, keep_H3a2, keep_H3b, keep_H3c, keep_H3d, keep_M, keep_D]

set_option maxRecDepth 8192 in
/-- The encoder's result is written once and kept. -/
theorem after_v8 (V : Valuation τ sig (Elt F)) :
    after ops V (Proc.devRef .tc main_v8) = encV (V (Proc.devRef .tc main_arg3)) (V (Proc.devRef .tc main_arg4)) (V (Proc.devRef .tc main_arg5)) (V (Proc.devRef .tc main_arg6)) (V (Proc.devRef .tc main_arg7)) := by
  rw [after_ops]
  simp (disch := decide) only [keep_E, keep_H0a, keep_H0b, keep_H0c, keep_H0d, keep_H1a, keep_H1b1, keep_H1b2, keep_H1c, keep_H1d, keep_H2a, keep_H2b, keep_H2c, keep_H2d, keep_H3a1, keep_H3a2, keep_H3b, keep_H3c, keep_H3d, keep_M, keep_D, res_E]

set_option maxRecDepth 8192 in
/-- The decoder's result. -/
theorem after_v141 (V : Valuation τ sig (Elt F)) :
    after ops V (Proc.devRef .tc main_v141) = decV (encV (V (Proc.devRef .tc main_arg3)) (V (Proc.devRef .tc main_arg4)) (V (Proc.devRef .tc main_arg5)) (V (Proc.devRef .tc main_arg6)) (V (Proc.devRef .tc main_arg7))) (V (Proc.devRef .tc main_arg8)) (V (Proc.devRef .tc main_arg9)) (V (Proc.devRef .tc main_arg10)) (V (Proc.devRef .tc main_arg11)) := by
  rw [after_ops]
  simp (disch := decide) only [keep_E, keep_H0a, keep_H0b, keep_H0c, keep_H0d, keep_H1a, keep_H1b1, keep_H1b2, keep_H1c, keep_H1d, keep_H2a, keep_H2b, keep_H2c, keep_H2d, keep_H3a1, keep_H3a2, keep_H3b, keep_H3c, keep_H3d, keep_M, keep_D, res_E, res_D]

set_option maxRecDepth 8192 in
set_option maxHeartbeats 1600000 in
/-- The attention result: each head's stretches followed back to the arguments and the encoder's result. -/
theorem after_v132 (V : Valuation τ sig (Elt F)) :
    after ops V (Proc.devRef .tc main_v132) = attV (V (Proc.devRef .tc main_arg0)) (V (Proc.devRef .tc main_arg1)) (V (Proc.devRef .tc main_arg2)) (V (Proc.devRef .tc main_arg12)) (V (Proc.devRef .tc main_arg13)) (encV (V (Proc.devRef .tc main_arg3)) (V (Proc.devRef .tc main_arg4)) (V (Proc.devRef .tc main_arg5)) (V (Proc.devRef .tc main_arg6)) (V (Proc.devRef .tc main_arg7))) := by
  rw [after_ops]
  simp (disch := decide) only [keep_E, keep_H0a, keep_H0b, keep_H0c, keep_H0d, keep_H1a, keep_H1b1, keep_H1b2, keep_H1c, keep_H1d, keep_H2a, keep_H2b, keep_H2c, keep_H2d, keep_H3a1, keep_H3a2, keep_H3b, keep_H3c, keep_H3d, keep_M, keep_D, res_E, res_D, res_M, res_H0a, res_H0b, res_H0c, res_H0d, res_H1a, res_H1b1_bent, res_H1b1_cmp, res_H1b2, res_H1c, res_H1d, res_H2a, res_H2b, res_H2c, res_H2d, res_H3a1_src, res_H3a1_dest, res_H3a2, res_H3b, res_H3c, res_H3d]
  rfl

/-- On every device, for any float values, from any memory with zero counters: every weakly fair execution of @main
    ends without fault; the three results hold the attention result, the decoder's and the encoder's of the launch
    contents of the arguments, and every argument array is as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v132) = attV (m ((c.tc : Thread nD τ).loc main_arg0)) (m ((c.tc : Thread nD τ).loc main_arg1)) (m ((c.tc : Thread nD τ).loc main_arg2)) (m ((c.tc : Thread nD τ).loc main_arg12)) (m ((c.tc : Thread nD τ).loc main_arg13)) (encV (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_v141) = decV (encV (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v8) = encV (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v132).trans (after_v132 (launchContents m c)),
      (h c main_v141).trans (after_v141 (launchContents m c)),
      (h c main_v8).trans (after_v8 (launchContents m c)),
      (h c main_arg0).trans (after_arg (launchContents m c) main_arg0 (by decide)),
      (h c main_arg1).trans (after_arg (launchContents m c) main_arg1 (by decide)),
      (h c main_arg2).trans (after_arg (launchContents m c) main_arg2 (by decide)),
      (h c main_arg3).trans (after_arg (launchContents m c) main_arg3 (by decide)),
      (h c main_arg4).trans (after_arg (launchContents m c) main_arg4 (by decide)),
      (h c main_arg5).trans (after_arg (launchContents m c) main_arg5 (by decide)),
      (h c main_arg6).trans (after_arg (launchContents m c) main_arg6 (by decide)),
      (h c main_arg7).trans (after_arg (launchContents m c) main_arg7 (by decide)),
      (h c main_arg8).trans (after_arg (launchContents m c) main_arg8 (by decide)),
      (h c main_arg9).trans (after_arg (launchContents m c) main_arg9 (by decide)),
      (h c main_arg10).trans (after_arg (launchContents m c) main_arg10 (by decide)),
      (h c main_arg11).trans (after_arg (launchContents m c) main_arg11 (by decide)),
      (h c main_arg12).trans (after_arg (launchContents m c) main_arg12 (by decide)),
      (h c main_arg13).trans (after_arg (launchContents m c) main_arg13 (by decide))⟩)
    (run_all m ρ)

end Cert.ReferenceIdeal.Hand

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibColumn.lean ====
import Idealize.ShloMosaic.Lib.ValueLayout

/-!
# A trailing unit axis

A vector of length `a` laid out as one column `[a, 1]`, and that column repeated along the second axis to `[a, b]`:
read at an index, the column holds the vector's entry of the same row, and the repeated column holds, at `(p, c)`,
the column's entry of row `p` whatever `c` is. Together they say a row-wise scale factor kept as a column reaches
every entry of its row.
-/

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over `b` columns reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibRows.lean ====
import Idealize.ShloMosaic.Lib.ValueIdx
import Idealize.ShloMosaic.Lib.ValueLayout
import Idealize.ShloMosaic.Lib.Pipeline.Value
import Idealize.ShloMosaic.PureOps.Ideal.Laws
import proofs.«114942_g22505628631095_cont_8to1_462_6_alg».proof.Proof.LibPlainDot
import proofs.«114942_g22505628631095_cont_8to1_462_6_alg».proof.Proof.LibColumn

/-!
# Row-wise layers

Every dense stage of the network acts on each row of an `[N, C]` array by itself: a row times a weight matrix, a
bias row added, the row scaled to unit length (divided by the larger of its Euclidean norm and a floor), a
`tanh` of every entry. `mapRows f A` applies a function `f` of one row to every row of `A`. A stage computed on a
tile of rows is therefore the same stage computed on the whole array and read on the tile: the value at row `n`
only sees row `n` of the operand.

The lemmas below read the vector unit's spelling of each stage (a matrix product into a zero accumulator, a
lane sum, a column broadcast) at an index `(p, q)`, over any number of rows.
-/

noncomputable section

namespace Cert.Rows

open Idealize.ShloMosaic Idealize.ShloMosaic.ValueIdx
open scoped BigOperators

abbrev S2 (a b : ℕ) : Shape := ⟨2, ![a, b]⟩
abbrev S1 (a : ℕ) : Shape := ⟨1, ![a]⟩

/-- Apply a function of one row to every row. -/
def mapRows {N Ci C : ℕ} (f : (Fin Ci → EReal) → Fin C → EReal) (A : (S2 N Ci).Idx → EReal) : (S2 N C).Idx → EReal :=
  fun i => f (fun k => A (ix2 (i 0) k)) (i 1)

theorem mapRows_ix2 {N Ci C : ℕ} (f : (Fin Ci → EReal) → Fin C → EReal) (A : (S2 N Ci).Idx → EReal) (n : Fin N) (q : Fin C) :
    mapRows f A (ix2 n q) = f (fun k => A (ix2 n k)) q := rfl

/-- A row times a weight matrix. -/
def lin {Ci C : ℕ} (w : (S2 Ci C).Idx → EReal) (r : Fin Ci → EReal) : Fin C → EReal :=
  fun q => ∑ k : Fin Ci, r k * w (ix2 k q)

/-- A bias row (kept as a one-row matrix) added to a row. -/
def addRow {C : ℕ} (b : (S2 1 C).Idx → EReal) (r : Fin C → EReal) : Fin C → EReal :=
  fun q => r q + b (ix2 (0 : Fin 1) q)

/-- The floor under a row's norm: the single-precision number nearest 1e-12, read exactly. -/
def floorNorm : EReal := Ideal.ofBits .f32 0x2B8CBCCC#32

/-- A row divided by the larger of its Euclidean norm and the floor. -/
def unit {C : ℕ} (r : Fin C → EReal) : Fin C → EReal :=
  fun q => Ideal.div (r q) (max (Ideal.sqrt (∑ k : Fin C, r k * r k)) floorNorm)

/-- `tanh` of every entry of a row. -/
def th {C : ℕ} (r : Fin C → EReal) : Fin C → EReal := fun q => Ideal.tanh (r q)

/-- A tile of rows `o, o+1, …` of `A` goes to the same rows of `mapRows f A`. -/
theorem mapRows_tile {N R Ci C : ℕ} (f : (Fin Ci → EReal) → Fin C → EReal) (A : (S2 N Ci).Idx → EReal)
    (X : (S2 R Ci).Idx → EReal) (o : ℕ) (ho : ∀ p : Fin R, o + p.val < N)
    (hX : ∀ (p : Fin R) (k : Fin Ci), X (ix2 p k) = A (ix2 ⟨o + p.val, ho p⟩ k)) (p : Fin R) (q : Fin C) :
    mapRows f X (ix2 p q) = mapRows f A (ix2 ⟨o + p.val, ho p⟩ q) := by
  rw [mapRows_ix2, mapRows_ix2]
  exact congrArg (fun r => f r q) (funext fun k => hX p k)

/-! ## The vector unit's spellings at an index -/

section Unit

variable {N C : ℕ}

/-- The matrix product of a tile of rows with a weight matrix, into a zero accumulator. -/
theorem matmul_rows {K : ℕ} (d : DotDims (S2 N K) (S2 K C) (S2 N C)) (hd : Cert.LibPlainDot.Plain d)
    (x : FVec Ideal (S2 N K) .f32) (w : FVec Ideal (S2 K C) .f32) :
    matmul d none x w (constant (S2 N C) .f32 0x00000000#32) = mapRows (lin w) x := by
  funext i
  obtain ⟨p, q, rfl⟩ : ∃ (p : Fin N) (q : Fin C), i = ix2 p q := ⟨i 0, i 1, eq_ix2 i⟩
  exact Cert.LibPlainDot.matmul_zero_apply d hd none x w p q

/-- A tile plus a bias row repeated down the tile. -/
theorem addBias_rows (x : FVec Ideal (S2 N C) .f32) (b : FVec Ideal (S2 1 C) .f32)
    (h2 : (S2 1 C).ShapeCasts (S2 1 C)) (h3 : (S2 1 C).Broadcasts (S2 N C)) :
    addf x (broadcastTo (S2 N C) (shapeCast (S2 1 C) b h2) h3) = mapRows (addRow b) x := by
  funext i
  obtain ⟨p, q, rfl⟩ : ∃ (p : Fin N) (q : Fin C), i = ix2 p q := ⟨i 0, i 1, eq_ix2 i⟩
  rw [shapeCast_self, mapRows_ix2]
  show x (ix2 p q) + broadcastTo (S2 N C) b h3 (ix2 p q) = _
  rw [broadcastTo_1b_ab_apply]
  rfl

/-- A tile whose every row is divided by the larger of its norm and the floor: the squares summed along the
    lanes, the sums kept as a column, the column's square root floored and repeated across the row. -/
theorem unit_rows (y : FVec Ideal (S2 N C) .f32) (hr : (S2 N C).Reduces [1] (S1 N)) (hφ : FKind.Formats .f32)
    (hacc : (0x00000000#32 : BitVec 32) = FKind.add.neutral .f32 hφ)
    (hc : (S1 N).ShapeCasts (S2 N 1)) (hb : (S2 N 1).Broadcasts (S2 N C)) :
    divf y (broadcastTo (S2 N C) (maximumf (sqrt (shapeCast (S2 N 1) (multiReduction .add [1] (S1 N) (mulf y y) 0x00000000#32 hr hφ hacc) hc))
      (broadcast (S2 N 1) (Scalar.ofBits .f32 0x2B8CBCCC#32))) hb) = mapRows unit y := by
  funext i
  obtain ⟨p, q, rfl⟩ : ∃ (p : Fin N) (q : Fin C), i = ix2 p q := ⟨i 0, i 1, eq_ix2 i⟩
  rw [mapRows_ix2]
  show Ideal.div (y (ix2 p q)) (broadcastTo (S2 N C) _ hb (ix2 p q)) = _
  rw [Cert.LibColumn.broadcastTo_a1_ab_apply]
  show Ideal.div (y (ix2 p q)) (max (Ideal.sqrt (shapeCast (S2 N 1) _ hc (ix2 p (0 : Fin 1)))) floorNorm) = _
  rw [Cert.LibColumn.shapeCast_a_a1_apply]
  refine congrArg (fun s => Ideal.div (y (ix2 p q)) (max (Ideal.sqrt s) floorNorm)) ?_
  refine (Ideal.multiReduction_add_single (mulf y y) 0x00000000#32 hr hφ hacc (ix1 p)).trans ?_
  refine Finset.sum_congr rfl fun k _ => ?_
  have e : hr.lift (ix1 p) k = ix2 p k := funext fun a => Fin.ext (by
    match a with
    | ⟨0, _⟩ => rfl
    | ⟨1, _⟩ => rfl)
  rw [e]
  rfl

/-- `tanh` of a tile. -/
theorem tanh_rows (y : FVec Ideal (S2 N C) .f32) : tanh y = mapRows (C := C) th y := by
  funext i
  obtain ⟨p, q, rfl⟩ : ∃ (p : Fin N) (q : Fin C), i = ix2 p q := ⟨i 0, i 1, eq_ix2 i⟩
  rfl

/-- One row-wise stage after another is one row-wise stage. -/
theorem mapRows_comp {Ci Cm : ℕ} (g : (Fin Cm → EReal) → Fin C → EReal) (f : (Fin Ci → EReal) → Fin Cm → EReal)
    (A : (S2 N Ci).Idx → EReal) : mapRows g (mapRows f A) = mapRows (fun r => g (f r)) A := rfl

/-! ## The seven tile bodies, as written by the compiler -/

/-- A linear tile whose operand passes through an identity re-shape first. -/
theorem body_lin {K : ℕ} (d : DotDims (S2 N K) (S2 K C) (S2 N C)) (hd : Cert.LibPlainDot.Plain d)
    (x : FVec Ideal (S2 N K) .f32) (w : FVec Ideal (S2 K C) .f32) (h1 : (S2 N K).ShapeCasts (S2 N K)) :
    matmul d none (shapeCast (S2 N K) x h1) w (constant (S2 N C) .f32 0x00000000#32) = mapRows (lin w) x := by
  rw [shapeCast_self]; exact matmul_rows d hd x w

/-- Bias, then `tanh`. -/
theorem body_bias_tanh (x : FVec Ideal (S2 N C) .f32) (b : FVec Ideal (S2 1 C) .f32) (h1 : (S2 N C).ShapeCasts (S2 N C))
    (h2 : (S2 1 C).ShapeCasts (S2 1 C)) (h3 : (S2 1 C).Broadcasts (S2 N C)) :
    tanh (addf (shapeCast (S2 N C) x h1) (broadcastTo (S2 N C) (shapeCast (S2 1 C) b h2) h3))
      = mapRows (fun r => th (addRow b r)) x := by
  rw [shapeCast_self x, addBias_rows, tanh_rows]; rfl

/-- Bias, then unit length. -/
theorem body_bias_unit (x : FVec Ideal (S2 N C) .f32) (b : FVec Ideal (S2 1 C) .f32) (h1 : (S2 N C).ShapeCasts (S2 N C))
    (h2 : (S2 1 C).ShapeCasts (S2 1 C)) (h3 : (S2 1 C).Broadcasts (S2 N C))
    (hr : (S2 N C).Reduces [1] (S1 N)) (hφ : FKind.Formats .f32) (hacc : (0x00000000#32 : BitVec 32) = FKind.add.neutral .f32 hφ)
    (hc : (S1 N).ShapeCasts (S2 N 1)) (hb : (S2 N 1).Broadcasts (S2 N C)) :
    divf (addf (shapeCast (S2 N C) x h1) (broadcastTo (S2 N C) (shapeCast (S2 1 C) b h2) h3))
      (broadcastTo (S2 N C) (maximumf (sqrt (shapeCast (S2 N 1) (multiReduction .add [1] (S1 N)
        (mulf (addf (shapeCast (S2 N C) x h1) (broadcastTo (S2 N C) (shapeCast (S2 1 C) b h2) h3))
          (addf (shapeCast (S2 N C) x h1) (broadcastTo (S2 N C) (shapeCast (S2 1 C) b h2) h3))) 0x00000000#32 hr hφ hacc) hc))
        (broadcast (S2 N 1) (Scalar.ofBits .f32 0x2B8CBCCC#32))) hb)
      = mapRows (fun r => unit (addRow b r)) x := by
  rw [shapeCast_self x, addBias_rows, unit_rows]; rfl

/-- Bias, then unit length, then `tanh`. -/
theorem body_bias_unit_tanh (x : FVec Ideal (S2 N C) .f32) (b : FVec Ideal (S2 1 C) .f32) (h1 : (S2 N C).ShapeCasts (S2 N C))
    (h2 : (S2 1 C).ShapeCasts (S2 1 C)) (h3 : (S2 1 C).Broadcasts (S2 N C))
    (hr : (S2 N C).Reduces [1] (S1 N)) (hφ : FKind.Formats .f32) (hacc : (0x00000000#32 : BitVec 32) = FKind.add.neutral .f32 hφ)
    (hc : (S1 N).ShapeCasts (S2 N 1)) (hb : (S2 N 1).Broadcasts (S2 N C)) :
    tanh (divf (addf (shapeCast (S2 N C) x h1) (broadcastTo (S2 N C) (shapeCast (S2 1 C) b h2) h3))
      (broadcastTo (S2 N C) (maximumf (sqrt (shapeCast (S2 N 1) (multiReduction .add [1] (S1 N)
        (mulf (addf (shapeCast (S2 N C) x h1) (broadcastTo (S2 N C) (shapeCast (S2 1 C) b h2) h3))
          (addf (shapeCast (S2 N C) x h1) (broadcastTo (S2 N C) (shapeCast (S2 1 C) b h2) h3))) 0x00000000#32 hr hφ hacc) hc))
        (broadcast (S2 N 1) (Scalar.ofBits .f32 0x2B8CBCCC#32))) hb))
      = mapRows (fun r => th (unit (addRow b r))) x := by
  rw [body_bias_unit x b h1 h2 h3 hr hφ hacc hc hb, tanh_rows]; rfl

/-- A linear tile, bias, then unit length. -/
theorem body_lin_bias_unit {K : ℕ} (d : DotDims (S2 N K) (S2 K C) (S2 N C)) (hd : Cert.LibPlainDot.Plain d)
    (x : FVec Ideal (S2 N K) .f32) (w : FVec Ideal (S2 K C) .f32) (b : FVec Ideal (S2 1 C) .f32) (h1 : (S2 N K).ShapeCasts (S2 N K))
    (h2 : (S2 1 C).ShapeCasts (S2 1 C)) (h3 : (S2 1 C).Broadcasts (S2 N C))
    (hr : (S2 N C).Reduces [1] (S1 N)) (hφ : FKind.Formats .f32) (hacc : (0x00000000#32 : BitVec 32) = FKind.add.neutral .f32 hφ)
    (hc : (S1 N).ShapeCasts (S2 N 1)) (hb : (S2 N 1).Broadcasts (S2 N C)) :
    divf (addf (matmul d none (shapeCast (S2 N K) x h1) w (constant (S2 N C) .f32 0x00000000#32)) (broadcastTo (S2 N C) (shapeCast (S2 1 C) b h2) h3))
      (broadcastTo (S2 N C) (maximumf (sqrt (shapeCast (S2 N 1) (multiReduction .add [1] (S1 N)
        (mulf (addf (matmul d none (shapeCast (S2 N K) x h1) w (constant (S2 N C) .f32 0x00000000#32)) (broadcastTo (S2 N C) (shapeCast (S2 1 C) b h2) h3))
          (addf (matmul d none (shapeCast (S2 N K) x h1) w (constant (S2 N C) .f32 0x00000000#32)) (broadcastTo (S2 N C) (shapeCast (S2 1 C) b h2) h3))) 0x00000000#32 hr hφ hacc) hc))
        (broadcast (S2 N 1) (Scalar.ofBits .f32 0x2B8CBCCC#32))) hb)
      = mapRows (fun r => unit (addRow b (lin w r))) x := by
  rw [body_lin d hd x w h1, addBias_rows, unit_rows]; rfl

end Unit

end Cert.Rows

end
-- ==== Proof.RefSpec.lean ====
import Idealize.ShloMosaic.PureOps.Ideal
import Idealize.ShloMosaic.Lib.ValueIdx
import proofs.«114942_g22505628631095_cont_8to1_462_6_alg».proof.Proof.LibRows

/-!
# The three results as functions of the argument arrays

The network, over the extended reals, index by index.

* The encoder and the decoder are the same two-layer perceptron applied to every row by itself:
  a row times a weight matrix plus a bias row, the larger of each entry and zero, a second weight matrix and bias.
* One attention head: the logit of destination `i` against source `j` is the inner product, over the 128 hidden
  features, of the destination's embedding carried through the head's two weight matrices with the source's
  embedding carried through the first. A row of logits is bent (a negative logit is scaled by the slope), masked
  (where the bias entry is not above zero the logit is replaced by a large negative number), and normalised:
  every entry minus the row's maximum is exponentiated and divided by the row's sum of these. The normalised row
  weights the rows of the encoder's result; each entry of the weighted sum goes through the exponential linear unit.
* The attention result is the sum of the four heads divided by four.
-/

noncomputable section

namespace Cert.RefSpec

open Idealize.ShloMosaic Idealize.ShloMosaic.ValueIdx Cert.Rows
open scoped BigOperators

abbrev S3 (a b c : ℕ) : Shape := ⟨3, ![a, b, c]⟩

/-! ## The perceptron of the encoder and the decoder -/

/-- The larger of each entry of a row and zero. -/
def relu {C : ℕ} (r : Fin C → EReal) : Fin C → EReal := fun q => max (r q) (Ideal.ofBits .f32 0x00000000#32)

/-- Two linear layers with biases (kept as one-row matrices) and the rectifier between them, on one row. -/
def mlp {Ci H C : ℕ} (w1 : (S2 Ci H).Idx → EReal) (b1 : (S2 1 H).Idx → EReal) (w2 : (S2 H C).Idx → EReal)
    (b2 : (S2 1 C).Idx → EReal) (r : Fin Ci → EReal) : Fin C → EReal :=
  addRow b2 (lin w2 (relu (addRow b1 (lin w1 r))))

/-- The encoder: the perceptron on every row of the source features; the biases are vectors. -/
def enc (x : (S2 4096 1024).Idx → EReal) (w1 : (S2 1024 512).Idx → EReal) (b1 : (S1 512).Idx → EReal)
    (w2 : (S2 512 256).Idx → EReal) (b2 : (S1 256).Idx → EReal) : (S2 4096 256).Idx → EReal :=
  mapRows (mlp w1 (shapeCast (S2 1 512) b1 (by decide)) w2 (shapeCast (S2 1 256) b2 (by decide))) x

/-- The decoder: the perceptron on every row of the encoder's result. -/
def dec (tf : (S2 4096 256).Idx → EReal) (w1 : (S2 256 512).Idx → EReal) (b1 : (S1 512).Idx → EReal)
    (w2 : (S2 512 1024).Idx → EReal) (b2 : (S1 1024).Idx → EReal) : (S2 4096 1024).Idx → EReal :=
  mapRows (mlp w1 (shapeCast (S2 1 512) b1 (by decide)) w2 (shapeCast (S2 1 1024) b2 (by decide))) tf

/-! ## One head's logits -/

/-- Head `h`'s first weight matrix. -/
def headW (w : (S3 4 64 128).Idx → EReal) (h : Fin 4) : (S2 64 128).Idx → EReal := fun i => w (ix3 h (i 0) (i 1))

/-- Head `h`'s second weight matrix. -/
def headW2 (w2 : (S3 4 128 128).Idx → EReal) (h : Fin 4) : (S2 128 128).Idx → EReal := fun i => w2 (ix3 h (i 0) (i 1))

/-- Row `p` of head `h`'s logits: destination `p` against every source `j`. -/
def scoreRow (ed es : (S2 4096 64).Idx → EReal) (w : (S3 4 64 128).Idx → EReal) (w2 : (S3 4 128 128).Idx → EReal)
    (h : Fin 4) (p : Fin 4096) : Fin 4096 → EReal :=
  fun j => ∑ k : Fin 128, lin (headW2 w2 h) (lin (headW w h) fun m => ed (ix2 p m)) k * lin (headW w h) (fun m => es (ix2 j m)) k

/-- Head `h`'s logits, before they are bent. -/
def scores (ed es : (S2 4096 64).Idx → EReal) (w : (S3 4 64 128).Idx → EReal) (w2 : (S3 4 128 128).Idx → EReal)
    (h : Fin 4) : (S2 4096 4096).Idx → EReal :=
  fun i => scoreRow ed es w w2 h (i 0) (i 1)

/-! ## One head from its logits -/

/-- A logit bent: kept where it is at least zero, scaled by the slope (the single-precision number nearest 0.2) below. -/
def leaky (x : EReal) : EReal :=
  if Ideal.ofBits .f32 0x00000000#32 ≤ x then x else Ideal.ofBits .f32 0x3E4CCCCD#32 * x

/-- A bent logit masked: kept where the bias entry is above zero, else the single-precision number nearest -9e15. -/
def masked (b e : EReal) : EReal :=
  if Ideal.ofBits .f32 0x00000000#32 < b then e else Ideal.ofBits .f32 0xD9FFCB9E#32

/-- The maximum of a row, taken from minus infinity, and once more against minus infinity. -/
def rowMax {n : ℕ} (a : Fin n → EReal) : EReal :=
  max (Ideal.ofBits .f32 0xFF800000#32) ((Finset.univ : Finset (Fin n)).fold max (Ideal.ofBits .f32 0xFF800000#32) a)

/-- A row normalised: each entry less the row's maximum, exponentiated, over the sum of these along the row. -/
def softmaxRow {n : ℕ} (a : Fin n → EReal) : Fin n → EReal :=
  fun j => Ideal.div (Ideal.exp (a j - rowMax a)) (Ideal.ofBits .f32 0x00000000#32 + ∑ k : Fin n, Ideal.exp (a k - rowMax a))

/-- The exponential linear unit: an entry above zero is kept, any other `x` becomes `1 · (e^x − 1)`. -/
def elu (x : EReal) : EReal :=
  if Ideal.ofBits .f32 0x00000000#32 < x then x
  else Ideal.ofBits .f32 0x3F800000#32
    * (Ideal.exp (if Ideal.ofBits .f32 0x00000000#32 < x then Ideal.ofBits .f32 0x00000000#32 else x) - 1)

/-- One destination's row of one head, from its row of logits `s`, its row of the bias `b` and the encoder's result. -/
def attnRow (s b : Fin 4096 → EReal) (tf : (S2 4096 256).Idx → EReal) : Fin 256 → EReal :=
  fun q => elu (∑ j : Fin 4096, softmaxRow (fun j' => masked (b j') (leaky (s j'))) j * tf (ix2 j q))

/-- One head from its logits `e`: row `i` of the result sees row `i` of the bias and of the logits, and all of `tf`. -/
def attnHead (bias e : (S2 4096 4096).Idx → EReal) (tf : (S2 4096 256).Idx → EReal) : (S2 4096 256).Idx → EReal :=
  fun i => attnRow (fun j => e (ix2 (i 0) j)) (fun j => bias (ix2 (i 0) j)) tf (i 1)

/-- The attention result: the four heads summed (from zero) and divided by four. -/
def att (bias : (S2 4096 4096).Idx → EReal) (ed es : (S2 4096 64).Idx → EReal) (w : (S3 4 64 128).Idx → EReal)
    (w2 : (S3 4 128 128).Idx → EReal) (tf : (S2 4096 256).Idx → EReal) : (S2 4096 256).Idx → EReal :=
  fun i => Ideal.div (Ideal.ofBits .f32 0x00000000#32 + ∑ h : Fin 4, attnHead bias (scores ed es w w2 h) tf i)
    (Ideal.ofBits .f32 0x40800000#32)

end Cert.RefSpec

end
-- ==== Proof.KConsts.lean ====
import Idealize.ShloMosaic.PureOps.Ideal

/-!
# The single-precision constants of the attention kernel, as extended reals

One, four and a quarter are themselves; the slope of the bent rectifier is a real strictly between zero and
one; the mask value is a (large, negative) real; the start value of a row maximum is minus infinity.
-/

noncomputable section

namespace Cert.KConsts

open Idealize.ShloMosaic

theorem one32 : Ideal.ofBits .f32 0x3F800000#32 = 1 := by
  simp [Ideal.ofBits, Ideal.ieee, -EReal.coe_mul]; norm_num

theorem four32 : Ideal.ofBits .f32 0x40800000#32 = ((4 : ℝ) : EReal) := by
  simp [Ideal.ofBits, Ideal.ieee, -EReal.coe_mul]; norm_num

theorem quarter32 : Ideal.ofBits .f32 0x3E800000#32 = ((1 / 4 : ℝ) : EReal) := by
  simp [Ideal.ofBits, Ideal.ieee, -EReal.coe_mul]; norm_num

theorem slope32 : Ideal.ofBits .f32 0x3E4CCCCD#32 = ((13421773 / 67108864 : ℝ) : EReal) := by
  simp [Ideal.ofBits, Ideal.ieee, -EReal.coe_mul]; norm_num

theorem mask32 : ∃ r : ℝ, Ideal.ofBits .f32 0xD9FFCB9E#32 = (r : EReal) := by
  refine ⟨-(16763806 * 2 ^ 29 : ℝ), ?_⟩
  simp [Ideal.ofBits, Ideal.ieee, -EReal.coe_mul]

theorem ninf32 : Ideal.ofBits .f32 0xFF800000#32 = ⊥ := by
  simp [Ideal.ofBits, Ideal.ieee]

end Cert.KConsts

end
-- ==== Proof.KAttnMath.lean ====
import proofs.«114942_g22505628631095_cont_8to1_462_6_alg».proof.Proof.RefSpec
import proofs.«114942_g22505628631095_cont_8to1_462_6_alg».proof.Proof.KConsts
import Idealize.ShloMosaic.PureOps.Ideal.Laws

/-!
# One attention row, the kernel's way and the reference's way

The kernel bends a logit as the larger of the logit and the slope times the logit, normalises a row AFTER the
weighted sum (the sum of the exponentials times the rows of the encoder's result, times one over the sum of the
exponentials), and applies the exponential linear unit as "the value if positive, else its exponential minus
one". The reference bends by a comparison with zero, normalises each weight first and then takes the
weighted sum, and writes the unit with an inner guard. For REAL logits the two agree entry by entry: the slope
lies strictly between zero and one; the row maximum of real numbers is real, so every exponential is a positive
real and so is their sum; multiplying by that positive real's reciprocal distributes over any sum of extended
reals and commutes with the other factors. Nothing is asked of the encoder's result or of the bias.
-/

noncomputable section

namespace Cert.KAttn

open Idealize.ShloMosaic Idealize.ShloMosaic.ValueIdx Cert.Rows Cert.RefSpec
open scoped BigOperators

/-- An extended real that is a real number. -/
def IsReal (x : EReal) : Prop := ∃ r : ℝ, x = (r : EReal)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor distributes over any finite sum of extended reals. -/
theorem mul_sum_coe {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- The kernel's bent rectifier: the larger of the value and the slope times the value. -/
def kleaky (x : EReal) : EReal := max x (Ideal.ofBits .f32 0x3E4CCCCD#32 * x)

theorem kleaky_coe (r : ℝ) : kleaky (r : EReal) = leaky (r : EReal) := by
  unfold kleaky leaky
  rw [Cert.KConsts.slope32, Ideal.ofBits_zero_f32, ← EReal.coe_mul, ← EReal.coe_strictMono.monotone.map_max]
  by_cases h : (0 : ℝ) ≤ r
  · rw [if_pos (EReal.coe_nonneg.mpr h)]
    have h1 : (13421773 / 67108864 : ℝ) * r ≤ 1 * r := mul_le_mul_of_nonneg_right (by norm_num) h
    rw [max_eq_left (by linarith)]
  · rw [if_neg (fun h' => h (EReal.coe_nonneg.mp h'))]
    have h1 : 1 * r ≤ (13421773 / 67108864 : ℝ) * r := mul_le_mul_of_nonpos_right (by norm_num) (le_of_lt (not_le.mp h))
    rw [max_eq_right (by linarith)]

theorem leaky_real (r : ℝ) : IsReal (leaky (r : EReal)) := by
  unfold leaky
  split
  · exact ⟨r, rfl⟩
  · exact ⟨13421773 / 67108864 * r, by rw [Cert.KConsts.slope32, ← EReal.coe_mul]⟩

theorem masked_real (b e : EReal) (he : IsReal e) : IsReal (masked b e) := by
  unfold masked
  split
  · exact he
  · exact Cert.KConsts.mask32

/-- The maximum of finitely many reals, folded from minus infinity over a nonempty index set, is a real. -/
theorem foldmax_real {n : ℕ} (hn : 0 < n) (a : Fin n → EReal) (ha : ∀ j, IsReal (a j)) :
    IsReal ((Finset.univ : Finset (Fin n)).fold max (Ideal.ofBits .f32 0xFF800000#32) a) := by
  rw [Cert.KConsts.ninf32]
  have h1 : (Finset.univ : Finset (Fin n)).fold max (⊥ : EReal) a ≠ ⊤ := by
    apply ne_of_lt
    rw [Finset.fold_max_lt]
    exact ⟨bot_lt_top, fun j _ => by obtain ⟨r, hr⟩ := ha j; rw [hr]; exact EReal.coe_lt_top r⟩
  have h2 : (Finset.univ : Finset (Fin n)).fold max (⊥ : EReal) a ≠ ⊥ := by
    apply ne_of_gt
    obtain ⟨r, hr⟩ := ha ⟨0, hn⟩
    have h3 : a ⟨0, hn⟩ ≤ (Finset.univ : Finset (Fin n)).fold max (⊥ : EReal) a :=
      (Finset.le_fold_max _).mpr (Or.inr ⟨_, Finset.mem_univ _, le_rfl⟩)
    exact lt_of_lt_of_le (by rw [hr]; exact EReal.bot_lt_coe r) h3
  exact ⟨_, (EReal.coe_toReal h1 h2).symm⟩

/-- The reference's row maximum (a fold from minus infinity, then one more maximum against minus infinity) is
    the fold. -/
theorem rowMax_eq {n : ℕ} (a : Fin n → EReal) :
    rowMax a = (Finset.univ : Finset (Fin n)).fold max (Ideal.ofBits .f32 0xFF800000#32) a := by
  unfold rowMax
  exact max_eq_right ((Finset.le_fold_max _).mpr (Or.inl le_rfl))

/-- One attention row as the kernel computes it, from the row of logits `s`, the row of the bias `b` and the
    encoder's result. -/
def krow (s b : Fin 4096 → EReal) (tf : (S2 4096 256).Idx → EReal) : Fin 256 → EReal := fun q =>
  (fun hp : EReal => if Ideal.ofBits .f32 0x00000000#32 < hp then hp else Ideal.exp hp - Ideal.ofBits .f32 0x3F800000#32)
    ((∑ j : Fin 4096,
        Ideal.exp (masked (b j) (kleaky (s j))
          - (Finset.univ : Finset (Fin 4096)).fold max (Ideal.ofBits .f32 0xFF800000#32) (fun j' => masked (b j') (kleaky (s j'))))
          * tf (ix2 j q))
      * Ideal.div (Ideal.ofBits .f32 0x3F800000#32)
          (∑ j : Fin 4096, Ideal.exp (masked (b j) (kleaky (s j))
            - (Finset.univ : Finset (Fin 4096)).fold max (Ideal.ofBits .f32 0xFF800000#32) (fun j' => masked (b j') (kleaky (s j'))))))

/-- For real logits the kernel's row is the reference's row. -/
theorem krow_eq (s b : Fin 4096 → EReal) (tf : (S2 4096 256).Idx → EReal) (hs : ∀ j, IsReal (s j)) :
    krow s b tf = attnRow s b tf := by
  have hk : ∀ j, kleaky (s j) = leaky (s j) := fun j => by
    obtain ⟨r, hr⟩ := hs j; rw [hr, kleaky_coe]
  have hareal : ∀ j, IsReal (masked (b j) (leaky (s j))) := fun j => by
    obtain ⟨r, hr⟩ := hs j; rw [hr]; exact masked_real _ _ (leaky_real r)
  choose ar har using hareal
  obtain ⟨rM, hM⟩ := foldmax_real (by norm_num : 0 < 4096) (fun j => masked (b j) (leaky (s j))) (fun j => ⟨ar j, har j⟩)
  funext q
  unfold krow attnRow softmaxRow
  simp only [hk]
  rw [rowMax_eq, hM]
  simp only [har, ← EReal.coe_sub, Ideal.exp_coe]
  have hL : 0 < ∑ j : Fin 4096, Real.exp (ar j - rM) :=
    Finset.sum_pos (fun j _ => Real.exp_pos _) ⟨⟨0, by norm_num⟩, Finset.mem_univ _⟩
  rw [← coe_sum, Cert.KConsts.one32, Ideal.ofBits_zero_f32, zero_add, Ideal.div_coe (ne_of_gt hL), one_mul]
  have hsum : (∑ j : Fin 4096, ((Real.exp (ar j - rM) : ℝ) : EReal) * tf (ix2 j q)) * ((1 / ∑ j : Fin 4096, Real.exp (ar j - rM) : ℝ) : EReal)
      = ∑ j : Fin 4096, Ideal.div ((Real.exp (ar j - rM) : ℝ) : EReal) ((∑ j : Fin 4096, Real.exp (ar j - rM) : ℝ) : EReal) * tf (ix2 j q) := by
    rw [mul_comm, mul_sum_coe _ _ (le_of_lt (one_div_pos.mpr hL))]
    refine Finset.sum_congr rfl fun j _ => ?_
    rw [Ideal.div_coe (ne_of_gt hL), ← mul_assoc, mul_comm ((1 / ∑ j : Fin 4096, Real.exp (ar j - rM) : ℝ) : EReal)]
  rw [hsum]
  unfold elu
  rw [Cert.KConsts.one32, Ideal.ofBits_zero_f32]
  split
  · rfl
  · exact (one_mul _).symm

/-- The mean of four heads: the kernel adds them one by one to a zero block and scales by a quarter; the reference sums
    them from zero and divides by four. -/
theorem mean4 (e : Fin 4 → EReal) :
    ((((Ideal.ofBits .f32 0x00000000#32 + e 0) + e 1) + e 2) + e 3) * Ideal.ofBits .f32 0x3E800000#32
      = Ideal.div (Ideal.ofBits .f32 0x00000000#32 + ∑ h : Fin 4, e h) (Ideal.ofBits .f32 0x40800000#32) := by
  rw [Cert.KConsts.four32, Ideal.div_coe (by norm_num), Cert.KConsts.quarter32, Fin.sum_univ_four, Ideal.ofBits_zero_f32]
  simp only [zero_add, add_assoc]

end Cert.KAttn

end
-- ==== Proof.R1Pay.lean ====
import proofs.«114942_g22505628631095_cont_8to1_462_6_alg».proof.Proof.Gen.KernelIdeal.Skeleton
import proofs.«114942_g22505628631095_cont_8to1_462_6_alg».proof.Proof.LibRows
import proofs.«114942_g22505628631095_cont_8to1_462_6_alg».proof.Proof.KAttnMath
import Idealize.ShloMosaic.Lib.ValueIdx
import Idealize.ShloMosaic.Lib.ValueLayout
import Idealize.ShloMosaic.PureOps.Ideal.Laws

/-!
# The second kernel's arithmetic, read at an index

One head of the attention block, on a tile of 256 destination rows: the logits are the tile of queries
times the keys; a logit is bent, masked where the bias is not positive, reduced by its row's maximum and
exponentiated; the exponentials times the encoder's result, scaled by one over the row's sum of exponentials,
go through the exponential linear unit. At row `p` and column `q` of the tile this is the kernel's attention
row (`Cert.KAttn.krow`) of the logits' row `p` and the bias's row `p`, at `q`. The four heads' blocks are
added to a zero block one after the other and scaled by a quarter.
-/

set_option maxRecDepth 16384

noncomputable section

namespace Cert.KernelIdeal.HandV

open Cert.KernelIdeal Cert.KernelIdeal.Gen
open Idealize.ShloMosaic Idealize.ShloMosaic.ValueIdx Cert.Rows Cert.RefSpec Cert.KAttn
open scoped BigOperators

variable {F : FTy → Type} [FloatOps F]

/-- The tile's masked logits of one head: queries times keys, bent, masked. -/
def maskedLogits (v2 : IVec S256x4096 1) (qb : FVec F S256x128 .bf16) (kb : FVec F S128x4096 .bf16) : FVec F S256x4096 .f32 :=
  have cst_52 : FVec F S256x4096 .f32 := constant S256x4096 .f32 0x00000000#32
  have v111 : FVec F S256x4096 .f32 := matmul dot_S256x128_S128x4096_S256x4096_1_0_0_1_n_n none qb kb cst_52
  have cst_53 : F .f32 := Scalar.ofBits .f32 0x3E4CCCCD#32
  have v112 : FVec F S256x4096 .f32 := broadcast S256x4096 cst_53
  have v113 : FVec F S256x4096 .f32 := mulf v112 v111
  have v114 : FVec F S256x4096 .f32 := maximumf v111 v113
  have cst_54 : F .f32 := Scalar.ofBits .f32 0xD9FFCB9E#32
  have v115 : FVec F S256x4096 .f32 := broadcast S256x4096 cst_54
  have v116 : FVec F S256x4096 .f32 := select v2 v114 v115
  v116

/-- Each row's maximum, from minus infinity. -/
def rowmaxOf (v116 : FVec F S256x4096 .f32) : FVec F S256 .f32 :=
  multiReduction .maximumf [1] S256 v116 0xFF800000#32 reduces_S256x4096_S256 (.inl rfl) rfl

/-- From the masked logits and their row maxima to the head's block. -/
def headTail (v116 : FVec F S256x4096 .f32) (v117 : FVec F S256 .f32) (v4 : FVec F S4096x256 .f32) : FVec F S256x256 .f32 :=
  have v118 : FVec F S256x1 .f32 := shapeCast S256x1 v117 shapeCasts_S256_S256x1
  have v119 : FVec F S256x4096 .f32 := broadcastTo S256x4096 v118 broadcasts_S256x1_S256x4096
  have v120 : FVec F S256x4096 .f32 := subf v116 v119
  have v121 : FVec F S256x4096 .f32 := exp v120
  have v122 : FVec F S256 .f32 := multiReduction .add [1] S256 v121 0x00000000#32 reduces_S256x4096_S256 (.inl rfl) rfl
  have v123 : FVec F S256x1 .f32 := shapeCast S256x1 v122 shapeCasts_S256_S256x1
  have v124 : FVec F S256x4096 .bf16 := truncf .bf16 v121 bitsLt_bf16_f32
  have v125 : FVec F S4096x256 .bf16 := truncf .bf16 v4 bitsLt_bf16_f32
  have cst_57 : FVec F S256x256 .f32 := constant S256x256 .f32 0x00000000#32
  have v126 : FVec F S256x256 .f32 := matmul dot_S256x4096_S4096x256_S256x256_1_0_0_1_n_n none v124 v125 cst_57
  have cst_58 : F .f32 := Scalar.ofBits .f32 0x3F800000#32
  have v127 : FVec F S256x1 .f32 := broadcast S256x1 cst_58
  have v128 : FVec F S256x1 .f32 := divf v127 v123
  have v129 : FVec F S256x256 .f32 := broadcastTo S256x256 v128 broadcasts_S256x1_S256x256
  have v130 : FVec F S256x256 .f32 := mulf v126 v129
  have cst_59 : F .f32 := Scalar.ofBits .f32 0x00000000#32
  have v131 : FVec F S256x256 .f32 := broadcast S256x256 cst_59
  have v132 : IVec S256x256 1 := cmpf .ogt v130 v131
  have v133 : FVec F S256x256 .f32 := exp v130
  have cst_60 : F .f32 := Scalar.ofBits .f32 0x3F800000#32
  have v134 : FVec F S256x256 .f32 := broadcast S256x256 cst_60
  have v135 : FVec F S256x256 .f32 := subf v133 v134
  have v136 : FVec F S256x256 .f32 := select v132 v130 v135
  v136

/-- One head's block from the mask, the tile of queries, the keys and the encoder's result. -/
def headCore (v2 : IVec S256x4096 1) (qb : FVec F S256x128 .bf16) (kb : FVec F S128x4096 .bf16) (v4 : FVec F S4096x256 .f32) : FVec F S256x256 .f32 :=
  headTail (maskedLogits v2 qb kb) (rowmaxOf (maskedLogits v2 qb kb)) v4

/-! ## The printed payloads are these -/

theorem pay5_eq (v0 : Vec F S256x4096 .f32) (v3 : Vec F S4096x256 .f32) (v6 : Vec F S1x256x128 .f32) (v8 : Vec F S1x128x4096 .f32) :
    k1_pay5 v0 v3 v6 v8 = headCore (k1_pay2 v0) (truncf .bf16 (shapeCast S256x128 v6 shapeCasts_S1x256x128_S256x128) bitsLt_bf16_f32)
      (truncf .bf16 (shapeCast S128x4096 v8 shapeCasts_S1x128x4096_S128x4096) bitsLt_bf16_f32) (k1_pay3 v3) := rfl

theorem pay6_eq (v2 : IVec S256x4096 1) (v4 : FVec F S4096x256 .f32) (v5 : FVec F S256x256 .f32) (v37 : FVec F S256x256 .f32) (v39 : Vec F S1x256x128 .f32) (v41 : Vec F S1x128x4096 .f32) :
    k1_pay6 v2 v4 v5 v37 v39 v41 = addf (addf v5 v37) (headCore v2 (truncf .bf16 (shapeCast S256x128 v39 shapeCasts_S1x256x128_S256x128) bitsLt_bf16_f32)
      (truncf .bf16 (shapeCast S128x4096 v41 shapeCasts_S1x128x4096_S128x4096) bitsLt_bf16_f32) v4) := rfl

theorem pay9_eq (v2 : IVec S256x4096 1) (v4 : FVec F S4096x256 .f32) (v71 : FVec F S256x256 .f32) (v75 : FVec F S128x4096 .f32) (v76 : FVec F S256x128 .bf16) :
    k1_pay9 v2 v4 v71 v75 v76 = addf v71 (headCore v2 v76 (truncf .bf16 v75 bitsLt_bf16_f32) v4) := rfl

theorem pay10_eq (v2 : IVec S256x4096 1) (v105 : Vec F S1x256x128 .f32) (v107 : Vec F S1x128x4096 .f32) :
    k1_pay10 v2 v105 v107 = maskedLogits v2 (truncf .bf16 (shapeCast S256x128 v105 shapeCasts_S1x256x128_S256x128) bitsLt_bf16_f32)
      (truncf .bf16 (shapeCast S128x4096 v107 shapeCasts_S1x128x4096_S128x4096) bitsLt_bf16_f32) := rfl

theorem pay11_eq (v2 : IVec S256x4096 1) (v105 : Vec F S1x256x128 .f32) (v107 : Vec F S1x128x4096 .f32) :
    k1_pay11 v2 v105 v107 = rowmaxOf (k1_pay10 v2 v105 v107) := rfl

theorem pay12_eq (v4 : FVec F S4096x256 .f32) (v104 : FVec F S256x256 .f32) (v116 : FVec F S256x4096 .f32) (v117 : FVec F S256 .f32) :
    k1_pay12 v4 v104 v116 v117 = mulf (addf v104 (headTail v116 v117 v4)) (broadcast S256x256 (Scalar.ofBits .f32 0x3E800000#32)) := rfl

end Cert.KernelIdeal.HandV

end
-- ==== Proof.R1PayIdx.lean ====
import proofs.«114942_g22505628631095_cont_8to1_462_6_alg».proof.Proof.R1Pay
import proofs.«114942_g22505628631095_cont_8to1_462_6_alg».proof.Proof.LibColumn

/-!
# One head's block at an index

Row `p`, column `q` of a head's block is the kernel's attention row of the logits' row `p` (the tile of
queries' row `p` against every key column) and the bias tile's row `p`, at `q`.
-/

set_option maxRecDepth 16384

noncomputable section

namespace Cert.KernelIdeal.HandV

open Cert.KernelIdeal Cert.KernelIdeal.Gen
open Idealize.ShloMosaic Idealize.ShloMosaic.ValueIdx Cert.Rows Cert.RefSpec Cert.KAttn
open scoped BigOperators

theorem plain_qk : Cert.LibPlainDot.Plain dot_S256x128_S128x4096_S256x4096_1_0_0_1_n_n := ⟨rfl, rfl, rfl, rfl, rfl, rfl⟩
theorem plain_pv : Cert.LibPlainDot.Plain dot_S256x4096_S4096x256_S256x256_1_0_0_1_n_n := ⟨rfl, rfl, rfl, rfl, rfl, rfl⟩

/-- The ordered "greater than" holds exactly when the comparison bit is one. -/
theorem cmp_ogt_one (x y : EReal) : (Ideal.cmp .ogt x y = (1 : BitVec 1)) ↔ y < x := by
  unfold Ideal.cmp
  by_cases h : y < x <;> simp [h]

theorem maskedLogits_apply (v0 : Vec Ideal S256x4096 .f32) (qb : FVec Ideal S256x128 .bf16) (kb : FVec Ideal S128x4096 .bf16)
    (p : Fin 256) (j : Fin 4096) :
    maskedLogits (k1_pay2 v0) qb kb (ix2 p j) = masked (v0 (ix2 p j)) (kleaky (∑ k : Fin 128, qb (ix2 p k) * kb (ix2 k j))) := by
  have hm : matmul dot_S256x128_S128x4096_S256x4096_1_0_0_1_n_n none qb kb (constant S256x4096 .f32 0x00000000#32) (ix2 p j)
      = ∑ k : Fin 128, qb (ix2 p k) * kb (ix2 k j) :=
    Cert.LibPlainDot.matmul_zero_apply dot_S256x128_S128x4096_S256x4096_1_0_0_1_n_n plain_qk none qb kb p j
  show Scalar.select (Ideal.cmp .ogt (v0 (ix2 p j)) (Ideal.ofBits .f32 0x00000000#32))
      (max (matmul dot_S256x128_S128x4096_S256x4096_1_0_0_1_n_n none qb kb (constant S256x4096 .f32 0x00000000#32) (ix2 p j))
        (Ideal.ofBits .f32 0x3E4CCCCD#32 * matmul dot_S256x128_S128x4096_S256x4096_1_0_0_1_n_n none qb kb (constant S256x4096 .f32 0x00000000#32) (ix2 p j)))
      (Ideal.ofBits .f32 0xD9FFCB9E#32) = _
  rw [hm]
  unfold masked kleaky Scalar.select
  by_cases h : Ideal.ofBits .f32 0x00000000#32 < v0 (ix2 p j)
  · rw [if_pos h, if_pos ((cmp_ogt_one _ _).mpr h)]
  · rw [if_neg h, if_neg (fun h' => h ((cmp_ogt_one _ _).mp h'))]

theorem rowmaxOf_apply (A : FVec Ideal S256x4096 .f32) (p : Fin 256) :
    rowmaxOf A (ix1 p) = (Finset.univ : Finset (Fin 4096)).fold max (Ideal.ofBits .f32 0xFF800000#32) (fun j => A (ix2 p j)) := by
  unfold rowmaxOf
  refine (Ideal.multiReduction_maximumf_single A 0xFF800000#32 reduces_S256x4096_S256 (.inl rfl) rfl (ix1 p)).trans ?_
  have e : (A ∘ (reduces_S256x4096_S256).lift (ix1 p)) = fun j => A (ix2 p j) :=
    funext fun k => congrArg A (funext fun a => Fin.ext (by
      match a with
      | ⟨0, _⟩ => rfl
      | ⟨1, _⟩ => rfl))
  rw [e]
  rfl

theorem headTail_apply (A : FVec Ideal S256x4096 .f32) (mx : FVec Ideal S256 .f32) (tf : FVec Ideal S4096x256 .f32) (p q : Fin 256) :
    headTail A mx tf (ix2 p q)
      = (fun hp : EReal => if Ideal.ofBits .f32 0x00000000#32 < hp then hp else Ideal.exp hp - Ideal.ofBits .f32 0x3F800000#32)
          ((∑ j : Fin 4096, Ideal.exp (A (ix2 p j) - mx (ix1 p)) * tf (ix2 j q))
            * Ideal.div (Ideal.ofBits .f32 0x3F800000#32) (∑ j : Fin 4096, Ideal.exp (A (ix2 p j) - mx (ix1 p)))) := by
  have hcol : ∀ j : Fin 4096, broadcastTo S256x4096 (shapeCast S256x1 mx shapeCasts_S256_S256x1) broadcasts_S256x1_S256x4096 (ix2 p j) = mx (ix1 p) := fun j => by
    rw [Cert.LibColumn.broadcastTo_a1_ab_apply, Cert.LibColumn.shapeCast_a_a1_apply]
  have hexp : ∀ j : Fin 4096,
      exp (subf A (broadcastTo S256x4096 (shapeCast S256x1 mx shapeCasts_S256_S256x1) broadcasts_S256x1_S256x4096)) (ix2 p j)
        = Ideal.exp (A (ix2 p j) - mx (ix1 p)) := fun j => by
    show Ideal.exp (A (ix2 p j) - broadcastTo S256x4096 (shapeCast S256x1 mx shapeCasts_S256_S256x1) broadcasts_S256x1_S256x4096 (ix2 p j)) = _
    rw [hcol]
  have hsum : multiReduction .add [1] S256
        (exp (subf A (broadcastTo S256x4096 (shapeCast S256x1 mx shapeCasts_S256_S256x1) broadcasts_S256x1_S256x4096)))
        0x00000000#32 reduces_S256x4096_S256 (.inl rfl) rfl (ix1 p)
      = ∑ j : Fin 4096, Ideal.exp (A (ix2 p j) - mx (ix1 p)) := by
    refine (Ideal.multiReduction_add_single _ 0x00000000#32 reduces_S256x4096_S256 (.inl rfl) rfl (ix1 p)).trans ?_
    refine Finset.sum_congr rfl fun k _ => ?_
    have e : (reduces_S256x4096_S256).lift (ix1 p) k = ix2 p k := funext fun a => Fin.ext (by
      match a with
      | ⟨0, _⟩ => rfl
      | ⟨1, _⟩ => rfl)
    rw [e]
    exact hexp k
  have hmat : matmul dot_S256x4096_S4096x256_S256x256_1_0_0_1_n_n none
        (truncf .bf16 (exp (subf A (broadcastTo S256x4096 (shapeCast S256x1 mx shapeCasts_S256_S256x1) broadcasts_S256x1_S256x4096))) bitsLt_bf16_f32)
        (truncf .bf16 tf bitsLt_bf16_f32) (constant S256x256 .f32 0x00000000#32) (ix2 p q)
      = ∑ j : Fin 4096, Ideal.exp (A (ix2 p j) - mx (ix1 p)) * tf (ix2 j q) := by
    refine (Cert.LibPlainDot.matmul_zero_apply _ plain_pv none _ _ p q).trans ?_
    refine Finset.sum_congr rfl fun j _ => ?_
    show exp (subf A (broadcastTo S256x4096 (shapeCast S256x1 mx shapeCasts_S256_S256x1) broadcasts_S256x1_S256x4096)) (ix2 p j) * tf (ix2 j q) = _
    rw [hexp]
  have hinv : broadcastTo S256x256 (divf (broadcast S256x1 (Scalar.ofBits .f32 0x3F800000#32))
        (shapeCast S256x1 (multiReduction .add [1] S256
          (exp (subf A (broadcastTo S256x4096 (shapeCast S256x1 mx shapeCasts_S256_S256x1) broadcasts_S256x1_S256x4096)))
          0x00000000#32 reduces_S256x4096_S256 (.inl rfl) rfl) shapeCasts_S256_S256x1)) broadcasts_S256x1_S256x256 (ix2 p q)
      = Ideal.div (Ideal.ofBits .f32 0x3F800000#32) (∑ j : Fin 4096, Ideal.exp (A (ix2 p j) - mx (ix1 p))) := by
    rw [Cert.LibColumn.broadcastTo_a1_ab_apply]
    show Ideal.div (Ideal.ofBits .f32 0x3F800000#32) (shapeCast S256x1 _ shapeCasts_S256_S256x1 (ix2 p (0 : Fin 1))) = _
    rw [Cert.LibColumn.shapeCast_a_a1_apply, hsum]
  unfold headTail
  show Scalar.select (Ideal.cmp .ogt (_ * _) (Ideal.ofBits .f32 0x00000000#32)) (_ * _) (Ideal.exp (_ * _) - Ideal.ofBits .f32 0x3F800000#32) = _
  rw [hmat, hinv]
  unfold Scalar.select
  by_cases h : Ideal.ofBits .f32 0x00000000#32 < (∑ j : Fin 4096, Ideal.exp (A (ix2 p j) - mx (ix1 p)) * tf (ix2 j q))
      * Ideal.div (Ideal.ofBits .f32 0x3F800000#32) (∑ j : Fin 4096, Ideal.exp (A (ix2 p j) - mx (ix1 p)))
  · rw [if_pos ((cmp_ogt_one _ _).mpr h)]; exact (if_pos h).symm
  · rw [if_neg (fun h' => h ((cmp_ogt_one _ _).mp h'))]; exact (if_neg h).symm

/-- One head's block at row `p`, column `q`: the kernel's attention row. -/
theorem headCore_apply (v0 : Vec Ideal S256x4096 .f32) (qb : FVec Ideal S256x128 .bf16) (kb : FVec Ideal S128x4096 .bf16)
    (tf : FVec Ideal S4096x256 .f32) (p q : Fin 256) :
    headCore (k1_pay2 v0) qb kb tf (ix2 p q)
      = krow (fun j => ∑ k : Fin 128, qb (ix2 p k) * kb (ix2 k j)) (fun j => v0 (ix2 p j)) tf q := by
  unfold headCore
  rw [headTail_apply, rowmaxOf_apply]
  simp only [maskedLogits_apply]
  rfl

end Cert.KernelIdeal.HandV

end
-- ==== Proof.KSpec.lean ====
import proofs.«114942_g22505628631095_cont_8to1_462_6_alg».proof.Proof.RefSpec

/-!
# What the first kernel computes, as functions of its argument arrays

The encoder is the two-layer perceptron applied to every row. The two projections are, per attention
head `h`, the destination embeddings carried through the head's two weight matrices (the queries,
laid out `[head, row, feature]`), and the source embeddings carried through the head's first weight matrix,
transposed (the keys, laid out `[head, feature, column]`). A logit is the inner product of a query row
with a key column.
-/

noncomputable section

namespace Cert.KSpec

open Idealize.ShloMosaic Idealize.ShloMosaic.ValueIdx Cert.Rows Cert.RefSpec
open scoped BigOperators

/-- The perceptron applied to every row of an array, the biases kept as one-row matrices. -/
def mlpRows {N Ci H C : ℕ} (x : (S2 N Ci).Idx → EReal) (w1 : (S2 Ci H).Idx → EReal) (b1 : (S2 1 H).Idx → EReal)
    (w2 : (S2 H C).Idx → EReal) (b2 : (S2 1 C).Idx → EReal) : (S2 N C).Idx → EReal :=
  mapRows (mlp w1 b1 w2 b2) x

/-- The queries: at `(h, i, k)`, row `i` of the destination embeddings times head `h`'s weight matrix times its
    second matrix, at feature `k`. -/
def queries (ed : (S2 4096 64).Idx → EReal) (w : (S3 4 64 128).Idx → EReal) (w2 : (S3 4 128 128).Idx → EReal) :
    (S3 4 4096 128).Idx → EReal :=
  fun y => lin (headW2 w2 (y 0)) (lin (headW w (y 0)) (fun m => ed (ix2 (y 1) m))) (y 2)

/-- The keys, transposed: at `(h, k, j)`, row `j` of the source embeddings times head `h`'s weight matrix, at
    feature `k`. -/
def keysT (es : (S2 4096 64).Idx → EReal) (w : (S3 4 64 128).Idx → EReal) : (S3 4 128 4096).Idx → EReal :=
  fun y => lin (headW w (y 0)) (fun m => es (ix2 (y 2) m)) (y 1)

/-- A logit is the inner product of a query row with a key column. -/
theorem scoreRow_eq (ed es : (S2 4096 64).Idx → EReal) (w : (S3 4 64 128).Idx → EReal) (w2 : (S3 4 128 128).Idx → EReal)
    (h : Fin 4) (p j : Fin 4096) :
    scoreRow ed es w w2 h p j = ∑ k : Fin 128, queries ed w w2 (ix3 h p k) * keysT es w (ix3 h k j) := rfl

end Cert.KSpec

end
-- ==== Proof.R1Block.lean ====
import proofs.«114942_g22505628631095_cont_8to1_462_6_alg».proof.Proof.R1Frame
import proofs.«114942_g22505628631095_cont_8to1_462_6_alg».proof.Proof.R1PayIdx
import proofs.«114942_g22505628631095_cont_8to1_462_6_alg».proof.Proof.KSpec
import Idealize.ShloMosaic.Lib.Pipeline.Value

/-!
# What the second kernel's body leaves in its two output buffers

Each output buffer is stored whole, once: the attention buffer with the four heads' blocks added up and scaled by
a quarter, the decoder buffer with the perceptron of the tile of the encoder's rows the point names. The heads'
queries and keys are the leading-axis slabs of the two projection buffers.
-/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Cert.Rows Cert.RefSpec Cert.KAttn
open scoped BigOperators

variable {F : FTy → Type} [FloatOps F]

theorem hz2 : (![0, 0] : Fin 2 → Nat) = fun _ => 0 := by funext a; fin_cases a <;> rfl

/-- The attention buffer after the body: the payload of its one store, over the body's loads. -/
theorem out1_8_eq (c : Dev nD) (i : grid1.Coords) (arg1 : Memref sig .tc .vmem S4x256x128 .f32) (harg1 : arg1.IsWhole) (arg2 : Memref sig .tc .vmem S4x128x4096 .f32) (harg2 : arg2.IsWhole) (arg3 : Memref sig .tc .vmem S256x4096 .f32) (harg3 : arg3.IsWhole) (arg4 : Memref sig .tc .vmem S4096x256 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S256x256 .f32) (harg9 : arg9.IsWhole) (arg10 : Memref sig .tc .vmem S256x1024 .f32) (harg10 : arg10.IsWhole)
    (x0 : Vec F S4x256x128 .f32) (x1 : Vec F S4x128x4096 .f32) (x2 : Vec F S256x4096 .f32) (x3 : Vec F S4096x256 .f32) (x4 : Vec F S256x512 .f32) (x5 : Vec F S1x512 .f32) (x6 : Vec F S512x1024 .f32) (x7 : Vec F S1x1024 .f32) :
    out1_8 c i arg1 harg1 arg2 harg2 arg3 harg3 arg4 harg4 arg5 harg5 arg6 harg6 arg7 harg7 arg8 harg8 arg9 harg9 arg10 harg10 x0 x1 x2 x3 x4 x5 x6 x7 =
    k1_pay12 (k1_pay3 x3)
      (k1_pay9 (k1_pay2 x2) (k1_pay3 x3)
        (k1_pay6 (k1_pay2 x2) (k1_pay3 x3) k1_pay4 (k1_pay5 x2 x3 (View.ld x0 (Rect.unit (s := S4x256x128) ![0, 0, 0] S1x256x128.size inb_S4x256x128_S1x256x128_0_0_0)) (View.ld x1 (Rect.unit (s := S4x128x4096) ![0, 0, 0] S1x128x4096.size inb_S4x128x4096_S1x128x4096_0_0_0)))
          (View.ld x0 (Rect.unit (s := S4x256x128) ![1, 0, 0] S1x256x128.size inb_S4x256x128_S1x256x128_1_0_0)) (View.ld x1 (Rect.unit (s := S4x128x4096) ![1, 0, 0] S1x128x4096.size inb_S4x128x4096_S1x128x4096_1_0_0)))
        (k1_pay7 (View.ld x1 (Rect.unit (s := S4x128x4096) ![2, 0, 0] S1x128x4096.size inb_S4x128x4096_S1x128x4096_2_0_0))) (k1_pay8 (View.ld x0 (Rect.unit (s := S4x256x128) ![2, 0, 0] S1x256x128.size inb_S4x256x128_S1x256x128_2_0_0))))
      (k1_pay10 (k1_pay2 x2) (View.ld x0 (Rect.unit (s := S4x256x128) ![3, 0, 0] S1x256x128.size inb_S4x256x128_S1x256x128_3_0_0)) (View.ld x1 (Rect.unit (s := S4x128x4096) ![3, 0, 0] S1x128x4096.size inb_S4x128x4096_S1x128x4096_3_0_0)))
      (k1_pay11 (k1_pay2 x2) (View.ld x0 (Rect.unit (s := S4x256x128) ![3, 0, 0] S1x256x128.size inb_S4x256x128_S1x256x128_3_0_0)) (View.ld x1 (Rect.unit (s := S4x128x4096) ![3, 0, 0] S1x128x4096.size inb_S4x128x4096_S1x128x4096_3_0_0))) := by
  unfold out1_8
  rw [View.read_writes_eq_canon _ _ _ (cover1_8 c i arg1 harg1 arg2 harg2 arg3 harg3 arg4 harg4 arg5 harg5 arg6 harg6 arg7 harg7 arg8 harg8 arg9 harg9 arg10 harg10 x0 x1 x2 x3 x4 x5 x6 x7)]
  unfold bodyRun1
  dsimp only
  sl_unfold_words
  rw [View.canon_unit_zero hz2]
  simp only [View.readAt_eq_ld, harg1.read_unread, harg2.read_unread, harg3.read_unread, harg4.read_unread,
    View.ld_unit_zero (S := S256x4096) hz2, View.ld_unit_zero (S := S4096x256) hz2]

/-- The decoder buffer after the body. -/
theorem out1_9_eq (c : Dev nD) (i : grid1.Coords) (arg1 : Memref sig .tc .vmem S4x256x128 .f32) (harg1 : arg1.IsWhole) (arg2 : Memref sig .tc .vmem S4x128x4096 .f32) (harg2 : arg2.IsWhole) (arg3 : Memref sig .tc .vmem S256x4096 .f32) (harg3 : arg3.IsWhole) (arg4 : Memref sig .tc .vmem S4096x256 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S256x256 .f32) (harg9 : arg9.IsWhole) (arg10 : Memref sig .tc .vmem S256x1024 .f32) (harg10 : arg10.IsWhole)
    (x0 : Vec F S4x256x128 .f32) (x1 : Vec F S4x128x4096 .f32) (x2 : Vec F S256x4096 .f32) (x3 : Vec F S4096x256 .f32) (x4 : Vec F S256x512 .f32) (x5 : Vec F S1x512 .f32) (x6 : Vec F S512x1024 .f32) (x7 : Vec F S1x1024 .f32) :
    out1_9 c i arg1 harg1 arg2 harg2 arg3 harg3 arg4 harg4 arg5 harg5 arg6 harg6 arg7 harg7 arg8 harg8 arg9 harg9 arg10 harg10 x0 x1 x2 x3 x4 x5 x6 x7 =
    k1_pay1 (k1_pay13 (View.ld x3 (Rect.unit (s := S4096x256) (k1_off1 i) S256x256.size (k1_off1_inb i))) x4 x5) (k1_pay14 x6) x7 := by
  unfold out1_9
  rw [View.read_writes_eq_canon _ _ _ (cover1_9 c i arg1 harg1 arg2 harg2 arg3 harg3 arg4 harg4 arg5 harg5 arg6 harg6 arg7 harg7 arg8 harg8 arg9 harg9 arg10 harg10 x0 x1 x2 x3 x4 x5 x6 x7)]
  unfold bodyRun1
  dsimp only
  sl_unfold_words
  rw [View.canon_unit_zero hz2]
  simp only [View.readAt_eq_ld, harg4.read_unread, harg5.read_unread, harg6.read_unread, harg7.read_unread, harg8.read_unread,
    View.ld_unit_zero (S := S256x512) hz2, View.ld_unit_zero (S := S1x512) hz2, View.ld_unit_zero (S := S512x1024) hz2,
    View.ld_unit_zero (S := S1x1024) hz2]

/-! ## At the extended reals -/

/-- The leading-axis slab `h` of the tile of queries, read at `(0, p, k)`. -/
theorem ldQ0 (x0 : Vec Ideal S4x256x128 .f32) (p : Fin 256) (k : Fin 128) :
    View.ld x0 (Rect.unit (s := S4x256x128) ![0, 0, 0] S1x256x128.size inb_S4x256x128_S1x256x128_0_0_0) (ix3 (0 : Fin 1) p k) = x0 (ix3 (0 : Fin 4) p k) :=
  congrArg x0 (funext fun a => Fin.ext (by
    match a with
    | ⟨0, _⟩ => rfl
    | ⟨1, _⟩ => exact (show 0 + 1 * p.val = p.val by omega)
    | ⟨2, _⟩ => exact (show 0 + 1 * k.val = k.val by omega)))
theorem ldK0 (x1 : Vec Ideal S4x128x4096 .f32) (k : Fin 128) (j : Fin 4096) :
    View.ld x1 (Rect.unit (s := S4x128x4096) ![0, 0, 0] S1x128x4096.size inb_S4x128x4096_S1x128x4096_0_0_0) (ix3 (0 : Fin 1) k j) = x1 (ix3 (0 : Fin 4) k j) :=
  congrArg x1 (funext fun a => Fin.ext (by
    match a with
    | ⟨0, _⟩ => rfl
    | ⟨1, _⟩ => exact (show 0 + 1 * k.val = k.val by omega)
    | ⟨2, _⟩ => exact (show 0 + 1 * j.val = j.val by omega)))
theorem ldQ1 (x0 : Vec Ideal S4x256x128 .f32) (p : Fin 256) (k : Fin 128) :
    View.ld x0 (Rect.unit (s := S4x256x128) ![1, 0, 0] S1x256x128.size inb_S4x256x128_S1x256x128_1_0_0) (ix3 (0 : Fin 1) p k) = x0 (ix3 (1 : Fin 4) p k) :=
  congrArg x0 (funext fun a => Fin.ext (by
    match a with
    | ⟨0, _⟩ => rfl
    | ⟨1, _⟩ => exact (show 0 + 1 * p.val = p.val by omega)
    | ⟨2, _⟩ => exact (show 0 + 1 * k.val = k.val by omega)))
theorem ldK1 (x1 : Vec Ideal S4x128x4096 .f32) (k : Fin 128) (j : Fin 4096) :
    View.ld x1 (Rect.unit (s := S4x128x4096) ![1, 0, 0] S1x128x4096.size inb_S4x128x4096_S1x128x4096_1_0_0) (ix3 (0 : Fin 1) k j) = x1 (ix3 (1 : Fin 4) k j) :=
  congrArg x1 (funext fun a => Fin.ext (by
    match a with
    | ⟨0, _⟩ => rfl
    | ⟨1, _⟩ => exact (show 0 + 1 * k.val = k.val by omega)
    | ⟨2, _⟩ => exact (show 0 + 1 * j.val = j.val by omega)))
theorem ldQ2 (x0 : Vec Ideal S4x256x128 .f32) (p : Fin 256) (k : Fin 128) :
    View.ld x0 (Rect.unit (s := S4x256x128) ![2, 0, 0] S1x256x128.size inb_S4x256x128_S1x256x128_2_0_0) (ix3 (0 : Fin 1) p k) = x0 (ix3 (2 : Fin 4) p k) :=
  congrArg x0 (funext fun a => Fin.ext (by
    match a with
    | ⟨0, _⟩ => rfl
    | ⟨1, _⟩ => exact (show 0 + 1 * p.val = p.val by omega)
    | ⟨2, _⟩ => exact (show 0 + 1 * k.val = k.val by omega)))
theorem ldK2 (x1 : Vec Ideal S4x128x4096 .f32) (k : Fin 128) (j : Fin 4096) :
    View.ld x1 (Rect.unit (s := S4x128x4096) ![2, 0, 0] S1x128x4096.size inb_S4x128x4096_S1x128x4096_2_0_0) (ix3 (0 : Fin 1) k j) = x1 (ix3 (2 : Fin 4) k j) :=
  congrArg x1 (funext fun a => Fin.ext (by
    match a with
    | ⟨0, _⟩ => rfl
    | ⟨1, _⟩ => exact (show 0 + 1 * k.val = k.val by omega)
    | ⟨2, _⟩ => exact (show 0 + 1 * j.val = j.val by omega)))
theorem ldQ3 (x0 : Vec Ideal S4x256x128 .f32) (p : Fin 256) (k : Fin 128) :
    View.ld x0 (Rect.unit (s := S4x256x128) ![3, 0, 0] S1x256x128.size inb_S4x256x128_S1x256x128_3_0_0) (ix3 (0 : Fin 1) p k) = x0 (ix3 (3 : Fin 4) p k) :=
  congrArg x0 (funext fun a => Fin.ext (by
    match a with
    | ⟨0, _⟩ => rfl
    | ⟨1, _⟩ => exact (show 0 + 1 * p.val = p.val by omega)
    | ⟨2, _⟩ => exact (show 0 + 1 * k.val = k.val by omega)))
theorem ldK3 (x1 : Vec Ideal S4x128x4096 .f32) (k : Fin 128) (j : Fin 4096) :
    View.ld x1 (Rect.unit (s := S4x128x4096) ![3, 0, 0] S1x128x4096.size inb_S4x128x4096_S1x128x4096_3_0_0) (ix3 (0 : Fin 1) k j) = x1 (ix3 (3 : Fin 4) k j) :=
  congrArg x1 (funext fun a => Fin.ext (by
    match a with
    | ⟨0, _⟩ => rfl
    | ⟨1, _⟩ => exact (show 0 + 1 * k.val = k.val by omega)
    | ⟨2, _⟩ => exact (show 0 + 1 * j.val = j.val by omega)))

/-- One head's block from its two slabs, at row `p`, column `q`. -/
theorem head_apply (x2 : Vec Ideal S256x4096 .f32) (x3 : Vec Ideal S4096x256 .f32) (Qs : Vec Ideal S1x256x128 .f32)
    (Ks : Vec Ideal S1x128x4096 .f32) (p q : Fin 256) :
    headCore (k1_pay2 x2) (truncf .bf16 (shapeCast S256x128 Qs shapeCasts_S1x256x128_S256x128) bitsLt_bf16_f32)
      (truncf .bf16 (shapeCast S128x4096 Ks shapeCasts_S1x128x4096_S128x4096) bitsLt_bf16_f32) (k1_pay3 x3) (ix2 p q)
      = krow (fun j => ∑ k : Fin 128, Qs (ix3 (0 : Fin 1) p k) * Ks (ix3 (0 : Fin 1) k j)) (fun j => x2 (ix2 p j)) x3 q := by
  rw [headCore_apply]
  have e1 : ∀ k : Fin 128, truncf (F := Ideal) .bf16 (shapeCast S256x128 Qs shapeCasts_S1x256x128_S256x128) bitsLt_bf16_f32 (ix2 p k) = Qs (ix3 (0 : Fin 1) p k) :=
    fun k => shapeCast_1ab_ab_apply Qs shapeCasts_S1x256x128_S256x128 p k
  have e2 : ∀ (k : Fin 128) (j : Fin 4096), truncf (F := Ideal) .bf16 (shapeCast S128x4096 Ks shapeCasts_S1x128x4096_S128x4096) bitsLt_bf16_f32 (ix2 k j) = Ks (ix3 (0 : Fin 1) k j) :=
    fun k j => shapeCast_1ab_ab_apply Ks shapeCasts_S1x128x4096_S128x4096 k j
  have e3 : k1_pay3 x3 = x3 := shapeCast_self x3 shapeCasts_S4096x256_S4096x256
  simp only [e1, e2, e3]

/-- The four heads' mean as the kernel forms it, from the four heads' query rows, the keys, the bias row and the
    encoder's result, at column `q`. -/
def attnOf (qrow : Fin 4 → Fin 128 → EReal) (x1 : (S3 4 128 4096).Idx → EReal) (brow : Fin 4096 → EReal)
    (x3 : (S2 4096 256).Idx → EReal) (q : Fin 256) : EReal :=
  ((((Ideal.ofBits .f32 0x00000000#32
    + krow (fun j => ∑ k : Fin 128, qrow 0 k * x1 (ix3 (0 : Fin 4) k j)) brow x3 q)
    + krow (fun j => ∑ k : Fin 128, qrow 1 k * x1 (ix3 (1 : Fin 4) k j)) brow x3 q)
    + krow (fun j => ∑ k : Fin 128, qrow 2 k * x1 (ix3 (2 : Fin 4) k j)) brow x3 q)
    + krow (fun j => ∑ k : Fin 128, qrow 3 k * x1 (ix3 (3 : Fin 4) k j)) brow x3 q)
    * Ideal.ofBits .f32 0x3E800000#32

/-- The same at row `p` of a tile of `n` rows of queries and of the bias. -/
def attnAt {n : ℕ} (x0 : (S3 4 n 128).Idx → EReal) (x1 : (S3 4 128 4096).Idx → EReal) (x2 : (S2 n 4096).Idx → EReal)
    (x3 : (S2 4096 256).Idx → EReal) (p : Fin n) (q : Fin 256) : EReal :=
  attnOf (fun h k => x0 (ix3 h p k)) x1 (fun j => x2 (ix2 p j)) x3 q

theorem attnBlock_apply (x0 : Vec Ideal S4x256x128 .f32) (x1 : Vec Ideal S4x128x4096 .f32) (x2 : Vec Ideal S256x4096 .f32)
    (x3 : Vec Ideal S4096x256 .f32) (p q : Fin 256) :
    (k1_pay12 (k1_pay3 x3)
      (k1_pay9 (k1_pay2 x2) (k1_pay3 x3)
        (k1_pay6 (k1_pay2 x2) (k1_pay3 x3) k1_pay4 (k1_pay5 x2 x3 (View.ld x0 (Rect.unit (s := S4x256x128) ![0, 0, 0] S1x256x128.size inb_S4x256x128_S1x256x128_0_0_0)) (View.ld x1 (Rect.unit (s := S4x128x4096) ![0, 0, 0] S1x128x4096.size inb_S4x128x4096_S1x128x4096_0_0_0)))
          (View.ld x0 (Rect.unit (s := S4x256x128) ![1, 0, 0] S1x256x128.size inb_S4x256x128_S1x256x128_1_0_0)) (View.ld x1 (Rect.unit (s := S4x128x4096) ![1, 0, 0] S1x128x4096.size inb_S4x128x4096_S1x128x4096_1_0_0)))
        (k1_pay7 (View.ld x1 (Rect.unit (s := S4x128x4096) ![2, 0, 0] S1x128x4096.size inb_S4x128x4096_S1x128x4096_2_0_0))) (k1_pay8 (View.ld x0 (Rect.unit (s := S4x256x128) ![2, 0, 0] S1x256x128.size inb_S4x256x128_S1x256x128_2_0_0))))
      (k1_pay10 (k1_pay2 x2) (View.ld x0 (Rect.unit (s := S4x256x128) ![3, 0, 0] S1x256x128.size inb_S4x256x128_S1x256x128_3_0_0)) (View.ld x1 (Rect.unit (s := S4x128x4096) ![3, 0, 0] S1x128x4096.size inb_S4x128x4096_S1x128x4096_3_0_0)))
      (k1_pay11 (k1_pay2 x2) (View.ld x0 (Rect.unit (s := S4x256x128) ![3, 0, 0] S1x256x128.size inb_S4x256x128_S1x256x128_3_0_0)) (View.ld x1 (Rect.unit (s := S4x128x4096) ![3, 0, 0] S1x128x4096.size inb_S4x128x4096_S1x128x4096_3_0_0)))) (ix2 p q) = attnAt x0 x1 x2 x3 p q := by
  rw [pay12_eq, pay9_eq, pay6_eq, pay5_eq, pay10_eq, pay11_eq]
  have h3 : headTail (maskedLogits (k1_pay2 x2)
        (truncf .bf16 (shapeCast S256x128 (View.ld x0 (Rect.unit (s := S4x256x128) ![3, 0, 0] S1x256x128.size inb_S4x256x128_S1x256x128_3_0_0)) shapeCasts_S1x256x128_S256x128) bitsLt_bf16_f32)
        (truncf .bf16 (shapeCast S128x4096 (View.ld x1 (Rect.unit (s := S4x128x4096) ![3, 0, 0] S1x128x4096.size inb_S4x128x4096_S1x128x4096_3_0_0)) shapeCasts_S1x128x4096_S128x4096) bitsLt_bf16_f32))
      (rowmaxOf (maskedLogits (k1_pay2 x2)
        (truncf .bf16 (shapeCast S256x128 (View.ld x0 (Rect.unit (s := S4x256x128) ![3, 0, 0] S1x256x128.size inb_S4x256x128_S1x256x128_3_0_0)) shapeCasts_S1x256x128_S256x128) bitsLt_bf16_f32)
        (truncf .bf16 (shapeCast S128x4096 (View.ld x1 (Rect.unit (s := S4x128x4096) ![3, 0, 0] S1x128x4096.size inb_S4x128x4096_S1x128x4096_3_0_0)) shapeCasts_S1x128x4096_S128x4096) bitsLt_bf16_f32)))
      (k1_pay3 x3) (ix2 p q)
      = krow (fun j => ∑ k : Fin 128, x0 (ix3 (3 : Fin 4) p k) * x1 (ix3 (3 : Fin 4) k j)) (fun j => x2 (ix2 p j)) x3 q := by
    refine (head_apply x2 x3 _ _ p q).trans ?_
    exact congrArg (fun s : Fin 4096 → EReal => krow s (fun j => x2 (ix2 p j)) x3 q)
      (funext fun j => Finset.sum_congr rfl fun k _ => congrArg₂ (· * ·) (ldQ3 x0 p k) (ldK3 x1 k j))
  have h2 : headCore (k1_pay2 x2) (k1_pay8 (View.ld x0 (Rect.unit (s := S4x256x128) ![2, 0, 0] S1x256x128.size inb_S4x256x128_S1x256x128_2_0_0)))
      (truncf .bf16 (k1_pay7 (View.ld x1 (Rect.unit (s := S4x128x4096) ![2, 0, 0] S1x128x4096.size inb_S4x128x4096_S1x128x4096_2_0_0))) bitsLt_bf16_f32) (k1_pay3 x3) (ix2 p q)
      = krow (fun j => ∑ k : Fin 128, x0 (ix3 (2 : Fin 4) p k) * x1 (ix3 (2 : Fin 4) k j)) (fun j => x2 (ix2 p j)) x3 q := by
    refine (head_apply x2 x3 _ _ p q).trans ?_
    exact congrArg (fun s : Fin 4096 → EReal => krow s (fun j => x2 (ix2 p j)) x3 q)
      (funext fun j => Finset.sum_congr rfl fun k _ => congrArg₂ (· * ·) (ldQ2 x0 p k) (ldK2 x1 k j))
  have h1 : headCore (k1_pay2 x2)
      (truncf .bf16 (shapeCast S256x128 (View.ld x0 (Rect.unit (s := S4x256x128) ![1, 0, 0] S1x256x128.size inb_S4x256x128_S1x256x128_1_0_0)) shapeCasts_S1x256x128_S256x128) bitsLt_bf16_f32)
      (truncf .bf16 (shapeCast S128x4096 (View.ld x1 (Rect.unit (s := S4x128x4096) ![1, 0, 0] S1x128x4096.size inb_S4x128x4096_S1x128x4096_1_0_0)) shapeCasts_S1x128x4096_S128x4096) bitsLt_bf16_f32) (k1_pay3 x3) (ix2 p q)
      = krow (fun j => ∑ k : Fin 128, x0 (ix3 (1 : Fin 4) p k) * x1 (ix3 (1 : Fin 4) k j)) (fun j => x2 (ix2 p j)) x3 q := by
    refine (head_apply x2 x3 _ _ p q).trans ?_
    exact congrArg (fun s : Fin 4096 → EReal => krow s (fun j => x2 (ix2 p j)) x3 q)
      (funext fun j => Finset.sum_congr rfl fun k _ => congrArg₂ (· * ·) (ldQ1 x0 p k) (ldK1 x1 k j))
  have h0 : headCore (k1_pay2 x2)
      (truncf .bf16 (shapeCast S256x128 (View.ld x0 (Rect.unit (s := S4x256x128) ![0, 0, 0] S1x256x128.size inb_S4x256x128_S1x256x128_0_0_0)) shapeCasts_S1x256x128_S256x128) bitsLt_bf16_f32)
      (truncf .bf16 (shapeCast S128x4096 (View.ld x1 (Rect.unit (s := S4x128x4096) ![0, 0, 0] S1x128x4096.size inb_S4x128x4096_S1x128x4096_0_0_0)) shapeCasts_S1x128x4096_S128x4096) bitsLt_bf16_f32) (k1_pay3 x3) (ix2 p q)
      = krow (fun j => ∑ k : Fin 128, x0 (ix3 (0 : Fin 4) p k) * x1 (ix3 (0 : Fin 4) k j)) (fun j => x2 (ix2 p j)) x3 q := by
    refine (head_apply x2 x3 _ _ p q).trans ?_
    exact congrArg (fun s : Fin 4096 → EReal => krow s (fun j => x2 (ix2 p j)) x3 q)
      (funext fun j => Finset.sum_congr rfl fun k _ => congrArg₂ (· * ·) (ldQ0 x0 p k) (ldK0 x1 k j))
  unfold attnAt attnOf
  rw [← h0, ← h1, ← h2, ← h3]
  rfl

/-- The rectifier of a tile is the rectifier of each row. -/
theorem relu_rows {N C : ℕ} (y : FVec Ideal (S2 N C) .f32) :
    maximumf y (broadcast (S2 N C) (Scalar.ofBits .f32 0x00000000#32)) = mapRows (C := C) relu y := by
  funext i
  obtain ⟨p, q, rfl⟩ : ∃ (p : Fin N) (q : Fin C), i = ix2 p q := ⟨i 0, i 1, eq_ix2 i⟩
  rfl

theorem plain_d1 : Cert.LibPlainDot.Plain dot_S256x256_S256x512_S256x512_1_0_0_1_n_n := ⟨rfl, rfl, rfl, rfl, rfl, rfl⟩
theorem plain_d2 : Cert.LibPlainDot.Plain dot_S256x512_S512x1024_S256x1024_1_0_0_1_n_n := ⟨rfl, rfl, rfl, rfl, rfl, rfl⟩

/-- The decoder block: the perceptron of every row of the tile. -/
theorem decBlock_eq (T : FVec Ideal S256x256 .f32) (w1 : FVec Ideal S256x512 .f32) (b1 : FVec Ideal S1x512 .f32)
    (w2 : FVec Ideal S512x1024 .f32) (b2 : FVec Ideal S1x1024 .f32) :
    k1_pay1 (F := Ideal) (k1_pay13 (F := Ideal) T w1 b1) (k1_pay14 (F := Ideal) w2) b2 = mapRows (mlp w1 b1 w2 b2) T := by
  show addf (matmul dot_S256x512_S512x1024_S256x1024_1_0_0_1_n_n none
      (maximumf (addf (matmul dot_S256x256_S256x512_S256x512_1_0_0_1_n_n none (shapeCast S256x256 T shapeCasts_S256x256_S256x256) w1
          (constant S256x512 .f32 0x00000000#32))
        (broadcastTo S256x512 (shapeCast S1x512 b1 shapeCasts_S1x512_S1x512) broadcasts_S1x512_S256x512))
        (broadcast S256x512 (Scalar.ofBits .f32 0x00000000#32)))
      w2 (constant S256x1024 .f32 0x00000000#32))
    (broadcastTo S256x1024 (shapeCast S1x1024 b2 shapeCasts_S1x1024_S1x1024) broadcasts_S1x1024_S256x1024) = _
  rw [body_lin dot_S256x256_S256x512_S256x512_1_0_0_1_n_n plain_d1 T w1, addBias_rows, relu_rows,
    matmul_rows dot_S256x512_S512x1024_S256x1024_1_0_0_1_n_n plain_d2, addBias_rows]
  rfl

end Cert.KernelIdeal.HandV

end
-- ==== Proof.R1Value.lean ====
import proofs.«114942_g22505628631095_cont_8to1_462_6_alg».proof.Proof.R1Block

/-!
# The second kernel's two output arrays

Each point writes back one block of 256 rows of each output; the sixteen blocks tile the arrays. The decoder's
block is the perceptron of the same rows of the encoder's result; the attention block's row `p` is the kernel's
attention row of the queries' row, the keys, the bias's row and the encoder's result.
-/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem
open Cert.Rows Cert.RefSpec Cert.KAttn
open scoped BigOperators

/-- The attention result as the kernel forms it, from the whole arrays. -/
def attnArr (Q : (S3 4 4096 128).Idx → EReal) (KT : (S3 4 128 4096).Idx → EReal) (B : (S2 4096 4096).Idx → EReal)
    (TF : (S2 4096 256).Idx → EReal) : (S2 4096 256).Idx → EReal :=
  fun i => attnAt Q KT B TF (i 0) (i 1)

/-- The printed index maps, decided over the grid. -/
theorem idx_facts1 : ∀ t : Fin cfg1.N,
    win1_9.index t (0 : Fin 2) ≤ 15
    ∧ win1_9.index t (1 : Fin 2) = 0
    ∧ win1_8.index t (0 : Fin 2) = win1_9.index t (0 : Fin 2)
    ∧ win1_8.index t (1 : Fin 2) = 0
    ∧ win1_0.index t (0 : Fin 3) = 0
    ∧ win1_0.index t (1 : Fin 3) = win1_9.index t (0 : Fin 2)
    ∧ win1_0.index t (2 : Fin 3) = 0
    ∧ win1_2.index t (0 : Fin 2) = win1_9.index t (0 : Fin 2)
    ∧ win1_2.index t (1 : Fin 2) = 0
    ∧ k1_off1 (grid1.coords t) (0 : Fin 2) = win1_9.index t (0 : Fin 2) * 256
    ∧ k1_off1 (grid1.coords t) (1 : Fin 2) = 0
    ∧ win1_1.index t (0 : Fin 3) = 0
    ∧ win1_1.index t (1 : Fin 3) = 0
    ∧ win1_1.index t (2 : Fin 3) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0 :=
  (by decide +kernel : ∀ t : Fin grid1.N, _)

/-- Every row block is some point's. -/
theorem idx_onto1_9 : ∀ q0 : Fin 16, ∃ t : Fin cfg1.N, win1_9.index t = ![q0.val, 0] :=
  (by decide +kernel : ∀ q0 : Fin 16, ∃ t : Fin grid1.N, win1_9.index t = ![q0.val, 0])
theorem idx_onto1_8 : ∀ q0 : Fin 16, ∃ t : Fin cfg1.N, win1_8.index t = ![q0.val, 0] :=
  (by decide +kernel : ∀ q0 : Fin 16, ∃ t : Fin grid1.N, win1_8.index t = ![q0.val, 0])

section
variable (V : (c : Dev nD) → (b : Ref sig .tc) → Buf (Elt Ideal) ((c : Thread nD τ).loc b))

/-- A window that does not move reads its whole array. -/
theorem iblk1_1 (c : Dev nD) (t : Fin cfg1.N) : (iblk1 V c 1 t : FVec Ideal S4x128x4096 .f32) = V c main_v2_2 := by
  obtain ⟨f9a, f9b, f8a, f8b, f0a, f0b, f0c, f2a, f2b, fka, fkb, f1a, f1b, f1c, f3a, f3b, f4a, f4b, f5a, f5b, f6a, f6b, f7a, f7b⟩ := idx_facts1 t
  funext j
  show V c main_v2_2 (((cfg1.win 1).blk t).view.emb j) = V c main_v2_2 j
  congr 1; funext a; apply Fin.ext
  match a with
  | ⟨0, _⟩ => show win1_1.index t (0 : Fin 3) * 4 + 1 * (j 0).val = (j 0).val; omega
  | ⟨1, _⟩ => show win1_1.index t (1 : Fin 3) * 128 + 1 * (j 1).val = (j 1).val; omega
  | ⟨2, _⟩ => show win1_1.index t (2 : Fin 3) * 4096 + 1 * (j 2).val = (j 2).val; omega
theorem iblk1_3 (c : Dev nD) (t : Fin cfg1.N) : (iblk1 V c 3 t : FVec Ideal S4096x256 .f32) = V c main_v2_0 := by
  obtain ⟨f9a, f9b, f8a, f8b, f0a, f0b, f0c, f2a, f2b, fka, fkb, f1a, f1b, f1c, f3a, f3b, f4a, f4b, f5a, f5b, f6a, f6b, f7a, f7b⟩ := idx_facts1 t
  funext j
  show V c main_v2_0 (((cfg1.win 3).blk t).view.emb j) = V c main_v2_0 j
  congr 1; funext a; apply Fin.ext
  match a with
  | ⟨0, _⟩ => show win1_3.index t (0 : Fin 2) * 4096 + 1 * (j 0).val = (j 0).val; omega
  | ⟨1, _⟩ => show win1_3.index t (1 : Fin 2) * 256 + 1 * (j 1).val = (j 1).val; omega
theorem iblk1_4 (c : Dev nD) (t : Fin cfg1.N) : (iblk1 V c 4 t : FVec Ideal S256x512 .f32) = V c main_arg8 := by
  obtain ⟨f9a, f9b, f8a, f8b, f0a, f0b, f0c, f2a, f2b, fka, fkb, f1a, f1b, f1c, f3a, f3b, f4a, f4b, f5a, f5b, f6a, f6b, f7a, f7b⟩ := idx_facts1 t
  funext j
  show V c main_arg8 (((cfg1.win 4).blk t).view.emb j) = V c main_arg8 j
  congr 1; funext a; apply Fin.ext
  match a with
  | ⟨0, _⟩ => show win1_4.index t (0 : Fin 2) * 256 + 1 * (j 0).val = (j 0).val; omega
  | ⟨1, _⟩ => show win1_4.index t (1 : Fin 2) * 512 + 1 * (j 1).val = (j 1).val; omega
theorem iblk1_5 (c : Dev nD) (t : Fin cfg1.N) : (iblk1 V c 5 t : FVec Ideal S1x512 .f32) = V c main_v3 := by
  obtain ⟨f9a, f9b, f8a, f8b, f0a, f0b, f0c, f2a, f2b, fka, fkb, f1a, f1b, f1c, f3a, f3b, f4a, f4b, f5a, f5b, f6a, f6b, f7a, f7b⟩ := idx_facts1 t
  funext j
  show V c main_v3 (((cfg1.win 5).blk t).view.emb j) = V c main_v3 j
  congr 1; funext a; apply Fin.ext
  match a with
  | ⟨0, _⟩ => show win1_5.index t (0 : Fin 2) * 1 + 1 * (j 0).val = (j 0).val; omega
  | ⟨1, _⟩ => show win1_5.index t (1 : Fin 2) * 512 + 1 * (j 1).val = (j 1).val; omega
theorem iblk1_6 (c : Dev nD) (t : Fin cfg1.N) : (iblk1 V c 6 t : FVec Ideal S512x1024 .f32) = V c main_arg10 := by
  obtain ⟨f9a, f9b, f8a, f8b, f0a, f0b, f0c, f2a, f2b, fka, fkb, f1a, f1b, f1c, f3a, f3b, f4a, f4b, f5a, f5b, f6a, f6b, f7a, f7b⟩ := idx_facts1 t
  funext j
  show V c main_arg10 (((cfg1.win 6).blk t).view.emb j) = V c main_arg10 j
  congr 1; funext a; apply Fin.ext
  match a with
  | ⟨0, _⟩ => show win1_6.index t (0 : Fin 2) * 512 + 1 * (j 0).val = (j 0).val; omega
  | ⟨1, _⟩ => show win1_6.index t (1 : Fin 2) * 1024 + 1 * (j 1).val = (j 1).val; omega
theorem iblk1_7 (c : Dev nD) (t : Fin cfg1.N) : (iblk1 V c 7 t : FVec Ideal S1x1024 .f32) = V c main_v4 := by
  obtain ⟨f9a, f9b, f8a, f8b, f0a, f0b, f0c, f2a, f2b, fka, fkb, f1a, f1b, f1c, f3a, f3b, f4a, f4b, f5a, f5b, f6a, f6b, f7a, f7b⟩ := idx_facts1 t
  funext j
  show V c main_v4 (((cfg1.win 7).blk t).view.emb j) = V c main_v4 j
  congr 1; funext a; apply Fin.ext
  match a with
  | ⟨0, _⟩ => show win1_7.index t (0 : Fin 2) * 1 + 1 * (j 0).val = (j 0).val; omega
  | ⟨1, _⟩ => show win1_7.index t (1 : Fin 2) * 1024 + 1 * (j 1).val = (j 1).val; omega

/-- What the body leaves in the decoder's buffer: the perceptron of the point's rows of the encoder's result. -/
theorem after1_9_eq (c : Dev nD) (t : Fin cfg1.N) :
    ((dat1 V c).after 9 t : FVec Ideal S256x1024 .f32)
      = mapRows (mlp (Ci := 256) (H := 512) (C := 1024) (V c main_arg8) (V c main_v3) (V c main_arg10) (V c main_v4))
          (View.ld (V c main_v2_0 : FVec Ideal S4096x256 .f32) (Rect.unit (s := S4096x256) (k1_off1 (grid1.coords t)) S256x256.size (k1_off1_inb (grid1.coords t)))) := by
  refine (after1_9 V c t).trans ?_
  refine (out1_9_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t)).trans ?_
  rw [iblk1_3 V c t, iblk1_4 V c t, iblk1_5 V c t, iblk1_6 V c t, iblk1_7 V c t]
  exact decBlock_eq _ _ _ _ _

/-- What a point writes back into the decoder's array is its block of rows of the perceptron of the whole encoder's result. -/
theorem flushed1_9_eq (c : Dev nD) (t : Fin cfg1.N) :
    (dat1 V c).flushed 9 t = ((cfg1.win 9).blk t).view.read (Elt Ideal)
      (Cert.KSpec.mlpRows (N := 4096) (Ci := 256) (H := 512) (C := 1024) (V c main_v2_0) (V c main_arg8) (V c main_v3) (V c main_arg10) (V c main_v4)) := by
  obtain ⟨f9a, f9b, f8a, f8b, f0a, f0b, f0c, f2a, f2b, fka, fkb, f1a, f1b, f1c, f3a, f3b, f4a, f4b, f5a, f5b, f6a, f6b, f7a, f7b⟩ := idx_facts1 t
  have hlt : ∀ p : Fin 256, win1_9.index t (0 : Fin 2) * 256 + p.val < 4096 := fun p => by have := p.isLt; omega
  show (cfg1.win 9).cut (grid1.coords t) ((dat1 V c).after 9 t) = _
  rw [after1_9_eq V c t]
  funext y
  obtain ⟨p, q, rfl⟩ : ∃ (p : Fin 256) (q : Fin 1024), y = ix2 p q := ⟨y 0, y 1, eq_ix2 y⟩
  show mapRows (mlp (Ci := 256) (H := 512) (C := 1024) (V c main_arg8) (V c main_v3) (V c main_arg10) (V c main_v4))
      (View.ld (V c main_v2_0 : FVec Ideal S4096x256 .f32) (Rect.unit (s := S4096x256) (k1_off1 (grid1.coords t)) S256x256.size (k1_off1_inb (grid1.coords t)))) (ix2 p q)
    = (Cert.KSpec.mlpRows (N := 4096) (Ci := 256) (H := 512) (C := 1024) (V c main_v2_0) (V c main_arg8) (V c main_v3) (V c main_arg10) (V c main_v4)) (((cfg1.win 9).blk t).view.emb (ix2 p q))
  have hemb : ((cfg1.win 9).blk t).view.emb (ix2 p q) = (ix2 ⟨win1_9.index t (0 : Fin 2) * 256 + p.val, hlt p⟩ q : (S2 4096 1024).Idx) := by
    funext a; apply Fin.ext
    match a with
    | ⟨0, _⟩ => show win1_9.index t (0 : Fin 2) * 256 + 1 * p.val = win1_9.index t (0 : Fin 2) * 256 + p.val; omega
    | ⟨1, _⟩ => show win1_9.index t (1 : Fin 2) * 1024 + 1 * q.val = q.val; omega
  rw [hemb]
  refine mapRows_tile _ (V c main_v2_0) _ (win1_9.index t (0 : Fin 2) * 256) hlt (fun p k => ?_) p q
  show V c main_v2_0 ((Rect.unit (s := S4096x256) (k1_off1 (grid1.coords t)) S256x256.size (k1_off1_inb (grid1.coords t))).idx (ix2 p k))
    = V c main_v2_0 (ix2 ⟨win1_9.index t (0 : Fin 2) * 256 + p.val, hlt p⟩ k)
  congr 1; funext a; apply Fin.ext
  match a with
  | ⟨0, _⟩ => show k1_off1 (grid1.coords t) (0 : Fin 2) + 1 * p.val = win1_9.index t (0 : Fin 2) * 256 + p.val; omega
  | ⟨1, _⟩ => show k1_off1 (grid1.coords t) (1 : Fin 2) + 1 * k.val = k.val; omega

theorem mem_blk1_9 (t : Fin cfg1.N) (i : S4096x1024.Idx) :
    i ∈ ((cfg1.win 9).blk t).view.set ↔ ∀ a : Fin 2, win1_9.index t a * S256x1024.size a ≤ (i a).val ∧ (i a).val < win1_9.index t a * S256x1024.size a + S256x1024.size a := by
  show i ∈ ((View.whole main_v5_1).slice (win1_9.rect t)).set ↔ _
  rw [View.set_slice_whole, Rect.mem_set_unit]
  exact Iff.rfl

theorem cover1_9' (i : S4096x1024.Idx) : ∃ t : Fin cfg1.N, (cfg1.win 9).flush t = true ∧ i ∈ ((cfg1.win 9).blk t).view.set := by
  have hi0 : (i 0).val < 4096 := (i 0).isLt
  have hi1 : (i 1).val < 1024 := (i 1).isLt
  obtain ⟨t, ht⟩ := idx_onto1_9 ⟨(i 0).val / 256, by omega⟩
  have q0 : win1_9.index t (0 : Fin 2) = (i 0).val / 256 := congrFun ht 0
  have q1 : win1_9.index t (1 : Fin 2) = 0 := congrFun ht 1
  refine ⟨t, flush1_9 t, ?_⟩
  rw [mem_blk1_9]
  intro a
  match a with
  | ⟨0, _⟩ => show win1_9.index t (0 : Fin 2) * 256 ≤ (i 0).val ∧ (i 0).val < win1_9.index t (0 : Fin 2) * 256 + 256; omega
  | ⟨1, _⟩ => show win1_9.index t (1 : Fin 2) * 1024 ≤ (i 1).val ∧ (i 1).val < win1_9.index t (1 : Fin 2) * 1024 + 1024; omega

/-- The decoder's output array after the region: the perceptron on every row of the encoder's result. -/
theorem final1_9 (c : Dev nD) :
    (dat1 (F := Ideal) V c).arrAt 9 cfg1.N
      = Cert.KSpec.mlpRows (V c main_v2_0) (V c main_arg8) (V c main_v3) (V c main_arg10) (V c main_v4) :=
  (dat1 V c).arrAt_eq_of_cover 9 _ (fun t _ => flushed1_9_eq V c t) cover1_9'

/-- What a point writes back into the attention array is its block of rows of the kernel's attention result. -/
theorem flushed1_8_eq (c : Dev nD) (t : Fin cfg1.N) :
    (dat1 V c).flushed 8 t = ((cfg1.win 8).blk t).view.read (Elt Ideal)
      (attnArr (V c main_v2_1) (V c main_v2_2) (V c main_arg0) (V c main_v2_0)) := by
  obtain ⟨f9a, f9b, f8a, f8b, f0a, f0b, f0c, f2a, f2b, fka, fkb, f1a, f1b, f1c, f3a, f3b, f4a, f4b, f5a, f5b, f6a, f6b, f7a, f7b⟩ := idx_facts1 t
  have hlt : ∀ p : Fin 256, win1_9.index t (0 : Fin 2) * 256 + p.val < 4096 := fun p => by have := p.isLt; omega
  show (cfg1.win 8).cut (grid1.coords t) ((dat1 V c).after 8 t) = _
  rw [after1_8 V c t, out1_8_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t)]
  funext y
  obtain ⟨p, q, rfl⟩ : ∃ (p : Fin 256) (q : Fin 256), y = ix2 p q := ⟨y 0, y 1, eq_ix2 y⟩
  refine (attnBlock_apply (iblk1 V c 0 t) (iblk1 V c 1 t) (iblk1 V c 2 t) (iblk1 V c 3 t) p q).trans ?_
  rw [iblk1_1 V c t, iblk1_3 V c t]
  show attnAt (iblk1 V c 0 t : FVec Ideal S4x256x128 .f32) (V c main_v2_2) (iblk1 V c 2 t : FVec Ideal S256x4096 .f32) (V c main_v2_0) p q
    = attnArr (V c main_v2_1) (V c main_v2_2) (V c main_arg0) (V c main_v2_0) (((cfg1.win 8).blk t).view.emb (ix2 p q))
  have hemb : ((cfg1.win 8).blk t).view.emb (ix2 p q) = (ix2 ⟨win1_9.index t (0 : Fin 2) * 256 + p.val, hlt p⟩ q : (S2 4096 256).Idx) := by
    funext a; apply Fin.ext
    match a with
    | ⟨0, _⟩ => show win1_8.index t (0 : Fin 2) * 256 + 1 * p.val = win1_9.index t (0 : Fin 2) * 256 + p.val; omega
    | ⟨1, _⟩ => show win1_8.index t (1 : Fin 2) * 256 + 1 * q.val = q.val; omega
  rw [hemb]
  unfold attnArr attnAt
  have hq : (fun (h : Fin 4) (k : Fin 128) => (iblk1 V c 0 t : FVec Ideal S4x256x128 .f32) (ix3 h p k))
      = fun (h : Fin 4) (k : Fin 128) => V c main_v2_1 (ix3 h ⟨win1_9.index t (0 : Fin 2) * 256 + p.val, hlt p⟩ k) := by
    funext h k
    show V c main_v2_1 (((cfg1.win 0).blk t).view.emb (ix3 h p k)) = _
    congr 1; funext a; apply Fin.ext
    match a with
    | ⟨0, _⟩ => show win1_0.index t (0 : Fin 3) * 4 + 1 * h.val = h.val; omega
    | ⟨1, _⟩ => show win1_0.index t (1 : Fin 3) * 256 + 1 * p.val = win1_9.index t (0 : Fin 2) * 256 + p.val; omega
    | ⟨2, _⟩ => show win1_0.index t (2 : Fin 3) * 128 + 1 * k.val = k.val; omega
  have hb : (fun j : Fin 4096 => (iblk1 V c 2 t : FVec Ideal S256x4096 .f32) (ix2 p j))
      = fun j : Fin 4096 => V c main_arg0 (ix2 ⟨win1_9.index t (0 : Fin 2) * 256 + p.val, hlt p⟩ j) := by
    funext j
    show V c main_arg0 (((cfg1.win 2).blk t).view.emb (ix2 p j)) = _
    congr 1; funext a; apply Fin.ext
    match a with
    | ⟨0, _⟩ => show win1_2.index t (0 : Fin 2) * 256 + 1 * p.val = win1_9.index t (0 : Fin 2) * 256 + p.val; omega
    | ⟨1, _⟩ => show win1_2.index t (1 : Fin 2) * 4096 + 1 * j.val = j.val; omega
  rw [hq, hb]

theorem mem_blk1_8 (t : Fin cfg1.N) (i : S4096x256.Idx) :
    i ∈ ((cfg1.win 8).blk t).view.set ↔ ∀ a : Fin 2, win1_8.index t a * S256x256.size a ≤ (i a).val ∧ (i a).val < win1_8.index t a * S256x256.size a + S256x256.size a := by
  show i ∈ ((View.whole main_v5_0).slice (win1_8.rect t)).set ↔ _
  rw [View.set_slice_whole, Rect.mem_set_unit]
  exact Iff.rfl

theorem cover1_8' (i : S4096x256.Idx) : ∃ t : Fin cfg1.N, (cfg1.win 8).flush t = true ∧ i ∈ ((cfg1.win 8).blk t).view.set := by
  have hi0 : (i 0).val < 4096 := (i 0).isLt
  have hi1 : (i 1).val < 256 := (i 1).isLt
  obtain ⟨t, ht⟩ := idx_onto1_8 ⟨(i 0).val / 256, by omega⟩
  have q0 : win1_8.index t (0 : Fin 2) = (i 0).val / 256 := congrFun ht 0
  have q1 : win1_8.index t (1 : Fin 2) = 0 := congrFun ht 1
  refine ⟨t, flush1_8 t, ?_⟩
  rw [mem_blk1_8]
  intro a
  match a with
  | ⟨0, _⟩ => show win1_8.index t (0 : Fin 2) * 256 ≤ (i 0).val ∧ (i 0).val < win1_8.index t (0 : Fin 2) * 256 + 256; omega
  | ⟨1, _⟩ => show win1_8.index t (1 : Fin 2) * 256 ≤ (i 1).val ∧ (i 1).val < win1_8.index t (1 : Fin 2) * 256 + 256; omega

/-- The attention output array after the region. -/
theorem final1_8 (c : Dev nD) :
    (dat1 (F := Ideal) V c).arrAt 8 cfg1.N = attnArr (V c main_v2_1) (V c main_v2_2) (V c main_arg0) (V c main_v2_0) :=
  (dat1 V c).arrAt_eq_of_cover 8 _ (fun t _ => flushed1_8_eq V c t) cover1_8'

end

end Cert.KernelIdeal.HandV

end
-- ==== Proof.R0ValuePieces.lean ====
import proofs.«114942_g22505628631095_cont_8to1_462_6_alg».proof.Proof.R0Frame
import Idealize.ShloMosaic.Lib.Pipeline.Value
import Idealize.ShloMosaic.Lib.ValueIdx
import Idealize.ShloMosaic.Lib.Tactic

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat Cfg Window)
open Idealize.ShloMosaic.ValueIdx

/-! # What the first kernel's body leaves in its output buffers, as payloads of its loads

Each output buffer after the body is the overlay of the rectangles the body stored. The encoder's buffer is one
store of the whole block. Each projection buffer is four stores, one slab per attention head, and the value of a
head's slab only reads that head's slabs of the two weight arrays: so the buffer is ONE function of its index,
"the slab computation of head `y 0`, at `(y 1, y 2)`". -/

variable {F : FTy → Type} [FloatOps F]

theorem hz2 : (![0, 0] : Fin 2 → Nat) = fun _ => 0 := funext fun a => by fin_cases a <;> rfl

/-- Head `h`'s slab of a `[4, a, b]` array, as a `[1, a, b]` block. -/
def slab {Val : EltTy → Type} {e : EltTy} {a b : ℕ} (x : (⟨3, ![4, a, b]⟩ : Shape).Idx → Val e) (h : Fin 4) :
    (⟨3, ![1, a, b]⟩ : Shape).Idx → Val e := fun j => x (ix3 h (j 1) (j 2))

/-- A load of the unit-stride rectangle `[h, 0, 0] + [1, a, b]` reads head `h`'s slab. -/
theorem ld_slab {Val : EltTy → Type} {e : EltTy} {a b : ℕ} (x : (⟨3, ![4, a, b]⟩ : Shape).Idx → Val e) (h : Fin 4)
    (off : Fin 3 → ℕ) (h0 : off 0 = h.val) (h1 : off 1 = 0) (h2 : off 2 = 0)
    (inb : ∀ d, off d + (![1, a, b] : Fin 3 → ℕ) d ≤ (⟨3, ![4, a, b]⟩ : Shape).size d) :
    View.ld x (Rect.unit off ![1, a, b] inb) = slab x h := by
  funext j
  show x ((Rect.unit off ![1, a, b] inb).emb j) = x (ix3 h (j 1) (j 2))
  congr 1
  funext d
  apply Fin.ext
  have hj0 : (j 0).val < 1 := (j 0).isLt
  match d with
  | ⟨0, _⟩ => show off 0 + 1 * (j 0).val = h.val; omega
  | ⟨1, _⟩ => show off 1 + 1 * (j 1).val = (j 1).val; omega
  | ⟨2, _⟩ => show off 2 + 1 * (j 2).val = (j 2).val; omega

/-! ## The encoder's block -/

theorem outB_9_eq (c : Dev nD) (i : grid0.Coords) (arg1 : Memref sig .tc .vmem S1024x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S4x64x128 .f32) (harg8 : arg8.IsWhole) (arg9 : Memref sig .tc .vmem S4x128x128 .f32) (harg9 : arg9.IsWhole) (arg10 : Memref sig .tc .vmem S1024x256 .f32) (harg10 : arg10.IsWhole) (arg11 : Memref sig .tc .vmem S4x4096x128 .f32) (harg11 : arg11.IsWhole) (arg12 : Memref sig .tc .vmem S4x128x4096 .f32) (harg12 : arg12.IsWhole) (hc : ¬ k0_cond1 i = 1#1) (x0 : Vec F S1024x1024 .f32) (x1 : Vec F S1024x512 .f32) (x2 : Vec F S1x512 .f32) (x3 : Vec F S512x256 .f32) (x4 : Vec F S1x256 .f32) (x5 : Vec F S4096x64 .f32) (x6 : Vec F S4096x64 .f32) (x7 : Vec F S4x64x128 .f32) (x8 : Vec F S4x128x128 .f32) (xo10 : Vec F S4x4096x128 .f32) (xo11 : Vec F S4x128x4096 .f32) :
    outB_9 c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 xo10 xo11 = k0_pay2 x0 x1 x2 x3 x4 := by
  unfold outB_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 xo10 xo11)]
  unfold bodyRun0_B
  dsimp only
  rw [View.canon_unit_zero hz2]
  simp only [View.readAt_eq_ld, harg1.read_unread, harg2.read_unread, harg3.read_unread, harg4.read_unread, harg5.read_unread,
    View.ld_unit_zero (S := S1024x1024) hz2, View.ld_unit_zero (S := S1024x512) hz2, View.ld_unit_zero (S := S1x512) hz2,
    View.ld_unit_zero (S := S512x256) hz2, View.ld_unit_zero (S := S1x256) hz2]

theorem outA_9_eq (c : Dev nD) (i : grid0.Coords) (arg1 : Memref sig .tc .vmem S1024x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S4x64x128 .f32) (harg8 : arg8.IsWhole) (arg9 : Memref sig .tc .vmem S4x128x128 .f32) (harg9 : arg9.IsWhole) (arg10 : Memref sig .tc .vmem S1024x256 .f32) (harg10 : arg10.IsWhole) (arg11 : Memref sig .tc .vmem S4x4096x128 .f32) (harg11 : arg11.IsWhole) (arg12 : Memref sig .tc .vmem S4x128x4096 .f32) (harg12 : arg12.IsWhole) (hc : k0_cond1 i = 1#1) (x0 : Vec F S1024x1024 .f32) (x1 : Vec F S1024x512 .f32) (x2 : Vec F S1x512 .f32) (x3 : Vec F S512x256 .f32) (x4 : Vec F S1x256 .f32) (x5 : Vec F S4096x64 .f32) (x6 : Vec F S4096x64 .f32) (x7 : Vec F S4x64x128 .f32) (x8 : Vec F S4x128x128 .f32) :
    outA_9 c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 = k0_pay2 x0 x1 x2 x3 x4 := by
  unfold outA_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8)]
  unfold bodyRun0_A
  dsimp only
  rw [View.canon_unit_zero hz2]
  simp only [View.readAt_eq_ld, harg1.read_unread, harg2.read_unread, harg3.read_unread, harg4.read_unread, harg5.read_unread,
    View.ld_unit_zero (S := S1024x1024) hz2, View.ld_unit_zero (S := S1024x512) hz2, View.ld_unit_zero (S := S1x512) hz2,
    View.ld_unit_zero (S := S512x256) hz2, View.ld_unit_zero (S := S1x256) hz2]

end Cert.KernelIdeal.HandV

end
-- ==== Proof.R0ValueEnc.lean ====
import proofs.«114942_g22505628631095_cont_8to1_462_6_alg».proof.Proof.R0ValuePieces
import proofs.«114942_g22505628631095_cont_8to1_462_6_alg».proof.Proof.KSpec

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat Cfg Window)
open Idealize.ShloMosaic.ValueIdx Cert.Rows Cert.RefSpec
open scoped BigOperators

/-! # The encoder's output array

At the extended reals the encoder block the body stores is the two-layer perceptron applied to every row of the
feature block; a block of rows of the perceptron of the whole array is the perceptron of that block of rows; the four
blocks tile the array. -/

/-- The larger of every entry and zero, on a tile of rows. -/
theorem relu_rows {N C : ℕ} (y : FVec Ideal (S2 N C) .f32) :
    maximumf y (broadcast (S2 N C) (Scalar.ofBits .f32 0x00000000#32)) = mapRows (C := C) relu y := by
  funext i
  obtain ⟨p, q, rfl⟩ : ∃ (p : Fin N) (q : Fin C), i = ix2 p q := ⟨i 0, i 1, eq_ix2 i⟩
  rfl

theorem plain_D1 : Cert.LibPlainDot.Plain dot_S1024x1024_S1024x512_S1024x512_1_0_0_1_n_n := ⟨rfl, rfl, rfl, rfl, rfl, rfl⟩
theorem plain_D2 : Cert.LibPlainDot.Plain dot_S1024x512_S512x256_S1024x256_1_0_0_1_n_n := ⟨rfl, rfl, rfl, rfl, rfl, rfl⟩

/-- The encoder block's payload is the perceptron on every row of the loaded feature block. -/
theorem pay2_ideal (x0 : FVec Ideal S1024x1024 .f32) (x1 : FVec Ideal S1024x512 .f32) (x2 : FVec Ideal S1x512 .f32)
    (x3 : FVec Ideal S512x256 .f32) (x4 : FVec Ideal S1x256 .f32) :
    k0_pay2 (F := Ideal) x0 x1 x2 x3 x4 = mapRows (mlp x1 x2 x3 x4) x0 := by
  show addf (matmul dot_S1024x512_S512x256_S1024x256_1_0_0_1_n_n none
      (maximumf (addf (matmul dot_S1024x1024_S1024x512_S1024x512_1_0_0_1_n_n none x0 x1 (constant S1024x512 .f32 0x00000000#32))
        (broadcastTo S1024x512 (shapeCast S1x512 x2 shapeCasts_S1x512_S1x512) broadcasts_S1x512_S1024x512))
        (broadcast S1024x512 (Scalar.ofBits .f32 0x00000000#32)))
      x3 (constant S1024x256 .f32 0x00000000#32))
      (broadcastTo S1024x256 (shapeCast S1x256 x4 shapeCasts_S1x256_S1x256) broadcasts_S1x256_S1024x256) = _
  rw [matmul_rows dot_S1024x1024_S1024x512_S1024x512_1_0_0_1_n_n plain_D1 x0 x1, addBias_rows, relu_rows, matmul_rows dot_S1024x512_S512x256_S1024x256_1_0_0_1_n_n plain_D2, addBias_rows]
  rfl

section
variable (V : (c : Dev nD) → (b : Ref sig .tc) → Buf (Elt Ideal) ((c : Thread nD τ).loc b))

/-- The printed index maps, decided over the grid: the feature window moves with the output window along the
    rows, neither moves along the columns, and the weight and bias windows do not move. -/
theorem idx_facts9 : ∀ t : Fin cfg0.N,
    win0_0.index t (0 : Fin 2) = win0_9.index t (0 : Fin 2) ∧ win0_0.index t (1 : Fin 2) = 0
    ∧ win0_9.index t (1 : Fin 2) = 0 ∧ win0_9.index t (0 : Fin 2) ≤ 3
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every row block is some point's. -/
theorem idx_onto9 : ∀ q0 : Fin 4, ∃ t : Fin cfg0.N, win0_9.index t = ![q0.val, 0] :=
  (by decide +kernel : ∀ q0 : Fin 4, ∃ t : Fin grid0.N, win0_9.index t = ![q0.val, 0])

/-- A window that does not move reads its whole array. -/
theorem iblk0_1 (c : Dev nD) (t : Fin cfg0.N) : (iblk0 V c 1 t : FVec Ideal S1024x512 .f32) = V c main_arg4 := by
  obtain ⟨-, -, -, -, e0, e1, -⟩ := idx_facts9 t
  funext j
  show V c main_arg4 (((cfg0.win 1).blk t).view.emb j) = V c main_arg4 j
  congr 1; funext a; apply Fin.ext
  match a with
  | ⟨0, _⟩ => show win0_1.index t (0 : Fin 2) * 1024 + 1 * (j 0).val = (j 0).val; omega
  | ⟨1, _⟩ => show win0_1.index t (1 : Fin 2) * 512 + 1 * (j 1).val = (j 1).val; omega
theorem iblk0_2 (c : Dev nD) (t : Fin cfg0.N) : (iblk0 V c 2 t : FVec Ideal S1x512 .f32) = V c main_v0 := by
  obtain ⟨-, -, -, -, -, -, e0, e1, -⟩ := idx_facts9 t
  funext j
  show V c main_v0 (((cfg0.win 2).blk t).view.emb j) = V c main_v0 j
  congr 1; funext a; apply Fin.ext
  match a with
  | ⟨0, _⟩ => show win0_2.index t (0 : Fin 2) * 1 + 1 * (j 0).val = (j 0).val; omega
  | ⟨1, _⟩ => show win0_2.index t (1 : Fin 2) * 512 + 1 * (j 1).val = (j 1).val; omega
theorem iblk0_3 (c : Dev nD) (t : Fin cfg0.N) : (iblk0 V c 3 t : FVec Ideal S512x256 .f32) = V c main_arg6 := by
  obtain ⟨-, -, -, -, -, -, -, -, e0, e1, -⟩ := idx_facts9 t
  funext j
  show V c main_arg6 (((cfg0.win 3).blk t).view.emb j) = V c main_arg6 j
  congr 1; funext a; apply Fin.ext
  match a with
  | ⟨0, _⟩ => show win0_3.index t (0 : Fin 2) * 512 + 1 * (j 0).val = (j 0).val; omega
  | ⟨1, _⟩ => show win0_3.index t (1 : Fin 2) * 256 + 1 * (j 1).val = (j 1).val; omega
theorem iblk0_4 (c : Dev nD) (t : Fin cfg0.N) : (iblk0 V c 4 t : FVec Ideal S1x256 .f32) = V c main_v1 := by
  obtain ⟨-, -, -, -, -, -, -, -, -, -, e0, e1⟩ := idx_facts9 t
  funext j
  show V c main_v1 (((cfg0.win 4).blk t).view.emb j) = V c main_v1 j
  congr 1; funext a; apply Fin.ext
  match a with
  | ⟨0, _⟩ => show win0_4.index t (0 : Fin 2) * 1 + 1 * (j 0).val = (j 0).val; omega
  | ⟨1, _⟩ => show win0_4.index t (1 : Fin 2) * 256 + 1 * (j 1).val = (j 1).val; omega

/-- What the body leaves in the encoder's buffer at any point: the perceptron of the point's feature rows. -/
theorem after9_eq (c : Dev nD) (t : Fin cfg0.N) :
    ((dat0 V c).after 9 t : FVec Ideal S1024x256 .f32)
      = mapRows (mlp (Ci := 1024) (H := 512) (C := 256) (V c main_arg4) (V c main_v0) (V c main_arg6) (V c main_v1))
          (iblk0 V c 0 t : FVec Ideal S1024x1024 .f32) := by
  have hp : k0_pay2 (F := Ideal) (iblk0 V c 0 t) (iblk0 V c 1 t) (iblk0 V c 2 t) (iblk0 V c 3 t) (iblk0 V c 4 t)
      = mapRows (mlp (Ci := 1024) (H := 512) (C := 256) (V c main_arg4) (V c main_v0) (V c main_arg6) (V c main_v1))
          (iblk0 V c 0 t : FVec Ideal S1024x1024 .f32) :=
    (pay2_ideal (iblk0 V c 0 t) (iblk0 V c 1 t) (iblk0 V c 2 t) (iblk0 V c 3 t) (iblk0 V c 4 t)).trans
      (by rw [iblk0_1 V c t, iblk0_2 V c t, iblk0_3 V c t, iblk0_4 V c t])
  by_cases h : t.val % 4 = 0
  · refine (after0_9_A V c t h).trans ?_
    refine (outA_9_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0 t).mpr h) (iblk0 V c 0 t) (iblk0 V c 1 t) (iblk0 V c 2 t) (iblk0 V c 3 t) (iblk0 V c 4 t) (iblk0 V c 5 t) (iblk0 V c 6 t) (iblk0 V c 7 t) (iblk0 V c 8 t)).trans ?_
    exact hp
  · refine (after0_9_B V c t h).trans ?_
    refine (outB_9_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun hc => h ((hcond0 t).mp hc)) (iblk0 V c 0 t) (iblk0 V c 1 t) (iblk0 V c 2 t) (iblk0 V c 3 t) (iblk0 V c 4 t) (iblk0 V c 5 t) (iblk0 V c 6 t) (iblk0 V c 7 t) (iblk0 V c 8 t) (Q10 V c) (Q11 V c)).trans ?_
    exact hp

/-- What a point writes back is its block of rows of the perceptron of the whole feature array. -/
theorem flushed9_eq (c : Dev nD) (t : Fin cfg0.N) :
    (dat0 V c).flushed 9 t = ((cfg0.win 9).blk t).view.read (Elt Ideal) (Cert.KSpec.mlpRows (N := 4096) (Ci := 1024) (H := 512) (C := 256) (V c main_arg3) (V c main_arg4) (V c main_v0) (V c main_arg6) (V c main_v1)) := by
  obtain ⟨e0, e1, e2, e3, -⟩ := idx_facts9 t
  have hlt : ∀ p : Fin 1024, win0_9.index t (0 : Fin 2) * 1024 + p.val < 4096 := fun p => by have := p.isLt; omega
  show (cfg0.win 9).cut (grid0.coords t) ((dat0 V c).after 9 t) = _
  rw [after9_eq V c t]
  funext y
  obtain ⟨p, q, rfl⟩ : ∃ (p : Fin 1024) (q : Fin 256), y = ix2 p q := ⟨y 0, y 1, eq_ix2 y⟩
  show mapRows (mlp (Ci := 1024) (H := 512) (C := 256) (V c main_arg4) (V c main_v0) (V c main_arg6) (V c main_v1))
      (iblk0 V c 0 t : FVec Ideal S1024x1024 .f32) (ix2 p q)
    = (Cert.KSpec.mlpRows (N := 4096) (Ci := 1024) (H := 512) (C := 256) (V c main_arg3) (V c main_arg4) (V c main_v0) (V c main_arg6) (V c main_v1)) (((cfg0.win 9).blk t).view.emb (ix2 p q))
  have hemb : ((cfg0.win 9).blk t).view.emb (ix2 p q) = (ix2 ⟨win0_9.index t (0 : Fin 2) * 1024 + p.val, hlt p⟩ q : (S2 4096 256).Idx) := by
    funext a; apply Fin.ext
    match a with
    | ⟨0, _⟩ => show win0_9.index t (0 : Fin 2) * 1024 + 1 * p.val = win0_9.index t (0 : Fin 2) * 1024 + p.val; omega
    | ⟨1, _⟩ => show win0_9.index t (1 : Fin 2) * 256 + 1 * q.val = q.val; omega
  rw [hemb]
  refine mapRows_tile _ (V c main_arg3) (iblk0 V c 0 t : FVec Ideal S1024x1024 .f32) (win0_9.index t (0 : Fin 2) * 1024) hlt (fun p k => ?_) p q
  show V c main_arg3 (((cfg0.win 0).blk t).view.emb (ix2 p k)) = V c main_arg3 (ix2 ⟨win0_9.index t (0 : Fin 2) * 1024 + p.val, hlt p⟩ k)
  congr 1; funext a; apply Fin.ext
  match a with
  | ⟨0, _⟩ => show win0_0.index t (0 : Fin 2) * 1024 + 1 * p.val = win0_9.index t (0 : Fin 2) * 1024 + p.val; omega
  | ⟨1, _⟩ => show win0_0.index t (1 : Fin 2) * 1024 + 1 * k.val = k.val; omega

/-- An index of the array is in a point's block iff each coordinate is in the block's range on its axis. -/
theorem mem_blk9 (t : Fin cfg0.N) (i : S4096x256.Idx) :
    i ∈ ((cfg0.win 9).blk t).view.set ↔ ∀ a : Fin 2, win0_9.index t a * S1024x256.size a ≤ (i a).val ∧ (i a).val < win0_9.index t a * S1024x256.size a + S1024x256.size a := by
  show i ∈ ((View.whole main_v2_0).slice (win0_9.rect t)).set ↔ _
  rw [View.set_slice_whole, Rect.mem_set_unit]
  exact Iff.rfl

/-- The four row blocks tile the array: row `r` is in the block of point `r / 1024`. -/
theorem cover9 (i : S4096x256.Idx) : ∃ t : Fin cfg0.N, (cfg0.win 9).flush t = true ∧ i ∈ ((cfg0.win 9).blk t).view.set := by
  have hi0 : (i 0).val < 4096 := (i 0).isLt
  have hi1 : (i 1).val < 256 := (i 1).isLt
  obtain ⟨t, ht⟩ := idx_onto9 ⟨(i 0).val / 1024, by omega⟩
  have q0 : win0_9.index t (0 : Fin 2) = (i 0).val / 1024 := congrFun ht 0
  have q1 : win0_9.index t (1 : Fin 2) = 0 := congrFun ht 1
  refine ⟨t, flush0_9 t, ?_⟩
  rw [mem_blk9]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 256 ≤ (i 1).val ∧ (i 1).val < win0_9.index t (1 : Fin 2) * 256 + 256; omega

/-- The encoder's output array after the region: the perceptron on every row of the feature array. -/
theorem final0_9 (c : Dev nD) :
    (dat0 (F := Ideal) V c).arrAt 9 cfg0.N
      = Cert.KSpec.mlpRows (V c main_arg3) (V c main_arg4) (V c main_v0) (V c main_arg6) (V c main_v1) :=
  (dat0 V c).arrAt_eq_of_cover 9 _ (fun t _ => flushed9_eq V c t) cover9
end

end Cert.KernelIdeal.HandV

end
-- ==== Proof.R0ValueSlabs.lean ====
import proofs.«114942_g22505628631095_cont_8to1_462_6_alg».proof.Proof.R0ValuePieces

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat Cfg Window)
open Idealize.ShloMosaic.ValueIdx

/-! # The two projection buffers as one function of the index

Each is four stores, one `[1, ·, ·]` slab per attention head; the four heads run the same arithmetic on
the head's slabs of the weight arrays. -/

variable {F : FTy → Type} [FloatOps F]

/-- The four query slabs run the same arithmetic. -/
theorem pay6_5 (x : Vec F S4096x64 .f32) (w : Vec F S1x64x128 .f32) (w2 : Vec F S1x128x128 .f32) :
    k0_pay6 (k0_pay5 x w) w2 = k0_pay3 x w w2 := rfl
theorem pay9_8 (x : Vec F S4096x64 .f32) (w : Vec F S1x64x128 .f32) (w2 : Vec F S1x128x128 .f32) :
    k0_pay9 (k0_pay8 x w w2) = k0_pay3 x w w2 := rfl
theorem pay11 (x : Vec F S4096x64 .f32) (w : Vec F S1x64x128 .f32) (w2 : Vec F S1x128x128 .f32) :
    k0_pay11 x w w2 = k0_pay3 x w w2 := rfl
/-- The four key slabs run the same arithmetic. -/
theorem pay7 (w : Vec F S1x64x128 .f32) (x : Vec F S4096x64 .f32) : k0_pay7 w x = k0_pay4 w x := rfl
theorem pay10 (w : Vec F S1x64x128 .f32) (x : Vec F S4096x64 .f32) : k0_pay10 w x = k0_pay4 w x := rfl
theorem pay1_12_13 (w : Vec F S1x64x128 .f32) (x : Vec F S4096x64 .f32) :
    k0_pay1 (k0_pay12 w) (k0_pay13 x) (constant S128x4096 .f32 0x00000000#32) = k0_pay4 w x := rfl

/-- The query buffer: at `(h, i, k)`, head `h`'s slab computation at `(i, k)`. -/
def G10 (x5 : Vec F S4096x64 .f32) (x7 : Vec F S4x64x128 .f32) (x8 : Vec F S4x128x128 .f32) : Vec F S4x4096x128 .f32 :=
  fun y => k0_pay3 x5 (slab x7 (y 0)) (slab x8 (y 0)) (ix3 (0 : Fin 1) (y 1) (y 2))

/-- The key buffer: at `(h, k, j)`, head `h`'s slab computation at `(k, j)`. -/
def G11 (x6 : Vec F S4096x64 .f32) (x7 : Vec F S4x64x128 .f32) : Vec F S4x128x4096 .f32 :=
  fun y => k0_pay4 (slab x7 (y 0)) x6 (ix3 (0 : Fin 1) (y 1) (y 2))

/-- Head `h`'s slab of a `[4, a, b]`-indexed function whose value at `(h, p, q)` is `P h` at `(0, p, q)`. -/
theorem slab_emb {α : Type} {a b : ℕ} (P : Fin 4 → (⟨3, ![1, a, b]⟩ : Shape).Idx → α) (h : Fin 4)
    (off : Fin 3 → ℕ) (h0 : off 0 = h.val) (h1 : off 1 = 0) (h2 : off 2 = 0)
    (inb : ∀ d, off d + (![1, a, b] : Fin 3 → ℕ) d ≤ (⟨3, ![4, a, b]⟩ : Shape).size d)
    (x : (Rect.unit (s := (⟨3, ![4, a, b]⟩ : Shape)) off ![1, a, b] inb).shape.Idx) :
    P h x = (fun y : (⟨3, ![4, a, b]⟩ : Shape).Idx => P (y 0) (ix3 (0 : Fin 1) (y 1) (y 2)))
      ((Rect.unit (s := (⟨3, ![4, a, b]⟩ : Shape)) off ![1, a, b] inb).emb x) := by
  have hx0 : (x 0).val < 1 := (x 0).isLt
  have e0 : ((Rect.unit (s := (⟨3, ![4, a, b]⟩ : Shape)) off ![1, a, b] inb).emb x) 0 = h :=
    Fin.ext (by show off 0 + 1 * (x 0).val = h.val; omega)
  have ex : ix3 (0 : Fin 1) (((Rect.unit (s := (⟨3, ![4, a, b]⟩ : Shape)) off ![1, a, b] inb).emb x) 1)
      (((Rect.unit (s := (⟨3, ![4, a, b]⟩ : Shape)) off ![1, a, b] inb).emb x) 2) = x := by
    funext d
    apply Fin.ext
    match d with
    | ⟨0, _⟩ => show 0 = (x 0).val; omega
    | ⟨1, _⟩ => show off 1 + 1 * (x 1).val = (x 1).val; omega
    | ⟨2, _⟩ => show off 2 + 1 * (x 2).val = (x 2).val; omega
  exact congrArg₂ P e0.symm ex.symm

theorem outA_10_eq (c : Dev nD) (i : grid0.Coords) (arg1 : Memref sig .tc .vmem S1024x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S4x64x128 .f32) (harg8 : arg8.IsWhole) (arg9 : Memref sig .tc .vmem S4x128x128 .f32) (harg9 : arg9.IsWhole) (arg10 : Memref sig .tc .vmem S1024x256 .f32) (harg10 : arg10.IsWhole) (arg11 : Memref sig .tc .vmem S4x4096x128 .f32) (harg11 : arg11.IsWhole) (arg12 : Memref sig .tc .vmem S4x128x4096 .f32) (harg12 : arg12.IsWhole) (hc : k0_cond1 i = 1#1) (x0 : Vec F S1024x1024 .f32) (x1 : Vec F S1024x512 .f32) (x2 : Vec F S1x512 .f32) (x3 : Vec F S512x256 .f32) (x4 : Vec F S1x256 .f32) (x5 : Vec F S4096x64 .f32) (x6 : Vec F S4096x64 .f32) (x7 : Vec F S4x64x128 .f32) (x8 : Vec F S4x128x128 .f32) :
    outA_10 c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 = G10 x5 x7 x8 := by
  funext y
  unfold outA_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8)]
  unfold bodyRun0_A
  dsimp only
  sl_unfold_words
  simp only [View.readAt_eq_ld, harg6.read_unread, harg8.read_unread, harg9.read_unread,
    View.ld_unit_zero (S := S4096x64) hz2,
    ld_slab x7 0 ![0, 0, 0] rfl rfl rfl inb_S4x64x128_S1x64x128_0_0_0, ld_slab x7 1 ![1, 0, 0] rfl rfl rfl inb_S4x64x128_S1x64x128_1_0_0,
    ld_slab x7 2 ![2, 0, 0] rfl rfl rfl inb_S4x64x128_S1x64x128_2_0_0, ld_slab x7 3 ![3, 0, 0] rfl rfl rfl inb_S4x64x128_S1x64x128_3_0_0,
    ld_slab x8 0 ![0, 0, 0] rfl rfl rfl inb_S4x128x128_S1x128x128_0_0_0, ld_slab x8 1 ![1, 0, 0] rfl rfl rfl inb_S4x128x128_S1x128x128_1_0_0,
    ld_slab x8 2 ![2, 0, 0] rfl rfl rfl inb_S4x128x128_S1x128x128_2_0_0, ld_slab x8 3 ![3, 0, 0] rfl rfl rfl inb_S4x128x128_S1x128x128_3_0_0,
    pay6_5, pay9_8, pay11]
  refine View.canon_apply_of_pieces (G10 x5 x7 x8) _ ?_ y (View.cover_of_tiledL (s := S4x4096x128) _ S1x4096x128.size (by sl_kernel_rfl) y)
  intro p hp x
  simp only [List.mem_cons, List.not_mem_nil, or_false] at hp
  rcases hp with rfl | rfl | rfl | rfl
  · exact slab_emb (fun h => k0_pay3 x5 (slab x7 h) (slab x8 h)) 3 ![3, 0, 0] rfl rfl rfl inb_S4x4096x128_S1x4096x128_3_0_0 x
  · exact slab_emb (fun h => k0_pay3 x5 (slab x7 h) (slab x8 h)) 2 ![2, 0, 0] rfl rfl rfl inb_S4x4096x128_S1x4096x128_2_0_0 x
  · exact slab_emb (fun h => k0_pay3 x5 (slab x7 h) (slab x8 h)) 1 ![1, 0, 0] rfl rfl rfl inb_S4x4096x128_S1x4096x128_1_0_0 x
  · exact slab_emb (fun h => k0_pay3 x5 (slab x7 h) (slab x8 h)) 0 ![0, 0, 0] rfl rfl rfl inb_S4x4096x128_S1x4096x128_0_0_0 x

theorem outA_11_eq (c : Dev nD) (i : grid0.Coords) (arg1 : Memref sig .tc .vmem S1024x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S4x64x128 .f32) (harg8 : arg8.IsWhole) (arg9 : Memref sig .tc .vmem S4x128x128 .f32) (harg9 : arg9.IsWhole) (arg10 : Memref sig .tc .vmem S1024x256 .f32) (harg10 : arg10.IsWhole) (arg11 : Memref sig .tc .vmem S4x4096x128 .f32) (harg11 : arg11.IsWhole) (arg12 : Memref sig .tc .vmem S4x128x4096 .f32) (harg12 : arg12.IsWhole) (hc : k0_cond1 i = 1#1) (x0 : Vec F S1024x1024 .f32) (x1 : Vec F S1024x512 .f32) (x2 : Vec F S1x512 .f32) (x3 : Vec F S512x256 .f32) (x4 : Vec F S1x256 .f32) (x5 : Vec F S4096x64 .f32) (x6 : Vec F S4096x64 .f32) (x7 : Vec F S4x64x128 .f32) (x8 : Vec F S4x128x128 .f32) :
    outA_11 c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 = G11 x6 x7 := by
  funext y
  unfold outA_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8)]
  unfold bodyRun0_A
  dsimp only
  sl_unfold_words
  simp only [View.readAt_eq_ld, harg7.read_unread, harg8.read_unread,
    View.ld_unit_zero (S := S4096x64) hz2,
    ld_slab x7 0 ![0, 0, 0] rfl rfl rfl inb_S4x64x128_S1x64x128_0_0_0, ld_slab x7 1 ![1, 0, 0] rfl rfl rfl inb_S4x64x128_S1x64x128_1_0_0,
    ld_slab x7 2 ![2, 0, 0] rfl rfl rfl inb_S4x64x128_S1x64x128_2_0_0, ld_slab x7 3 ![3, 0, 0] rfl rfl rfl inb_S4x64x128_S1x64x128_3_0_0,
    pay7, pay10, pay1_12_13]
  refine View.canon_apply_of_pieces (G11 x6 x7) _ ?_ y (View.cover_of_tiledL (s := S4x128x4096) _ S1x128x4096.size (by sl_kernel_rfl) y)
  intro p hp x
  simp only [List.mem_cons, List.not_mem_nil, or_false] at hp
  rcases hp with rfl | rfl | rfl | rfl
  · exact slab_emb (fun h => k0_pay4 (slab x7 h) x6) 3 ![3, 0, 0] rfl rfl rfl inb_S4x128x4096_S1x128x4096_3_0_0 x
  · exact slab_emb (fun h => k0_pay4 (slab x7 h) x6) 2 ![2, 0, 0] rfl rfl rfl inb_S4x128x4096_S1x128x4096_2_0_0 x
  · exact slab_emb (fun h => k0_pay4 (slab x7 h) x6) 1 ![1, 0, 0] rfl rfl rfl inb_S4x128x4096_S1x128x4096_1_0_0 x
  · exact slab_emb (fun h => k0_pay4 (slab x7 h) x6) 0 ![0, 0, 0] rfl rfl rfl inb_S4x128x4096_S1x128x4096_0_0_0 x

end Cert.KernelIdeal.HandV

end
-- ==== Proof.R0ValueQ.lean ====
import proofs.«114942_g22505628631095_cont_8to1_462_6_alg».proof.Proof.R0ValueSlabs
import proofs.«114942_g22505628631095_cont_8to1_462_6_alg».proof.Proof.KSpec

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat Cfg Window)
open Idealize.ShloMosaic.ValueIdx Cert.Rows Cert.RefSpec
open scoped BigOperators

/-! # The query array

At the extended reals one head's slab is the destination embeddings times the head's first weight matrix times its
second; the buffer the first point stores is the four heads' slabs, which is the array the last point writes back
(one block, the whole array). -/

/-- A `[1, a, b]` slab seen as an `[a, b]` matrix. -/
theorem shapeCast_slab {α : Type} {a b : ℕ} (w : (⟨3, ![1, a, b]⟩ : Shape).Idx → α)
    (h : (⟨3, ![1, a, b]⟩ : Shape).ShapeCasts ⟨2, ![a, b]⟩) :
    shapeCast ⟨2, ![a, b]⟩ w h = fun i => w (ix3 (0 : Fin 1) (i 0) (i 1)) := by
  funext i
  refine (shapeCast_dropUnit_apply ![a, b] w h i).trans (congrArg w ?_)
  funext d
  match d with
  | ⟨0, _⟩ => rfl
  | ⟨1, _⟩ => rfl
  | ⟨2, _⟩ => rfl

theorem plain_Dq1 : Cert.LibPlainDot.Plain dot_S4096x64_S64x128_S4096x128_1_0_0_1_n_n := ⟨rfl, rfl, rfl, rfl, rfl, rfl⟩
theorem plain_Dq2 : Cert.LibPlainDot.Plain dot_S4096x128_S128x128_S4096x128_1_0_0_1_n_n := ⟨rfl, rfl, rfl, rfl, rfl, rfl⟩

/-- One head's query slab at `(0, p, q)`: row `p` of the embeddings through the slab's two matrices, at `q`. -/
theorem qslab_ideal (x : FVec Ideal S4096x64 .f32) (w : FVec Ideal S1x64x128 .f32) (w2 : FVec Ideal S1x128x128 .f32)
    (p : Fin 4096) (q : Fin 128) :
    k0_pay3 (F := Ideal) x w w2 (ix3 (0 : Fin 1) p q)
      = lin (fun i : (S2 128 128).Idx => w2 (ix3 (0 : Fin 1) (i 0) (i 1)))
          (lin (fun i : (S2 64 128).Idx => w (ix3 (0 : Fin 1) (i 0) (i 1))) (fun m => x (ix2 p m))) q := by
  show shapeCast S1x4096x128
      (matmul dot_S4096x128_S128x128_S4096x128_1_0_0_1_n_n none
        (matmul dot_S4096x64_S64x128_S4096x128_1_0_0_1_n_n none x (shapeCast S64x128 w shapeCasts_S1x64x128_S64x128) (constant S4096x128 .f32 0x00000000#32))
        (shapeCast S128x128 w2 shapeCasts_S1x128x128_S128x128) (constant S4096x128 .f32 0x00000000#32))
      shapeCasts_S4096x128_S1x4096x128 (ix3 (0 : Fin 1) p q) = _
  rw [matmul_rows dot_S4096x64_S64x128_S4096x128_1_0_0_1_n_n plain_Dq1, matmul_rows dot_S4096x128_S128x128_S4096x128_1_0_0_1_n_n plain_Dq2, shapeCast_slab w, shapeCast_slab w2]
  exact shapeCast_addUnit_apply ![4096, 128] _ shapeCasts_S4096x128_S1x4096x128 (ix3 (0 : Fin 1) p q)

/-- The query buffer is the query array of the specification. -/
theorem G10_ideal (x5 : Vec Ideal S4096x64 .f32) (x7 : Vec Ideal S4x64x128 .f32) (x8 : Vec Ideal S4x128x128 .f32) :
    G10 (F := Ideal) x5 x7 x8 = Cert.KSpec.queries x5 x7 x8 := by
  funext y
  obtain ⟨h, p, q, rfl⟩ : ∃ (h : Fin 4) (p : Fin 4096) (q : Fin 128), y = ix3 h p q := ⟨y 0, y 1, y 2, eq_ix3 y⟩
  have e1 : G10 (F := Ideal) x5 x7 x8 (ix3 h p q) = k0_pay3 (F := Ideal) x5 (slab x7 h) (slab x8 h) (ix3 (0 : Fin 1) p q) := by
    unfold G10; rfl
  have e2 : Cert.KSpec.queries x5 x7 x8 (ix3 h p q)
      = lin (fun i : (S2 128 128).Idx => slab x8 h (ix3 (0 : Fin 1) (i 0) (i 1)))
          (lin (fun i : (S2 64 128).Idx => slab x7 h (ix3 (0 : Fin 1) (i 0) (i 1))) (fun m => x5 (ix2 p m))) q := by
    unfold Cert.KSpec.queries headW headW2 slab; rfl
  rw [e1, e2]
  exact qslab_ideal x5 (slab x7 h) (slab x8 h) p q

section
variable (V : (c : Dev nD) → (b : Ref sig .tc) → Buf (Elt Ideal) ((c : Thread nD τ).loc b))

/-- The printed index maps, decided over the grid: none of these windows moves. -/
theorem idx_facts10 : ∀ t : Fin cfg0.N,
    win0_10.index t (0 : Fin 3) = 0 ∧ win0_10.index t (1 : Fin 3) = 0 ∧ win0_10.index t (2 : Fin 3) = 0
    ∧ win0_5.index t (0 : Fin 2) = 0 ∧ win0_5.index t (1 : Fin 2) = 0
    ∧ win0_7.index t (0 : Fin 3) = 0 ∧ win0_7.index t (1 : Fin 3) = 0 ∧ win0_7.index t (2 : Fin 3) = 0
    ∧ win0_8.index t (0 : Fin 3) = 0 ∧ win0_8.index t (1 : Fin 3) = 0 ∧ win0_8.index t (2 : Fin 3) = 0 :=
  (by decide +kernel : ∀ t : Fin grid0.N, _)

theorem iblk0_5 (c : Dev nD) (t : Fin cfg0.N) : (iblk0 V c 5 t : Vec Ideal S4096x64 .f32) = V c main_arg1 := by
  obtain ⟨-, -, -, e0, e1, -⟩ := idx_facts10 t
  funext j
  show V c main_arg1 (((cfg0.win 5).blk t).view.emb j) = V c main_arg1 j
  congr 1; funext a; apply Fin.ext
  match a with
  | ⟨0, _⟩ => show win0_5.index t (0 : Fin 2) * 4096 + 1 * (j 0).val = (j 0).val; omega
  | ⟨1, _⟩ => show win0_5.index t (1 : Fin 2) * 64 + 1 * (j 1).val = (j 1).val; omega
theorem iblk0_7 (c : Dev nD) (t : Fin cfg0.N) : (iblk0 V c 7 t : Vec Ideal S4x64x128 .f32) = V c main_arg12 := by
  obtain ⟨-, -, -, -, -, e0, e1, e2, -⟩ := idx_facts10 t
  funext j
  show V c main_arg12 (((cfg0.win 7).blk t).view.emb j) = V c main_arg12 j
  congr 1; funext a; apply Fin.ext
  match a with
  | ⟨0, _⟩ => show win0_7.index t (0 : Fin 3) * 4 + 1 * (j 0).val = (j 0).val; omega
  | ⟨1, _⟩ => show win0_7.index t (1 : Fin 3) * 64 + 1 * (j 1).val = (j 1).val; omega
  | ⟨2, _⟩ => show win0_7.index t (2 : Fin 3) * 128 + 1 * (j 2).val = (j 2).val; omega
theorem iblk0_8 (c : Dev nD) (t : Fin cfg0.N) : (iblk0 V c 8 t : Vec Ideal S4x128x128 .f32) = V c main_arg13 := by
  obtain ⟨-, -, -, -, -, -, -, -, e0, e1, e2⟩ := idx_facts10 t
  funext j
  show V c main_arg13 (((cfg0.win 8).blk t).view.emb j) = V c main_arg13 j
  congr 1; funext a; apply Fin.ext
  match a with
  | ⟨0, _⟩ => show win0_8.index t (0 : Fin 3) * 4 + 1 * (j 0).val = (j 0).val; omega
  | ⟨1, _⟩ => show win0_8.index t (1 : Fin 3) * 128 + 1 * (j 1).val = (j 1).val; omega
  | ⟨2, _⟩ => show win0_8.index t (2 : Fin 3) * 128 + 1 * (j 2).val = (j 2).val; omega

/-- What the first point stores into the query buffer is the query array. -/
theorem Q10_eq (c : Dev nD) : (Q10 V c : Vec Ideal S4x4096x128 .f32) = (Cert.KSpec.queries (V c main_arg1) (V c main_arg12) (V c main_arg13)) := by
  unfold Q10
  refine (outA_10_eq c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) ((hcond0 t0_0).mpr (Nat.zero_mod 4)) (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0) (iblk0 V c 8 t0_0)).trans ?_
  refine (G10_ideal (iblk0 V c 5 t0_0) (iblk0 V c 7 t0_0) (iblk0 V c 8 t0_0)).trans ?_
  rw [iblk0_5 V c t0_0, iblk0_7 V c t0_0, iblk0_8 V c t0_0]

/-- The one block is the whole array: what a point would write back is the query array read through it. -/
theorem flushed10_eq (c : Dev nD) (t : Fin cfg0.N) :
    (dat0 V c).flushed 10 t = ((cfg0.win 10).blk t).view.read (Elt Ideal) (Cert.KSpec.queries (V c main_arg1) (V c main_arg12) (V c main_arg13)) := by
  obtain ⟨e0, e1, e2, -⟩ := idx_facts10 t
  show (cfg0.win 10).cut (grid0.coords t) ((dat0 V c).after 10 t) = _
  rw [after0_10, Q10_eq]
  funext y
  show (Cert.KSpec.queries (V c main_arg1) (V c main_arg12) (V c main_arg13)) y = (Cert.KSpec.queries (V c main_arg1) (V c main_arg12) (V c main_arg13)) (((cfg0.win 10).blk t).view.emb y)
  congr 1; funext a; apply Fin.ext
  match a with
  | ⟨0, _⟩ => show (y 0).val = win0_10.index t (0 : Fin 3) * 4 + 1 * (y 0).val; omega
  | ⟨1, _⟩ => show (y 1).val = win0_10.index t (1 : Fin 3) * 4096 + 1 * (y 1).val; omega
  | ⟨2, _⟩ => show (y 2).val = win0_10.index t (2 : Fin 3) * 128 + 1 * (y 2).val; omega

/-- The last point's block covers the array. -/
theorem cover10 (i : S4x4096x128.Idx) : ∃ t : Fin cfg0.N, (cfg0.win 10).flush t = true ∧ i ∈ ((cfg0.win 10).blk t).view.set := by
  obtain ⟨e0, e1, e2, -⟩ := idx_facts10 t0_3
  have hi0 : (i 0).val < 4 := (i 0).isLt
  have hi1 : (i 1).val < 4096 := (i 1).isLt
  have hi2 : (i 2).val < 128 := (i 2).isLt
  refine ⟨t0_3, (flush0_10 t0_3).mpr rfl, ?_⟩
  show i ∈ ((View.whole main_v2_1).slice (win0_10.rect t0_3)).set
  rw [View.set_slice_whole, Rect.mem_set_unit]
  intro a
  match a with
  | ⟨0, _⟩ => show win0_10.index t0_3 (0 : Fin 3) * 4 ≤ (i 0).val ∧ (i 0).val < win0_10.index t0_3 (0 : Fin 3) * 4 + 4; omega
  | ⟨1, _⟩ => show win0_10.index t0_3 (1 : Fin 3) * 4096 ≤ (i 1).val ∧ (i 1).val < win0_10.index t0_3 (1 : Fin 3) * 4096 + 4096; omega
  | ⟨2, _⟩ => show win0_10.index t0_3 (2 : Fin 3) * 128 ≤ (i 2).val ∧ (i 2).val < win0_10.index t0_3 (2 : Fin 3) * 128 + 128; omega

/-- The query array after the region. -/
theorem final0_10 (c : Dev nD) :
    (dat0 (F := Ideal) V c).arrAt 10 cfg0.N = Cert.KSpec.queries (V c main_arg1) (V c main_arg12) (V c main_arg13) :=
  (dat0 V c).arrAt_eq_of_cover 10 _ (fun t _ => flushed10_eq V c t) cover10
end

end Cert.KernelIdeal.HandV

end
-- ==== Proof.R0ValueK.lean ====
import proofs.«114942_g22505628631095_cont_8to1_462_6_alg».proof.Proof.R0ValueSlabs
import proofs.«114942_g22505628631095_cont_8to1_462_6_alg».proof.Proof.R0ValueQ
import proofs.«114942_g22505628631095_cont_8to1_462_6_alg».proof.Proof.KSpec

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat Cfg Window)
open Idealize.ShloMosaic.ValueIdx Cert.Rows Cert.RefSpec
open scoped BigOperators

/-! # The key array

One head's slab is the head's first weight matrix, transposed, times the source embeddings, transposed: the matrix
product contracts the weight slab's first axis with the embeddings' second. At `(k, j)` it is
`∑ m, w (m, k) · es (j, m)`. -/

/-- The left operand's kept axis is the result's first. -/
theorem kdot_lhs1 (j : S128x4096.Idx) (k : (dot_S64x128_S4096x64_S128x4096_0_1_1_0_n_n).contr.Idx) : ((dot_S64x128_S4096x64_S128x4096_0_1_1_0_n_n).lhsIdx j k 1).val = (j 0).val := by
  unfold DotDims.lhsIdx
  rw [dif_neg (show ¬ (1 : Fin 2) ∈ (dot_S64x128_S4096x64_S128x4096_0_1_1_0_n_n).lhsBatch from List.not_mem_nil),
    dif_pos (show (1 : Fin 2) ∈ (dot_S64x128_S4096x64_S128x4096_0_1_1_0_n_n).lhsNonContracting from List.mem_singleton.mpr rfl)]
  rfl

/-- The right operand's kept axis is the result's second. -/
theorem kdot_rhs0 (j : S128x4096.Idx) (k : (dot_S64x128_S4096x64_S128x4096_0_1_1_0_n_n).contr.Idx) : ((dot_S64x128_S4096x64_S128x4096_0_1_1_0_n_n).rhsIdx j k 0).val = (j 1).val := by
  unfold DotDims.rhsIdx
  rw [dif_neg (show ¬ (0 : Fin 2) ∈ (dot_S64x128_S4096x64_S128x4096_0_1_1_0_n_n).rhsBatch from List.not_mem_nil),
    dif_pos (show (0 : Fin 2) ∈ (dot_S64x128_S4096x64_S128x4096_0_1_1_0_n_n).rhsNonContracting from List.mem_singleton.mpr rfl)]
  rfl

/-- The product into a zero accumulator at `(p, q)`: the sum over the shared axis. -/
theorem kdot_zero_apply (l : FVec Ideal S64x128 .f32) (r : FVec Ideal S4096x64 .f32) (p : Fin 128) (q : Fin 4096) :
    matmul dot_S64x128_S4096x64_S128x4096_0_1_1_0_n_n none l r (constant S128x4096 .f32 0x00000000#32) (ix2 p q) = ∑ m : Fin 64, l (ix2 m p) * r (ix2 q m) := by
  refine (Ideal.matmul_constant_zero_apply dot_S64x128_S4096x64_S128x4096_0_1_1_0_n_n none l r (ix2 p q)).trans ?_
  rw [← Equiv.sum_comp (contrEquiv1 dot_S64x128_S4096x64_S128x4096_0_1_1_0_n_n 64 rfl rfl).symm]
  refine Finset.sum_congr rfl fun m _ => ?_
  have hk := contrEquiv1_symm_val dot_S64x128_S4096x64_S128x4096_0_1_1_0_n_n 64 rfl rfl m
  have el : (dot_S64x128_S4096x64_S128x4096_0_1_1_0_n_n).lhsIdx (ix2 p q) ((contrEquiv1 dot_S64x128_S4096x64_S128x4096_0_1_1_0_n_n 64 rfl rfl).symm m) = ix2 m p := funext fun a => Fin.ext (by
    match a with
    | ⟨0, _⟩ => exact ((dot_S64x128_S4096x64_S128x4096_0_1_1_0_n_n).lhsIdx_val_of_single rfl _ _).trans hk
    | ⟨1, _⟩ => exact kdot_lhs1 _ _)
  have er : (dot_S64x128_S4096x64_S128x4096_0_1_1_0_n_n).rhsIdx (ix2 p q) ((contrEquiv1 dot_S64x128_S4096x64_S128x4096_0_1_1_0_n_n 64 rfl rfl).symm m) = ix2 q m := funext fun a => Fin.ext (by
    match a with
    | ⟨0, _⟩ => exact kdot_rhs0 _ _
    | ⟨1, _⟩ => exact ((dot_S64x128_S4096x64_S128x4096_0_1_1_0_n_n).rhsIdx_val_of_single rfl _ _).trans hk)
  rw [el, er]

/-- One head's key slab at `(0, k, j)`. -/
theorem kslab_ideal (w : FVec Ideal S1x64x128 .f32) (x : FVec Ideal S4096x64 .f32) (k : Fin 128) (j : Fin 4096) :
    k0_pay4 (F := Ideal) w x (ix3 (0 : Fin 1) k j) = ∑ m : Fin 64, w (ix3 (0 : Fin 1) m k) * x (ix2 j m) := by
  show shapeCast S1x128x4096
      (matmul dot_S64x128_S4096x64_S128x4096_0_1_1_0_n_n none (shapeCast S64x128 w shapeCasts_S1x64x128_S64x128) x (constant S128x4096 .f32 0x00000000#32))
      shapeCasts_S128x4096_S1x128x4096 (ix3 (0 : Fin 1) k j) = _
  refine (shapeCast_addUnit_apply ![128, 4096] _ shapeCasts_S128x4096_S1x128x4096 (ix3 (0 : Fin 1) k j)).trans ?_
  have e : (fun a : Fin 2 => (ix3 (0 : Fin 1) k j) a.succ) = (ix2 k j : S128x4096.Idx) :=
    funext fun a => by match a with | ⟨0, _⟩ => rfl | ⟨1, _⟩ => rfl
  rw [e, shapeCast_slab w]
  exact kdot_zero_apply _ x k j

/-- The key buffer is the key array of the specification. -/
theorem G11_ideal (x6 : Vec Ideal S4096x64 .f32) (x7 : Vec Ideal S4x64x128 .f32) :
    G11 (F := Ideal) x6 x7 = Cert.KSpec.keysT x6 x7 := by
  funext y
  obtain ⟨h, k, j, rfl⟩ : ∃ (h : Fin 4) (k : Fin 128) (j : Fin 4096), y = ix3 h k j := ⟨y 0, y 1, y 2, eq_ix3 y⟩
  have e1 : G11 (F := Ideal) x6 x7 (ix3 h k j) = k0_pay4 (F := Ideal) (slab x7 h) x6 (ix3 (0 : Fin 1) k j) := by
    unfold G11; rfl
  have e2 : Cert.KSpec.keysT x6 x7 (ix3 h k j) = ∑ m : Fin 64, x6 (ix2 j m) * x7 (ix3 h m k) := by
    unfold Cert.KSpec.keysT headW lin; rfl
  rw [e1, e2]
  refine (kslab_ideal (slab x7 h) x6 k j).trans ?_
  exact Finset.sum_congr rfl fun m _ => mul_comm _ _

section
variable (V : (c : Dev nD) → (b : Ref sig .tc) → Buf (Elt Ideal) ((c : Thread nD τ).loc b))

/-- The printed index maps, decided over the grid: neither the key window nor the source embeddings' moves. -/
theorem idx_facts11 : ∀ t : Fin cfg0.N,
    win0_11.index t (0 : Fin 3) = 0 ∧ win0_11.index t (1 : Fin 3) = 0 ∧ win0_11.index t (2 : Fin 3) = 0
    ∧ win0_6.index t (0 : Fin 2) = 0 ∧ win0_6.index t (1 : Fin 2) = 0 :=
  (by decide +kernel : ∀ t : Fin grid0.N, _)

theorem iblk0_6 (c : Dev nD) (t : Fin cfg0.N) : (iblk0 V c 6 t : Vec Ideal S4096x64 .f32) = V c main_arg2 := by
  obtain ⟨-, -, -, e0, e1⟩ := idx_facts11 t
  funext j
  show V c main_arg2 (((cfg0.win 6).blk t).view.emb j) = V c main_arg2 j
  congr 1; funext a; apply Fin.ext
  match a with
  | ⟨0, _⟩ => show win0_6.index t (0 : Fin 2) * 4096 + 1 * (j 0).val = (j 0).val; omega
  | ⟨1, _⟩ => show win0_6.index t (1 : Fin 2) * 64 + 1 * (j 1).val = (j 1).val; omega

/-- What the first point stores into the key buffer is the key array. -/
theorem Q11_eq (c : Dev nD) : (Q11 V c : Vec Ideal S4x128x4096 .f32) = (Cert.KSpec.keysT (V c main_arg2) (V c main_arg12)) := by
  unfold Q11
  refine (outA_11_eq c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) ((hcond0 t0_0).mpr (Nat.zero_mod 4)) (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0) (iblk0 V c 8 t0_0)).trans ?_
  refine (G11_ideal (iblk0 V c 6 t0_0) (iblk0 V c 7 t0_0)).trans ?_
  rw [iblk0_6 V c t0_0, iblk0_7 V c t0_0]

/-- The one block is the whole array: what a point would write back is the key array read through it. -/
theorem flushed11_eq (c : Dev nD) (t : Fin cfg0.N) :
    (dat0 V c).flushed 11 t = ((cfg0.win 11).blk t).view.read (Elt Ideal) (Cert.KSpec.keysT (V c main_arg2) (V c main_arg12)) := by
  obtain ⟨e0, e1, e2, -⟩ := idx_facts11 t
  show (cfg0.win 11).cut (grid0.coords t) ((dat0 V c).after 11 t) = _
  rw [after0_11, Q11_eq]
  funext y
  show (Cert.KSpec.keysT (V c main_arg2) (V c main_arg12)) y = (Cert.KSpec.keysT (V c main_arg2) (V c main_arg12)) (((cfg0.win 11).blk t).view.emb y)
  congr 1; funext a; apply Fin.ext
  match a with
  | ⟨0, _⟩ => show (y 0).val = win0_11.index t (0 : Fin 3) * 4 + 1 * (y 0).val; omega
  | ⟨1, _⟩ => show (y 1).val = win0_11.index t (1 : Fin 3) * 128 + 1 * (y 1).val; omega
  | ⟨2, _⟩ => show (y 2).val = win0_11.index t (2 : Fin 3) * 4096 + 1 * (y 2).val; omega

/-- The last point's block covers the array. -/
theorem cover11 (i : S4x128x4096.Idx) : ∃ t : Fin cfg0.N, (cfg0.win 11).flush t = true ∧ i ∈ ((cfg0.win 11).blk t).view.set := by
  obtain ⟨e0, e1, e2, -⟩ := idx_facts11 t0_3
  have hi0 : (i 0).val < 4 := (i 0).isLt
  have hi1 : (i 1).val < 128 := (i 1).isLt
  have hi2 : (i 2).val < 4096 := (i 2).isLt
  refine ⟨t0_3, (flush0_11 t0_3).mpr rfl, ?_⟩
  show i ∈ ((View.whole main_v2_2).slice (win0_11.rect t0_3)).set
  rw [View.set_slice_whole, Rect.mem_set_unit]
  intro a
  match a with
  | ⟨0, _⟩ => show win0_11.index t0_3 (0 : Fin 3) * 4 ≤ (i 0).val ∧ (i 0).val < win0_11.index t0_3 (0 : Fin 3) * 4 + 4; omega
  | ⟨1, _⟩ => show win0_11.index t0_3 (1 : Fin 3) * 128 ≤ (i 1).val ∧ (i 1).val < win0_11.index t0_3 (1 : Fin 3) * 128 + 128; omega
  | ⟨2, _⟩ => show win0_11.index t0_3 (2 : Fin 3) * 4096 ≤ (i 2).val ∧ (i 2).val < win0_11.index t0_3 (2 : Fin 3) * 4096 + 4096; omega

/-- The key array after the region. -/
theorem final0_11 (c : Dev nD) :
    (dat0 (F := Ideal) V c).arrAt 11 cfg0.N = Cert.KSpec.keysT (V c main_arg2) (V c main_arg12) :=
  (dat0 V c).arrAt_eq_of_cover 11 _ (fun t _ => flushed11_eq V c t) cover11
end

end Cert.KernelIdeal.HandV

end
-- ==== Proof.KValue.lean ====
import proofs.«114942_g22505628631095_cont_8to1_462_6_alg».proof.Proof.Run
import proofs.«114942_g22505628631095_cont_8to1_462_6_alg».proof.Proof.R1Value
import proofs.«114942_g22505628631095_cont_8to1_462_6_alg».proof.Proof.R0ValueEnc
import proofs.«114942_g22505628631095_cont_8to1_462_6_alg».proof.Proof.R0ValueQ
import proofs.«114942_g22505628631095_cont_8to1_462_6_alg».proof.Proof.R0ValueK
import Idealize.ShloMosaic.Lib.StableHlo.Run

/-!
# The kernel program's three results as functions of its argument arrays

Reading the buffer contents at the last boundary back through the program: the second kernel's two outputs are the
decoder of, and the attention over, the first kernel's three outputs and the arguments; the first kernel's outputs are
the encoder of the features and the two projections of the embeddings; the host stretches only reshape the four bias
vectors into one-row matrices.
-/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem
open Cert.Rows Cert.RefSpec Cert.KAttn

variable (m : (ℓ : Loc nD τ sig) → Buf (Elt Ideal) ℓ) (ρ : Dev nD → PrngReg)

/-! ## The host stretches' reshapes -/

theorem W1_v0 (c : Dev nD) : (W1 m ρ c (Proc.devRef .tc main_v0) : S1x512.Idx → EReal)
    = shapeCast S1x512 (m ((c : Thread nD τ).loc main_arg5)) shapeCasts_S512_S1x512 := by
  show StableHlo.after hostOps0 (W0 m ρ c) (Proc.devRef .tc main_v0) = _
  after_results
  rfl
theorem W1_v1 (c : Dev nD) : (W1 m ρ c (Proc.devRef .tc main_v1) : S1x256.Idx → EReal)
    = shapeCast S1x256 (m ((c : Thread nD τ).loc main_arg7)) shapeCasts_S256_S1x256 := by
  show StableHlo.after hostOps0 (W0 m ρ c) (Proc.devRef .tc main_v1) = _
  after_results
  rfl
theorem W3_v3 (c : Dev nD) : (W3 m ρ c (Proc.devRef .tc main_v3) : S1x512.Idx → EReal)
    = shapeCast S1x512 (W2 m ρ c (Proc.devRef .tc main_arg9)) shapeCasts_S512_S1x512 := by
  show StableHlo.after hostOps1 (W2 m ρ c) (Proc.devRef .tc main_v3) = _
  after_results
  rfl
theorem W3_v4 (c : Dev nD) : (W3 m ρ c (Proc.devRef .tc main_v4) : S1x1024.Idx → EReal)
    = shapeCast S1x1024 (W2 m ρ c (Proc.devRef .tc main_arg11)) shapeCasts_S1024_S1x1024 := by
  show StableHlo.after hostOps1 (W2 m ρ c) (Proc.devRef .tc main_v4) = _
  after_results
  rfl

/-! ## Arguments as the regions find them -/

theorem W1_arg (c : Dev nD) (r : Ref sig .tc) (h : r ∉ hostOps0_W) : W1 m ρ c (Proc.devRef .tc r) = m ((c : Thread nD τ).loc r) :=
  W1_keep m ρ c r h
theorem W2_arg9 (c : Dev nD) : W2 m ρ c (Proc.devRef .tc main_arg9) = m ((c : Thread nD τ).loc main_arg9) :=
  (W2_keep m ρ c main_arg9 (by decide)).trans (W1_keep m ρ c main_arg9 (by decide))
theorem W2_arg11 (c : Dev nD) : W2 m ρ c (Proc.devRef .tc main_arg11) = m ((c : Thread nD τ).loc main_arg11) :=
  (W2_keep m ρ c main_arg11 (by decide)).trans (W1_keep m ρ c main_arg11 (by decide))
theorem W3_arg0 (c : Dev nD) : W3 m ρ c (Proc.devRef .tc main_arg0) = m ((c : Thread nD τ).loc main_arg0) :=
  (W3_keep m ρ c main_arg0 (by decide)).trans <| (W2_keep m ρ c main_arg0 (by decide)).trans (W1_keep m ρ c main_arg0 (by decide))
theorem W3_arg8 (c : Dev nD) : W3 m ρ c (Proc.devRef .tc main_arg8) = m ((c : Thread nD τ).loc main_arg8) :=
  (W3_keep m ρ c main_arg8 (by decide)).trans <| (W2_keep m ρ c main_arg8 (by decide)).trans (W1_keep m ρ c main_arg8 (by decide))
theorem W3_arg10 (c : Dev nD) : W3 m ρ c (Proc.devRef .tc main_arg10) = m ((c : Thread nD τ).loc main_arg10) :=
  (W3_keep m ρ c main_arg10 (by decide)).trans <| (W2_keep m ρ c main_arg10 (by decide)).trans (W1_keep m ρ c main_arg10 (by decide))

/-! ## The first kernel's outputs -/

/-- The encoder's result. -/
theorem W2_tf (c : Dev nD) : (W2 m ρ c (Proc.devRef .tc main_v2_0) : S4096x256.Idx → EReal)
    = enc (m ((c : Thread nD τ).loc main_arg3)) (m ((c : Thread nD τ).loc main_arg4)) (m ((c : Thread nD τ).loc main_arg5))
        (m ((c : Thread nD τ).loc main_arg6)) (m ((c : Thread nD τ).loc main_arg7)) := by
  refine (W2_arr m ρ c 9).trans ?_
  refine (final0_9 (V1 m ρ) c).trans ?_
  show Cert.KSpec.mlpRows (W1 m ρ c (Proc.devRef .tc main_arg3)) (W1 m ρ c (Proc.devRef .tc main_arg4)) (W1 m ρ c (Proc.devRef .tc main_v0))
    (W1 m ρ c (Proc.devRef .tc main_arg6)) (W1 m ρ c (Proc.devRef .tc main_v1)) = _
  rw [W1_v0, W1_v1, W1_arg m ρ c main_arg3 (by decide), W1_arg m ρ c main_arg4 (by decide), W1_arg m ρ c main_arg6 (by decide)]
  rfl

/-- The queries. -/
theorem W2_q (c : Dev nD) : (W2 m ρ c (Proc.devRef .tc main_v2_1) : S4x4096x128.Idx → EReal)
    = Cert.KSpec.queries (m ((c : Thread nD τ).loc main_arg1)) (m ((c : Thread nD τ).loc main_arg12)) (m ((c : Thread nD τ).loc main_arg13)) := by
  refine (W2_arr m ρ c 10).trans ?_
  refine (final0_10 (V1 m ρ) c).trans ?_
  show Cert.KSpec.queries (W1 m ρ c (Proc.devRef .tc main_arg1)) (W1 m ρ c (Proc.devRef .tc main_arg12)) (W1 m ρ c (Proc.devRef .tc main_arg13)) = _
  rw [W1_arg m ρ c main_arg1 (by decide), W1_arg m ρ c main_arg12 (by decide), W1_arg m ρ c main_arg13 (by decide)]

/-- The keys, transposed. -/
theorem W2_kt (c : Dev nD) : (W2 m ρ c (Proc.devRef .tc main_v2_2) : S4x128x4096.Idx → EReal)
    = Cert.KSpec.keysT (m ((c : Thread nD τ).loc main_arg2)) (m ((c : Thread nD τ).loc main_arg12)) := by
  refine (W2_arr m ρ c 11).trans ?_
  refine (final0_11 (V1 m ρ) c).trans ?_
  show Cert.KSpec.keysT (W1 m ρ c (Proc.devRef .tc main_arg2)) (W1 m ρ c (Proc.devRef .tc main_arg12)) = _
  rw [W1_arg m ρ c main_arg2 (by decide), W1_arg m ρ c main_arg12 (by decide)]

/-! ## The three results -/

/-- The encoder's result is returned as the first kernel left it. -/
theorem val_tf (c : Dev nD) : (W4 m ρ c (Proc.devRef .tc main_v2_0) : S4096x256.Idx → EReal)
    = enc (m ((c : Thread nD τ).loc main_arg3)) (m ((c : Thread nD τ).loc main_arg4)) (m ((c : Thread nD τ).loc main_arg5))
        (m ((c : Thread nD τ).loc main_arg6)) (m ((c : Thread nD τ).loc main_arg7)) :=
  (W4_in m ρ c 3 rfl).trans <| (W3_keep m ρ c main_v2_0 (by decide)).trans (W2_tf m ρ c)

/-- The decoder's result. -/
theorem val_dec (c : Dev nD) : (W4 m ρ c (Proc.devRef .tc main_v5_1) : S4096x1024.Idx → EReal)
    = dec (enc (m ((c : Thread nD τ).loc main_arg3)) (m ((c : Thread nD τ).loc main_arg4)) (m ((c : Thread nD τ).loc main_arg5))
        (m ((c : Thread nD τ).loc main_arg6)) (m ((c : Thread nD τ).loc main_arg7)))
      (m ((c : Thread nD τ).loc main_arg8)) (m ((c : Thread nD τ).loc main_arg9)) (m ((c : Thread nD τ).loc main_arg10)) (m ((c : Thread nD τ).loc main_arg11)) := by
  refine (W4_arr m ρ c 9).trans ?_
  refine (final1_9 (V3 m ρ) c).trans ?_
  show Cert.KSpec.mlpRows (W3 m ρ c (Proc.devRef .tc main_v2_0)) (W3 m ρ c (Proc.devRef .tc main_arg8)) (W3 m ρ c (Proc.devRef .tc main_v3))
    (W3 m ρ c (Proc.devRef .tc main_arg10)) (W3 m ρ c (Proc.devRef .tc main_v4)) = _
  rw [W3_v3, W3_v4, W2_arg9, W2_arg11, W3_arg8, W3_arg10, W3_keep m ρ c main_v2_0 (by decide), W2_tf]
  rfl

/-- The attention result, in the kernel's form. -/
theorem val_att (c : Dev nD) : (W4 m ρ c (Proc.devRef .tc main_v5_0) : S4096x256.Idx → EReal)
    = attnArr (Cert.KSpec.queries (m ((c : Thread nD τ).loc main_arg1)) (m ((c : Thread nD τ).loc main_arg12)) (m ((c : Thread nD τ).loc main_arg13)))
        (Cert.KSpec.keysT (m ((c : Thread nD τ).loc main_arg2)) (m ((c : Thread nD τ).loc main_arg12)))
        (m ((c : Thread nD τ).loc main_arg0))
        (enc (m ((c : Thread nD τ).loc main_arg3)) (m ((c : Thread nD τ).loc main_arg4)) (m ((c : Thread nD τ).loc main_arg5))
          (m ((c : Thread nD τ).loc main_arg6)) (m ((c : Thread nD τ).loc main_arg7))) := by
  refine (W4_arr m ρ c 8).trans ?_
  refine (final1_8 (V3 m ρ) c).trans ?_
  show attnArr (W3 m ρ c (Proc.devRef .tc main_v2_1)) (W3 m ρ c (Proc.devRef .tc main_v2_2)) (W3 m ρ c (Proc.devRef .tc main_arg0))
    (W3 m ρ c (Proc.devRef .tc main_v2_0)) = _
  rw [W3_arg0, W3_keep m ρ c main_v2_0 (by decide), W3_keep m ρ c main_v2_1 (by decide), W3_keep m ρ c main_v2_2 (by decide),
    W2_tf, W2_q, W2_kt]

end Cert.KernelIdeal.HandV

end
-- ==== Proof.KReal.lean ====
import proofs.«114942_g22505628631095_cont_8to1_462_6_alg».proof.Proof.KSpec
import proofs.«114942_g22505628631095_cont_8to1_462_6_alg».proof.Proof.KAttnMath

/-!
# Sums of products of real numbers are real

A row times a weight matrix is, entry by entry, a finite sum of products; a logit is a finite sum of products of
such entries. Among the extended reals the real numbers are closed under products and finite sums, so the logits
are real numbers whenever the two embedding arrays and the two stacks of weight matrices are.
-/

noncomputable section

namespace Cert.KReal

open Idealize.ShloMosaic Idealize.ShloMosaic.ValueIdx Cert.Rows Cert.RefSpec Cert.KAttn
open scoped BigOperators

/-- A product of two reals is real. -/
theorem mul_real {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is real. -/
theorem sum_real {ι : Type} (s : Finset ι) (f : ι → EReal) (hf : ∀ i, IsReal (f i)) : IsReal (∑ i ∈ s, f i) := by
  choose g hg using hf
  exact ⟨∑ i ∈ s, g i, by rw [coe_sum]; exact Finset.sum_congr rfl fun i _ => hg i⟩

/-- A real row times a real weight matrix is a real row. -/
theorem lin_real {Ci C : ℕ} (w : (S2 Ci C).Idx → EReal) (r : Fin Ci → EReal) (hw : ∀ i, IsReal (w i))
    (hr : ∀ k, IsReal (r k)) (q : Fin C) : IsReal (lin w r q) :=
  sum_real _ _ fun k => mul_real (hr k) (hw _)

/-- The logits of real embeddings through real weights are real. -/
theorem scoreRow_real (ed es : (S2 4096 64).Idx → EReal) (w : (S3 4 64 128).Idx → EReal) (w2 : (S3 4 128 128).Idx → EReal)
    (hed : ∀ i, IsReal (ed i)) (hes : ∀ i, IsReal (es i)) (hw : ∀ i, IsReal (w i)) (hw2 : ∀ i, IsReal (w2 i))
    (h : Fin 4) (p j : Fin 4096) : IsReal (scoreRow ed es w w2 h p j) :=
  sum_real _ _ fun k => mul_real
    (lin_real _ _ (fun i => hw2 _) (fun m => lin_real _ _ (fun i => hw _) (fun m' => hed _) m) k)
    (lin_real _ _ (fun i => hw _) (fun m => hes _) k)

end Cert.KReal

end
-- ==== Proof.PreReal.lean ====
import proofs.«114942_g22505628631095_cont_8to1_462_6_alg».proof.Pre_finite_inputs
import proofs.«114942_g22505628631095_cont_8to1_462_6_alg».proof.Proof.KAttnMath
import Idealize.ShloMosaic.Lib.ReduceAll
import Idealize.ShloMosaic.Lib.ValueIdx
import Idealize.ShloMosaic.PureOps.Ideal.Laws

/-!
# Finite inputs are real numbers

The precondition says of every argument array that each entry's absolute value is below plus infinity. Over the
extended reals an entry with that property is neither infinity, so it is a real number. Read here for the four
arrays the attention logits are made of: the two embedding arrays and the two attention weight arrays.
-/

noncomputable section

namespace Cert.PreReal

open Idealize.ShloMosaic Idealize.ShloMosaic.ValueIdx Cert.Pre_finite_inputs

instance : Subsingleton S_.Idx := ⟨fun a b => funext fun d => d.elim0⟩

/-- The single-precision pattern of plus infinity is plus infinity. -/
theorem inf_eq_top : Ideal.ofBits .f32 0x7F800000#32 = (⊤ : EReal) := by simp [Ideal.ofBits, Ideal.ieee]

/-- An extended real whose absolute value compares below plus infinity is a real number. -/
theorem isReal_of_abs_lt (x : EReal) (h : Ideal.cmp .olt (max x (-x)) (Ideal.ofBits .f32 0x7F800000#32) = 1#1) :
    Cert.KAttn.IsReal x := by
  rw [inf_eq_top] at h
  have hlt : max x (-x) < ⊤ := by
    by_cases hlt : max x (-x) < ⊤
    · exact hlt
    · exfalso; simp [Ideal.cmp, hlt] at h
  induction x using EReal.rec with
  | bot => simp at hlt
  | top => simp at hlt
  | coe r => exact ⟨r, rfl⟩

/-- One argument's conjunct of the precondition: every entry of the array is a real number. -/
theorem all_real {s : Shape} {axes : List (Fin s.rank)} (a : FVec Ideal s .f32)
    (hb : S_.BroadcastsInDim s (![] : Fin 0 → Fin s.rank)) (hR : s.ReducesTo axes S_) (hS : 0 < S_.numel)
    (hr : Host.reduce IntOp.andi (cmpf .olt (Host.absf (F := Ideal) a) (broadcastInDim s ![] hb (constant (F := Ideal) S_ .f32 0x7F800000#32)))
      (constantI S_ 1 1#1) hR hS ix0 = 1#1) (i : s.Idx) : Cert.KAttn.IsReal (a i) :=
  isReal_of_abs_lt (a i) (Host.reduce_andi_all _ _ hR hS ix0 hr i)

theorem real_of_pre [Cert.Pre_finite_inputs.Facts] (a0 : FVec Ideal S4096x4096 .f32) (a1 : FVec Ideal S4096x64 .f32) (a2 : FVec Ideal S4096x64 .f32) (a3 : FVec Ideal S4096x1024 .f32) (a4 : FVec Ideal S1024x512 .f32) (a5 : FVec Ideal S512 .f32) (a6 : FVec Ideal S512x256 .f32) (a7 : FVec Ideal S256 .f32) (a8 : FVec Ideal S256x512 .f32) (a9 : FVec Ideal S512 .f32) (a10 : FVec Ideal S512x1024 .f32) (a11 : FVec Ideal S1024 .f32) (a12 : FVec Ideal S4x64x128 .f32) (a13 : FVec Ideal S4x128x128 .f32)
    (h : Cert.Pre_finite_inputs.fn (F := Ideal) a0 a1 a2 a3 a4 a5 a6 a7 a8 a9 a10 a11 a12 a13 = fun _ => 1#1) :
    (∀ i, Cert.KAttn.IsReal (a1 i)) ∧ (∀ i, Cert.KAttn.IsReal (a2 i)) ∧ (∀ i, Cert.KAttn.IsReal (a12 i)) ∧ (∀ i, Cert.KAttn.IsReal (a13 i)) := by
  have h0 := congrFun h ValueIdx.ix0
  dsimp only [fn, fn_part1, fn_part2, fn_part3, fn_part4] at h0
  obtain ⟨h63, r13⟩ := IntOp.andi_eq_one.mp h0
  obtain ⟨h58, r12⟩ := IntOp.andi_eq_one.mp h63
  obtain ⟨h53, -⟩ := IntOp.andi_eq_one.mp h58
  obtain ⟨h48, -⟩ := IntOp.andi_eq_one.mp h53
  obtain ⟨h43, -⟩ := IntOp.andi_eq_one.mp h48
  obtain ⟨h38, -⟩ := IntOp.andi_eq_one.mp h43
  obtain ⟨h33, -⟩ := IntOp.andi_eq_one.mp h38
  obtain ⟨h28, -⟩ := IntOp.andi_eq_one.mp h33
  obtain ⟨h23, -⟩ := IntOp.andi_eq_one.mp h28
  obtain ⟨h18, -⟩ := IntOp.andi_eq_one.mp h23
  obtain ⟨h13, -⟩ := IntOp.andi_eq_one.mp h18
  obtain ⟨h8, r2⟩ := IntOp.andi_eq_one.mp h13
  obtain ⟨-, r1⟩ := IntOp.andi_eq_one.mp h8
  exact ⟨fun i => all_real a1 _ _ _ r1 i, fun i => all_real a2 _ _ _ r2 i,
    fun i => all_real a12 _ _ _ r12 i, fun i => all_real a13 _ _ _ r13 i⟩

end Cert.PreReal

end
-- ==== Proof.LibHostRows.lean ====
import proofs.«114942_g22505628631095_cont_8to1_462_6_alg».proof.Proof.LibRows

/-!
# The host's spellings of the row-wise stages

The same stages as in `LibRows`, as a host program writes them on a whole `[N, C]` array: a `dot_general` with
the weights, a bias vector broadcast to one row and then down the rows, a host sum of squares along axis 1 kept as a
column, its square root floored by a broadcast scalar and broadcast back across the row, a host `tanh`. Each is
`mapRows` of the corresponding function of one row, whatever `N` is — so the host's whole-array stage and a
tiled stage agree row by row.
-/

noncomputable section

namespace Cert.Rows

open Idealize.ShloMosaic Idealize.ShloMosaic.ValueIdx
open scoped BigOperators

abbrev S0 : Shape := ⟨0, ![]⟩

variable {N C : ℕ}

/-- The host's product of the whole array with a weight matrix. -/
theorem host_lin {K : ℕ} (d : DotDims (S2 N K) (S2 K C) (S2 N C)) (hd : Cert.LibPlainDot.Plain d)
    (x : FVec Ideal (S2 N K) .f32) (w : FVec Ideal (S2 K C) .f32) :
    Host.dotGeneral d none x w = mapRows (lin w) x := by
  funext i
  obtain ⟨p, q, rfl⟩ : ∃ (p : Fin N) (q : Fin C), i = ix2 p q := ⟨i 0, i 1, eq_ix2 i⟩
  simp only [Host.dotGeneral]
  exact Cert.LibPlainDot.dotGeneral_apply d hd none _ x w p q

/-- The host adds a bias VECTOR, broadcast to one row and then down the rows: the same as adding the vector kept
    as a one-row matrix. -/
theorem host_bias (A : FVec Ideal (S2 N C) .f32) (b : FVec Ideal (S1 C) .f32)
    (h1 : (S1 C).BroadcastsInDim (S2 1 C) ![1]) (h2 : (S2 1 C).BroadcastsInDim (S2 N C) ![0, 1])
    (hc : (S1 C).ShapeCasts (S2 1 C)) :
    addf A (broadcastInDim (S2 N C) ![0, 1] h2 (broadcastInDim (S2 1 C) ![1] h1 b))
      = mapRows (addRow (shapeCast (S2 1 C) b hc)) A := by
  funext i
  obtain ⟨p, q, rfl⟩ : ∃ (p : Fin N) (q : Fin C), i = ix2 p q := ⟨i 0, i 1, eq_ix2 i⟩
  rw [mapRows_ix2]
  show A (ix2 p q) + broadcastInDim (S2 N C) ![0, 1] h2 (broadcastInDim (S2 1 C) ![1] h1 b) (ix2 p q)
    = A (ix2 p q) + shapeCast (S2 1 C) b hc (ix2 (0 : Fin 1) q)
  have hq : q.val = if C = 1 then 0 else q.val := by
    split
    · have := q.isLt; omega
    · rfl
  rw [shapeCast_a_1a_apply,
    broadcastInDim_apply ![0, 1] h2 _ (ix2 p q) (ix2 (0 : Fin 1) q) (fun a => by
      match a with
      | ⟨0, _⟩ => rfl
      | ⟨1, _⟩ => exact hq),
    broadcastInDim_apply ![1] h1 b (ix2 (0 : Fin 1) q) (ix1 q) (fun a => by
      match a with
      | ⟨0, _⟩ => exact hq)]

/-- The host divides every row by the larger of its norm and the floor. -/
theorem host_unit (Y : FVec Ideal (S2 N C) .f32) (hred : (S2 N C).ReducesTo [1] (S1 N)) (hr : (S2 N C).Reduces [1] (S1 N))
    (hu : 0 < S0.numel) (hb0 : (S1 N).BroadcastsInDim (S2 N 1) ![0]) (hbe : S0.BroadcastsInDim (S2 N 1) ![])
    (hb1 : (S2 N 1).BroadcastsInDim (S2 N C) ![0, 1]) :
    Host.divf Y (broadcastInDim (S2 N C) ![0, 1] hb1 (maximumf
      (Host.sqrt (broadcastInDim (S2 N 1) ![0] hb0 (Host.reduceAdd (mulf Y Y) (constant S0 .f32 0x00000000#32) hred hu)))
      (broadcastInDim (S2 N 1) ![] hbe (constant S0 .f32 0x2B8CBCCC#32)))) = mapRows unit Y := by
  funext i
  obtain ⟨p, q, rfl⟩ : ∃ (p : Fin N) (q : Fin C), i = ix2 p q := ⟨i 0, i 1, eq_ix2 i⟩
  rw [mapRows_ix2]
  have hp : p.val = if N = 1 then 0 else p.val := by
    split
    · have := p.isLt; omega
    · rfl
  show Ideal.div (Y (ix2 p q)) (broadcastInDim (s := S2 N 1) (S2 N C) ![0, 1] hb1 _ (ix2 p q)) = _
  rw [broadcastInDim_apply ![0, 1] hb1 _ (ix2 p q) (ix2 p (0 : Fin 1)) (fun a => by
      match a with
      | ⟨0, _⟩ => exact hp
      | ⟨1, _⟩ => rfl)]
  show Ideal.div (Y (ix2 p q)) (max (Ideal.sqrt (broadcastInDim (s := S1 N) (S2 N 1) ![0] hb0 _ (ix2 p (0 : Fin 1))))
    (broadcastInDim (s := S0) (S2 N 1) ![] hbe (constant (F := Ideal) S0 .f32 0x2B8CBCCC#32) (ix2 p (0 : Fin 1)))) = _
  rw [broadcastInDim_apply ![0] hb0 _ (ix2 p (0 : Fin 1)) (ix1 p) (fun a => by
      match a with
      | ⟨0, _⟩ => exact hp),
    broadcastInDim_apply ![] hbe _ (ix2 p (0 : Fin 1)) ix0 (fun a => a.elim0)]
  refine congrArg (fun s => Ideal.div (Y (ix2 p q)) (max (Ideal.sqrt s) floorNorm)) ?_
  show Ideal.hostReduceAdd hred (mulf Y Y) (Ideal.ofBits .f32 0x00000000#32) (ix1 p) = _
  rw [Ideal.hostReduceAdd_single hred hr, Ideal.ofBits_zero_f32, zero_add]
  refine Finset.sum_congr rfl fun k _ => ?_
  have e : hr.lift (ix1 p) k = ix2 p k := funext fun a => Fin.ext (by
    match a with
    | ⟨0, _⟩ => rfl
    | ⟨1, _⟩ => rfl)
  rw [e]
  rfl

/-- The host's `tanh` of the whole array. -/
theorem host_tanh (Y : FVec Ideal (S2 N C) .f32) : Host.tanh Y = mapRows (C := C) th Y := by
  funext i
  obtain ⟨p, q, rfl⟩ : ∃ (p : Fin N) (q : Fin C), i = ix2 p q := ⟨i 0, i 1, eq_ix2 i⟩
  rfl

/-- Three row-wise stages in a row are one. -/
theorem mapRows_comp3 {Ci Ca Cb : ℕ} (h : (Fin Cb → EReal) → Fin C → EReal) (g : (Fin Ca → EReal) → Fin Cb → EReal)
    (f : (Fin Ci → EReal) → Fin Ca → EReal) (A : (S2 N Ci).Idx → EReal) :
    mapRows h (mapRows g (mapRows f A)) = mapRows (fun r => h (g (f r))) A := rfl

end Cert.Rows

end
-- ==== Proof.RefValuePoint.lean ====
import proofs.«114942_g22505628631095_cont_8to1_462_6_alg».proof.Proof.RefRunVals
import proofs.«114942_g22505628631095_cont_8to1_462_6_alg».proof.Proof.RefSpec
import proofs.«114942_g22505628631095_cont_8to1_462_6_alg».proof.Proof.LibHostRows
import Idealize.ShloMosaic.Lib.ValueLayout

/-!
# The entry-by-entry stages and the logits, read at an index

A choice on a comparison of two extended reals is an `if` on the order; so the bent logit, the mask and the
exponential linear unit are the specification's functions of the entry. The slice of a stack of weight matrices at
head `h`, with its unit axis dropped, is the head's matrix, so a projection is the row-wise linear map by it, and the
product of the carried destinations' projection with the transposed sources' projection is, entry by entry, the inner
product over the hidden features.
-/

noncomputable section

namespace Cert.ReferenceIdeal.Hand

open Cert.ReferenceIdeal Cert.ReferenceIdeal.Gen Idealize.ShloMosaic Idealize.ShloMosaic.ValueIdx Cert.Rows
open scoped BigOperators

open Cert.RefSpec

/-! ## A choice on a comparison of extended reals -/

/-- Choosing on "greater than". -/
theorem select_ogt (x y a b : EReal) :
    Scalar.select (FloatOps.cmpf (F := Ideal) (φ := .f32) .ogt x y) a b = if y < x then a else b := by
  show (if BitVec.ofBool (decide (y < x)) = 1 then a else b) = _
  by_cases h : y < x
  · rw [if_pos h, decide_eq_true h]; rfl
  · rw [if_neg h, decide_eq_false h]; rfl

/-- Choosing on "at least". -/
theorem select_oge (x y a b : EReal) :
    Scalar.select (FloatOps.cmpf (F := Ideal) (φ := .f32) .oge x y) a b = if y ≤ x then a else b := by
  show (if BitVec.ofBool (decide (y ≤ x)) = 1 then a else b) = _
  by_cases h : y ≤ x
  · rw [if_pos h, decide_eq_true h]; rfl
  · rw [if_neg h, decide_eq_false h]; rfl

/-! ## The entry-by-entry stages -/

/-- The logits bent, at an entry. -/
theorem leakyV_apply (e : FVec Ideal S4096x4096 .f32) (i : S4096x4096.Idx) : leakyV e i = leaky (e i) := by
  show Scalar.select (FloatOps.cmpf (F := Ideal) (φ := .f32) .oge (e i) (Ideal.ofBits .f32 0x00000000#32)) (e i)
    (Ideal.ofBits .f32 0x3E4CCCCD#32 * e i) = _
  rw [select_oge]; rfl

/-- The mask, at an entry. -/
theorem maskV_apply (bias e : FVec Ideal S4096x4096 .f32) (i : S4096x4096.Idx) :
    maskSelV (maskCmpV bias) e i = masked (bias i) (e i) := by
  show Scalar.select (FloatOps.cmpf (F := Ideal) (φ := .f32) .ogt (bias i) (Ideal.ofBits .f32 0x00000000#32)) (e i)
    (Ideal.ofBits .f32 0xD9FFCB9E#32) = _
  rw [select_ogt]; rfl

/-- The exponential linear unit, at an entry. -/
theorem eluV_apply (x : FVec Ideal S4096x256 .f32) (i : S4096x256.Idx) : eluV x i = elu (x i) := by
  show Scalar.select (FloatOps.cmpf (F := Ideal) (φ := .f32) .ogt (x i) (Ideal.ofBits .f32 0x00000000#32)) (x i)
    (Ideal.ofBits .f32 0x3F800000#32 * (Ideal.exp (Scalar.select (FloatOps.cmpf (F := Ideal) (φ := .f32) .ogt (x i)
      (Ideal.ofBits .f32 0x00000000#32)) (Ideal.ofBits .f32 0x00000000#32) (x i)) - 1)) = _
  rw [select_ogt, select_ogt]; rfl

/-! ## The weights' slices and the logits -/

/-- The slice at `(h, 0, 0)` of the first weights, as a matrix, is head `h`'s matrix. -/
theorem sliceW_eq (o : Fin S4x64x128.rank → ℕ) (ho : S4x64x128.Slices o S1x64x128) (h : Fin 4) (e : o = ![h.val, 0, 0])
    (w : FVec Ideal S4x64x128 .f32) :
    shapeCast S64x128 (extractStridedSlice S1x64x128 o w ho) shapeCasts_S1x64x128_S64x128 = headW w h := by
  subst e
  funext i
  obtain ⟨k, q, rfl⟩ : ∃ (k : Fin 64) (q : Fin 128), i = ix2 k q := ⟨i 0, i 1, eq_ix2 i⟩
  rw [shapeCast_1ab_ab_apply]
  exact extractStridedSlice_apply _ w ho _ (ix3 h k q) fun a => by
    match a with
    | ⟨0, _⟩ => rfl
    | ⟨1, _⟩ => exact (Nat.zero_add _).symm
    | ⟨2, _⟩ => exact (Nat.zero_add _).symm

/-- The slice at `(h, 0, 0)` of the second weights, as a matrix, is head `h`'s second matrix. -/
theorem sliceW2_eq (o : Fin S4x128x128.rank → ℕ) (ho : S4x128x128.Slices o S1x128x128) (h : Fin 4) (e : o = ![h.val, 0, 0])
    (w2 : FVec Ideal S4x128x128 .f32) :
    shapeCast S128x128 (extractStridedSlice S1x128x128 o w2 ho) shapeCasts_S1x128x128_S128x128 = headW2 w2 h := by
  subst e
  funext i
  obtain ⟨k, q, rfl⟩ : ∃ (k : Fin 128) (q : Fin 128), i = ix2 k q := ⟨i 0, i 1, eq_ix2 i⟩
  rw [shapeCast_1ab_ab_apply]
  exact extractStridedSlice_apply _ w2 ho _ (ix3 h k q) fun a => by
    match a with
    | ⟨0, _⟩ => rfl
    | ⟨1, _⟩ => exact (Nat.zero_add _).symm
    | ⟨2, _⟩ => exact (Nat.zero_add _).symm

/-- A head's projection of an embedding is the row-wise linear map by the head's matrix. -/
theorem projV_eq (o : Fin S4x64x128.rank → ℕ) (ho : S4x64x128.Slices o S1x64x128) (h : Fin 4) (e : o = ![h.val, 0, 0])
    (x : FVec Ideal S4096x64 .f32) (w : FVec Ideal S4x64x128 .f32) :
    projV o ho x w = mapRows (lin (headW w h)) x := by
  unfold projV
  rw [sliceW_eq o ho h e w]
  exact host_lin _ ⟨rfl, rfl, rfl, rfl, rfl, rfl⟩ x _

/-- The logits at `(p, j)`: over the hidden features, the destination's projection carried through the head's second
    matrix times the source's projection. -/
theorem scoresOfV_apply (o : Fin S4x128x128.rank → ℕ) (ho : S4x128x128.Slices o S1x128x128) (h : Fin 4) (e : o = ![h.val, 0, 0])
    (h1 h2 : FVec Ideal S4096x128 .f32) (w2 : FVec Ideal S4x128x128 .f32) (p j : Fin 4096) :
    scoresOfV o ho h1 h2 w2 (ix2 p j)
      = ∑ k : Fin 128, lin (headW2 w2 h) (fun m => h2 (ix2 p m)) k * h1 (ix2 j k) := by
  unfold scoresOfV
  rw [sliceW2_eq o ho h e w2, host_lin _ ⟨rfl, rfl, rfl, rfl, rfl, rfl⟩ h2 _]
  simp only [Host.dotGeneral]
  rw [Cert.LibPlainDot.dotGeneral_apply _ ⟨rfl, rfl, rfl, rfl, rfl, rfl⟩ none _ _ _ p j]
  refine Finset.sum_congr rfl fun k _ => ?_
  rw [transpose_ix2_apply]
  rfl

/-- A head's logits from the embeddings are the specification's. -/
theorem scores_eq (h : Fin 4) (o : Fin S4x64x128.rank → ℕ) (ho : S4x64x128.Slices o S1x64x128) (e : o = ![h.val, 0, 0])
    (o' : Fin S4x128x128.rank → ℕ) (ho' : S4x128x128.Slices o' S1x128x128) (e' : o' = ![h.val, 0, 0])
    (ed es : FVec Ideal S4096x64 .f32) (w : FVec Ideal S4x64x128 .f32) (w2 : FVec Ideal S4x128x128 .f32) :
    scoresOfV o' ho' (projV o ho es w) (projV o ho ed w) w2 = scores ed es w w2 h := by
  funext i
  obtain ⟨p, j, rfl⟩ : ∃ (p : Fin 4096) (j : Fin 4096), i = ix2 p j := ⟨i 0, i 1, eq_ix2 i⟩
  rw [projV_eq o ho h e es w, projV_eq o ho h e ed w, scoresOfV_apply o' ho' h e']
  rfl

end Cert.ReferenceIdeal.Hand

end
-- ==== Proof.RefValueSoft.lean ====
import proofs.«114942_g22505628631095_cont_8to1_462_6_alg».proof.Proof.RefRunVals
import proofs.«114942_g22505628631095_cont_8to1_462_6_alg».proof.Proof.RefSpec
import proofs.«114942_g22505628631095_cont_8to1_462_6_alg».proof.Proof.LibPlainDot
import Idealize.ShloMosaic.Lib.ValueLayout
import Idealize.ShloMosaic.PureOps.Ideal.Laws

/-!
# The rows normalised, read at an index

The host's maximum over a row from minus infinity is the fold of `max` over the row; a vector broadcast to a column
and then across the rows gives, at `(p, q)`, its entry `p`; the host's sum over a row is the initial zero plus the sum
of the row. So the normalised array at `(p, j)` is the specification's normalised row `p` at `j`, and its product with
the encoder's result is the weighted sum over the sources.
-/

noncomputable section

namespace Cert.ReferenceIdeal.Hand

open Cert.ReferenceIdeal Cert.ReferenceIdeal.Gen Idealize.ShloMosaic Idealize.ShloMosaic.ValueIdx Cert.Rows
open scoped BigOperators

open Cert.RefSpec

/-- A row index with the column put back. -/
theorem lift_row (hr : S4096x4096.Reduces [1] S4096) (p : Fin 4096) (k : Fin (S4096x4096.size 1)) :
    hr.lift (ix1 p) k = ix2 p (⟨k.val, k.isLt⟩ : Fin 4096) :=
  funext fun a => Fin.ext (by
    match a with
    | ⟨0, _⟩ => rfl
    | ⟨1, _⟩ => rfl)

/-- A vector as a repeated column, at `(p, q)`: the vector's entry `p`. -/
theorem colV_apply (v : FVec Ideal S4096 .f32) (p q : Fin 4096) : colV v (ix2 p q) = v (ix1 p) := by
  unfold colV
  rw [broadcastInDim_apply ![0, 1] bcast_S4096x1_S4096x4096_0_1 _ (ix2 p q) (ix2 p (0 : Fin 1)) (fun a => by
      match a with
      | ⟨0, _⟩ => rfl
      | ⟨1, _⟩ => rfl),
    broadcastInDim_apply ![0] bcast_S4096_S4096x1_0 v (ix2 p (0 : Fin 1)) (ix1 p) (fun a => by
      match a with
      | ⟨0, _⟩ => rfl)]

/-- The rows' maxima, at row `p`: the specification's maximum of that row. -/
theorem rowMaxV_apply (a : FVec Ideal S4096x4096 .f32) (p : Fin 4096) :
    rowMaxV a (ix1 p) = rowMax fun j => a (ix2 p j) := by
  have hr : S4096x4096.Reduces [1] S4096 := by decide
  unfold rowMaxV rowMax
  rw [maximumf_apply, Host.reduce_eq_fold_single FloatOps.maximumf a _ reducesTo_S4096x4096_S4096_d1 hr h_S_]
  have hf : (a ∘ hr.lift (ix1 p)) = fun j : Fin 4096 => a (ix2 p j) := funext fun k => congrArg a (lift_row hr p k)
  rw [hf]
  rfl

/-- The exponentials, at `(p, j)`. -/
theorem expV_apply (a : FVec Ideal S4096x4096 .f32) (p j : Fin 4096) :
    expV a (ix2 p j) = Ideal.exp (a (ix2 p j) - rowMax fun j' => a (ix2 p j')) := by
  show Ideal.exp (a (ix2 p j) - colV (rowMaxV a) (ix2 p j)) = _
  rw [colV_apply, rowMaxV_apply]

/-- The normalised rows, at `(p, j)`: the specification's normalised row `p` at `j`. -/
theorem softV_apply (a : FVec Ideal S4096x4096 .f32) (p j : Fin 4096) :
    softV a (ix2 p j) = softmaxRow (fun j' => a (ix2 p j')) j := by
  have hr : S4096x4096.Reduces [1] S4096 := by decide
  unfold softV softmaxRow
  show Ideal.div (expV a (ix2 p j)) (colV (F := Ideal) _ (ix2 p j)) = _
  rw [colV_apply, expV_apply]
  refine congrArg (fun s => Ideal.div _ s) ?_
  show Ideal.hostReduceAdd reducesTo_S4096x4096_S4096_d1 (expV a) (Ideal.ofBits .f32 0x00000000#32) (ix1 p) = _
  rw [Ideal.hostReduceAdd_single reducesTo_S4096x4096_S4096_d1 hr]
  refine congrArg (fun s => Ideal.ofBits .f32 0x00000000#32 + s) ?_
  refine Finset.sum_congr rfl fun k _ => ?_
  rw [lift_row hr p k]
  exact expV_apply a p _

/-- The weighted sums, at `(p, q)`. -/
theorem weighV_apply (a : FVec Ideal S4096x4096 .f32) (tf : FVec Ideal S4096x256 .f32) (p : Fin 4096) (q : Fin 256) :
    weighV a tf (ix2 p q) = ∑ j : Fin 4096, softmaxRow (fun j' => a (ix2 p j')) j * tf (ix2 j q) := by
  unfold weighV
  simp only [Host.dotGeneral]
  rw [Cert.LibPlainDot.dotGeneral_apply _ ⟨rfl, rfl, rfl, rfl, rfl, rfl⟩ none _ _ _ p q]
  exact Finset.sum_congr rfl fun j _ => by rw [softV_apply]

end Cert.ReferenceIdeal.Hand

end
-- ==== Proof.RefValueMean.lean ====
import proofs.«114942_g22505628631095_cont_8to1_462_6_alg».proof.Proof.RefRunVals
import proofs.«114942_g22505628631095_cont_8to1_462_6_alg».proof.Proof.RefSpec
import Idealize.ShloMosaic.Lib.ValueLayout
import Idealize.ShloMosaic.PureOps.Ideal.Laws

/-!
# The mean of the heads, read at an index

Each head's array becomes a one-slab stack, the four are laid one after another along the new axis, the host sums along
that axis from zero and divides by a broadcast four: at `(p, q)` that is zero plus the sum over the four heads of their
entries at `(p, q)`, divided by four.
-/

noncomputable section

namespace Cert.ReferenceIdeal.Hand

open Cert.ReferenceIdeal Cert.ReferenceIdeal.Gen Idealize.ShloMosaic Idealize.ShloMosaic.ValueIdx Cert.Rows
open scoped BigOperators

open Cert.RefSpec

/-- A reduced index with the stack's coordinate put back. -/
theorem lift_stack (hr : S4x4096x256.Reduces [0] S4096x256) (p : Fin 4096) (q : Fin 256) (k : Fin (S4x4096x256.size 0)) :
    hr.lift (ix2 p q) k = ix3 (⟨k.val, k.isLt⟩ : Fin 4) p q :=
  funext fun a => Fin.ext (by
    match a with
    | ⟨0, _⟩ => rfl
    | ⟨1, _⟩ => rfl
    | ⟨2, _⟩ => rfl)

/-- An array as a one-slab stack, at `(0, p, q)`. -/
theorem slabV_apply (x : FVec Ideal S4096x256 .f32) (p : Fin 4096) (q : Fin 256) :
    slabV x (ix3 (0 : Fin 1) p q) = x (ix2 p q) := by
  unfold slabV
  exact broadcastInDim_apply ![1, 2] bcast_S4096x256_S1x4096x256_1_2 x (ix3 (0 : Fin 1) p q) (ix2 p q) fun a => by
    match a with
    | ⟨0, _⟩ => rfl
    | ⟨1, _⟩ => rfl

/-- The four arrays as one-slab stacks, in order. -/
abbrev slabs (G : Fin 4 → FVec Ideal S4096x256 .f32) : List ((s : Shape) × (s.Idx → EReal)) :=
  [⟨S1x4096x256, slabV (G 0)⟩, ⟨S1x4096x256, slabV (G 1)⟩, ⟨S1x4096x256, slabV (G 2)⟩, ⟨S1x4096x256, slabV (G 3)⟩]

/-- The stack of four slabs, at `(k, p, q)`: slab `k` at `(p, q)`. -/
theorem stack_apply (G : Fin 4 → FVec Ideal S4096x256 .f32) (k : Fin 4) (p : Fin 4096) (q : Fin 256) :
    concatenate S4x4096x256 0 (slabs G)
      concatenates_S1x4096x256_S1x4096x256_S1x4096x256_S1x4096x256_S4x4096x256_d0 (ix3 k p q) = G k (ix2 p q) := by
  have hi : ∀ (k : Fin 4) (b : Fin S1x4096x256.rank), b.cast (rfl : S1x4096x256.rank = S4x4096x256.rank) ≠ (0 : Fin S4x4096x256.rank) →
      ((ix3 (0 : Fin 1) p q : S1x4096x256.Idx) b).val = ((ix3 k p q : S4x4096x256.Idx) (b.cast rfl)).val := fun k b hb => by
    match b with
    | ⟨0, _⟩ => exact absurd rfl hb
    | ⟨1, _⟩ => rfl
    | ⟨2, _⟩ => rfl
  rw [← slabV_apply (G k) p q]
  fin_cases k
  · exact concatenate_apply_piece (0 : Fin S4x4096x256.rank) (slabs G) concatenates_S1x4096x256_S1x4096x256_S1x4096x256_S1x4096x256_S4x4096x256_d0
      (ix3 (0 : Fin 4) p q) 0 (by decide : (0 : ℕ) < 4) S1x4096x256 (slabV (G 0)) rfl rfl 0 rfl (ix3 (0 : Fin 1) p q) (hi 0) rfl
  · exact concatenate_apply_piece (0 : Fin S4x4096x256.rank) (slabs G) concatenates_S1x4096x256_S1x4096x256_S1x4096x256_S1x4096x256_S4x4096x256_d0
      (ix3 (1 : Fin 4) p q) 1 (by decide : (1 : ℕ) < 4) S1x4096x256 (slabV (G 1)) rfl rfl 1 rfl (ix3 (0 : Fin 1) p q) (hi 1) rfl
  · exact concatenate_apply_piece (0 : Fin S4x4096x256.rank) (slabs G) concatenates_S1x4096x256_S1x4096x256_S1x4096x256_S1x4096x256_S4x4096x256_d0
      (ix3 (2 : Fin 4) p q) 2 (by decide : (2 : ℕ) < 4) S1x4096x256 (slabV (G 2)) rfl rfl 2 rfl (ix3 (0 : Fin 1) p q) (hi 2) rfl
  · exact concatenate_apply_piece (0 : Fin S4x4096x256.rank) (slabs G) concatenates_S1x4096x256_S1x4096x256_S1x4096x256_S1x4096x256_S4x4096x256_d0
      (ix3 (3 : Fin 4) p q) 3 (by decide : (3 : ℕ) < 4) S1x4096x256 (slabV (G 3)) rfl rfl 3 rfl (ix3 (0 : Fin 1) p q) (hi 3) rfl

/-- The mean of four arrays, at an index: their sum from zero, divided by four. -/
theorem meanV_apply (G : Fin 4 → FVec Ideal S4096x256 .f32) (i : S4096x256.Idx) :
    meanV (G 0) (G 1) (G 2) (G 3) i
      = Ideal.div (Ideal.ofBits .f32 0x00000000#32 + ∑ h : Fin 4, G h i) (Ideal.ofBits .f32 0x40800000#32) := by
  have hr : S4x4096x256.Reduces [0] S4096x256 := by decide
  obtain ⟨p, q, rfl⟩ : ∃ (p : Fin 4096) (q : Fin 256), i = ix2 p q := ⟨i 0, i 1, eq_ix2 i⟩
  unfold meanV
  show Ideal.div (Ideal.hostReduceAdd reducesTo_S4x4096x256_S4096x256_d0 _ (Ideal.ofBits .f32 0x00000000#32) (ix2 p q))
    (Ideal.ofBits .f32 0x40800000#32) = _
  rw [Ideal.hostReduceAdd_single reducesTo_S4x4096x256_S4096x256_d0 hr]
  refine congrArg (fun s => Ideal.div (Ideal.ofBits .f32 0x00000000#32 + s) (Ideal.ofBits .f32 0x40800000#32)) ?_
  refine Finset.sum_congr rfl fun k _ => ?_
  rw [lift_stack hr p q k]
  exact stack_apply G _ p q

end Cert.ReferenceIdeal.Hand

end
-- ==== Proof.RefValueMlp.lean ====
import proofs.«114942_g22505628631095_cont_8to1_462_6_alg».proof.Proof.RefRunVals
import proofs.«114942_g22505628631095_cont_8to1_462_6_alg».proof.Proof.RefSpec
import proofs.«114942_g22505628631095_cont_8to1_462_6_alg».proof.Proof.LibHostRows

/-!
# The encoder and the decoder are the perceptron on every row

The host's product with a weight matrix is the row-wise linear map, its two broadcasts of a bias vector and the
addition are the row-wise addition of the bias row, and the maximum against a broadcast zero is the row-wise
rectifier; one row-wise stage after another is one row-wise stage.
-/

noncomputable section

namespace Cert.ReferenceIdeal.Hand

open Cert.ReferenceIdeal Cert.ReferenceIdeal.Gen Idealize.ShloMosaic Idealize.ShloMosaic.ValueIdx Cert.Rows
open scoped BigOperators

/-- The rectifier on a whole array is the rectifier on every row. -/
theorem reluV_eq (y : FVec Ideal S4096x512 .f32) : reluV y = mapRows (C := 512) Cert.RefSpec.relu y := by
  funext i
  obtain ⟨p, q, rfl⟩ : ∃ (p : Fin 4096) (q : Fin 512), i = ix2 p q := ⟨i 0, i 1, eq_ix2 i⟩
  rfl

/-- The encoder's stage is the perceptron on every row of the source features. -/
theorem encV_eq (x : FVec Ideal S4096x1024 .f32) (w1 : FVec Ideal S1024x512 .f32) (b1 : FVec Ideal S512 .f32)
    (w2 : FVec Ideal S512x256 .f32) (b2 : FVec Ideal S256 .f32) :
    encV x w1 b1 w2 b2 = Cert.RefSpec.enc x w1 b1 w2 b2 := by
  unfold encV
  rw [host_lin _ ⟨rfl, rfl, rfl, rfl, rfl, rfl⟩ x w1, host_bias _ b1 _ _ (by decide), reluV_eq,
    host_lin _ ⟨rfl, rfl, rfl, rfl, rfl, rfl⟩ _ w2, host_bias _ b2 _ _ (by decide)]
  rfl

/-- The decoder's stage is the perceptron on every row of the encoder's result. -/
theorem decV_eq (tf : FVec Ideal S4096x256 .f32) (w1 : FVec Ideal S256x512 .f32) (b1 : FVec Ideal S512 .f32)
    (w2 : FVec Ideal S512x1024 .f32) (b2 : FVec Ideal S1024 .f32) :
    decV tf w1 b1 w2 b2 = Cert.RefSpec.dec tf w1 b1 w2 b2 := by
  unfold decV
  rw [host_lin _ ⟨rfl, rfl, rfl, rfl, rfl, rfl⟩ tf w1, host_bias _ b1 _ _ (by decide), reluV_eq,
    host_lin _ ⟨rfl, rfl, rfl, rfl, rfl, rfl⟩ _ w2, host_bias _ b2 _ _ (by decide)]
  rfl

end Cert.ReferenceIdeal.Hand

end
-- ==== Proof.RefValue.lean ====
import proofs.«114942_g22505628631095_cont_8to1_462_6_alg».proof.Proof.RefValuePoint
import proofs.«114942_g22505628631095_cont_8to1_462_6_alg».proof.Proof.RefValueSoft
import proofs.«114942_g22505628631095_cont_8to1_462_6_alg».proof.Proof.RefValueMean
import proofs.«114942_g22505628631095_cont_8to1_462_6_alg».proof.Proof.RefValueMlp
import proofs.«114942_g22505628631095_cont_8to1_462_6_alg».proof.Proof.RefRun

/-!
# The reference computes the specification

Head by head the stages compose to the specification's head, the mean of the four is the specification's attention
result, and with the encoder and the decoder this restates the reference's run over the specification's three
functions of the argument arrays.
-/

noncomputable section

namespace Cert.ReferenceIdeal.Hand

open Cert.ReferenceIdeal Cert.ReferenceIdeal.Gen Idealize.ShloMosaic Idealize.ShloMosaic.ValueIdx Cert.Rows
open scoped BigOperators

open Cert.RefSpec Idealize.ShloMosaic.TcCoe Idealize.SL.Sem

/-- One head is the specification's head over the specification's logits. -/
theorem headV_eq (h : Fin 4) (o : Fin S4x64x128.rank → ℕ) (ho : S4x64x128.Slices o S1x64x128) (e : o = ![h.val, 0, 0])
    (o' : Fin S4x128x128.rank → ℕ) (ho' : S4x128x128.Slices o' S1x128x128) (e' : o' = ![h.val, 0, 0])
    (bias : FVec Ideal S4096x4096 .f32) (ed es : FVec Ideal S4096x64 .f32) (w : FVec Ideal S4x64x128 .f32)
    (w2 : FVec Ideal S4x128x128 .f32) (tf : FVec Ideal S4096x256 .f32) :
    headV o ho o' ho' bias ed es w w2 tf = attnHead bias (scores ed es w w2 h) tf := by
  unfold headV
  rw [scores_eq h o ho e o' ho' e' ed es w w2]
  funext i
  obtain ⟨p, q, rfl⟩ : ∃ (p : Fin 4096) (q : Fin 256), i = ix2 p q := ⟨i 0, i 1, eq_ix2 i⟩
  rw [eluV_apply, weighV_apply]
  show _ = elu (∑ j : Fin 4096, softmaxRow (fun j' => masked (bias (ix2 p j')) (leaky (scores ed es w w2 h (ix2 p j')))) j * tf (ix2 j q))
  refine congrArg elu (Finset.sum_congr rfl fun j _ => ?_)
  refine congrArg (fun r : Fin 4096 → EReal => softmaxRow r j * tf (ix2 j q)) (funext fun j' => ?_)
  rw [maskV_apply, leakyV_apply]

/-- The attention stage is the specification's attention result. -/
theorem attV_eq (bias : FVec Ideal S4096x4096 .f32) (ed es : FVec Ideal S4096x64 .f32) (w : FVec Ideal S4x64x128 .f32)
    (w2 : FVec Ideal S4x128x128 .f32) (tf : FVec Ideal S4096x256 .f32) :
    attV bias ed es w w2 tf = att bias ed es w w2 tf := by
  unfold attV
  rw [headV_eq 0 ![0, 0, 0] slices_S4x64x128_S1x64x128_0_0_0 rfl ![0, 0, 0] slices_S4x128x128_S1x128x128_0_0_0 rfl bias ed es w w2 tf,
    headV_eq 1 ![1, 0, 0] slices_S4x64x128_S1x64x128_1_0_0 rfl ![1, 0, 0] slices_S4x128x128_S1x128x128_1_0_0 rfl bias ed es w w2 tf,
    headV_eq 2 ![2, 0, 0] slices_S4x64x128_S1x64x128_2_0_0 rfl ![2, 0, 0] slices_S4x128x128_S1x128x128_2_0_0 rfl bias ed es w w2 tf,
    headV_eq 3 ![3, 0, 0] slices_S4x64x128_S1x64x128_3_0_0 rfl ![3, 0, 0] slices_S4x128x128_S1x128x128_3_0_0 rfl bias ed es w w2 tf]
  funext i
  exact meanV_apply (fun h => attnHead bias (scores ed es w w2 h) tf) i

/-- The reference's run with its three results stated by the specification: on every core, the attention result, the
    decoder's and the encoder's of the launch contents of the arguments, the arguments as launched. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v132) = att (m ((c.tc : Thread nD τ).loc main_arg0)) (m ((c.tc : Thread nD τ).loc main_arg1)) (m ((c.tc : Thread nD τ).loc main_arg2)) (m ((c.tc : Thread nD τ).loc main_arg12)) (m ((c.tc : Thread nD τ).loc main_arg13)) (enc (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_v141) = dec (enc (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v8) = enc (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run (defs (F := Ideal)) _ _).mono (fun _ h c =>
      ⟨(h c).1.trans (by rw [encV_eq, attV_eq]), (h c).2.1.trans (by rw [encV_eq, decV_eq]), (h c).2.2.1.trans (encV_eq _ _ _ _ _),
        (h c).2.2.2⟩)
    (run (F := Ideal) m ρ)

end Cert.ReferenceIdeal.Hand

end
-- ==== Proof.Bridge.lean ====
import proofs.«114942_g22505628631095_cont_8to1_462_6_alg».proof.Defs
import proofs.«114942_g22505628631095_cont_8to1_462_6_alg».proof.Proof.Gen.KernelIdeal
import proofs.«114942_g22505628631095_cont_8to1_462_6_alg».proof.Proof.Gen.ReferenceIdeal
import proofs.«114942_g22505628631095_cont_8to1_462_6_alg».proof.Proof.Gen.Pre_finite_inputs
import proofs.«114942_g22505628631095_cont_8to1_462_6_alg».proof.Proof.KValue
import proofs.«114942_g22505628631095_cont_8to1_462_6_alg».proof.Proof.KReal
import proofs.«114942_g22505628631095_cont_8to1_462_6_alg».proof.Proof.PreReal
import proofs.«114942_g22505628631095_cont_8to1_462_6_alg».proof.Proof.RefValue

/-!
# The two programs compute the same three arrays

The encoder and the decoder are the same perceptron on both sides. For the attention result the kernel's array is
the mean of the kernel-style attention rows of the logits; the logits are inner products of queries and keys, which are
real numbers because the precondition makes every entry of the embeddings and of the two weight stacks real; for real
logits a kernel-style row is the reference's row, and the kernel's mean of four is the reference's.
-/

set_option maxRecDepth 16384

noncomputable section

namespace Cert.Bridge

open Idealize.ShloMosaic Idealize.ShloMosaic.TcCoe Idealize.ShloMosaic.ValueIdx Idealize.SL.Sem
open Cert.Rows Cert.RefSpec Cert.KAttn Cert.KernelIdeal.HandV
open scoped BigOperators

/-- The kernel's attention array is the reference's, for real embeddings and weights. -/
theorem attnArr_eq_att (bias : (S2 4096 4096).Idx → EReal) (ed es : (S2 4096 64).Idx → EReal) (w : (S3 4 64 128).Idx → EReal)
    (w2 : (S3 4 128 128).Idx → EReal) (tf : (S2 4096 256).Idx → EReal)
    (hed : ∀ i, IsReal (ed i)) (hes : ∀ i, IsReal (es i)) (hw : ∀ i, IsReal (w i)) (hw2 : ∀ i, IsReal (w2 i)) :
    attnArr (Cert.KSpec.queries ed w w2) (Cert.KSpec.keysT es w) bias tf = att bias ed es w w2 tf := by
  funext i
  have hk : ∀ h : Fin 4,
      krow (fun j => ∑ k : Fin 128, Cert.KSpec.queries ed w w2 (ix3 h (i 0) k) * Cert.KSpec.keysT es w (ix3 h k j))
        (fun j => bias (ix2 (i 0) j)) tf (i 1)
      = attnHead bias (scores ed es w w2 h) tf i := fun h =>
    (congrFun (krow_eq _ _ tf (fun j => Cert.KReal.scoreRow_real ed es w w2 hed hes hw hw2 h (i 0) j)) (i 1)).trans rfl
  refine (mean4 (fun h : Fin 4 =>
    krow (fun j => ∑ k : Fin 128, Cert.KSpec.queries ed w w2 (ix3 h (i 0) k) * Cert.KSpec.keysT es w (ix3 h k j))
      (fun j => bias (ix2 (i 0) j)) tf (i 1))).trans ?_
  unfold att
  refine congrArg (fun s => Ideal.div (Ideal.ofBits .f32 0x00000000#32 + s) (Ideal.ofBits .f32 0x40800000#32))
    (Finset.sum_congr rfl fun h _ => hk h)

/-- From memories agreeing on the arguments both idealized programs run, end with equal results element by element,
    and leave their arguments unchanged. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.RefSpec.att (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (Cert.RefSpec.enc (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))),
    fun c => Cert.RefSpec.dec (Cert.RefSpec.enc (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => (Cert.RefSpec.enc (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))), ?_, ?_⟩
  · refine (θ_run Cert.KernelIdeal.defs _ _).mono (fun r h c => ?_) (Cert.KernelIdeal.Hand.run_all (F := Ideal) m ρ)
    obtain ⟨h1, h2, h12, h13⟩ := Cert.PreReal.real_of_pre _ _ _ _ _ _ _ _ _ _ _ _ _ _ (hpre c)
    exact ⟨(h c _ (Cert.KernelIdeal.Hand.mem_uc Cert.KernelIdeal.main_v5_0 (by decide))).trans
        ((val_att m ρ c).trans (attnArr_eq_att _ _ _ _ _ _ h1 h2 h12 h13)),
      (h c _ (Cert.KernelIdeal.Hand.mem_uc Cert.KernelIdeal.main_v5_1 (by decide))).trans (val_dec m ρ c),
      (h c _ (Cert.KernelIdeal.Hand.mem_uc Cert.KernelIdeal.main_v2_0 (by decide))).trans (val_tf m ρ c),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c),
      (h c _ (Cert.KernelIdeal.Hand.mem_uc Cert.KernelIdeal.main_arg4 (by decide))).trans (Cert.KernelIdeal.Hand.W4_main_arg4 m ρ c),
      (h c _ (Cert.KernelIdeal.Hand.mem_uc Cert.KernelIdeal.main_arg5 (by decide))).trans (Cert.KernelIdeal.Hand.W4_main_arg5 m ρ c),
      (h c _ (Cert.KernelIdeal.Hand.mem_uc Cert.KernelIdeal.main_arg6 (by decide))).trans (Cert.KernelIdeal.Hand.W4_main_arg6 m ρ c),
      (h c _ (Cert.KernelIdeal.Hand.mem_uc Cert.KernelIdeal.main_arg7 (by decide))).trans (Cert.KernelIdeal.Hand.W4_main_arg7 m ρ c),
      (h c _ (Cert.KernelIdeal.Hand.mem_uc Cert.KernelIdeal.main_arg8 (by decide))).trans (Cert.KernelIdeal.Hand.W4_main_arg8 m ρ c),
      (h c _ (Cert.KernelIdeal.Hand.mem_uc Cert.KernelIdeal.main_arg9 (by decide))).trans (Cert.KernelIdeal.Hand.W4_main_arg9 m ρ c),
      (h c _ (Cert.KernelIdeal.Hand.mem_uc Cert.KernelIdeal.main_arg10 (by decide))).trans (Cert.KernelIdeal.Hand.W4_main_arg10 m ρ c),
      (h c _ (Cert.KernelIdeal.Hand.mem_uc Cert.KernelIdeal.main_arg11 (by decide))).trans (Cert.KernelIdeal.Hand.W4_main_arg11 m ρ c),
      (h c _ (Cert.KernelIdeal.Hand.mem_uc Cert.KernelIdeal.main_arg12 (by decide))).trans (Cert.KernelIdeal.Hand.W4_main_arg12 m ρ c),
      (h c _ (Cert.KernelIdeal.Hand.mem_uc Cert.KernelIdeal.main_arg13 (by decide))).trans (Cert.KernelIdeal.Hand.W4_main_arg13 m ρ c)⟩
  · refine (θ_run Cert.ReferenceIdeal.defs _ _).mono (fun r h c => ?_) (Cert.ReferenceIdeal.Hand.run_spec m' ρ')
    obtain ⟨a0, a1, a2, a3, a4, a5, a6, a7, a8, a9, a10, a11, a12, a13⟩ := hagree c
    refine ⟨(h c).1.trans ?_, (h c).2.1.trans ?_, (h c).2.2.1.trans ?_, (h c).2.2.2⟩
    · rw [a0, a1, a2, a3, a4, a5, a6, a7, a12, a13]
    · rw [a3, a4, a5, a6, a7, a8, a9, a10, a11]
    · rw [a3, a4, a5, a6, a7]

end Cert.Bridge

end
-- ==== Proof.lean ====
/- The proof of the certificate's claim: the kernel program (at the word level and idealized) and the idealized
   reference each run to the end without fault and leave their arguments unchanged; the idealization rewrote no
   operation; and the idealized kernel program and the idealized reference end with the same three arrays — the
   encoder's result, the mean of the four attention heads and the decoder's result — as extended reals, element by
   element. The kernel program is two pipelined regions between host reshapes of the bias vectors: the first region
   computes the encoder block by block and, at its first grid point only, the queries and the transposed keys of
   every head; the second computes, per block of 256 destination rows, the four heads' masked softmax attention over
   the encoder's result and the decoder of the same rows. -/
import proofs.«114942_g22505628631095_cont_8to1_462_6_alg».proof.Defs
import proofs.«114942_g22505628631095_cont_8to1_462_6_alg».proof.Proof.Gen.Kernel
import proofs.«114942_g22505628631095_cont_8to1_462_6_alg».proof.Proof.Gen.KernelIdeal
import proofs.«114942_g22505628631095_cont_8to1_462_6_alg».proof.Proof.Gen.ReferenceIdeal
import proofs.«114942_g22505628631095_cont_8to1_462_6_alg».proof.Proof.Gen.Pre_finite_inputs
import proofs.«114942_g22505628631095_cont_8to1_462_6_alg».proof.Proof.Run
import proofs.«114942_g22505628631095_cont_8to1_462_6_alg».proof.Proof.KRun
import proofs.«114942_g22505628631095_cont_8to1_462_6_alg».proof.Proof.RefRun
import proofs.«114942_g22505628631095_cont_8to1_462_6_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_k : @Cert.frame_Kernel Cert.Kernel.Gen.facts Cert.Pre_finite_inputs.Gen.facts :=
  fun m ρ _ => Cert.Kernel.Hand.frame (F := Bits) m ρ
/-- So does the idealized kernel program. -/
theorem frame_ki : @Cert.frame_KernelIdeal Cert.KernelIdeal.Gen.facts Cert.Pre_finite_inputs.Gen.facts :=
  fun m ρ _ => Cert.KernelIdeal.Hand.frame (F := Ideal) m ρ
/-- The idealized reference's run, its results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2.2) (Cert.ReferenceIdeal.Hand.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Bridge.algebraic⟩

end Cert.Proof

end
